-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384x50 : S_.BroadcastsInDim S16384x50 (![] : Fin 0 → Fin S16384x50.rank)
  reducesTo_S16384x50_S_d0_1 : S16384x50.ReducesTo [0, 1] S_

variable [Facts]

def fn {F : FTy → Type} [FloatOps F] (main_arg0 : IVec S16384x50 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384x50 32 := broadcastInDim S16384x50 ![] bcast_S_S16384x50 main_c_0
  let main_v5 : IVec S16384x50 1 := cmpi .sge main_arg0 main_v4
  let main_c_1 : IVec S_ 32 := constantI S_ 32 999999#32
  let main_v6 : IVec S16384x50 32 := broadcastInDim S16384x50 ![] bcast_S_S16384x50 main_c_1
  let main_v7 : IVec S16384x50 1 := cmpi .sle main_arg0 main_v6
  let main_v8 : IVec S16384x50 1 := andi main_v5 main_v7
  let main_c_2 : IVec S_ 1 := constantI S_ 1 1#1
  let main_v9 : IVec S_ 1 := (fun x v => Host.reduce IntOp.andi x v reducesTo_S16384x50_S_d0_1 h_S_) main_v8 main_c_2
  let main_v10 : IVec S_ 1 := andi main_v3 main_v9
  main_v10
-- ==== Kernel.lean ====
abbrev S16384x50 : Shape := ⟨2, ![16384, 50]⟩
abbrev S1000000x64 : Shape := ⟨2, ![1000000, 64]⟩
abbrev S_ : Shape := ⟨0, ![]⟩
abbrev S16384x56 : Shape := ⟨2, ![16384, 56]⟩
abbrev S917504 : Shape := ⟨1, ![917504]⟩
abbrev S1000000x128 : Shape := ⟨2, ![1000000, 128]⟩
abbrev S16384x56x128 : Shape := ⟨3, ![16384, 56, 128]⟩
abbrev S28672 : Shape := ⟨1, ![28672]⟩
abbrev S8x56x128 : Shape := ⟨3, ![8, 56, 128]⟩
abbrev S8 : Shape := ⟨1, ![8]⟩
abbrev S1x56x128 : Shape := ⟨3, ![1, 56, 128]⟩
abbrev S56x128 : Shape := ⟨2, ![56, 128]⟩
abbrev S1 : Shape := ⟨1, ![1]⟩
abbrev S1x50x128 : Shape := ⟨3, ![1, 50, 128]⟩
abbrev S50x128 : Shape := ⟨2, ![50, 128]⟩
abbrev S50 : Shape := ⟨1, ![50]⟩
abbrev S16384x50x64 : Shape := ⟨3, ![16384, 50, 64]⟩

abbrev nBuf : Table → Nat
  | .hbm => 11
  | .local .scVector .vmem => 2
  | _ => 0

abbrev bufTy : (tb : Table) → Fin (nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S_, .i32⟩
  | .hbm, ⟨4, _⟩ => ⟨S16384x56, .i32⟩
  | .hbm, ⟨5, _⟩ => ⟨S917504, .i32⟩
  | .hbm, ⟨6, _⟩ => ⟨S_, .i32⟩
  | .hbm, ⟨7, _⟩ => ⟨S_, .f32⟩
  | .hbm, ⟨8, _⟩ => ⟨S1000000x128, .f32⟩
  | .hbm, ⟨9, _⟩ => ⟨S16384x56x128, .f32⟩
  | .hbm, ⟨10, _⟩ => ⟨S16384x50x64, .f32⟩
  | .local .scVector .vmem, ⟨0, _⟩ => ⟨S28672, .i32⟩
  | .local .scVector .vmem, ⟨1, _⟩ => ⟨S8x56x128, .f32⟩
  | _, _ => ⟨S16384x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v2_scv : Ref sig .scVector := ⟨.hbm, 8, rfl⟩
abbrev main_v1_scv : Ref sig .scVector := ⟨.hbm, 5, rfl⟩
abbrev main_v3_scv : Ref sig .scVector := ⟨.hbm, 9, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c28672_i32 : BitVec 32 := 28672#32
  let v2 : BitVec 32 := Scalar.muli v1 c28672_i32
  ![v2.toNat]
@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_cond1 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_77 : BitVec 32 := 0#32
  let v87 : BitVec 1 := Scalar.cmpi .sgt v86 c0_i32_77
  let v88 : BitVec 32 := Scalar.extui v87
  let c0_i32_78 : BitVec 32 := 0#32
  let v89 : BitVec 1 := Scalar.cmpi .ne v88 c0_i32_78
  v89

def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_off3 (k0_t1 : Fin k0_t1_loop.trips) (c0_i32_79 : BitVec 32) : Fin 1 → Nat :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let v90 : BitVec 32 := Scalar.addi v86 c0_i32_79
  let c0_i32_80 : BitVec 32 := 0#32
  let v91 : BitVec 32 := Scalar.addi v90 c0_i32_80
  let c56_i32 : BitVec 32 := 56#32
  let v92 : BitVec 32 := Scalar.muli v91 c56_i32
  ![v92.toNat]
def k0_cond2 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_87 : BitVec 32 := 0#32
  let v99 : BitVec 1 := Scalar.cmpi .sgt v86 c0_i32_87
  let v100 : BitVec 32 := Scalar.extui v99
  let c0_i32_88 : BitVec 32 := 0#32
  let v101 : BitVec 1 := Scalar.cmpi .ne v100 c0_i32_88
  v101

def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_cond3 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_98 : BitVec 32 := 0#32
  let v111 : BitVec 1 := Scalar.cmpi .sgt v86 c0_i32_98
  let v112 : BitVec 32 := Scalar.extui v111
  let c0_i32_99 : BitVec 32 := 0#32
  let v113 : BitVec 1 := Scalar.cmpi .ne v112 c0_i32_99
  v113

def k0_off5 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_cond4 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_109 : BitVec 32 := 0#32
  let v123 : BitVec 1 := Scalar.cmpi .sgt v86 c0_i32_109
  let v124 : BitVec 32 := Scalar.extui v123
  let c0_i32_110 : BitVec 32 := 0#32
  let v125 : BitVec 1 := Scalar.cmpi .ne v124 c0_i32_110
  v125

def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_cond5 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_120 : BitVec 32 := 0#32
  let v135 : BitVec 1 := Scalar.cmpi .sgt v86 c0_i32_120
  let v136 : BitVec 32 := Scalar.extui v135
  let c0_i32_121 : BitVec 32 := 0#32
  let v137 : BitVec 1 := Scalar.cmpi .ne v136 c0_i32_121
  v137

def k0_off7 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_cond6 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_131 : BitVec 32 := 0#32
  let v147 : BitVec 1 := Scalar.cmpi .sgt v86 c0_i32_131
  let v148 : BitVec 32 := Scalar.extui v147
  let c0_i32_132 : BitVec 32 := 0#32
  let v149 : BitVec 1 := Scalar.cmpi .ne v148 c0_i32_132
  v149

def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_cond7 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_142 : BitVec 32 := 0#32
  let v159 : BitVec 1 := Scalar.cmpi .sgt v86 c0_i32_142
  let v160 : BitVec 32 := Scalar.extui v159
  let c0_i32_143 : BitVec 32 := 0#32
  let v161 : BitVec 1 := Scalar.cmpi .ne v160 c0_i32_143
  v161

def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_cond8 (k0_t1 : Fin k0_t1_loop.trips) : BitVec 1 :=
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let c0_i32_153 : BitVec 32 := 0#32
  let v171 : BitVec 1 := Scalar.cmpi .sgt v86 c0_i32_153
  let v172 : BitVec 32 := Scalar.extui v171
  let c0_i32_154 : BitVec 32 := 0#32
  let v173 : BitVec 1 := Scalar.cmpi .ne v172 c0_i32_154
  v173

def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_312 : BitVec 32 := 0#32
  let c0_i32_313 : BitVec 32 := 0#32
  ![v3.toNat, 0, 0]
def k0_off11 (i : grid0.Coords) (k0_t1 : Fin k0_t1_loop.trips) (c0_i32_170 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_76 : BitVec 32 := 0#32
  let c0_i32 : BitVec 32 := 0#32
  let c1_i32 : BitVec 32 := 1#32
  let arg9 : BitVec 32 := Scf.iv c0_i32 c1_i32 k0_t1
  let c8_i32 : BitVec 32 := 8#32
  let v85 : BitVec 32 := Scalar.muli arg9 c8_i32
  let v86 : BitVec 32 := Scalar.addi c0_i32_76 v85
  let v189 : BitVec 32 := Scalar.addi v3 v86
  let v190 : BitVec 32 := Scalar.addi v189 c0_i32_170
  let c0_i32_171 : BitVec 32 := 0#32
  let v191 : BitVec 32 := Scalar.addi v190 c0_i32_171
  let c0_i32_176 : BitVec 32 := 0#32
  let c0_i32_177 : BitVec 32 := 0#32
  ![v191.toNat, 0, 0]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_5 : BitVec 32 := 0#32
  let c0_i32_6 : BitVec 32 := 0#32
  ![v3.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  pads_S16384x50_S16384x56_000_060 : S16384x50.Pads (![0, 0] : Fin 2 → Nat) ![0, 6] ![0, 0] S16384x56
  h_S_ : 0 < S_.numel
  shapeCasts_S16384x56_S917504 : S16384x56.ShapeCasts S917504
  pads_S1000000x64_S1000000x128_000_0640 : S1000000x64.Pads (![0, 0] : Fin 2 → Nat) ![0, 64] ![0, 0] S1000000x128
  inb_S8x56x128_S1x56x128_0_0_0 : ∀ a, (![0, 0, 0] : Fin 3 → Nat) a + S1x56x128.size a ≤ S8x56x128.size a
  squeezes_S1x56x128_S56x128 : S1x56x128.Squeezes S56x128
  inb_S8_S1_0 : ∀ a, (![0] : Fin 1 → Nat) a + S1.size a ≤ S8.size a
  squeezes_S1_S_ : S1.Squeezes S_
  inb_S8x56x128_S1x50x128_0_0_0 : ∀ a, (![0, 0, 0] : Fin 3 → Nat) a + S1x50x128.size a ≤ S8x56x128.size a
  squeezes_S1x50x128_S50x128 : S1x50x128.Squeezes S50x128
  inb_S1000000x128_S1000000x128_0_0 : ∀ a, (![0, 0] : Fin 2 → Nat) a + S1000000x128.size a ≤ S1000000x128.size a
  gathers_S1000000x128_S50x128 : S1000000x128.Gathers 0 S50x128
  inb_S8x56x128_S1x56x128_1_0_0 : ∀ a, (![1, 0, 0] : Fin 3 → Nat) a + S1x56x128.size a ≤ S8x56x128.size a
  inb_S8_S1_1 : ∀ a, (![1] : Fin 1 → Nat) a + S1.size a ≤ S8.size a
  inb_S8x56x128_S1x50x128_1_0_0 : ∀ a, (![1, 0, 0] : Fin 3 → Nat) a + S1x50x128.size a ≤ S8x56x128.size a
  inb_S8x56x128_S1x56x128_2_0_0 : ∀ a, (![2, 0, 0] : Fin 3 → Nat) a + S1x56x128.size a ≤ S8x56x128.size a
  inb_S8_S1_2 : ∀ a, (![2] : Fin 1 → Nat) a + S1.size a ≤ S8.size a
  inb_S8x56x128_S1x50x128_2_0_0 : ∀ a, (![2, 0, 0] : Fin 3 → Nat) a + S1x50x128.size a ≤ S8x56x128.size a
  inb_S8x56x128_S1x56x128_3_0_0 : ∀ a, (![3, 0, 0] : Fin 3 → Nat) a + S1x56x128.size a ≤ S8x56x128.size a
  inb_S8_S1_3 : ∀ a, (![3] : Fin 1 → Nat) a + S1.size a ≤ S8.size a
  inb_S8x56x128_S1x50x128_3_0_0 : ∀ a, (![3, 0, 0] : Fin 3 → Nat) a + S1x50x128.size a ≤ S8x56x128.size a
  inb_S8x56x128_S1x56x128_4_0_0 : ∀ a, (![4, 0, 0] : Fin 3 → Nat) a + S1x56x128.size a ≤ S8x56x128.size a
  inb_S8_S1_4 : ∀ a, (![4] : Fin 1 → Nat) a + S1.size a ≤ S8.size a
  inb_S8x56x128_S1x50x128_4_0_0 : ∀ a, (![4, 0, 0] : Fin 3 → Nat) a + S1x50x128.size a ≤ S8x56x128.size a
  inb_S8x56x128_S1x56x128_5_0_0 : ∀ a, (![5, 0, 0] : Fin 3 → Nat) a + S1x56x128.size a ≤ S8x56x128.size a
  inb_S8_S1_5 : ∀ a, (![5] : Fin 1 → Nat) a + S1.size a ≤ S8.size a
  inb_S8x56x128_S1x50x128_5_0_0 : ∀ a, (![5, 0, 0] : Fin 3 → Nat) a + S1x50x128.size a ≤ S8x56x128.size a
  inb_S8x56x128_S1x56x128_6_0_0 : ∀ a, (![6, 0, 0] : Fin 3 → Nat) a + S1x56x128.size a ≤ S8x56x128.size a
  inb_S8_S1_6 : ∀ a, (![6] : Fin 1 → Nat) a + S1.size a ≤ S8.size a
  inb_S8x56x128_S1x50x128_6_0_0 : ∀ a, (![6, 0, 0] : Fin 3 → Nat) a + S1x50x128.size a ≤ S8x56x128.size a
  inb_S8x56x128_S1x56x128_7_0_0 : ∀ a, (![7, 0, 0] : Fin 3 → Nat) a + S1x56x128.size a ≤ S8x56x128.size a
  inb_S8_S1_7 : ∀ a, (![7] : Fin 1 → Nat) a + S1.size a ≤ S8.size a
  inb_S8x56x128_S1x50x128_7_0_0 : ∀ a, (![7, 0, 0] : Fin 3 → Nat) a + S1x50x128.size a ≤ S8x56x128.size a
  slices_S16384x56x128_S16384x50x64_0_0_0 : S16384x56x128.Slices ![0, 0, 0] S16384x50x64
  hcc0_scratch2 : 0 + S8.numel ≤ 17
  hcc0_scratch3 : 8 + S8.numel ≤ 17
  hcc0_scoped0 : 16 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S28672.size a ≤ S917504.size a
  k0_t1_ok : k0_t1_loop.OK
  k0_off2_inb : ∀ (i : grid0.Coords) (k0_t1 : Fin k0_t1_loop.trips), ∀ (k0_h1 : k0_cond1 k0_t1 = 1#1), ∀ a, (k0_off2 i) a + S1x56x128.size a ≤ S16384x56x128.size a
  k0_off3_inb : ∀ k0_t1 : Fin k0_t1_loop.trips, ∀ (r : Fin 8), ∀ a, (k0_off3 k0_t1 (BitVec.ofNat 32 r.val)) a + S50.size a ≤ S28672.size a
  k0_off4_inb : ∀ (i : grid0.Coords) (k0_t1 : Fin k0_t1_loop.trips), ∀ (k0_h2 : k0_cond2 k0_t1 = 1#1), ∀ a, (k0_off4 i) a + S1x56x128.size a ≤ S16384x56x128.size a
  k0_off5_inb : ∀ (i : grid0.Coords) (k0_t1 : Fin k0_t1_loop.trips), ∀ (k0_h3 : k0_cond3 k0_t1 = 1#1), ∀ a, (k0_off5 i) a + S1x56x128.size a ≤ S16384x56x128.size a
  k0_off6_inb : ∀ (i : grid0.Coords) (k0_t1 : Fin k0_t1_loop.trips), ∀ (k0_h4 : k0_cond4 k0_t1 = 1#1), ∀ a, (k0_off6 i) a + S1x56x128.size a ≤ S16384x56x128.size a
  k0_off7_inb : ∀ (i : grid0.Coords) (k0_t1 : Fin k0_t1_loop.trips), ∀ (k0_h5 : k0_cond5 k0_t1 = 1#1), ∀ a, (k0_off7 i) a + S1x56x128.size a ≤ S16384x56x128.size a
  k0_off8_inb : ∀ (i : grid0.Coords) (k0_t1 : Fin k0_t1_loop.trips), ∀ (k0_h6 : k0_cond6 k0_t1 = 1#1), ∀ a, (k0_off8 i) a + S1x56x128.size a ≤ S16384x56x128.size a
  k0_off9_inb : ∀ (i : grid0.Coords) (k0_t1 : Fin k0_t1_loop.trips), ∀ (k0_h7 : k0_cond7 k0_t1 = 1#1), ∀ a, (k0_off9 i) a + S1x56x128.size a ≤ S16384x56x128.size a
  k0_off10_inb : ∀ (i : grid0.Coords) (k0_t1 : Fin k0_t1_loop.trips), ∀ (k0_h8 : k0_cond8 k0_t1 = 1#1), ∀ a, (k0_off10 i) a + S1x56x128.size a ≤ S16384x56x128.size a
  k0_off11_inb : ∀ (i : grid0.Coords) (k0_t1 : Fin k0_t1_loop.trips), ∀ (r : Fin 8), ∀ a, (k0_off11 i k0_t1 (BitVec.ofNat 32 r.val)) a + S1x56x128.size a ≤ S16384x56x128.size a
  k0_off12_inb : ∀ i : grid0.Coords, ∀ a, (k0_off12 i) a + S1x56x128.size a ≤ S16384x56x128.size a

variable [Facts₀]

abbrev cc0_scratch2 : DmaSems sig S8 := SemArray.consecutive 0 S8 hcc0_scratch2
abbrev cc0_scratch3 : DmaSems sig S8 := SemArray.consecutive 8 S8 hcc0_scratch3
abbrev cc0_scoped0 : DmaSems sig S_ := SemArray.consecutive 16 S_ hcc0_scoped0

class Facts : Prop extends Facts₀ where

variable [Facts]
-- ==== ReferenceIdeal.lean ====
abbrev S16384x50 : Shape := ⟨2, ![16384, 50]⟩
abbrev S1000000x64 : Shape := ⟨2, ![1000000, 64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S1000000x64, .f32⟩
  | .hbm, ⟨2, _⟩ => ⟨S_, .i32⟩
  | .hbm, ⟨3, _⟩ => ⟨S16384x50, .i32⟩
  | .hbm, ⟨4, _⟩ => ⟨S16384x50, .i1⟩
  | .hbm, ⟨5, _⟩ => ⟨S_, .i32⟩
  | .hbm, ⟨6, _⟩ => ⟨S16384x50, .i32⟩
  | .hbm, ⟨7, _⟩ => ⟨S16384x50, .i32⟩
  | .hbm, ⟨8, _⟩ => ⟨S16384x50, .i32⟩
  | .hbm, ⟨9, _⟩ => ⟨S16384x50x1, .i32⟩
  | .hbm, ⟨10, _⟩ => ⟨S1, .i32⟩
  | .hbm, ⟨11, _⟩ => ⟨S_, .i32⟩
  | .hbm, ⟨12, _⟩ => ⟨S16384x50x1, .i32⟩
  | .hbm, ⟨13, _⟩ => ⟨S16384x50x1, .i1⟩
  | .hbm, ⟨14, _⟩ => ⟨S1x1x1, .i32⟩
  | .hbm, ⟨15, _⟩ => ⟨S16384x50x1, .i32⟩
  | .hbm, ⟨16, _⟩ => ⟨S16384x50x1, .i1⟩
  | .hbm, ⟨17, _⟩ => ⟨S16384x50x1, .i1⟩
  | .hbm, ⟨18, _⟩ => ⟨S_, .i1⟩
  | .hbm, ⟨19, _⟩ => ⟨S16384x50, .i1⟩
  | .hbm, ⟨20, _⟩ => ⟨S16384x50x64, .f32⟩
  | .hbm, ⟨21, _⟩ => ⟨S16384x50x64, .i1⟩
  | .hbm, ⟨22, _⟩ => ⟨S_, .f32⟩
  | .hbm, ⟨23, _⟩ => ⟨S16384x50x64, .f32⟩
  | .hbm, ⟨24, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  gather_S1000000x64_S16384x50x1_S16384x50x64_2_0_n_n_0_2_164_wf : GatherDims.WF S1000000x64 S16384x50x1 S16384x50x64 [2] [0] [] [0] [] 2 ![1, 64]

variable [Facts₀]

def gather_S1000000x64_S16384x50x1_S16384x50x64_2_0_n_n_0_2_164 : GatherDims S1000000x64 S16384x50x1 S16384x50x64 where
  offsetDims := [2]
  collapsedSliceDims := [0]
  operandBatchingDims := []
  startIndicesBatchingDims := []
  startIndexMap := [0]
  indexVectorDim := 2
  sliceSizes := ![1, 64]
  wf := gather_S1000000x64_S16384x50x1_S16384x50x64_2_0_n_n_0_2_164_wf

class Facts : Prop extends Facts₀ where

variable [Facts]
-- ==== Proof.Spec.lean ====
/-
  The embedding lookup, as one function of the two argument arrays, and the two re-laid arrays the kernel's
  device program reads: the index matrix `x : [16384, 50]` padded to 56 columns and flattened, and the table
  `t : [1000000, 64]` padded to 128 columns. The result is `out (b, h, l) = t (x (b, h), l)`.

  A tile writes whole rows `[56, 128]` of an intermediate array; of row `b` only the entries `(h, l)` with
  `h < 50` are determined (`RowOK`), and only those with `h < 50` and `l < 64` are kept by the final slice.
-/
import Idealize.ShloMosaic.PureOps
import Idealize.ShloMosaic.Lib.ValueIdx

noncomputable section

namespace Cert.Spec

open Idealize.ShloMosaic Idealize.ShloMosaic.ValueIdx

/-- The index matrix, the table, the result. -/
abbrev SX : Shape := ⟨2, ![16384, 50]⟩
abbrev ST : Shape := ⟨2, ![1000000, 64]⟩
abbrev SO : Shape := ⟨3, ![16384, 50, 64]⟩
/-- The flattened padded index list, the padded table, the intermediate array of whole rows. -/
abbrev SI : Shape := ⟨1, ![917504]⟩
abbrev SP : Shape := ⟨2, ![1000000, 128]⟩
abbrev SR : Shape := ⟨3, ![16384, 56, 128]⟩

variable {F : FTy → Type}

/-- Every index names a row of the table. -/
def InRange (x : IVec SX 32) : Prop := ∀ j, (x j).toNat < 1000000

/-- Every word of the flattened list names a row of the (padded) table. -/
def ListInRange (I : IVec SI 32) : Prop := ∀ j, (I j).toNat < 1000000

/-- The lookup: entry `(b, h, l)` of the result is entry `(x (b, h), l)` of the table (the row number read
    unsigned; reduced modulo the table's height so that the function is total: in range it is the number itself). -/
def lookup (x : IVec SX 32) (t : FVec F ST .f32) : FVec F SO .f32 :=
  fun j => t (ix2 (⟨(x (ix2 (⟨(j 0).val, (j 0).isLt⟩ : Fin 16384) (⟨(j 1).val, (j 1).isLt⟩ : Fin 50))).toNat % 1000000,
      Nat.mod_lt _ (by decide)⟩ : Fin 1000000) (⟨(j 2).val, (j 2).isLt⟩ : Fin 64))

/-- The index matrix padded with `z` to 56 columns and flattened row-major: word `56 b + h` is `x (b, h)` for
    `h < 50` and `z` for `50 ≤ h < 56`. -/
def idxFlat (x : IVec SX 32) (z : BitVec 32) : IVec SI 32 :=
  fun j => if h : (j 0).val % 56 < 50
    then x (ix2 (⟨(j 0).val / 56, by have h0 : (j 0).val < 917504 := (j 0).isLt; omega⟩ : Fin 16384) (⟨(j 0).val % 56, h⟩ : Fin 50))
    else z

/-- The table padded with `z` to 128 columns. -/
def tablePad (t : FVec F ST .f32) (z : F .f32) : FVec F SP .f32 :=
  fun j => if h : (j 1).val < 64
    then t (ix2 (⟨(j 0).val, (j 0).isLt⟩ : Fin 1000000) (⟨(j 1).val, h⟩ : Fin 64))
    else z

/-- Row `b` of the intermediate array holds, at every `(h, l)` with `h < 50`, the padded table's entry
    `(I (56 b + h), l)`. -/
def RowOK (I : IVec SI 32) (P : FVec F SP .f32) (f : FVec F SR .f32) (b : Fin 16384) : Prop :=
  ∀ (h : Fin 56) (l : Fin 128) (hh : h.val < 50) (hI : (I (ix1 (⟨56 * b.val + h.val, by have := b.isLt; omega⟩ : Fin 917504))).toNat < 1000000),
    f (ix3 b h l) = P (ix2 (⟨(I (ix1 (⟨56 * b.val + h.val, by have := b.isLt; omega⟩ : Fin 917504))).toNat, hI⟩ : Fin 1000000) l)

end Cert.Spec

end
-- ==== Proof.PreDecode.lean ====
/-
  The precondition read back: it is the conjunction of "every table entry is finite" and "every index `w` has
  `0 ≤ w ≤ 999999`, read signed". From the second half, every index read unsigned is below 1000000.
-/
import proofs.«206314_g14001593385621_cont_week2b_782_31_alg».proof.Pre_input_domain
import proofs.«206314_g14001593385621_cont_week2b_782_31_alg».proof.Proof.Gen.Pre_input_domain
import proofs.«206314_g14001593385621_cont_week2b_782_31_alg».proof.Proof.Spec
import Idealize.ShloMosaic.Lib.ReduceAll
import Idealize.ShloMosaic.Lib.ValueIdx

noncomputable section

namespace Cert.Proof.PreDecode

open Idealize.ShloMosaic

/-- The scalar shape has one index. -/
instance : Subsingleton Cert.Pre_input_domain.S_.Idx := ⟨fun _ _ => funext fun d => d.elim0⟩

/-- A 32-bit word in `[0, 999999]` read signed is below 1000000 read unsigned: a word with the top bit set is
    negative read signed. -/
theorem toNat_lt_of_signed (w : BitVec 32) (h0 : IntOp.cmpi .sge w 0#32 = 1#1)
    (h1 : IntOp.cmpi .sle w 999999#32 = 1#1) : w.toNat < 1000000 := by
  rw [IntOp.cmpi_sge] at h0
  rw [IntOp.cmpi_sle] at h1
  have e0 : (0#32 : BitVec 32).toInt = 0 := by decide
  have e1 : (999999#32 : BitVec 32).toInt = 999999 := by decide
  rw [e0] at h0
  rw [e1] at h1
  have hw := w.isLt
  rw [BitVec.toInt_eq_toNat_cond] at h0 h1
  split at h0 <;> omega

/-- Under the precondition every index names a row of the table. -/
theorem inRange_of_pre {F : FTy → Type} [FloatOps F] (x : IVec Cert.Pre_input_domain.S16384x50 32)
    (t : FVec F Cert.Pre_input_domain.S1000000x64 .f32)
    (h : Cert.Pre_input_domain.fn (F := F) x t = fun _ => 1#1) : Cert.Spec.InRange x := by
  intro j
  have e := congrFun h ValueIdx.ix0
  dsimp only [Cert.Pre_input_domain.fn] at e
  -- the outer conjunction: keep the half about the indices
  have e2 := (IntOp.andi_eq_one.1 e).2
  -- `jnp.all` over the index matrix, read at `j`
  have e3 := Host.reduce_andi_all _ _ _ _ _ e2 j
  obtain ⟨h0, h1⟩ := IntOp.andi_eq_one.1 e3
  exact toNat_lt_of_signed (x j) h0 h1

end Cert.Proof.PreDecode

end
-- ==== Proof.HostVals.lean ====
/-
  The host operations around the device program, read at an index: the index matrix padded to 56 columns and
  flattened is `idxFlat`, the table padded to 128 columns is `tablePad`, and the final slice of an array whose
  rows hold the padded table's entries at the flattened indices is the lookup.
-/
import Idealize.ShloMosaic.PureOps
import Idealize.ShloMosaic.Lib.ValueIdx
import Idealize.ShloMosaic.Lib.Pipeline.Value
import Idealize.ShloMosaic.Lib.KernelVsHost
import proofs.«206314_g14001593385621_cont_week2b_782_31_alg».proof.Proof.Spec

noncomputable section

namespace Cert.Proof.HostVals

open Cert.Spec Idealize.ShloMosaic Idealize.ShloMosaic.ValueIdx

/-- The padded table: columns below 64 are the table's, the others the padding value. -/
theorem pad_table {F : FTy → Type} (t : FVec F ST .f32) (v : FVec F ⟨0, ![]⟩ .f32)
    (hp : ST.Pads (![0, 0] : Fin 2 → Nat) ![0, 64] ![0, 0] SP) (h0 : 0 < (⟨0, ![]⟩ : Shape).numel) :
    pad SP ![0, 0] ![0, 64] ![0, 0] t v hp h0 = tablePad t (v ValueIdx.ix0) := by
  funext j
  unfold tablePad
  by_cases h : (j 1).val < 64
  · rw [dif_pos h]
    exact pad_apply_of_inside _ _ _ t v hp h0 j
      (ix2 (⟨(j 0).val, (j 0).isLt⟩ : Fin 1000000) (⟨(j 1).val, h⟩ : Fin 64))
      (fun a => match a with
        | ⟨0, _⟩ => by show (j 0).val = 0 + (j 0).val * (0 + 1); omega
        | ⟨1, _⟩ => by show (j 1).val = 0 + (j 1).val * (0 + 1); omega)
  · rw [dif_neg h]
    rw [pad_apply_of_not_inside _ _ _ t v hp h0 j (⟨1, by decide⟩ : Fin 2) (by
      rintro ⟨_, _, h3⟩
      have h3' : ((j 1).val - 0) / (0 + 1) < 64 := h3
      omega)]
    exact congrArg v (eq_ix0 _)

/-- Word `n` of the padded and flattened index matrix is entry `(n / 56, n % 56)` of the padded matrix. -/
theorem pad_reshape_idx (x : IVec SX 32) (v : IVec ⟨0, ![]⟩ 32)
    (hp : SX.Pads (![0, 0] : Fin 2 → Nat) ![0, 6] ![0, 0] ⟨2, ![16384, 56]⟩) (h0 : 0 < (⟨0, ![]⟩ : Shape).numel)
    (hc : (⟨2, ![16384, 56]⟩ : Shape).ShapeCasts SI) :
    shapeCast SI (pad ⟨2, ![16384, 56]⟩ ![0, 0] ![0, 6] ![0, 0] x v hp h0) hc = idxFlat x (v ValueIdx.ix0) := by
  funext j
  have hn : (j 0).val < 917504 := (j 0).isLt
  have hq : (j 0).val / 56 < 16384 := by omega
  have hr : (j 0).val % 56 < 56 := Nat.mod_lt _ (by decide)
  rw [shapeCast_apply _ hc j (ix2 (⟨(j 0).val / 56, hq⟩ : Fin 16384) (⟨(j 0).val % 56, hr⟩ : Fin 56)) (by
    rw [Shape.rowMajor_val_two, Shape.rowMajor_val_one]
    show (j 0).val / 56 * 56 + (j 0).val % 56 = (j 0).val
    omega)]
  unfold idxFlat
  by_cases h : (j 0).val % 56 < 50
  · rw [dif_pos h]
    exact pad_apply_of_inside _ _ _ x v hp h0 _
      (ix2 (⟨(j 0).val / 56, hq⟩ : Fin 16384) (⟨(j 0).val % 56, h⟩ : Fin 50))
      (fun a => match a with
        | ⟨0, _⟩ => by show (j 0).val / 56 = 0 + (j 0).val / 56 * (0 + 1); omega
        | ⟨1, _⟩ => by show (j 0).val % 56 = 0 + (j 0).val % 56 * (0 + 1); omega)
  · rw [dif_neg h]
    rw [pad_apply_of_not_inside _ _ _ x v hp h0 _ (⟨1, by decide⟩ : Fin 2) (by
      rintro ⟨_, _, h3⟩
      have h3' : ((j 0).val % 56 - 0) / (0 + 1) < 50 := h3
      omega)]
    exact congrArg v (eq_ix0 _)

/-- The flattened list of an in-range index matrix, padded with zero, is in range. -/
theorem idxFlat_inRange (x : IVec SX 32) (hx : InRange x) : ListInRange (idxFlat x 0#32) := by
  intro j
  unfold idxFlat
  by_cases h : (j 0).val % 56 < 50
  · rw [dif_pos h]; exact hx _
  · rw [dif_neg h]; decide

/-- Word `56 b + h` of the flattened list, `h < 50`, is entry `(b, h)` of the index matrix. -/
theorem idxFlat_at (x : IVec SX 32) (z : BitVec 32) (b : Fin 16384) (h : Fin 56) (hh : h.val < 50)
    (hlt : 56 * b.val + h.val < 917504) :
    idxFlat x z (ix1 (⟨56 * b.val + h.val, hlt⟩ : Fin 917504)) = x (ix2 b (⟨h.val, hh⟩ : Fin 50)) := by
  have hb := b.isLt
  unfold idxFlat
  have hc : ((ix1 (⟨56 * b.val + h.val, hlt⟩ : Fin 917504)) 0).val % 56 < 50 := by
    show (56 * b.val + h.val) % 56 < 50
    omega
  rw [dif_pos hc]
  exact congrArg x (funext fun a => match a with
    | ⟨0, _⟩ => Fin.ext (by show (56 * b.val + h.val) / 56 = b.val; omega)
    | ⟨1, _⟩ => Fin.ext (by show (56 * b.val + h.val) % 56 = h.val; omega))

/-- The final slice of an array whose every row is right is the lookup. -/
theorem slice_lookup {F : FTy → Type} (x : IVec SX 32) (t : FVec F ST .f32) (z : F .f32) (hx : InRange x)
    (f : FVec F SR .f32) (hf : ∀ b : Fin 16384, RowOK (idxFlat x 0#32) (tablePad t z) f b)
    (hs : SR.Slices ![0, 0, 0] SO) :
    extractStridedSlice SO ![0, 0, 0] f hs = lookup x t := by
  funext j
  have h0 : (j 0).val < 16384 := (j 0).isLt
  have h1 : (j 1).val < 50 := (j 1).isLt
  have h2 : (j 2).val < 64 := (j 2).isLt
  have h1' : (j 1).val < 56 := by omega
  have h2' : (j 2).val < 128 := by omega
  have hlt : 56 * (j 0).val + (j 1).val < 917504 := by omega
  rw [extractStridedSlice_apply ![0, 0, 0] f hs j
    (ix3 (⟨(j 0).val, h0⟩ : Fin 16384) (⟨(j 1).val, h1'⟩ : Fin 56) (⟨(j 2).val, h2'⟩ : Fin 128))
    (fun a => match a with
      | ⟨0, _⟩ => by show (j 0).val = 0 + (j 0).val; omega
      | ⟨1, _⟩ => by show (j 1).val = 0 + (j 1).val; omega
      | ⟨2, _⟩ => by show (j 2).val = 0 + (j 2).val; omega)]
  have hI : (idxFlat x 0#32 (ix1 (⟨56 * (j 0).val + (j 1).val, hlt⟩ : Fin 917504))).toNat < 1000000 :=
    idxFlat_inRange x hx _
  rw [hf (⟨(j 0).val, h0⟩ : Fin 16384) (⟨(j 1).val, h1'⟩ : Fin 56) (⟨(j 2).val, h2'⟩ : Fin 128) h1 hI]
  unfold tablePad lookup
  rw [dif_pos (show ((ix2 (⟨(idxFlat x 0#32 (ix1 (⟨56 * (j 0).val + (j 1).val, hlt⟩ : Fin 917504))).toNat, hI⟩ : Fin 1000000)
    (⟨(j 2).val, h2'⟩ : Fin 128)) 1).val < 64 from h2)]
  have hat := idxFlat_at x 0#32 (⟨(j 0).val, h0⟩ : Fin 16384) (⟨(j 1).val, h1'⟩ : Fin 56) h1 hlt
  exact congrArg t (funext fun a => match a with
    | ⟨0, _⟩ => Fin.ext (by
        show (idxFlat x 0#32 (ix1 (⟨56 * (j 0).val + (j 1).val, hlt⟩ : Fin 917504))).toNat
          = (x (ix2 (⟨(j 0).val, (j 0).isLt⟩ : Fin 16384) (⟨(j 1).val, (j 1).isLt⟩ : Fin 50))).toNat % 1000000
        rw [hat]
        exact (Nat.mod_eq_of_lt (hx _)).symm)
    | ⟨1, _⟩ => rfl)

end Cert.Proof.HostVals

end
-- ==== Proof.RefValue.lean ====
/-
  The reference's value. The reference function is `jnp.take(table, x, axis = 0)`: it wraps a negative index by the
  table's height, gathers the rows (each start index read signed and clamped into the table), and overwrites with a
  not-a-number every row whose wrapped index lies outside `[0, 999999]`. `out x t` is that composed term of the two
  arguments. For an index matrix all of whose words, read unsigned, are below the table's height, no index is negative,
  the wrap is the identity, the mask is all ones, the clamp is the identity, and the term is the lookup, entry by entry.
-/
import proofs.«206314_g14001593385621_cont_week2b_782_31_alg».proof.ReferenceIdeal
import proofs.«206314_g14001593385621_cont_week2b_782_31_alg».proof.Proof.Gen.ReferenceIdeal
import proofs.«206314_g14001593385621_cont_week2b_782_31_alg».proof.Proof.Spec
import Idealize.ShloMosaic.Lib.ValueIdx
import Idealize.ShloMosaic.Lib.Affine
import Idealize.ShloMosaic.Lib.StableHlo.Run

noncomputable section

namespace Cert.Proof.RefValue

open Cert.ReferenceIdeal Cert.ReferenceIdeal.Gen Idealize.ShloMosaic Idealize.ShloMosaic.ValueIdx

variable {F : FTy → Type} [FloatOps F]

/-! ## The composed term -/

/-- The index matrix with every negative word moved up by the table's height. -/
def wrapped (x : IVec S16384x50 32) : IVec S16384x50 32 :=
  select (cmpi .slt x (broadcastInDim S16384x50 ![] bcast_S_S16384x50 (constantI S_ 32 0#32)))
    (addi x (broadcastInDim S16384x50 ![] bcast_S_S16384x50 (constantI S_ 32 1000000#32))) x

/-- The gather's start indices: the wrapped matrix with a trailing unit axis. -/
def starts (x : IVec S16384x50 32) : IVec S16384x50x1 32 :=
  broadcastInDim S16384x50x1 ![0, 1] bcast_S16384x50_S16384x50x1_0_1 (wrapped x)

/-- Per start index, whether it lies in `[0, 999999]`. -/
def inBounds (x : IVec S16384x50 32) : IVec S16384x50x1 1 :=
  andi (cmpi .sge (starts x) (broadcastInDim S16384x50x1 ![] bcast_S_S16384x50x1 (constantI S_ 32 0#32)))
    (cmpi .sle (starts x) (broadcastInDim S16384x50x1 ![0, 1, 2] bcast_S1x1x1_S16384x50x1_0_1_2
      (broadcastInDim S1x1x1 ![2] bcast_S1_S1x1x1_2 (constantI S1 32 999999#32))))

/-- The mask of the rows kept: the conjunction over the trailing unit axis. -/
def mask (x : IVec S16384x50 32) : IVec S16384x50 1 :=
  Host.reduce IntOp.andi (inBounds x) (constantI S_ 1 1#1) reducesTo_S16384x50x1_S16384x50_d2 h_S_

/-- The reference's result as a function of its two arguments. -/
def out (x : IVec S16384x50 32) (t : FVec F S1000000x64 .f32) : FVec F S16384x50x64 .f32 :=
  select (broadcastInDim S16384x50x64 ![0, 1] bcast_S16384x50_S16384x50x64_0_1 (mask x))
    (Host.gather gather_S1000000x64_S16384x50x1_S16384x50x64_2_0_n_n_0_2_164 t (starts x))
    (broadcastInDim S16384x50x64 ![] bcast_S_S16384x50x64 (constant S_ .f32 0x7FC00000#32))

/-! ## One word below the table's height -/

section Word
variable {w : BitVec 32} (hw : w.toNat < 1000000)
include hw

/-- Read signed it is the same number: it is below `2 ^ 31`. -/
theorem toInt_eq : w.toInt = (w.toNat : Int) := by
  rw [BitVec.toInt_eq_toNat_cond]; split <;> omega

/-- It is not negative … -/
theorem not_neg : IntOp.cmpi .slt w 0#32 = 0#1 := by
  refine eq_zero_of_ne_one fun h => ?_
  rw [IntOp.cmpi_slt, toInt_eq hw] at h
  have : (0#32 : BitVec 32).toInt = 0 := by decide
  omega

/-- … so the wrap leaves it alone … -/
theorem wrap_id : Scalar.select (IntOp.cmpi .slt w 0#32) (IntOp.addi w 1000000#32) w = w := by
  rw [not_neg hw, select_zero]

/-- … it is at least zero … -/
theorem ge_zero : IntOp.cmpi .sge w 0#32 = 1#1 := by
  rw [IntOp.cmpi_sge, toInt_eq hw]
  have : (0#32 : BitVec 32).toInt = 0 := by decide
  omega

/-- … and at most the last row's number. -/
theorem le_last : IntOp.cmpi .sle w 999999#32 = 1#1 := by
  rw [IntOp.cmpi_sle, toInt_eq hw]
  have : (999999#32 : BitVec 32).toInt = 999999 := by decide
  omega

end Word

/-! ## The mask is all ones -/

/-- A left fold by `and` from `1` over words that are all `1` is `1`. -/
theorem foldl_andi_one {ι : Type} (g : ι → BitVec 1) (hg : ∀ n, g n = 1#1) :
    ∀ l : List ι, l.foldl (fun r n => IntOp.andi r (g n)) 1#1 = 1#1
  | [] => rfl
  | a :: l => by
    rw [List.foldl_cons, hg a, IntOp.andi_eq_one.2 ⟨rfl, rfl⟩]
    exact foldl_andi_one g hg l

section InRange
variable (x : IVec S16384x50 32) (hx : Cert.Spec.InRange x)
include hx

/-- In range, the wrap changes no word. -/
theorem wrapped_apply (k : S16384x50.Idx) : wrapped x k = x k := wrap_id (hx k)

/-- A start index is the index matrix's word at the two leading coordinates. -/
theorem starts_apply (i : S16384x50x1.Idx) :
    starts x i = x (ix2 (⟨(i 0).val, (i 0).isLt⟩ : Fin 16384) (⟨(i 1).val, (i 1).isLt⟩ : Fin 50)) := by
  unfold starts broadcastInDim
  rw [wrapped_apply x hx]
  refine congrArg x (funext fun a => ?_)
  match a with
  | ⟨0, _⟩ => rfl
  | ⟨1, _⟩ => rfl

/-- Every start index lies in `[0, 999999]`. -/
theorem inBounds_apply (i : S16384x50x1.Idx) : inBounds x i = 1#1 := by
  show IntOp.andi (IntOp.cmpi .sge (starts x i) 0#32) (IntOp.cmpi .sle (starts x i) 999999#32) = 1#1
  rw [starts_apply x hx i]
  exact IntOp.andi_eq_one.2 ⟨ge_zero (hx _), le_last (hx _)⟩

/-- So the conjunction over the unit axis is `1` at every row. -/
theorem mask_apply (k : S16384x50.Idx) : mask x k = 1#1 :=
  foldl_andi_one (fun n => inBounds x (S16384x50x1.rowMajor.symm n)) (fun n => inBounds_apply x hx _) _

end InRange

/-! ## The gather at an index, and the whole term -/

/-- The gather's dimension numbers, by a short name. -/
local notation "G" => gather_S1000000x64_S16384x50x1_S16384x50x64_2_0_n_n_0_2_164

/-- In range, the gather at `(b, h, l)` reads the table at row `x (b, h)`, column `l`: on the row axis the start
    index, read signed and clamped into the table, is the word itself; on the column axis the slice starts at zero and
    the offset is `l`. -/
theorem gather_apply (x : IVec S16384x50 32) (hx : Cert.Spec.InRange x) (t : FVec F S1000000x64 .f32)
    (j : S16384x50x64.Idx) :
    Host.gather G t (starts x) j
      = t (ix2 (⟨(x (ix2 (⟨(j 0).val, (j 0).isLt⟩ : Fin 16384) (⟨(j 1).val, (j 1).isLt⟩ : Fin 50))).toNat % 1000000,
          Nat.mod_lt _ (by decide)⟩ : Fin 1000000) (⟨(j 2).val, (j 2).isLt⟩ : Fin 64)) := by
  unfold Host.gather
  refine congrArg t (funext fun a => Fin.ext ?_)
  match a with
  | ⟨0, _⟩ =>
    show GatherDims.start G j (starts x) 0 + GatherDims.batchCoord G j 0 + GatherDims.offCoord G j 0 = _
    rw [GatherDims.batchCoord_eq_zero G _ _ List.not_mem_nil,
      GatherDims.offCoord_eq_zero G _ _ (fun h => ((GatherDims.mem_sKept G _).mp h).1 (List.mem_singleton.mpr rfl))]
    simp only [Nat.add_zero]
    unfold GatherDims.start
    rw [dif_pos (show (0 : Fin 2) ∈ GatherDims.startIndexMap G from List.mem_singleton.mpr rfl), starts_apply x hx]
    have hk := hx (ix2 (⟨(j 0).val, (j 0).isLt⟩ : Fin 16384) (⟨(j 1).val, (j 1).isLt⟩ : Fin 50))
    show min (x (ix2 (⟨(j 0).val, (j 0).isLt⟩ : Fin 16384) (⟨(j 1).val, (j 1).isLt⟩ : Fin 50))).toInt.toNat (1000000 - 1) = _
    rw [toInt_eq hk, Int.toNat_natCast]
    show _ = (x (ix2 (⟨(j 0).val, (j 0).isLt⟩ : Fin 16384) (⟨(j 1).val, (j 1).isLt⟩ : Fin 50))).toNat % 1000000
    omega
  | ⟨1, _⟩ =>
    show GatherDims.start G j (starts x) 1 + GatherDims.batchCoord G j 1 + GatherDims.offCoord G j 1 = (j 2).val
    rw [GatherDims.batchCoord_eq_zero G _ _ List.not_mem_nil]
    unfold GatherDims.start GatherDims.offCoord
    rw [dif_neg (show (1 : Fin 2) ∉ GatherDims.startIndexMap G by decide),
      dif_pos (show (1 : Fin 2) ∈ GatherDims.sKept G by decide)]
    simp only [Nat.add_zero, Nat.zero_add]
    rfl

/-- For an index matrix in range the reference's term is the lookup. -/
theorem out_eq_lookup (x : IVec Cert.Spec.SX 32) (t : FVec F Cert.Spec.ST .f32) (hx : Cert.Spec.InRange x) :
    out x t = Cert.Spec.lookup x t := by
  funext j
  have hm : broadcastInDim S16384x50x64 ![0, 1] bcast_S16384x50_S16384x50x64_0_1 (mask x) j = 1#1 := by
    unfold broadcastInDim
    exact mask_apply x hx _
  unfold out
  rw [select_apply, hm, select_one, gather_apply x hx t j]
  rfl

end Cert.Proof.RefValue

end
-- ==== Proof.RefRun.lean ====
/-
  The reference's run. The reference's @main is one call of the function that takes rows of the table, which in turn
  calls a three-operand select: twenty-three host operations once the two calls are unfolded, each writing a buffer of
  its own. Every weakly fair execution terminates with each buffer at the fold of the operations over the launch
  contents; read at the result buffer that fold is the composed term `RefValue.out` of the two arguments, which for an
  index matrix in range is the lookup; the two argument buffers are written by no operation.
-/
import proofs.«206314_g14001593385621_cont_week2b_782_31_alg».proof.ReferenceIdeal
import proofs.«206314_g14001593385621_cont_week2b_782_31_alg».proof.Proof.Gen.ReferenceIdeal
import proofs.«206314_g14001593385621_cont_week2b_782_31_alg».proof.Proof.Spec
import proofs.«206314_g14001593385621_cont_week2b_782_31_alg».proof.Proof.RefValue
import Idealize.ShloMosaic.Lib.StableHlo.Run
import Idealize.ShloMosaic.PureOps.Ideal

noncomputable section

namespace Cert.Proof.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the two calls unfolded: the row-taking function's twenty-two with, in the seventh
    place, the select that is the whole of the function it calls. The table is @main's second argument and the
    function's first. -/
abbrev ops : List (HloOp τ sig (Elt F)) :=
  [ TRef.nullary main_call0.c (constantI S_ 32 0#32),
    TRef.unary main_call0.c main_call0.v0 (broadcastInDim S16384x50 ![] bcast_S_S16384x50),
    TRef.binary (.of main_arg0) main_call0.v0 main_call0.v1 (cmpi .slt),
    TRef.nullary main_call0.c_0 (constantI S_ 32 1000000#32),
    TRef.unary main_call0.c_0 main_call0.v2 (broadcastInDim S16384x50 ![] bcast_S_S16384x50),
    TRef.binary (.of main_arg0) main_call0.v2 main_call0.v3 addi,
    TRef.ternary main_call0.v1 main_call0.v3 (.of main_arg0) main_call0.call0.v0 select,
    TRef.unary main_call0.call0.v0 main_call0.v5 (broadcastInDim S16384x50x1 ![0, 1] bcast_S16384x50_S16384x50x1_0_1),
    TRef.nullary main_call0.c_1 (constantI S1 32 999999#32),
    TRef.nullary main_call0.c_2 (constantI S_ 32 0#32),
    TRef.unary main_call0.c_2 main_call0.v6 (broadcastInDim S16384x50x1 ![] bcast_S_S16384x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x50x1 ![0, 1, 2] bcast_S1x1x1_S16384x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x50x1_S16384x50_d2 h_S_),
    TRef.binary (.of main_arg1) main_call0.v5 main_call0.v13 (fun x i => Host.gather gather_S1000000x64_S16384x50x1_S16384x50x64_2_0_n_n_0_2_164 x i),
    TRef.unary main_call0.v12 main_call0.v14 (broadcastInDim S16384x50x64 ![0, 1] bcast_S16384x50_S16384x50x64_0_1),
    TRef.nullary main_call0.cst (constant S_ .f32 0x7FC00000#32),
    TRef.unary main_call0.cst main_call0.v15 (broadcastInDim S16384x50x64 ![] bcast_S_S16384x50x64),
    TRef.ternary main_call0.v14 main_call0.v13 main_call0.v15 main_call0.v16 select ]

-- twenty-three binds re-associated
set_option maxRecDepth 1024 in
/-- @main is that straight line: the two functions' definitions unfolded at their calls, both sides are one chain of
    host steps once sequencing is re-associated. -/
theorem main_eq (c : Dev nD) : main (F := F) c = seq ops := by
  simp only [main, fn_take.body, fn_where.body, seq, bind_assoc, pure_bind]

/-- Contents moved to a buffer's own type and back are the contents: the two transports are along one equation. -/
theorem ofBuf_toBuf {Val : EltTy → Type} {T : BufTy} (x : TRef sig T) (v : T.Contents Val) : x.ofBuf (x.toBuf v) = v := by
  obtain ⟨ref, rfl, _, _⟩ := x
  rfl

attribute [local irreducible] Host.reduce Host.gather in
set_option maxRecDepth 8192 in
/-- The fold at the result buffer is the composed term: each operation's result at its own buffer is its function's
    value and at any other buffer what was there; the transports between a value's type and its buffer's cancel in
    pairs, and the ones left, at the two arguments and at the result, are along equations that hold by computation.
    The reduction and the gather are kept folded meanwhile: the equation never looks inside them. -/
theorem out_eq (V : Valuation τ sig (Elt F)) :
    after ops V (main_v0 : DevRef τ sig)
      = RefValue.out (F := F) (V (main_arg0 : DevRef τ sig)) (V (main_arg1 : DevRef τ sig)) := by
  after_results_simp
  simp only [ofBuf_toBuf]
  unfold RefValue.out RefValue.mask RefValue.inBounds RefValue.starts RefValue.wrapped
  rfl

/-- No operation writes the index matrix's buffer … -/
theorem arg0_eq (V : Valuation τ sig (Elt F)) :
    after ops V (main_arg0 : DevRef τ sig) = V (main_arg0 : DevRef τ sig) := by
  simp only [after_cons, after_nil]
  rfl

/-- … nor the table's. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main on the TensorCores terminates, and every
    final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- At the ideal instance, from a memory whose index matrix is in range on every device: the run terminates with the
    result buffer at the lookup of the two arguments and the arguments unchanged. -/
theorem run (m : (ℓ : Loc nD τ sig) → Buf (Elt Ideal) ℓ) (g : Dev nD → PrngReg)
    (hx : ∀ c : Dev nD, Cert.Spec.InRange (m ((c.tc : Thread nD τ).loc main_arg0))) :
    θ_run (Cert.ReferenceIdeal.defs (F := Ideal)) (onTc (τ := τ) (Cert.ReferenceIdeal.main (F := Ideal))) ⟨m, fun _ => 0, g⟩
      (fun r => ∀ c : Dev nD,
        r.2.mem ((c.tc : Thread nD τ).loc main_v0) = Cert.Spec.lookup (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run _ _ _).mono (fun _ h c =>
      ⟨((h c main_v0).trans (out_eq (launchContents m c))).trans (RefValue.out_eq_lookup _ _ (hx c)),
        (h c main_arg0).trans (arg0_eq (launchContents m c)),
        (h c main_arg1).trans (arg1_eq (launchContents m c))⟩)
    (run_main m g)

end Cert.Proof.RefRun

end
-- ==== Proof.KPay.lean ====
import proofs.«206314_g14001593385621_cont_week2b_782_31_alg».proof.Kernel
import proofs.«206314_g14001593385621_cont_week2b_782_31_alg».proof.Proof.Gen.Kernel
import proofs.«206314_g14001593385621_cont_week2b_782_31_alg».proof.Proof.Gen.Kernel.Skeleton
import proofs.«206314_g14001593385621_cont_week2b_782_31_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "tV" => (Memref.whole Cert.Kernel.main_v2_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S917504 EltTy.i32)
local notation "oV" => (Memref.whole Cert.Kernel.main_v3_scv : Memref Cert.Kernel.sig Kind.scVector Space.hbm Cert.Kernel.S16384x56x128 EltTy.f32)
local notation "sV" => (Memref.whole Cert.Kernel.cc0_scratch0 : Memref Cert.Kernel.sig Kind.scVector Space.vmem Cert.Kernel.S28672 EltTy.i32)
local notation "rV" => (Memref.whole Cert.Kernel.cc0_scratch1 : Memref Cert.Kernel.sig Kind.scVector Space.vmem Cert.Kernel.S8x56x128 EltTy.f32)

abbrev cV (L : grid0.Coords) : Fin τ.nSC := (L 0).castLE hcore0
abbrev jV (L : grid0.Coords) : Fin τ.nSub := (L 1).castLE hsub0

/-! ## The task's memrefs, spelt as the program slices them -/

/-- The task's chunk of the flattened index list: 28672 words from `28672 · (2 s + c)`. -/
abbrev iChunk (L : grid0.Coords) : Memref sig .scVector .hbm S28672 .i32 := (iV).slice (Rect.unit (s := S917504) (k0_off1 L) S28672.size (k0_off1_inb L)) (fun _ => rfl)
/-- Slot 0 of the row scratch, all 56 rows. -/
abbrev slot0 : Memref sig .scVector .vmem S56x128 .f32 := ((rV).slice (Rect.unit (s := S8x56x128) ![0, 0, 0] S1x56x128.size inb_S8x56x128_S1x56x128_0_0_0) (fun _ => rfl)).squeeze S56x128 squeezes_S1x56x128_S56x128
/-- Its gather and write-back semaphores. -/
abbrev gS0 : DmaSems sig S_ := (cc0_scratch2.slice (Rect.unit (s := S8) ![0] S1.size inb_S8_S1_0)).squeeze S_ squeezes_S1_S_
abbrev wS0 : DmaSems sig S_ := (cc0_scratch3.slice (Rect.unit (s := S8) ![0] S1.size inb_S8_S1_0)).squeeze S_ squeezes_S1_S_
/-- Row `512 · (2 s + c) + 8 k + 0` of the intermediate array: what trip `k` writes slot 0 back to. -/
abbrev orow0 (L : grid0.Coords) (k : Fin k0_t1_loop.trips) : Memref sig .scVector .hbm S56x128 .f32 := ((oV).slice (Rect.unit (s := S16384x56x128) (k0_off11 L k 0#32) S1x56x128.size (k0_off11_inb L k 0)) (fun _ => rfl)).squeeze S56x128 squeezes_S1x56x128_S56x128
/-- Slot 1 of the row scratch, all 56 rows. -/
abbrev slot1 : Memref sig .scVector .vmem S56x128 .f32 := ((rV).slice (Rect.unit (s := S8x56x128) ![1, 0, 0] S1x56x128.size inb_S8x56x128_S1x56x128_1_0_0) (fun _ => rfl)).squeeze S56x128 squeezes_S1x56x128_S56x128
/-- Its gather and write-back semaphores. -/
abbrev gS1 : DmaSems sig S_ := (cc0_scratch2.slice (Rect.unit (s := S8) ![1] S1.size inb_S8_S1_1)).squeeze S_ squeezes_S1_S_
abbrev wS1 : DmaSems sig S_ := (cc0_scratch3.slice (Rect.unit (s := S8) ![1] S1.size inb_S8_S1_1)).squeeze S_ squeezes_S1_S_
/-- Row `512 · (2 s + c) + 8 k + 1` of the intermediate array: what trip `k` writes slot 1 back to. -/
abbrev orow1 (L : grid0.Coords) (k : Fin k0_t1_loop.trips) : Memref sig .scVector .hbm S56x128 .f32 := ((oV).slice (Rect.unit (s := S16384x56x128) (k0_off11 L k 1#32) S1x56x128.size (k0_off11_inb L k 1)) (fun _ => rfl)).squeeze S56x128 squeezes_S1x56x128_S56x128
/-- Slot 2 of the row scratch, all 56 rows. -/
abbrev slot2 : Memref sig .scVector .vmem S56x128 .f32 := ((rV).slice (Rect.unit (s := S8x56x128) ![2, 0, 0] S1x56x128.size inb_S8x56x128_S1x56x128_2_0_0) (fun _ => rfl)).squeeze S56x128 squeezes_S1x56x128_S56x128
/-- Its gather and write-back semaphores. -/
abbrev gS2 : DmaSems sig S_ := (cc0_scratch2.slice (Rect.unit (s := S8) ![2] S1.size inb_S8_S1_2)).squeeze S_ squeezes_S1_S_
abbrev wS2 : DmaSems sig S_ := (cc0_scratch3.slice (Rect.unit (s := S8) ![2] S1.size inb_S8_S1_2)).squeeze S_ squeezes_S1_S_
/-- Row `512 · (2 s + c) + 8 k + 2` of the intermediate array: what trip `k` writes slot 2 back to. -/
abbrev orow2 (L : grid0.Coords) (k : Fin k0_t1_loop.trips) : Memref sig .scVector .hbm S56x128 .f32 := ((oV).slice (Rect.unit (s := S16384x56x128) (k0_off11 L k 2#32) S1x56x128.size (k0_off11_inb L k 2)) (fun _ => rfl)).squeeze S56x128 squeezes_S1x56x128_S56x128
/-- Slot 3 of the row scratch, all 56 rows. -/
abbrev slot3 : Memref sig .scVector .vmem S56x128 .f32 := ((rV).slice (Rect.unit (s := S8x56x128) ![3, 0, 0] S1x56x128.size inb_S8x56x128_S1x56x128_3_0_0) (fun _ => rfl)).squeeze S56x128 squeezes_S1x56x128_S56x128
/-- Its gather and write-back semaphores. -/
abbrev gS3 : DmaSems sig S_ := (cc0_scratch2.slice (Rect.unit (s := S8) ![3] S1.size inb_S8_S1_3)).squeeze S_ squeezes_S1_S_
abbrev wS3 : DmaSems sig S_ := (cc0_scratch3.slice (Rect.unit (s := S8) ![3] S1.size inb_S8_S1_3)).squeeze S_ squeezes_S1_S_
/-- Row `512 · (2 s + c) + 8 k + 3` of the intermediate array: what trip `k` writes slot 3 back to. -/
abbrev orow3 (L : grid0.Coords) (k : Fin k0_t1_loop.trips) : Memref sig .scVector .hbm S56x128 .f32 := ((oV).slice (Rect.unit (s := S16384x56x128) (k0_off11 L k 3#32) S1x56x128.size (k0_off11_inb L k 3)) (fun _ => rfl)).squeeze S56x128 squeezes_S1x56x128_S56x128
/-- Slot 4 of the row scratch, all 56 rows. -/
abbrev slot4 : Memref sig .scVector .vmem S56x128 .f32 := ((rV).slice (Rect.unit (s := S8x56x128) ![4, 0, 0] S1x56x128.size inb_S8x56x128_S1x56x128_4_0_0) (fun _ => rfl)).squeeze S56x128 squeezes_S1x56x128_S56x128
/-- Its gather and write-back semaphores. -/
abbrev gS4 : DmaSems sig S_ := (cc0_scratch2.slice (Rect.unit (s := S8) ![4] S1.size inb_S8_S1_4)).squeeze S_ squeezes_S1_S_
abbrev wS4 : DmaSems sig S_ := (cc0_scratch3.slice (Rect.unit (s := S8) ![4] S1.size inb_S8_S1_4)).squeeze S_ squeezes_S1_S_
/-- Row `512 · (2 s + c) + 8 k + 4` of the intermediate array: what trip `k` writes slot 4 back to. -/
abbrev orow4 (L : grid0.Coords) (k : Fin k0_t1_loop.trips) : Memref sig .scVector .hbm S56x128 .f32 := ((oV).slice (Rect.unit (s := S16384x56x128) (k0_off11 L k 4#32) S1x56x128.size (k0_off11_inb L k 4)) (fun _ => rfl)).squeeze S56x128 squeezes_S1x56x128_S56x128
/-- Slot 5 of the row scratch, all 56 rows. -/
abbrev slot5 : Memref sig .scVector .vmem S56x128 .f32 := ((rV).slice (Rect.unit (s := S8x56x128) ![5, 0, 0] S1x56x128.size inb_S8x56x128_S1x56x128_5_0_0) (fun _ => rfl)).squeeze S56x128 squeezes_S1x56x128_S56x128
/-- Its gather and write-back semaphores. -/
abbrev gS5 : DmaSems sig S_ := (cc0_scratch2.slice (Rect.unit (s := S8) ![5] S1.size inb_S8_S1_5)).squeeze S_ squeezes_S1_S_
abbrev wS5 : DmaSems sig S_ := (cc0_scratch3.slice (Rect.unit (s := S8) ![5] S1.size inb_S8_S1_5)).squeeze S_ squeezes_S1_S_
/-- Row `512 · (2 s + c) + 8 k + 5` of the intermediate array: what trip `k` writes slot 5 back to. -/
abbrev orow5 (L : grid0.Coords) (k : Fin k0_t1_loop.trips) : Memref sig .scVector .hbm S56x128 .f32 := ((oV).slice (Rect.unit (s := S16384x56x128) (k0_off11 L k 5#32) S1x56x128.size (k0_off11_inb L k 5)) (fun _ => rfl)).squeeze S56x128 squeezes_S1x56x128_S56x128
/-- Slot 6 of the row scratch, all 56 rows. -/
abbrev slot6 : Memref sig .scVector .vmem S56x128 .f32 := ((rV).slice (Rect.unit (s := S8x56x128) ![6, 0, 0] S1x56x128.size inb_S8x56x128_S1x56x128_6_0_0) (fun _ => rfl)).squeeze S56x128 squeezes_S1x56x128_S56x128
/-- Its gather and write-back semaphores. -/
abbrev gS6 : DmaSems sig S_ := (cc0_scratch2.slice (Rect.unit (s := S8) ![6] S1.size inb_S8_S1_6)).squeeze S_ squeezes_S1_S_
abbrev wS6 : DmaSems sig S_ := (cc0_scratch3.slice (Rect.unit (s := S8) ![6] S1.size inb_S8_S1_6)).squeeze S_ squeezes_S1_S_
/-- Row `512 · (2 s + c) + 8 k + 6` of the intermediate array: what trip `k` writes slot 6 back to. -/
abbrev orow6 (L : grid0.Coords) (k : Fin k0_t1_loop.trips) : Memref sig .scVector .hbm S56x128 .f32 := ((oV).slice (Rect.unit (s := S16384x56x128) (k0_off11 L k 6#32) S1x56x128.size (k0_off11_inb L k 6)) (fun _ => rfl)).squeeze S56x128 squeezes_S1x56x128_S56x128
/-- Slot 7 of the row scratch, all 56 rows. -/
abbrev slot7 : Memref sig .scVector .vmem S56x128 .f32 := ((rV).slice (Rect.unit (s := S8x56x128) ![7, 0, 0] S1x56x128.size inb_S8x56x128_S1x56x128_7_0_0) (fun _ => rfl)).squeeze S56x128 squeezes_S1x56x128_S56x128
/-- Its gather and write-back semaphores. -/
abbrev gS7 : DmaSems sig S_ := (cc0_scratch2.slice (Rect.unit (s := S8) ![7] S1.size inb_S8_S1_7)).squeeze S_ squeezes_S1_S_
abbrev wS7 : DmaSems sig S_ := (cc0_scratch3.slice (Rect.unit (s := S8) ![7] S1.size inb_S8_S1_7)).squeeze S_ squeezes_S1_S_
/-- Row `512 · (2 s + c) + 8 k + 7` of the intermediate array: what trip `k` writes slot 7 back to. -/
abbrev orow7 (L : grid0.Coords) (k : Fin k0_t1_loop.trips) : Memref sig .scVector .hbm S56x128 .f32 := ((oV).slice (Rect.unit (s := S16384x56x128) (k0_off11 L k 7#32) S1x56x128.size (k0_off11_inb L k 7)) (fun _ => rfl)).squeeze S56x128 squeezes_S1x56x128_S56x128

/-! ## The gathers' memrefs, and the row scratch after a trip's eight gathers -/

/-- All of the padded table, as the gathers name their source. -/
abbrev tAll : Memref sig .scVector .hbm S1000000x128 .f32 := (tV).slice (Rect.unit (s := S1000000x128) ![0, 0] S1000000x128.size inb_S1000000x128_S1000000x128_0_0) (fun _ => rfl)
/-- The first 50 rows of slot 0: the destination of its gather; and the 50 words of the list that trip `k` gathers into it. -/
abbrev g50_0 : Memref sig .scVector .vmem S50x128 .f32 := ((rV).slice (Rect.unit (s := S8x56x128) ![0, 0, 0] S1x50x128.size inb_S8x56x128_S1x50x128_0_0_0) (fun _ => rfl)).squeeze S50x128 squeezes_S1x50x128_S50x128
abbrev lst0 (k : Fin k0_t1_loop.trips) : Memref sig .scVector .vmem S50 .i32 := (sV).slice (Rect.unit (s := S28672) (k0_off3 k 0#32) S50.size (k0_off3_inb k 0)) (fun _ => rfl)
/-- The first 50 rows of slot 1: the destination of its gather; and the 50 words of the list that trip `k` gathers into it. -/
abbrev g50_1 : Memref sig .scVector .vmem S50x128 .f32 := ((rV).slice (Rect.unit (s := S8x56x128) ![1, 0, 0] S1x50x128.size inb_S8x56x128_S1x50x128_1_0_0) (fun _ => rfl)).squeeze S50x128 squeezes_S1x50x128_S50x128
abbrev lst1 (k : Fin k0_t1_loop.trips) : Memref sig .scVector .vmem S50 .i32 := (sV).slice (Rect.unit (s := S28672) (k0_off3 k 1#32) S50.size (k0_off3_inb k 1)) (fun _ => rfl)
/-- The first 50 rows of slot 2: the destination of its gather; and the 50 words of the list that trip `k` gathers into it. -/
abbrev g50_2 : Memref sig .scVector .vmem S50x128 .f32 := ((rV).slice (Rect.unit (s := S8x56x128) ![2, 0, 0] S1x50x128.size inb_S8x56x128_S1x50x128_2_0_0) (fun _ => rfl)).squeeze S50x128 squeezes_S1x50x128_S50x128
abbrev lst2 (k : Fin k0_t1_loop.trips) : Memref sig .scVector .vmem S50 .i32 := (sV).slice (Rect.unit (s := S28672) (k0_off3 k 2#32) S50.size (k0_off3_inb k 2)) (fun _ => rfl)
/-- The first 50 rows of slot 3: the destination of its gather; and the 50 words of the list that trip `k` gathers into it. -/
abbrev g50_3 : Memref sig .scVector .vmem S50x128 .f32 := ((rV).slice (Rect.unit (s := S8x56x128) ![3, 0, 0] S1x50x128.size inb_S8x56x128_S1x50x128_3_0_0) (fun _ => rfl)).squeeze S50x128 squeezes_S1x50x128_S50x128
abbrev lst3 (k : Fin k0_t1_loop.trips) : Memref sig .scVector .vmem S50 .i32 := (sV).slice (Rect.unit (s := S28672) (k0_off3 k 3#32) S50.size (k0_off3_inb k 3)) (fun _ => rfl)
/-- The first 50 rows of slot 4: the destination of its gather; and the 50 words of the list that trip `k` gathers into it. -/
abbrev g50_4 : Memref sig .scVector .vmem S50x128 .f32 := ((rV).slice (Rect.unit (s := S8x56x128) ![4, 0, 0] S1x50x128.size inb_S8x56x128_S1x50x128_4_0_0) (fun _ => rfl)).squeeze S50x128 squeezes_S1x50x128_S50x128
abbrev lst4 (k : Fin k0_t1_loop.trips) : Memref sig .scVector .vmem S50 .i32 := (sV).slice (Rect.unit (s := S28672) (k0_off3 k 4#32) S50.size (k0_off3_inb k 4)) (fun _ => rfl)
/-- The first 50 rows of slot 5: the destination of its gather; and the 50 words of the list that trip `k` gathers into it. -/
abbrev g50_5 : Memref sig .scVector .vmem S50x128 .f32 := ((rV).slice (Rect.unit (s := S8x56x128) ![5, 0, 0] S1x50x128.size inb_S8x56x128_S1x50x128_5_0_0) (fun _ => rfl)).squeeze S50x128 squeezes_S1x50x128_S50x128
abbrev lst5 (k : Fin k0_t1_loop.trips) : Memref sig .scVector .vmem S50 .i32 := (sV).slice (Rect.unit (s := S28672) (k0_off3 k 5#32) S50.size (k0_off3_inb k 5)) (fun _ => rfl)
/-- The first 50 rows of slot 6: the destination of its gather; and the 50 words of the list that trip `k` gathers into it. -/
abbrev g50_6 : Memref sig .scVector .vmem S50x128 .f32 := ((rV).slice (Rect.unit (s := S8x56x128) ![6, 0, 0] S1x50x128.size inb_S8x56x128_S1x50x128_6_0_0) (fun _ => rfl)).squeeze S50x128 squeezes_S1x50x128_S50x128
abbrev lst6 (k : Fin k0_t1_loop.trips) : Memref sig .scVector .vmem S50 .i32 := (sV).slice (Rect.unit (s := S28672) (k0_off3 k 6#32) S50.size (k0_off3_inb k 6)) (fun _ => rfl)
/-- The first 50 rows of slot 7: the destination of its gather; and the 50 words of the list that trip `k` gathers into it. -/
abbrev g50_7 : Memref sig .scVector .vmem S50x128 .f32 := ((rV).slice (Rect.unit (s := S8x56x128) ![7, 0, 0] S1x50x128.size inb_S8x56x128_S1x50x128_7_0_0) (fun _ => rfl)).squeeze S50x128 squeezes_S1x50x128_S50x128
abbrev lst7 (k : Fin k0_t1_loop.trips) : Memref sig .scVector .vmem S50 .i32 := (sV).slice (Rect.unit (s := S28672) (k0_off3 k 7#32) S50.size (k0_off3_inb k 7)) (fun _ => rfl)

/-- The row scratch after eight gathers, slot `u`'s first 50 rows written with `p u`, on contents `fr`. -/
def nest (d : Dev nD) (c : Fin τ.nSC) (i : Fin τ.nSub) (fr : Buf (Elt F) ((rV).view.loc (V d c i))) (p : Fin 8 → S50x128.Idx → Elt F .f32) :
    Buf (Elt F) ((rV).view.loc (V d c i)) :=
  View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view (fr) (p 0) Finset.univ) (p 1) Finset.univ) (p 2) Finset.univ) (p 3) Finset.univ) (p 4) Finset.univ) (p 5) Finset.univ) (p 6) Finset.univ) (p 7) Finset.univ

/-! ## Grid coordinates and the rows of a task -/

/-- The coordinates of the task on SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The task's number among the 32: `2 s + c`. It owns rows `[512 w, 512 w + 512)` of the intermediate array and
    words `[28672 w, 28672 w + 28672)` of the flattened list. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem trips_eq : k0_t1_loop.trips = 64 := by decide

/-- The row of the intermediate array that trip `k` of the task writes slot `u` back to: `512 w + 8 k + u`. -/
def rowIx (L : grid0.Coords) (k : Fin k0_t1_loop.trips) (u : Fin 8) : Fin 16384 :=
  ⟨512 * wid L + 8 * k.val + u.val, by have h1 := wid_lt L; have h2 : k.val < 64 := trips_eq ▸ k.isLt; have h3 := u.isLt; omega⟩

/-- That row, as the task's memref names it (slot `u` generic; `orow0 … orow7` are its eight instances). -/
abbrev rowM (L : grid0.Coords) (k : Fin k0_t1_loop.trips) (u : Fin 8) : Memref sig .scVector .hbm S56x128 .f32 :=
  ((oV).slice (Rect.unit (s := S16384x56x128) (k0_off11 L k (BitVec.ofNat 32 u.val)) S1x56x128.size (k0_off11_inb L k u)) (fun _ => rfl)).squeeze S56x128 squeezes_S1x56x128_S56x128

/-- The task's read share of the padded table: one of 32 tokens of the full share. -/
def tq (L : grid0.Coords) : PosShare TreeShare := Transfers.shareTok fullShare 32 ⟨wid L, wid_lt L⟩

/-! ## The launch memory, the arrays @main's host operations build, the payloads -/

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v1
abbrev pLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

variable [FloatOps F]

/-- The flattened padded index list and the padded table, as functions of the launch memory's two arguments: what
    @main's host operations leave in `main_v1` and `main_v2` before the call. -/
def Iarr (d : Dev nD) : Buf (Elt F) (iLoc d) := Cert.Spec.idxFlat (m (xLoc d)) 0#32
def Parr (d : Dev nD) : Buf (Elt F) (pLoc d) := Cert.Spec.tablePad (m (tLoc d)) (FloatOps.sitofp .f32 (0#32 : BitVec 32))

/-- What a task is handed: its token of the padded table, its chunk of the list, its 512 rows of the intermediate
    array at their launch contents; -/
def TileTok (d : Dev nD) (L : grid0.Coords) : sProp 𝕄 := pLoc d ↦{tq L} Parr m d
def TileIdx (d : Dev nD) (L : grid0.Coords) : sProp 𝕄 := iLoc d ↦[(iChunk L).view.set]{fullShare} Iarr m d
def RowIn (d : Dev nD) (L : grid0.Coords) (k : Fin k0_t1_loop.trips) (u : Fin 8) : sProp 𝕄 :=
  oLoc d ↦[(rowM L k u).view.set]{fullShare} m (oLoc d)
/-- and what it hands back: each of its rows at contents whose first 50 sub-rows are the looked-up table rows. -/
def RowOut (d : Dev nD) (L : grid0.Coords) (k : Fin k0_t1_loop.trips) (u : Fin 8) : sProp 𝕄 :=
  iprop(∃ f : Buf (Elt F) (oLoc d), (oLoc d ↦[(rowM L k u).view.set]{fullShare} f) ∗ ⌜Cert.Spec.RowOK (Iarr m d) (Parr m d) f (rowIx L k u)⌝)
def TileIn (d : Dev nD) (L : grid0.Coords) : sProp 𝕄 :=
  iprop(TileTok m d L ∗ TileIdx m d L ∗ bigSep Finset.univ fun k : Fin k0_t1_loop.trips => bigSep Finset.univ fun u : Fin 8 => RowIn m d L k u)
def TileOut (d : Dev nD) (L : grid0.Coords) : sProp 𝕄 :=
  iprop(TileTok m d L ∗ TileIdx m d L ∗ bigSep Finset.univ fun k : Fin k0_t1_loop.trips => bigSep Finset.univ fun u : Fin 8 => RowOut m d L k u)

/-- The coordinates of task `i` of SparseCore `c` of the one call's grid. -/
def LL (c : Fin ((K (F := F)).nCore 0)) (i : Fin ((K (F := F)).nSub 0)) : grid0.Coords := coordsV ⟨c.val, c.isLt⟩ ⟨i.val, i.isLt⟩

/-- The one call hands each SparseCore its sixteen tasks' operands, already apart, and takes their results back so. -/
def P : (K (F := F)).Pay (nD := nD) (Val := Elt F) (Name := ℕ) (U := UU) where
  st := fun q d c => match q with | 0 => bigSep Finset.univ fun i : Fin ((K (F := F)).nSub 0) => TileIn m d (LL c i)
  dn := fun q d c => match q with | 0 => bigSep Finset.univ fun i : Fin ((K (F := F)).nSub 0) => TileOut m d (LL c i)
  go := fun q d c i => match q with | 0 => TileIn m d (LL c i)
  td := fun q d c i => match q with | 0 => TileOut m d (LL c i)
  x := fun _ _ => iprop(emp)

end Cert.Proof.K

end
-- ==== Proof.KTileA.lean ====
import proofs.«206314_g14001593385621_cont_week2b_782_31_alg».proof.Proof.KPay
import Idealize.ShloMosaic.Lib.Ring

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v2_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S917504 EltTy.i32)
local notation "oV" => (Memref.whole Cert.Kernel.main_v3_scv : Memref Cert.Kernel.sig Kind.scVector Space.hbm Cert.Kernel.S16384x56x128 EltTy.f32)
local notation "sV" => (Memref.whole Cert.Kernel.cc0_scratch0 : Memref Cert.Kernel.sig Kind.scVector Space.vmem Cert.Kernel.S28672 EltTy.i32)
local notation "rV" => (Memref.whole Cert.Kernel.cc0_scratch1 : Memref Cert.Kernel.sig Kind.scVector Space.vmem Cert.Kernel.S8x56x128 EltTy.f32)

variable (m : (ℓ : Loc nD τ sig) → Buf (Elt F) ℓ)

/-- The task's thread. -/
abbrev thr (d : Dev nD) (L : grid0.Coords) : Thread nD τ := V d (cV L) (jV L)

/-! ## The tile's own semaphores and buffers, one by one -/

theorem ownCells_V (d : Dev nD) (c : Fin τ.nSC) (i : Fin τ.nSub) :
    ownCells (sig := sig) (V d c i)
      = (Finset.univ : Finset (Fin 17)).map ⟨fun j => ((V d c i, SemLoc.dma j) : GSem nD τ sig), fun a b h => by injection h with _ h2; injection h2⟩ := by
  have h4 : ∀ s : Sem sig, (SemLoc.reg s : SemLoc sig).isScoped Kind.scVector = false := by decide
  have h17 : ∀ j : DmaSem sig, (SemLoc.dma j : SemLoc sig).isScoped Kind.scVector = true := by decide
  ext g
  rw [mem_ownCells, Finset.mem_map]
  constructor
  · rintro ⟨h1, hs⟩
    obtain ⟨t, sm⟩ := g
    simp only at h1
    subst h1
    cases sm with
    | reg s => exact absurd (show (SemLoc.reg s : SemLoc sig).isScoped Kind.scVector = true from hs) (by rw [h4 s]; decide)
    | dma j => exact ⟨j, Finset.mem_univ _, rfl⟩
  · rintro ⟨j, -, rfl⟩
    exact ⟨rfl, h17 j⟩

/-- The seventeen cells: eight gather semaphores, eight write-back semaphores, the list copy's. -/
theorem ownSems0_V17 (d : Dev nD) (c : Fin τ.nSC) (i : Fin τ.nSub) :
    (ownSems0 (V d c i) : sProp 𝕄)
      = iprop(semVal (V d c i, SemLoc.dma (gS0).sem) 0 ∗ semVal (V d c i, SemLoc.dma (gS1).sem) 0 ∗ semVal (V d c i, SemLoc.dma (gS2).sem) 0 ∗ semVal (V d c i, SemLoc.dma (gS3).sem) 0 ∗ semVal (V d c i, SemLoc.dma (gS4).sem) 0 ∗ semVal (V d c i, SemLoc.dma (gS5).sem) 0 ∗ semVal (V d c i, SemLoc.dma (gS6).sem) 0 ∗ semVal (V d c i, SemLoc.dma (gS7).sem) 0
          ∗ semVal (V d c i, SemLoc.dma (wS0).sem) 0 ∗ semVal (V d c i, SemLoc.dma (wS1).sem) 0 ∗ semVal (V d c i, SemLoc.dma (wS2).sem) 0 ∗ semVal (V d c i, SemLoc.dma (wS3).sem) 0 ∗ semVal (V d c i, SemLoc.dma (wS4).sem) 0 ∗ semVal (V d c i, SemLoc.dma (wS5).sem) 0 ∗ semVal (V d c i, SemLoc.dma (wS6).sem) 0 ∗ semVal (V d c i, SemLoc.dma (wS7).sem) 0
          ∗ semVal (V d c i, SemLoc.dma cc0_scoped0.sem) 0) := by
  unfold SparseCore.Cfg.ownSems0
  rw [ownCells_V, bigSep_map, show (Finset.univ : Finset (Fin 17)) = {0, 1, 2, 3, 4, 5, 6, 7, 8, 9, 10, 11, 12, 13, 14, 15, 16} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch buffers are among the subcore's own. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The loop's guards, decided at every trip -/

theorem cond1_pos : ∀ k : Fin k0_t1_loop.trips, k.val ≠ 0 → k0_cond1 k = 1#1 := by decide +kernel
theorem cond1_neg : ∀ k : Fin k0_t1_loop.trips, k.val = 0 → ¬ k0_cond1 k = 1#1 := by decide +kernel
theorem cond2_pos : ∀ k : Fin k0_t1_loop.trips, k.val ≠ 0 → k0_cond2 k = 1#1 := by decide +kernel
theorem cond2_neg : ∀ k : Fin k0_t1_loop.trips, k.val = 0 → ¬ k0_cond2 k = 1#1 := by decide +kernel
theorem cond3_pos : ∀ k : Fin k0_t1_loop.trips, k.val ≠ 0 → k0_cond3 k = 1#1 := by decide +kernel
theorem cond3_neg : ∀ k : Fin k0_t1_loop.trips, k.val = 0 → ¬ k0_cond3 k = 1#1 := by decide +kernel
theorem cond4_pos : ∀ k : Fin k0_t1_loop.trips, k.val ≠ 0 → k0_cond4 k = 1#1 := by decide +kernel
theorem cond4_neg : ∀ k : Fin k0_t1_loop.trips, k.val = 0 → ¬ k0_cond4 k = 1#1 := by decide +kernel
theorem cond5_pos : ∀ k : Fin k0_t1_loop.trips, k.val ≠ 0 → k0_cond5 k = 1#1 := by decide +kernel
theorem cond5_neg : ∀ k : Fin k0_t1_loop.trips, k.val = 0 → ¬ k0_cond5 k = 1#1 := by decide +kernel
theorem cond6_pos : ∀ k : Fin k0_t1_loop.trips, k.val ≠ 0 → k0_cond6 k = 1#1 := by decide +kernel
theorem cond6_neg : ∀ k : Fin k0_t1_loop.trips, k.val = 0 → ¬ k0_cond6 k = 1#1 := by decide +kernel
theorem cond7_pos : ∀ k : Fin k0_t1_loop.trips, k.val ≠ 0 → k0_cond7 k = 1#1 := by decide +kernel
theorem cond7_neg : ∀ k : Fin k0_t1_loop.trips, k.val = 0 → ¬ k0_cond7 k = 1#1 := by decide +kernel
theorem cond8_pos : ∀ k : Fin k0_t1_loop.trips, k.val ≠ 0 → k0_cond8 k = 1#1 := by decide +kernel
theorem cond8_neg : ∀ k : Fin k0_t1_loop.trips, k.val = 0 → ¬ k0_cond8 k = 1#1 := by decide +kernel

/-! ## A trip's eight rows, free and done -/

variable [FloatOps F]

/-- The eight rows trip `k` writes, at their launch contents; -/
abbrev RowsIn (d : Dev nD) (L : grid0.Coords) (k : Fin k0_t1_loop.trips) : sProp 𝕄 :=
  iprop(((orow0 L k).view.loc (thr d L) ↦[(orow0 L k).view.set]{fullShare} m (oLoc d)) ∗ ((orow1 L k).view.loc (thr d L) ↦[(orow1 L k).view.set]{fullShare} m (oLoc d)) ∗ ((orow2 L k).view.loc (thr d L) ↦[(orow2 L k).view.set]{fullShare} m (oLoc d)) ∗ ((orow3 L k).view.loc (thr d L) ↦[(orow3 L k).view.set]{fullShare} m (oLoc d)) ∗ ((orow4 L k).view.loc (thr d L) ↦[(orow4 L k).view.set]{fullShare} m (oLoc d)) ∗ ((orow5 L k).view.loc (thr d L) ↦[(orow5 L k).view.set]{fullShare} m (oLoc d)) ∗ ((orow6 L k).view.loc (thr d L) ↦[(orow6 L k).view.set]{fullShare} m (oLoc d)) ∗ ((orow7 L k).view.loc (thr d L) ↦[(orow7 L k).view.set]{fullShare} m (oLoc d)))
/-- a row written: at contents whose first 50 sub-rows are the looked-up table rows. -/
abbrev RowDone0 (d : Dev nD) (L : grid0.Coords) (k : Fin k0_t1_loop.trips) : sProp 𝕄 :=
  iprop(∃ f : Buf (Elt F) (oLoc d), ((orow0 L k).view.loc (thr d L) ↦[(orow0 L k).view.set]{fullShare} f) ∗ ⌜Cert.Spec.RowOK (Iarr m d) (Parr m d) f (rowIx L k 0)⌝)
abbrev RowDone1 (d : Dev nD) (L : grid0.Coords) (k : Fin k0_t1_loop.trips) : sProp 𝕄 :=
  iprop(∃ f : Buf (Elt F) (oLoc d), ((orow1 L k).view.loc (thr d L) ↦[(orow1 L k).view.set]{fullShare} f) ∗ ⌜Cert.Spec.RowOK (Iarr m d) (Parr m d) f (rowIx L k 1)⌝)
abbrev RowDone2 (d : Dev nD) (L : grid0.Coords) (k : Fin k0_t1_loop.trips) : sProp 𝕄 :=
  iprop(∃ f : Buf (Elt F) (oLoc d), ((orow2 L k).view.loc (thr d L) ↦[(orow2 L k).view.set]{fullShare} f) ∗ ⌜Cert.Spec.RowOK (Iarr m d) (Parr m d) f (rowIx L k 2)⌝)
abbrev RowDone3 (d : Dev nD) (L : grid0.Coords) (k : Fin k0_t1_loop.trips) : sProp 𝕄 :=
  iprop(∃ f : Buf (Elt F) (oLoc d), ((orow3 L k).view.loc (thr d L) ↦[(orow3 L k).view.set]{fullShare} f) ∗ ⌜Cert.Spec.RowOK (Iarr m d) (Parr m d) f (rowIx L k 3)⌝)
abbrev RowDone4 (d : Dev nD) (L : grid0.Coords) (k : Fin k0_t1_loop.trips) : sProp 𝕄 :=
  iprop(∃ f : Buf (Elt F) (oLoc d), ((orow4 L k).view.loc (thr d L) ↦[(orow4 L k).view.set]{fullShare} f) ∗ ⌜Cert.Spec.RowOK (Iarr m d) (Parr m d) f (rowIx L k 4)⌝)
abbrev RowDone5 (d : Dev nD) (L : grid0.Coords) (k : Fin k0_t1_loop.trips) : sProp 𝕄 :=
  iprop(∃ f : Buf (Elt F) (oLoc d), ((orow5 L k).view.loc (thr d L) ↦[(orow5 L k).view.set]{fullShare} f) ∗ ⌜Cert.Spec.RowOK (Iarr m d) (Parr m d) f (rowIx L k 5)⌝)
abbrev RowDone6 (d : Dev nD) (L : grid0.Coords) (k : Fin k0_t1_loop.trips) : sProp 𝕄 :=
  iprop(∃ f : Buf (Elt F) (oLoc d), ((orow6 L k).view.loc (thr d L) ↦[(orow6 L k).view.set]{fullShare} f) ∗ ⌜Cert.Spec.RowOK (Iarr m d) (Parr m d) f (rowIx L k 6)⌝)
abbrev RowDone7 (d : Dev nD) (L : grid0.Coords) (k : Fin k0_t1_loop.trips) : sProp 𝕄 :=
  iprop(∃ f : Buf (Elt F) (oLoc d), ((orow7 L k).view.loc (thr d L) ↦[(orow7 L k).view.set]{fullShare} f) ∗ ⌜Cert.Spec.RowOK (Iarr m d) (Parr m d) f (rowIx L k 7)⌝)
abbrev RowsOut (d : Dev nD) (L : grid0.Coords) (k : Fin k0_t1_loop.trips) : sProp 𝕄 :=
  iprop(RowDone0 m d L k ∗ RowDone1 m d L k ∗ RowDone2 m d L k ∗ RowDone3 m d L k ∗ RowDone4 m d L k ∗ RowDone5 m d L k ∗ RowDone6 m d L k ∗ RowDone7 m d L k)

theorem rowsIn_eq (d : Dev nD) (L : grid0.Coords) (k : Fin k0_t1_loop.trips) :
    (bigSep Finset.univ fun u : Fin 8 => RowIn m d L k u) = RowsIn m d L k := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl
theorem rowsOut_eq (d : Dev nD) (L : grid0.Coords) (k : Fin k0_t1_loop.trips) :
    (bigSep Finset.univ fun u : Fin 8 => RowOut m d L k u) = RowsOut m d L k := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The task's token of the padded table as eight read tokens, one per gather semaphore, and the remainder. -/
theorem tok_split (d : Dev nD) (L : grid0.Coords) (f : Buf (Elt F) ((tV).view.loc (thr d L))) :
    ((tV).view.loc (thr d L) ↦{tq L} f : sProp 𝕄)
      ⊣⊢ iprop(((tV).view.loc (thr d L) ↦{Transfers.shareDrop (tq L) 8} f)
          ∗ ((tV).view.loc (thr d L) ↦{Transfers.shareTok (tq L) 8 (0 : Fin 8)} f) ∗ ((tV).view.loc (thr d L) ↦{Transfers.shareTok (tq L) 8 (1 : Fin 8)} f) ∗ ((tV).view.loc (thr d L) ↦{Transfers.shareTok (tq L) 8 (2 : Fin 8)} f) ∗ ((tV).view.loc (thr d L) ↦{Transfers.shareTok (tq L) 8 (3 : Fin 8)} f) ∗ ((tV).view.loc (thr d L) ↦{Transfers.shareTok (tq L) 8 (4 : Fin 8)} f) ∗ ((tV).view.loc (thr d L) ↦{Transfers.shareTok (tq L) 8 (5 : Fin 8)} f) ∗ ((tV).view.loc (thr d L) ↦{Transfers.shareTok (tq L) 8 (6 : Fin 8)} f) ∗ ((tV).view.loc (thr d L) ↦{Transfers.shareTok (tq L) 8 (7 : Fin 8)} f)) := by
  have h : ((tV).view.loc (thr d L) ↦[Finset.univ]{tq L} f : sProp 𝕄)
      ⊣⊢ iprop(((tV).view.loc (thr d L) ↦[Finset.univ]{Transfers.shareDrop (tq L) 8} f)
        ∗ bigSep Finset.univ (fun i : Fin 8 => ((tV).view.loc (thr d L) ↦[Finset.univ]{Transfers.shareTok (tq L) 8 i} f : sProp 𝕄))) :=
    Transfers.pointsTo_toks (tq L) 8
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

/-! ## Write-backs in flight, and the loop's invariant -/

/-- What is left of the row scratch's elements when all eight slots are lent to their write-backs. -/
abbrev rest8 (d : Dev nD) (L : grid0.Coords) : Finset (Idx ((rV).view.loc (thr d L))) :=
  (((((((((Finset.univ : Finset (Idx ((rV).view.loc (thr d L)))) \ (slot0).view.set) \ (slot1).view.set) \ (slot2).view.set) \ (slot3).view.set) \ (slot4).view.set) \ (slot5).view.set) \ (slot6).view.set) \ (slot7).view.set)

/-- Slot 0's write-back of trip `kp` in flight: it holds the slot (at the scratch's contents `fr`) and delivers the row at
    contents whose first 50 sub-rows are the looked-up table rows. -/
abbrev WB0 (d : Dev nD) (L : grid0.Coords) (kp : Fin k0_t1_loop.trips) (fr : Buf (Elt F) ((rV).view.loc (thr d L))) : sProp 𝕄 :=
  iprop(∃ fo : Buf (Elt F) ((orow0 L kp).view.loc (thr d L)),
    Transfers.Flight countersEmb (thr d L) (SemLoc.dma (wS0).sem) (default : HIx 1) 229376
      iprop(((orow0 L kp).view.loc (thr d L) ↦[(orow0 L kp).view.set]{fullShare} fo) ∗ ((rV).view.loc (thr d L) ↦[(slot0).view.set]{fullShare} fr))
    ∗ ⌜Cert.Spec.RowOK (Iarr m d) (Parr m d) fo (rowIx L kp 0)⌝)
/-- Slot 1's write-back of trip `kp` in flight: it holds the slot (at the scratch's contents `fr`) and delivers the row at
    contents whose first 50 sub-rows are the looked-up table rows. -/
abbrev WB1 (d : Dev nD) (L : grid0.Coords) (kp : Fin k0_t1_loop.trips) (fr : Buf (Elt F) ((rV).view.loc (thr d L))) : sProp 𝕄 :=
  iprop(∃ fo : Buf (Elt F) ((orow1 L kp).view.loc (thr d L)),
    Transfers.Flight countersEmb (thr d L) (SemLoc.dma (wS1).sem) (default : HIx 1) 229376
      iprop(((orow1 L kp).view.loc (thr d L) ↦[(orow1 L kp).view.set]{fullShare} fo) ∗ ((rV).view.loc (thr d L) ↦[(slot1).view.set]{fullShare} fr))
    ∗ ⌜Cert.Spec.RowOK (Iarr m d) (Parr m d) fo (rowIx L kp 1)⌝)
/-- Slot 2's write-back of trip `kp` in flight: it holds the slot (at the scratch's contents `fr`) and delivers the row at
    contents whose first 50 sub-rows are the looked-up table rows. -/
abbrev WB2 (d : Dev nD) (L : grid0.Coords) (kp : Fin k0_t1_loop.trips) (fr : Buf (Elt F) ((rV).view.loc (thr d L))) : sProp 𝕄 :=
  iprop(∃ fo : Buf (Elt F) ((orow2 L kp).view.loc (thr d L)),
    Transfers.Flight countersEmb (thr d L) (SemLoc.dma (wS2).sem) (default : HIx 1) 229376
      iprop(((orow2 L kp).view.loc (thr d L) ↦[(orow2 L kp).view.set]{fullShare} fo) ∗ ((rV).view.loc (thr d L) ↦[(slot2).view.set]{fullShare} fr))
    ∗ ⌜Cert.Spec.RowOK (Iarr m d) (Parr m d) fo (rowIx L kp 2)⌝)
/-- Slot 3's write-back of trip `kp` in flight: it holds the slot (at the scratch's contents `fr`) and delivers the row at
    contents whose first 50 sub-rows are the looked-up table rows. -/
abbrev WB3 (d : Dev nD) (L : grid0.Coords) (kp : Fin k0_t1_loop.trips) (fr : Buf (Elt F) ((rV).view.loc (thr d L))) : sProp 𝕄 :=
  iprop(∃ fo : Buf (Elt F) ((orow3 L kp).view.loc (thr d L)),
    Transfers.Flight countersEmb (thr d L) (SemLoc.dma (wS3).sem) (default : HIx 1) 229376
      iprop(((orow3 L kp).view.loc (thr d L) ↦[(orow3 L kp).view.set]{fullShare} fo) ∗ ((rV).view.loc (thr d L) ↦[(slot3).view.set]{fullShare} fr))
    ∗ ⌜Cert.Spec.RowOK (Iarr m d) (Parr m d) fo (rowIx L kp 3)⌝)
/-- Slot 4's write-back of trip `kp` in flight: it holds the slot (at the scratch's contents `fr`) and delivers the row at
    contents whose first 50 sub-rows are the looked-up table rows. -/
abbrev WB4 (d : Dev nD) (L : grid0.Coords) (kp : Fin k0_t1_loop.trips) (fr : Buf (Elt F) ((rV).view.loc (thr d L))) : sProp 𝕄 :=
  iprop(∃ fo : Buf (Elt F) ((orow4 L kp).view.loc (thr d L)),
    Transfers.Flight countersEmb (thr d L) (SemLoc.dma (wS4).sem) (default : HIx 1) 229376
      iprop(((orow4 L kp).view.loc (thr d L) ↦[(orow4 L kp).view.set]{fullShare} fo) ∗ ((rV).view.loc (thr d L) ↦[(slot4).view.set]{fullShare} fr))
    ∗ ⌜Cert.Spec.RowOK (Iarr m d) (Parr m d) fo (rowIx L kp 4)⌝)
/-- Slot 5's write-back of trip `kp` in flight: it holds the slot (at the scratch's contents `fr`) and delivers the row at
    contents whose first 50 sub-rows are the looked-up table rows. -/
abbrev WB5 (d : Dev nD) (L : grid0.Coords) (kp : Fin k0_t1_loop.trips) (fr : Buf (Elt F) ((rV).view.loc (thr d L))) : sProp 𝕄 :=
  iprop(∃ fo : Buf (Elt F) ((orow5 L kp).view.loc (thr d L)),
    Transfers.Flight countersEmb (thr d L) (SemLoc.dma (wS5).sem) (default : HIx 1) 229376
      iprop(((orow5 L kp).view.loc (thr d L) ↦[(orow5 L kp).view.set]{fullShare} fo) ∗ ((rV).view.loc (thr d L) ↦[(slot5).view.set]{fullShare} fr))
    ∗ ⌜Cert.Spec.RowOK (Iarr m d) (Parr m d) fo (rowIx L kp 5)⌝)
/-- Slot 6's write-back of trip `kp` in flight: it holds the slot (at the scratch's contents `fr`) and delivers the row at
    contents whose first 50 sub-rows are the looked-up table rows. -/
abbrev WB6 (d : Dev nD) (L : grid0.Coords) (kp : Fin k0_t1_loop.trips) (fr : Buf (Elt F) ((rV).view.loc (thr d L))) : sProp 𝕄 :=
  iprop(∃ fo : Buf (Elt F) ((orow6 L kp).view.loc (thr d L)),
    Transfers.Flight countersEmb (thr d L) (SemLoc.dma (wS6).sem) (default : HIx 1) 229376
      iprop(((orow6 L kp).view.loc (thr d L) ↦[(orow6 L kp).view.set]{fullShare} fo) ∗ ((rV).view.loc (thr d L) ↦[(slot6).view.set]{fullShare} fr))
    ∗ ⌜Cert.Spec.RowOK (Iarr m d) (Parr m d) fo (rowIx L kp 6)⌝)
/-- Slot 7's write-back of trip `kp` in flight: it holds the slot (at the scratch's contents `fr`) and delivers the row at
    contents whose first 50 sub-rows are the looked-up table rows. -/
abbrev WB7 (d : Dev nD) (L : grid0.Coords) (kp : Fin k0_t1_loop.trips) (fr : Buf (Elt F) ((rV).view.loc (thr d L))) : sProp 𝕄 :=
  iprop(∃ fo : Buf (Elt F) ((orow7 L kp).view.loc (thr d L)),
    Transfers.Flight countersEmb (thr d L) (SemLoc.dma (wS7).sem) (default : HIx 1) 229376
      iprop(((orow7 L kp).view.loc (thr d L) ↦[(orow7 L kp).view.set]{fullShare} fo) ∗ ((rV).view.loc (thr d L) ↦[(slot7).view.set]{fullShare} fr))
    ∗ ⌜Cert.Spec.RowOK (Iarr m d) (Parr m d) fo (rowIx L kp 7)⌝)

/-- What every trip keeps: the evidence for waits, the eight read tokens of the padded table, the list scratch at the
    task's chunk `Iv`, the gather semaphores at zero, the rows of the trips to come at their launch contents, the rows
    of the trips before the last one written, the recorded waits. -/
def invCore (d : Dev nD) (L : grid0.Coords) (O : CellTallies nD τ sig (HIx 1)) (W : Waits sig (HIx 1))
    (Iv : Buf (Elt F) ((sV).view.loc (thr d L))) (k : ℕ) : sProp 𝕄 :=
  iprop(Transfers.MayWaits (thr d L) (default : HIx 1) O
    ∗ ((tV).view.loc (thr d L) ↦{Transfers.shareTok (tq L) 8 (0 : Fin 8)} Parr m d) ∗ ((tV).view.loc (thr d L) ↦{Transfers.shareTok (tq L) 8 (1 : Fin 8)} Parr m d) ∗ ((tV).view.loc (thr d L) ↦{Transfers.shareTok (tq L) 8 (2 : Fin 8)} Parr m d) ∗ ((tV).view.loc (thr d L) ↦{Transfers.shareTok (tq L) 8 (3 : Fin 8)} Parr m d) ∗ ((tV).view.loc (thr d L) ↦{Transfers.shareTok (tq L) 8 (4 : Fin 8)} Parr m d) ∗ ((tV).view.loc (thr d L) ↦{Transfers.shareTok (tq L) 8 (5 : Fin 8)} Parr m d) ∗ ((tV).view.loc (thr d L) ↦{Transfers.shareTok (tq L) 8 (6 : Fin 8)} Parr m d) ∗ ((tV).view.loc (thr d L) ↦{Transfers.shareTok (tq L) 8 (7 : Fin 8)} Parr m d)
    ∗ ((sV).view.loc (thr d L) ↦{fullShare} Iv)
    ∗ semVal (thr d L, SemLoc.dma (gS0).sem) 0 ∗ semVal (thr d L, SemLoc.dma (gS1).sem) 0 ∗ semVal (thr d L, SemLoc.dma (gS2).sem) 0 ∗ semVal (thr d L, SemLoc.dma (gS3).sem) 0 ∗ semVal (thr d L, SemLoc.dma (gS4).sem) 0 ∗ semVal (thr d L, SemLoc.dma (gS5).sem) 0 ∗ semVal (thr d L, SemLoc.dma (gS6).sem) 0 ∗ semVal (thr d L, SemLoc.dma (gS7).sem) 0
    ∗ bigSep (Ring.rangeSet k0_t1_loop.trips k k0_t1_loop.trips) (fun k' => RowsIn m d L k')
    ∗ bigSep (Ring.rangeSet k0_t1_loop.trips 0 (k - 1)) (fun k' => RowsOut m d L k')
    ∗ (∃ W', ⌜∀ p ∈ W', p ∈ W ∨ p.2 = none⌝ ∗ owes (thr d L) O W'))

/-- Before the first trip the row scratch is whole and the write-back semaphores are at zero; -/
def invFirst (d : Dev nD) (L : grid0.Coords) : sProp 𝕄 :=
  iprop((∃ fr, (rV).view.loc (thr d L) ↦{fullShare} fr)
    ∗ semVal (thr d L, SemLoc.dma (wS0).sem) 0 ∗ semVal (thr d L, SemLoc.dma (wS1).sem) 0 ∗ semVal (thr d L, SemLoc.dma (wS2).sem) 0 ∗ semVal (thr d L, SemLoc.dma (wS3).sem) 0 ∗ semVal (thr d L, SemLoc.dma (wS4).sem) 0 ∗ semVal (thr d L, SemLoc.dma (wS5).sem) 0 ∗ semVal (thr d L, SemLoc.dma (wS6).sem) 0 ∗ semVal (thr d L, SemLoc.dma (wS7).sem) 0)
/-- after trip `kp` its eight write-backs are in flight. -/
def invLater (d : Dev nD) (L : grid0.Coords) (kp : Fin k0_t1_loop.trips) : sProp 𝕄 :=
  iprop(∃ fr, ((rV).view.loc (thr d L) ↦[rest8 d L]{fullShare} fr)
    ∗ WB0 m d L kp fr ∗ WB1 m d L kp fr ∗ WB2 m d L kp fr ∗ WB3 m d L kp fr ∗ WB4 m d L kp fr ∗ WB5 m d L kp fr ∗ WB6 m d L kp fr ∗ WB7 m d L kp fr)

/-- The loop's invariant before trip `k`. -/
def inv (d : Dev nD) (L : grid0.Coords) (O : CellTallies nD τ sig (HIx 1)) (W : Waits sig (HIx 1))
    (Iv : Buf (Elt F) ((sV).view.loc (thr d L))) (k : ℕ) (_ : Unit) : sProp 𝕄 :=
  iprop(invCore m d L O W Iv k
    ∗ (if k = 0 then invFirst d L else if hk : k - 1 < k0_t1_loop.trips then invLater m d L ⟨k - 1, hk⟩ else iprop(False)))

theorem inv_zero (d : Dev nD) (L : grid0.Coords) (O : CellTallies nD τ sig (HIx 1)) (W : Waits sig (HIx 1))
    (Iv : Buf (Elt F) ((sV).view.loc (thr d L))) :
    inv m d L O W Iv 0 () = iprop(invCore m d L O W Iv 0 ∗ invFirst d L) := by
  unfold inv; rw [if_pos rfl]
theorem inv_succ (d : Dev nD) (L : grid0.Coords) (O : CellTallies nD τ sig (HIx 1)) (W : Waits sig (HIx 1))
    (Iv : Buf (Elt F) ((sV).view.loc (thr d L))) (k : Fin k0_t1_loop.trips) :
    inv m d L O W Iv (k.val + 1) () = iprop(invCore m d L O W Iv (k.val + 1) ∗ invLater m d L k) := by
  unfold inv
  rw [if_neg (Nat.succ_ne_zero _), dif_pos (show k.val + 1 - 1 < k0_t1_loop.trips from by rw [Nat.add_sub_cancel]; exact k.isLt)]
  congr 2

/-- Recording one more wait at index `none` keeps the recorded waits within what the obligation allows. -/
theorem waits_ins {W0 W' : Waits sig (HIx 1)} (sm : SemLoc sig) (h : ∀ p ∈ W', p ∈ W0 ∨ p.2 = none) :
    ∀ p ∈ insert (sm, (default : HIx 1)) W', p ∈ W0 ∨ p.2 = none := by
  intro p hp
  rcases Finset.mem_insert.mp hp with hp | hp
  · exact .inr (hp ▸ rfl)
  · exact h p hp

end Cert.Proof.K

end
-- ==== Proof.LibGatherRows.lean ====
/-
  The SparseCore indirect gather read at an index, at rank 2 with the indexed axis 0: the gathered array's element
  `(i, c)` is the source's element `(row i, c)`, where `row i` is the row the offset list names for `i`; and the
  row a rank-1 offset list names for position `k` is its `k`-th word, read unsigned.
-/
import Idealize.ShloMosaic.Lib.SparseCore.Stream
import Idealize.ShloMosaic.Lib.ValueIdx

noncomputable section

namespace Cert.Lib.GatherRows

open Idealize.ShloMosaic Idealize.ShloMosaic.ValueIdx

variable {F : FTy → Type} {e : EltTy}

/-- A gather along axis 0 of a rank-2 source `[N, C]` into `[R, C]`, read at an index `x`: the source at the row the
    list names for `x`'s row, and at `x`'s own column. -/
theorem gatherPayload_apply {N C R : Nat} (hg : (⟨2, ![N, C]⟩ : Shape).Gathers 0 ⟨2, ![R, C]⟩)
    (g : (⟨2, ![N, C]⟩ : Shape).Idx → Elt F e)
    (r : Fin ((⟨2, ![R, C]⟩ : Shape).size hg.axis') → Fin ((⟨2, ![N, C]⟩ : Shape).size hg.axis))
    (x : (⟨2, ![R, C]⟩ : Shape).Idx) :
    SparseCore.gatherPayload hg g r x
      = g (ix2 (⟨(r ⟨(x 0).val, idx2_lt0 x⟩).val, (r ⟨(x 0).val, idx2_lt0 x⟩).isLt⟩ : Fin N) (⟨(x 1).val, idx2_lt1 x⟩ : Fin C)) := by
  unfold SparseCore.gatherPayload
  congr 1
  funext b
  apply Fin.ext
  match b with
  | ⟨0, _⟩ => exact congrArg Fin.val (Shape.Gathers.idx_axis hg r x)
  | ⟨1, _⟩ => exact Shape.Gathers.idx_of_ne hg r x ⟨1, Nat.one_lt_two⟩ Nat.one_ne_zero

/-- The same, with the named row given by its value: if the list names row `m` for `x`'s row, the gathered element at
    `x` is the source at `(m, x 1)`. (The form to use when the row is known through an equation of naturals.) -/
theorem gatherPayload_apply_of_val {N C R : Nat} (hg : (⟨2, ![N, C]⟩ : Shape).Gathers 0 ⟨2, ![R, C]⟩)
    (g : (⟨2, ![N, C]⟩ : Shape).Idx → Elt F e)
    (r : Fin ((⟨2, ![R, C]⟩ : Shape).size hg.axis') → Fin ((⟨2, ![N, C]⟩ : Shape).size hg.axis))
    (x : (⟨2, ![R, C]⟩ : Shape).Idx) (m : Fin N) (hm : (r ⟨(x 0).val, idx2_lt0 x⟩).val = m.val) :
    SparseCore.gatherPayload hg g r x = g (ix2 m (⟨(x 1).val, idx2_lt1 x⟩ : Fin C)) := by
  rw [gatherPayload_apply]
  congr 2
  exact Fin.ext hm

/-- A position in a rank-1 list of `n` entries is below `n`. -/
theorem lt_of_numel {n o : Nat} (hn : (⟨1, ![n]⟩ : Shape).numel = o) (k : Fin o) : k.val < n := by
  have h1 := k.isLt
  have h2 : (⟨1, ![n]⟩ : Shape).numel = n := Shape.numel_rank1 ![n]
  omega

/-- The row a rank-1 offset list names for position `k` is its `k`-th word, read unsigned. -/
theorem rows_val {n o z : Nat} (idx : (⟨1, ![n]⟩ : Shape).Idx → BitVec 32) (hn : (⟨1, ![n]⟩ : Shape).numel = o)
    (hin : ∀ x, (idx x).toNat < z) (k : Fin o) :
    (SparseCore.rows (F := F) idx hn hin k).val
      = (idx (ix1 (⟨k.val, lt_of_numel hn k⟩ : Fin n))).toNat := by
  unfold SparseCore.rows
  show (idx _).toNat = (idx _).toNat
  congr 2
  rw [Equiv.symm_apply_eq]
  apply Fin.ext
  rw [Shape.rowMajor_val_one]
  rfl

/-- The two together: a gather along axis 0 of `[N, C]` into `[R, C]` whose rows are named by a rank-1 list of words
    `idx`, read at `x`, is the source at row `idx (x 0)` (unsigned) and column `x 1`. -/
theorem gatherPayload_rows_apply {N C R n : Nat} (hg : (⟨2, ![N, C]⟩ : Shape).Gathers 0 ⟨2, ![R, C]⟩)
    (g : (⟨2, ![N, C]⟩ : Shape).Idx → Elt F e) (idx : (⟨1, ![n]⟩ : Shape).Idx → BitVec 32)
    (hn : (⟨1, ![n]⟩ : Shape).numel = (⟨2, ![R, C]⟩ : Shape).size hg.axis')
    (hin : ∀ x, (idx x).toNat < (⟨2, ![N, C]⟩ : Shape).size hg.axis) (x : (⟨2, ![R, C]⟩ : Shape).Idx) :
    SparseCore.gatherPayload hg g (SparseCore.rows (F := F) idx hn hin) x
      = g (ix2 (⟨(idx (ix1 (⟨(x 0).val, lt_of_numel hn ⟨(x 0).val, idx2_lt0 x⟩⟩ : Fin n))).toNat, hin _⟩ : Fin N)
            (⟨(x 1).val, idx2_lt1 x⟩ : Fin C)) :=
  gatherPayload_apply_of_val hg g _ x _ (rows_val idx hn hin _)

end Cert.Lib.GatherRows

end
-- ==== Proof.KVals.lean ====
/-
  The values a trip of the task leaves: after its eight gathers, slot `u` of the row scratch holds in its first 50
  rows the rows of the padded table that the task's list names, and the write-back copies the slot whole into row
  `512 w + 8 k + u` of the intermediate array; so that row satisfies `Cert.Spec.RowOK`.
-/
import proofs.«206314_g14001593385621_cont_week2b_782_31_alg».proof.Proof.KPay
import proofs.«206314_g14001593385621_cont_week2b_782_31_alg».proof.Proof.LibGatherRows
import Idealize.ShloMosaic.Lib.Writes
import Idealize.ShloMosaic.Lib.ValueIdx
import Idealize.ShloMosaic.Lib.ValueLayout

noncomputable section

namespace Cert.Proof.K

open Cert.Kernel Cert.Kernel.Gen

open Idealize.ShloMosaic Idealize.ShloMosaic.ValueIdx
open Idealize.ShloMosaic.SparseCore (S V T)

local notation "tV" => (Memref.whole Cert.Kernel.main_v2_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S917504 EltTy.i32)
local notation "oV" => (Memref.whole Cert.Kernel.main_v3_scv : Memref Cert.Kernel.sig Kind.scVector Space.hbm Cert.Kernel.S16384x56x128 EltTy.f32)
local notation "sV" => (Memref.whole Cert.Kernel.cc0_scratch0 : Memref Cert.Kernel.sig Kind.scVector Space.vmem Cert.Kernel.S28672 EltTy.i32)
local notation "rV" => (Memref.whole Cert.Kernel.cc0_scratch1 : Memref Cert.Kernel.sig Kind.scVector Space.vmem Cert.Kernel.S8x56x128 EltTy.f32)

/-! ## Views of a row block and of a segment, read at an index -/

section Generic

variable {sg : RefSig} {κ : Kind} {sp : Space} {e : EltTy} {Val : EltTy → Type}

/-- A block `[1, B', C]` of a rank-3 view at offsets `off`, with the unit axis dropped, places its index `(h, l)`
    where the view places `(off 0, off 1 + h, off 2 + l)`. -/
theorem emb_rowBlock {A B C B' : Nat} (v : View sg κ sp ⟨3, ![A, B, C]⟩ e) (off : Fin 3 → Nat)
    (inb : ∀ a, off a + (![1, B', C] : Fin 3 → Nat) a ≤ (⟨3, ![A, B, C]⟩ : Shape).size a)
    (hq : (⟨2, ![B', C]⟩ : Shape).numel = (Rect.unit (s := ⟨3, ![A, B, C]⟩) off ![1, B', C] inb).shape.numel)
    (x : (⟨2, ![B', C]⟩ : Shape).Idx) (y : (⟨3, ![A, B, C]⟩ : Shape).Idx)
    (hy0 : (y 0).val = off 0) (hy1 : (y 1).val = off 1 + (x 0).val) (hy2 : (y 2).val = off 2 + (x 1).val) :
    ((v.slice (Rect.unit (s := ⟨3, ![A, B, C]⟩) off ![1, B', C] inb)).reshape ⟨2, ![B', C]⟩ hq).emb x = v.emb y := by
  have hz : Shape.reshapeEquiv hq x = (ix3 (⟨0, Nat.one_pos⟩ : Fin 1) (x 0) (x 1) : (⟨3, ![1, B', C]⟩ : Shape).Idx) :=
    Shape.reshapeEquiv_eq_of_rowMajor hq (by
      refine (Shape.rowMajor_val_three (d := ![1, B', C]) _).trans ?_
      rw [Shape.rowMajor_val_two]
      show ((0 * B' + (x 0).val) * C + (x 1).val) = (x 0).val * C + (x 1).val
      simp only [Nat.zero_mul, Nat.zero_add])
  show v.emb ((Rect.unit (s := ⟨3, ![A, B, C]⟩) off ![1, B', C] inb).emb (Shape.reshapeEquiv hq x)) = v.emb y
  rw [hz]
  refine congrArg v.emb (funext fun a => Fin.ext ?_)
  match a with
  | ⟨0, _⟩ => show off 0 + 1 * 0 = (y 0).val; omega
  | ⟨1, _⟩ => show off 1 + 1 * (x 0).val = (y 1).val; omega
  | ⟨2, _⟩ => show off 2 + 1 * (x 1).val = (y 2).val; omega

/-- Such a block places nothing at an index of the view whose first coordinate is not the block's. -/
theorem emb_rowBlock_ne {A B C B' : Nat} (v : View sg κ sp ⟨3, ![A, B, C]⟩ e) (off : Fin 3 → Nat)
    (inb : ∀ a, off a + (![1, B', C] : Fin 3 → Nat) a ≤ (⟨3, ![A, B, C]⟩ : Shape).size a)
    (hq : (⟨2, ![B', C]⟩ : Shape).numel = (Rect.unit (s := ⟨3, ![A, B, C]⟩) off ![1, B', C] inb).shape.numel)
    (y : (⟨3, ![A, B, C]⟩ : Shape).Idx) (hy0 : (y 0).val ≠ off 0) (x : (⟨2, ![B', C]⟩ : Shape).Idx) :
    ((v.slice (Rect.unit (s := ⟨3, ![A, B, C]⟩) off ![1, B', C] inb)).reshape ⟨2, ![B', C]⟩ hq).emb x ≠ v.emb y := by
  intro hx
  have h0 : off 0 + 1 ≤ A := inb 0
  have h1 : off 1 + B' ≤ B := inb 1
  have h2 : off 2 + C ≤ C := inb 2
  have hx0 : (x 0).val < B' := (x 0).isLt
  have hx1 : (x 1).val < C := (x 1).isLt
  rw [emb_rowBlock v off inb hq x
    (ix3 (⟨off 0, by omega⟩ : Fin A) (⟨off 1 + (x 0).val, by omega⟩ : Fin B) (⟨off 2 + (x 1).val, by omega⟩ : Fin C)) rfl rfl rfl] at hx
  exact hy0 (congrArg (fun j : (⟨3, ![A, B, C]⟩ : Shape).Idx => (j 0).val) (v.emb.injective hx)).symm

/-- A segment of a rank-1 view at offset `off` places its index `h` where the view places `off + h`. -/
theorem emb_seg {n n' : Nat} (v : View sg κ sp ⟨1, ![n]⟩ e) (off : Fin 1 → Nat)
    (inb : ∀ a, off a + (![n'] : Fin 1 → Nat) a ≤ (⟨1, ![n]⟩ : Shape).size a)
    (x : (⟨1, ![n']⟩ : Shape).Idx) (y : (⟨1, ![n]⟩ : Shape).Idx) (hy : (y 0).val = off 0 + (x 0).val) :
    (v.slice (Rect.unit (s := ⟨1, ![n]⟩) off ![n'] inb)).emb x = v.emb y := by
  show v.emb ((Rect.unit (s := ⟨1, ![n]⟩) off ![n'] inb).emb x) = v.emb y
  refine congrArg v.emb (funext fun a => Fin.ext ?_)
  match a with
  | ⟨0, _⟩ => show off 0 + 1 * (x 0).val = (y 0).val; omega

/-- An unmasked write through a view changes nothing where the view places no index. -/
theorem write_univ_of_forall_ne {s : Shape} (w : View sg κ sp s e) (f : w.ty.Contents Val) (p : s.Idx → Val e)
    (i : w.ty.Idx) (hi : ∀ x, w.emb x ≠ i) : w.write Val f p Finset.univ i = f i := by
  refine View.write_of_not_mem f p Finset.univ ?_
  intro hm
  obtain ⟨x, -, hx⟩ := Finset.mem_map.mp hm
  exact hi x hx

end Generic

/-! ## The task's views -/

section Concrete

variable {F : FTy → Type} [FloatOps F]

/-- Slot `u` of the row scratch, all 56 rows; its first 50 rows; a row of the intermediate array; 50 words of the
    list scratch: the task's memrefs with the slot (and the offsets) as parameters. -/
abbrev slotG (u : Fin 8) (inbS : ∀ a, (![u.val, 0, 0] : Fin 3 → Nat) a + S1x56x128.size a ≤ S8x56x128.size a) :
    Memref sig .scVector .vmem S56x128 .f32 :=
  ((rV).slice (Rect.unit (s := S8x56x128) ![u.val, 0, 0] S1x56x128.size inbS) (fun _ => rfl)).squeeze S56x128 squeezes_S1x56x128_S56x128
abbrev g50G (u : Fin 8) (inbG : ∀ a, (![u.val, 0, 0] : Fin 3 → Nat) a + S1x50x128.size a ≤ S8x56x128.size a) :
    Memref sig .scVector .vmem S50x128 .f32 :=
  ((rV).slice (Rect.unit (s := S8x56x128) ![u.val, 0, 0] S1x50x128.size inbG) (fun _ => rfl)).squeeze S50x128 squeezes_S1x50x128_S50x128
abbrev orowG (offO : Fin 3 → Nat) (inbO : ∀ a, offO a + S1x56x128.size a ≤ S16384x56x128.size a) :
    Memref sig .scVector .hbm S56x128 .f32 :=
  ((oV).slice (Rect.unit (s := S16384x56x128) offO S1x56x128.size inbO) (fun _ => rfl)).squeeze S56x128 squeezes_S1x56x128_S56x128
abbrev lstG (off3 : Fin 1 → Nat) (inb3 : ∀ a, off3 a + S50.size a ≤ S28672.size a) : Memref sig .scVector .vmem S50 .i32 :=
  (sV).slice (Rect.unit (s := S28672) off3 S50.size inb3) (fun _ => rfl)

/-- Slot `u` read at `(h, l)` is the row scratch at `(u, h, l)`. -/
theorem slotG_read (u : Fin 8) (inbS : ∀ a, (![u.val, 0, 0] : Fin 3 → Nat) a + S1x56x128.size a ≤ S8x56x128.size a)
    (d : Dev nD) (c : Fin τ.nSC) (i : Fin τ.nSub) (N : Buf (Elt F) ((rV).view.loc (V d c i))) (h : Fin 56) (l : Fin 128) :
    (slotG u inbS).view.read (Elt F) N (ix2 h l) = N (ix3 u h l) :=
  ((View.read_apply _ _).trans (cast_eq _ _)).trans
    (congrArg N (emb_rowBlock (rV).view ![u.val, 0, 0] inbS _ (ix2 h l) (ix3 u h l) rfl
      (by show h.val = 0 + h.val; omega) (by show l.val = 0 + l.val; omega)))

/-- A gather into another slot leaves slot `u`'s elements as they were. -/
theorem g50G_miss (u' : Fin 8) (inbG : ∀ a, (![u'.val, 0, 0] : Fin 3 → Nat) a + S1x50x128.size a ≤ S8x56x128.size a)
    (d : Dev nD) (c : Fin τ.nSC) (i : Fin τ.nSub) (f : Buf (Elt F) ((rV).view.loc (V d c i))) (p : S50x128.Idx → Elt F .f32)
    (u : Fin 8) (hne : u.val ≠ u'.val) (h : Fin 56) (l : Fin 128) :
    View.write (Elt F) (g50G u' inbG).view f p Finset.univ (ix3 u h l) = f (ix3 u h l) :=
  write_univ_of_forall_ne (g50G u' inbG).view f p (ix3 u h l)
    (emb_rowBlock_ne (rV).view ![u'.val, 0, 0] inbG _ (ix3 u h l) hne)

/-- The gather into slot `u` leaves its payload in the slot's first 50 rows. -/
theorem g50G_hit (u : Fin 8) (inbG : ∀ a, (![u.val, 0, 0] : Fin 3 → Nat) a + S1x50x128.size a ≤ S8x56x128.size a)
    (d : Dev nD) (c : Fin τ.nSC) (i : Fin τ.nSub) (f : Buf (Elt F) ((rV).view.loc (V d c i))) (p : S50x128.Idx → Elt F .f32)
    (h : Fin 56) (hh : h.val < 50) (l : Fin 128) :
    View.write (Elt F) (g50G u inbG).view f p Finset.univ (ix3 u h l) = p (ix2 (⟨h.val, hh⟩ : Fin 50) l) := by
  have e := emb_rowBlock (rV).view ![u.val, 0, 0] inbG squeezes_S1x50x128_S50x128.numel_eq (ix2 (⟨h.val, hh⟩ : Fin 50) l) (ix3 u h l) rfl
    (by show h.val = 0 + h.val; omega) (by show l.val = 0 + l.val; omega)
  have w := View.write_emb_of_mem (v := (g50G u inbG).view) (Val := Elt F) f p (M := Finset.univ)
    (x := ix2 (⟨h.val, hh⟩ : Fin 50) l) (Finset.mem_univ _)
  exact (congrArg (View.write (Elt F) (g50G u inbG).view f p Finset.univ) e.symm).trans (w.trans (cast_eq _ _))

/-- After the eight gathers, an element of slot 0's first 50 rows is the payload of gather 0 there: the later
    gathers write other slots. -/
theorem nest_at0 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (0 : Fin 8) h l) = p 0 (ix2 (⟨h.val, hh⟩ : Fin 50) l) := by
  unfold nest
  refine (g50G_miss 7 _ d c i _ _ 0 (by decide) h l).trans ?_
  refine (g50G_miss 6 _ d c i _ _ 0 (by decide) h l).trans ?_
  refine (g50G_miss 5 _ d c i _ _ 0 (by decide) h l).trans ?_
  refine (g50G_miss 4 _ d c i _ _ 0 (by decide) h l).trans ?_
  refine (g50G_miss 3 _ d c i _ _ 0 (by decide) h l).trans ?_
  refine (g50G_miss 2 _ d c i _ _ 0 (by decide) h l).trans ?_
  refine (g50G_miss 1 _ d c i _ _ 0 (by decide) h l).trans ?_
  exact g50G_hit 0 _ d c i _ _ h hh l

/-- After the eight gathers, an element of slot 1's first 50 rows is the payload of gather 1 there: the later
    gathers write other slots. -/
theorem nest_at1 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (1 : Fin 8) h l) = p 1 (ix2 (⟨h.val, hh⟩ : Fin 50) l) := by
  unfold nest
  refine (g50G_miss 7 _ d c i _ _ 1 (by decide) h l).trans ?_
  refine (g50G_miss 6 _ d c i _ _ 1 (by decide) h l).trans ?_
  refine (g50G_miss 5 _ d c i _ _ 1 (by decide) h l).trans ?_
  refine (g50G_miss 4 _ d c i _ _ 1 (by decide) h l).trans ?_
  refine (g50G_miss 3 _ d c i _ _ 1 (by decide) h l).trans ?_
  refine (g50G_miss 2 _ d c i _ _ 1 (by decide) h l).trans ?_
  exact g50G_hit 1 _ d c i _ _ h hh l

/-- After the eight gathers, an element of slot 2's first 50 rows is the payload of gather 2 there: the later
    gathers write other slots. -/
theorem nest_at2 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (2 : Fin 8) h l) = p 2 (ix2 (⟨h.val, hh⟩ : Fin 50) l) := by
  unfold nest
  refine (g50G_miss 7 _ d c i _ _ 2 (by decide) h l).trans ?_
  refine (g50G_miss 6 _ d c i _ _ 2 (by decide) h l).trans ?_
  refine (g50G_miss 5 _ d c i _ _ 2 (by decide) h l).trans ?_
  refine (g50G_miss 4 _ d c i _ _ 2 (by decide) h l).trans ?_
  refine (g50G_miss 3 _ d c i _ _ 2 (by decide) h l).trans ?_
  exact g50G_hit 2 _ d c i _ _ h hh l

/-- After the eight gathers, an element of slot 3's first 50 rows is the payload of gather 3 there: the later
    gathers write other slots. -/
theorem nest_at3 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (3 : Fin 8) h l) = p 3 (ix2 (⟨h.val, hh⟩ : Fin 50) l) := by
  unfold nest
  refine (g50G_miss 7 _ d c i _ _ 3 (by decide) h l).trans ?_
  refine (g50G_miss 6 _ d c i _ _ 3 (by decide) h l).trans ?_
  refine (g50G_miss 5 _ d c i _ _ 3 (by decide) h l).trans ?_
  refine (g50G_miss 4 _ d c i _ _ 3 (by decide) h l).trans ?_
  exact g50G_hit 3 _ d c i _ _ h hh l

/-- After the eight gathers, an element of slot 4's first 50 rows is the payload of gather 4 there: the later
    gathers write other slots. -/
theorem nest_at4 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (4 : Fin 8) h l) = p 4 (ix2 (⟨h.val, hh⟩ : Fin 50) l) := by
  unfold nest
  refine (g50G_miss 7 _ d c i _ _ 4 (by decide) h l).trans ?_
  refine (g50G_miss 6 _ d c i _ _ 4 (by decide) h l).trans ?_
  refine (g50G_miss 5 _ d c i _ _ 4 (by decide) h l).trans ?_
  exact g50G_hit 4 _ d c i _ _ h hh l

/-- After the eight gathers, an element of slot 5's first 50 rows is the payload of gather 5 there: the later
    gathers write other slots. -/
theorem nest_at5 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (5 : Fin 8) h l) = p 5 (ix2 (⟨h.val, hh⟩ : Fin 50) l) := by
  unfold nest
  refine (g50G_miss 7 _ d c i _ _ 5 (by decide) h l).trans ?_
  refine (g50G_miss 6 _ d c i _ _ 5 (by decide) h l).trans ?_
  exact g50G_hit 5 _ d c i _ _ h hh l

/-- After the eight gathers, an element of slot 6's first 50 rows is the payload of gather 6 there: the later
    gathers write other slots. -/
theorem nest_at6 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (6 : Fin 8) h l) = p 6 (ix2 (⟨h.val, hh⟩ : Fin 50) l) := by
  unfold nest
  refine (g50G_miss 7 _ d c i _ _ 6 (by decide) h l).trans ?_
  exact g50G_hit 6 _ d c i _ _ h hh l

/-- After the eight gathers, an element of slot 7's first 50 rows is the payload of gather 7 there: the later
    gathers write other slots. -/
theorem nest_at7 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (7 : Fin 8) h l) = p 7 (ix2 (⟨h.val, hh⟩ : Fin 50) l) := by
  unfold nest
  exact g50G_hit 7 _ d c i _ _ h hh l

end Concrete

/-! ## The gathered values and the written-back row -/

section Values

variable {F : FTy → Type} [FloatOps F]
variable (m : (ℓ : Loc nD τ sig) → Buf (Elt F) ℓ)

/-- Fifty words of the list scratch from `off`, read at `x`: the scratch at `off + x`. -/
theorem lstG_read (off3 : Fin 1 → Nat) (inb3 : ∀ a, off3 a + S50.size a ≤ S28672.size a)
    (d : Dev nD) (c : Fin τ.nSC) (i : Fin τ.nSub) (Iv : Buf (Elt F) ((sV).view.loc (V d c i)))
    (x : Fin 50) (y : Fin 28672) (hy : y.val = off3 0 + x.val) :
    (lstG off3 inb3).view.read (Elt F) Iv (ix1 x) = Iv (ix1 y) :=
  ((View.read_apply _ _).trans (cast_eq _ _)).trans (congrArg Iv (emb_seg (sV).view off3 inb3 (ix1 x) (ix1 y) hy))

/-- Word `j` of the task's chunk is word `28672 w + j` of the flattened list. -/
theorem iChunk_emb (L : grid0.Coords) (j : Fin 28672) (y : Fin 917504) (hy : y.val = 28672 * wid L + j.val) :
    (iChunk L).view.emb (ix1 j) = ix1 y :=
  emb_seg (iV).view (k0_off1 L) (k0_off1_inb L) (ix1 j) (ix1 y) (by
    rw [k0_off1_eq]
    show y.val = 57344 * (L 1).val + 28672 * (L 0).val + j.val
    unfold wid at hy
    omega)

/-- The gathers' source is the padded table whole. -/
theorem tAll_read (d : Dev nD) (P : Buf (Elt F) (pLoc d)) : (tAll).view.read (Elt F) P = P :=
  Memref.read_access_unit_zero (Elt F) main_v2_scv (funext fun a => match a with | ⟨0, _⟩ => rfl | ⟨1, _⟩ => rfl) _ P

/-- THE GATHERED VALUE: the gather of slot `u` in trip `k` puts at `(h, l)`, `h < 50`, the padded table's entry
    `(I (56 (512 w + 8 k + u) + h), l)`: the list scratch holds the task's chunk, words `[28672 w, 28672 w + 28672)`
    of the flattened list, and the gather's list is its words `[448 k + 56 u, 448 k + 56 u + 50)`. -/
theorem gath_val (d : Dev nD) (L : grid0.Coords) (k : Fin k0_t1_loop.trips) (u : Fin 8)
    (off3 : Fin 1 → Nat) (inb3 : ∀ a, off3 a + S50.size a ≤ S28672.size a) (hoff3 : off3 = ![448 * k.val + 56 * u.val])
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lstG off3 inb3).view.read (Elt F) Iv x).toNat < S1000000x128.size (gathers_S1000000x128_S50x128).axis)
    (h : Fin 56) (hh : h.val < 50) (l : Fin 128) (hlt : 56 * (rowIx L k u).val + h.val < 917504)
    (hI : (Iarr m d (ix1 (⟨56 * (rowIx L k u).val + h.val, hlt⟩ : Fin 917504))).toNat < 1000000) :
    SparseCore.gatherPayload gathers_S1000000x128_S50x128 ((tAll).view.read (Elt F) (Parr m d))
        (SparseCore.rows ((lstG off3 inb3).view.read (Elt F) Iv) hn hin') (ix2 (⟨h.val, hh⟩ : Fin 50) l)
      = Parr m d (ix2 (⟨(Iarr m d (ix1 (⟨56 * (rowIx L k u).val + h.val, hlt⟩ : Fin 917504))).toNat, hI⟩ : Fin 1000000) l) := by
  have hk : k.val < 64 := trips_eq ▸ k.isLt
  have hw := wid_lt L
  have hu := u.isLt
  have hrow : (rowIx L k u).val = 512 * wid L + 8 * k.val + u.val := rfl
  have e1 : (lstG off3 inb3).view.read (Elt F) Iv (ix1 (⟨h.val, hh⟩ : Fin 50))
      = Iarr m d (ix1 (⟨56 * (rowIx L k u).val + h.val, hlt⟩ : Fin 917504)) := by
    rw [lstG_read off3 inb3 d (cV L) (jV L) Iv ⟨h.val, hh⟩ (⟨448 * k.val + 56 * u.val + h.val, by omega⟩ : Fin 28672)
      (by rw [hoff3]; rfl), hIv,
      iChunk_emb L _ (⟨56 * (rowIx L k u).val + h.val, hlt⟩ : Fin 917504)
        (by show 56 * (rowIx L k u).val + h.val = 28672 * wid L + (448 * k.val + 56 * u.val + h.val); omega)]
  rw [Cert.Lib.GatherRows.gatherPayload_rows_apply, tAll_read]
  exact congrArg (Parr m d) (funext fun a => match a with
    | ⟨0, _⟩ => Fin.ext (congrArg BitVec.toNat e1)
    | ⟨1, _⟩ => rfl)

/-- THE WRITTEN-BACK ROW: if the row scratch holds, in slot `u`'s first 50 rows, the padded table's entries the
    flattened list names for row `512 w + 8 k + u`, then that row of the intermediate array, after the slot is
    copied whole into it, satisfies `RowOK`. -/
theorem rowOK_gen (d : Dev nD) (L : grid0.Coords) (k : Fin k0_t1_loop.trips) (u : Fin 8)
    (offO : Fin 3 → Nat) (hoffO : offO = ![1024 * (L 1).val + 512 * (L 0).val + 8 * k.val + u.val, 0, 0])
    (inbO : ∀ a, offO a + S1x56x128.size a ≤ S16384x56x128.size a)
    (inbS : ∀ a, (![u.val, 0, 0] : Fin 3 → Nat) a + S1x56x128.size a ≤ S8x56x128.size a)
    (N : Buf (Elt F) ((rV).view.loc (V d (cV L) (jV L))))
    (hN : ∀ (h : Fin 56) (l : Fin 128) (hh : h.val < 50) (hlt : 56 * (rowIx L k u).val + h.val < 917504)
      (hI : (Iarr m d (ix1 (⟨56 * (rowIx L k u).val + h.val, hlt⟩ : Fin 917504))).toNat < 1000000),
      N (ix3 u h l) = Parr m d (ix2 (⟨(Iarr m d (ix1 (⟨56 * (rowIx L k u).val + h.val, hlt⟩ : Fin 917504))).toNat, hI⟩ : Fin 1000000) l))
    (fo : Buf (Elt F) ((orowG offO inbO).view.loc (V d (cV L) (jV L)))) :
    Cert.Spec.RowOK (Iarr m d) (Parr m d)
      ((orowG offO inbO).view.writes (Elt F) fo
        [⟨Rect.whole S56x128, ReadAs.same.apply ((slotG u inbS).view.read (Elt F) N)⟩])
      (rowIx L k u) := by
  intro h l hh hI
  have hk : k.val < 64 := trips_eq ▸ k.isLt
  have hw := wid_lt L
  have hu := u.isLt
  have hrow : (rowIx L k u).val = 512 * wid L + 8 * k.val + u.val := rfl
  have hlt : 56 * (rowIx L k u).val + h.val < 917504 := by omega
  have e : ((orowG offO inbO).view.slice (Rect.whole S56x128)).emb (ix2 h l) = (oV).view.emb (ix3 (rowIx L k u) h l) := by
    show (orowG offO inbO).view.emb ((Rect.whole S56x128).emb (ix2 h l)) = _
    rw [Rect.emb_whole_apply]
    exact emb_rowBlock (oV).view offO inbO squeezes_S1x56x128_S56x128.numel_eq (ix2 h l) (ix3 (rowIx L k u) h l)
      (by rw [hoffO]; show (rowIx L k u).val = 1024 * (L 1).val + 512 * (L 0).val + 8 * k.val + u.val; rw [hrow]; unfold wid; omega)
      (by rw [hoffO]; show h.val = 0 + h.val; omega) (by rw [hoffO]; show l.val = 0 + l.val; omega)
  have w := View.write_emb_of_mem (v := (orowG offO inbO).view.slice (Rect.whole S56x128)) (Val := Elt F) fo
    (ReadAs.same.apply ((slotG u inbS).view.read (Elt F) N)) (M := Finset.univ) (x := ix2 h l) (Finset.mem_univ _)
  refine ((congrArg (View.write (Elt F) ((orowG offO inbO).view.slice (Rect.whole S56x128)) fo
    (ReadAs.same.apply ((slotG u inbS).view.read (Elt F) N)) Finset.univ) e.symm).trans (w.trans (cast_eq _ _))).trans ?_
  exact (slotG_read u inbS d (cV L) (jV L) N h l).trans (hN h l hh hlt hI)

/-- Trip `k`'s write-back of slot 0 leaves row `512 w + 8 k + 0` right: the row scratch after eight unmasked writes
    into the slots' first 50 rows, slot 0's the gather's payload, whatever the other seven wrote. -/
theorem rowOK0_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst0 k).view.read (Elt F) Iv x).toNat < S1000000x128.size (gathers_S1000000x128_S50x128).axis)
    (fr : Buf (Elt F) ((rV).view.loc (V d (cV L) (jV L)))) (fo : Buf (Elt F) ((orow0 L k).view.loc (V d (cV L) (jV L))))
    (p : Fin 8 → S50x128.Idx → Elt F .f32)
    (hp : p 0 = SparseCore.gatherPayload gathers_S1000000x128_S50x128 ((tAll).view.read (Elt F) (Parr m d)) (SparseCore.rows ((lst0 k).view.read (Elt F) Iv) hn hin')) :
    Cert.Spec.RowOK (Iarr m d) (Parr m d)
      ((orow0 L k).view.writes (Elt F) fo [⟨Rect.whole S56x128, ReadAs.same.apply ((slot0).view.read (Elt F)
          (nest d (cV L) (jV L) fr p))⟩])
      (rowIx L k 0) :=
  rowOK_gen m d L k 0 _ (k0_off11_eq L k 0) _ _ _
    (fun h l hh hlt hI => ((nest_at0 d (cV L) (jV L) fr p h hh l).trans (congrFun hp _)).trans
      (gath_val m d L k 0 _ _ (k0_off3_eq k 0) Iv hIv hn hin' h hh l hlt hI)) fo

/-- The same with the eight writes written out. -/
theorem rowOK0 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst0 k).view.read (Elt F) Iv x).toNat < S1000000x128.size (gathers_S1000000x128_S50x128).axis)
    (fr : Buf (Elt F) ((rV).view.loc (V d (cV L) (jV L)))) (fo : Buf (Elt F) ((orow0 L k).view.loc (V d (cV L) (jV L))))
    (G1 G2 G3 G4 G5 G6 G7 : S50x128.Idx → Elt F .f32) :
    Cert.Spec.RowOK (Iarr m d) (Parr m d)
      ((orow0 L k).view.writes (Elt F) fo [⟨Rect.whole S56x128, ReadAs.same.apply ((slot0).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr (SparseCore.gatherPayload gathers_S1000000x128_S50x128 ((tAll).view.read (Elt F) (Parr m d)) (SparseCore.rows ((lst0 k).view.read (Elt F) Iv) hn hin')) Finset.univ) G1 Finset.univ) G2 Finset.univ) G3 Finset.univ) G4 Finset.univ) G5 Finset.univ) G6 Finset.univ) G7 Finset.univ))⟩])
      (rowIx L k 0) :=
  rowOK0_of_nest m d L k Iv hIv hn hin' fr fo ![(SparseCore.gatherPayload gathers_S1000000x128_S50x128 ((tAll).view.read (Elt F) (Parr m d)) (SparseCore.rows ((lst0 k).view.read (Elt F) Iv) hn hin')), G1, G2, G3, G4, G5, G6, G7] rfl

/-- Trip `k`'s write-back of slot 1 leaves row `512 w + 8 k + 1` right: the row scratch after eight unmasked writes
    into the slots' first 50 rows, slot 1's the gather's payload, whatever the other seven wrote. -/
theorem rowOK1_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst1 k).view.read (Elt F) Iv x).toNat < S1000000x128.size (gathers_S1000000x128_S50x128).axis)
    (fr : Buf (Elt F) ((rV).view.loc (V d (cV L) (jV L)))) (fo : Buf (Elt F) ((orow1 L k).view.loc (V d (cV L) (jV L))))
    (p : Fin 8 → S50x128.Idx → Elt F .f32)
    (hp : p 1 = SparseCore.gatherPayload gathers_S1000000x128_S50x128 ((tAll).view.read (Elt F) (Parr m d)) (SparseCore.rows ((lst1 k).view.read (Elt F) Iv) hn hin')) :
    Cert.Spec.RowOK (Iarr m d) (Parr m d)
      ((orow1 L k).view.writes (Elt F) fo [⟨Rect.whole S56x128, ReadAs.same.apply ((slot1).view.read (Elt F)
          (nest d (cV L) (jV L) fr p))⟩])
      (rowIx L k 1) :=
  rowOK_gen m d L k 1 _ (k0_off11_eq L k 1) _ _ _
    (fun h l hh hlt hI => ((nest_at1 d (cV L) (jV L) fr p h hh l).trans (congrFun hp _)).trans
      (gath_val m d L k 1 _ _ (k0_off3_eq k 1) Iv hIv hn hin' h hh l hlt hI)) fo

/-- The same with the eight writes written out. -/
theorem rowOK1 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst1 k).view.read (Elt F) Iv x).toNat < S1000000x128.size (gathers_S1000000x128_S50x128).axis)
    (fr : Buf (Elt F) ((rV).view.loc (V d (cV L) (jV L)))) (fo : Buf (Elt F) ((orow1 L k).view.loc (V d (cV L) (jV L))))
    (G0 G2 G3 G4 G5 G6 G7 : S50x128.Idx → Elt F .f32) :
    Cert.Spec.RowOK (Iarr m d) (Parr m d)
      ((orow1 L k).view.writes (Elt F) fo [⟨Rect.whole S56x128, ReadAs.same.apply ((slot1).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) (SparseCore.gatherPayload gathers_S1000000x128_S50x128 ((tAll).view.read (Elt F) (Parr m d)) (SparseCore.rows ((lst1 k).view.read (Elt F) Iv) hn hin')) Finset.univ) G2 Finset.univ) G3 Finset.univ) G4 Finset.univ) G5 Finset.univ) G6 Finset.univ) G7 Finset.univ))⟩])
      (rowIx L k 1) :=
  rowOK1_of_nest m d L k Iv hIv hn hin' fr fo ![G0, (SparseCore.gatherPayload gathers_S1000000x128_S50x128 ((tAll).view.read (Elt F) (Parr m d)) (SparseCore.rows ((lst1 k).view.read (Elt F) Iv) hn hin')), G2, G3, G4, G5, G6, G7] rfl

/-- Trip `k`'s write-back of slot 2 leaves row `512 w + 8 k + 2` right: the row scratch after eight unmasked writes
    into the slots' first 50 rows, slot 2's the gather's payload, whatever the other seven wrote. -/
theorem rowOK2_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst2 k).view.read (Elt F) Iv x).toNat < S1000000x128.size (gathers_S1000000x128_S50x128).axis)
    (fr : Buf (Elt F) ((rV).view.loc (V d (cV L) (jV L)))) (fo : Buf (Elt F) ((orow2 L k).view.loc (V d (cV L) (jV L))))
    (p : Fin 8 → S50x128.Idx → Elt F .f32)
    (hp : p 2 = SparseCore.gatherPayload gathers_S1000000x128_S50x128 ((tAll).view.read (Elt F) (Parr m d)) (SparseCore.rows ((lst2 k).view.read (Elt F) Iv) hn hin')) :
    Cert.Spec.RowOK (Iarr m d) (Parr m d)
      ((orow2 L k).view.writes (Elt F) fo [⟨Rect.whole S56x128, ReadAs.same.apply ((slot2).view.read (Elt F)
          (nest d (cV L) (jV L) fr p))⟩])
      (rowIx L k 2) :=
  rowOK_gen m d L k 2 _ (k0_off11_eq L k 2) _ _ _
    (fun h l hh hlt hI => ((nest_at2 d (cV L) (jV L) fr p h hh l).trans (congrFun hp _)).trans
      (gath_val m d L k 2 _ _ (k0_off3_eq k 2) Iv hIv hn hin' h hh l hlt hI)) fo

/-- The same with the eight writes written out. -/
theorem rowOK2 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst2 k).view.read (Elt F) Iv x).toNat < S1000000x128.size (gathers_S1000000x128_S50x128).axis)
    (fr : Buf (Elt F) ((rV).view.loc (V d (cV L) (jV L)))) (fo : Buf (Elt F) ((orow2 L k).view.loc (V d (cV L) (jV L))))
    (G0 G1 G3 G4 G5 G6 G7 : S50x128.Idx → Elt F .f32) :
    Cert.Spec.RowOK (Iarr m d) (Parr m d)
      ((orow2 L k).view.writes (Elt F) fo [⟨Rect.whole S56x128, ReadAs.same.apply ((slot2).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) (SparseCore.gatherPayload gathers_S1000000x128_S50x128 ((tAll).view.read (Elt F) (Parr m d)) (SparseCore.rows ((lst2 k).view.read (Elt F) Iv) hn hin')) Finset.univ) G3 Finset.univ) G4 Finset.univ) G5 Finset.univ) G6 Finset.univ) G7 Finset.univ))⟩])
      (rowIx L k 2) :=
  rowOK2_of_nest m d L k Iv hIv hn hin' fr fo ![G0, G1, (SparseCore.gatherPayload gathers_S1000000x128_S50x128 ((tAll).view.read (Elt F) (Parr m d)) (SparseCore.rows ((lst2 k).view.read (Elt F) Iv) hn hin')), G3, G4, G5, G6, G7] rfl

/-- Trip `k`'s write-back of slot 3 leaves row `512 w + 8 k + 3` right: the row scratch after eight unmasked writes
    into the slots' first 50 rows, slot 3's the gather's payload, whatever the other seven wrote. -/
theorem rowOK3_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst3 k).view.read (Elt F) Iv x).toNat < S1000000x128.size (gathers_S1000000x128_S50x128).axis)
    (fr : Buf (Elt F) ((rV).view.loc (V d (cV L) (jV L)))) (fo : Buf (Elt F) ((orow3 L k).view.loc (V d (cV L) (jV L))))
    (p : Fin 8 → S50x128.Idx → Elt F .f32)
    (hp : p 3 = SparseCore.gatherPayload gathers_S1000000x128_S50x128 ((tAll).view.read (Elt F) (Parr m d)) (SparseCore.rows ((lst3 k).view.read (Elt F) Iv) hn hin')) :
    Cert.Spec.RowOK (Iarr m d) (Parr m d)
      ((orow3 L k).view.writes (Elt F) fo [⟨Rect.whole S56x128, ReadAs.same.apply ((slot3).view.read (Elt F)
          (nest d (cV L) (jV L) fr p))⟩])
      (rowIx L k 3) :=
  rowOK_gen m d L k 3 _ (k0_off11_eq L k 3) _ _ _
    (fun h l hh hlt hI => ((nest_at3 d (cV L) (jV L) fr p h hh l).trans (congrFun hp _)).trans
      (gath_val m d L k 3 _ _ (k0_off3_eq k 3) Iv hIv hn hin' h hh l hlt hI)) fo

/-- The same with the eight writes written out. -/
theorem rowOK3 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst3 k).view.read (Elt F) Iv x).toNat < S1000000x128.size (gathers_S1000000x128_S50x128).axis)
    (fr : Buf (Elt F) ((rV).view.loc (V d (cV L) (jV L)))) (fo : Buf (Elt F) ((orow3 L k).view.loc (V d (cV L) (jV L))))
    (G0 G1 G2 G4 G5 G6 G7 : S50x128.Idx → Elt F .f32) :
    Cert.Spec.RowOK (Iarr m d) (Parr m d)
      ((orow3 L k).view.writes (Elt F) fo [⟨Rect.whole S56x128, ReadAs.same.apply ((slot3).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) (SparseCore.gatherPayload gathers_S1000000x128_S50x128 ((tAll).view.read (Elt F) (Parr m d)) (SparseCore.rows ((lst3 k).view.read (Elt F) Iv) hn hin')) Finset.univ) G4 Finset.univ) G5 Finset.univ) G6 Finset.univ) G7 Finset.univ))⟩])
      (rowIx L k 3) :=
  rowOK3_of_nest m d L k Iv hIv hn hin' fr fo ![G0, G1, G2, (SparseCore.gatherPayload gathers_S1000000x128_S50x128 ((tAll).view.read (Elt F) (Parr m d)) (SparseCore.rows ((lst3 k).view.read (Elt F) Iv) hn hin')), G4, G5, G6, G7] rfl

/-- Trip `k`'s write-back of slot 4 leaves row `512 w + 8 k + 4` right: the row scratch after eight unmasked writes
    into the slots' first 50 rows, slot 4's the gather's payload, whatever the other seven wrote. -/
theorem rowOK4_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst4 k).view.read (Elt F) Iv x).toNat < S1000000x128.size (gathers_S1000000x128_S50x128).axis)
    (fr : Buf (Elt F) ((rV).view.loc (V d (cV L) (jV L)))) (fo : Buf (Elt F) ((orow4 L k).view.loc (V d (cV L) (jV L))))
    (p : Fin 8 → S50x128.Idx → Elt F .f32)
    (hp : p 4 = SparseCore.gatherPayload gathers_S1000000x128_S50x128 ((tAll).view.read (Elt F) (Parr m d)) (SparseCore.rows ((lst4 k).view.read (Elt F) Iv) hn hin')) :
    Cert.Spec.RowOK (Iarr m d) (Parr m d)
      ((orow4 L k).view.writes (Elt F) fo [⟨Rect.whole S56x128, ReadAs.same.apply ((slot4).view.read (Elt F)
          (nest d (cV L) (jV L) fr p))⟩])
      (rowIx L k 4) :=
  rowOK_gen m d L k 4 _ (k0_off11_eq L k 4) _ _ _
    (fun h l hh hlt hI => ((nest_at4 d (cV L) (jV L) fr p h hh l).trans (congrFun hp _)).trans
      (gath_val m d L k 4 _ _ (k0_off3_eq k 4) Iv hIv hn hin' h hh l hlt hI)) fo

/-- The same with the eight writes written out. -/
theorem rowOK4 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst4 k).view.read (Elt F) Iv x).toNat < S1000000x128.size (gathers_S1000000x128_S50x128).axis)
    (fr : Buf (Elt F) ((rV).view.loc (V d (cV L) (jV L)))) (fo : Buf (Elt F) ((orow4 L k).view.loc (V d (cV L) (jV L))))
    (G0 G1 G2 G3 G5 G6 G7 : S50x128.Idx → Elt F .f32) :
    Cert.Spec.RowOK (Iarr m d) (Parr m d)
      ((orow4 L k).view.writes (Elt F) fo [⟨Rect.whole S56x128, ReadAs.same.apply ((slot4).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) (SparseCore.gatherPayload gathers_S1000000x128_S50x128 ((tAll).view.read (Elt F) (Parr m d)) (SparseCore.rows ((lst4 k).view.read (Elt F) Iv) hn hin')) Finset.univ) G5 Finset.univ) G6 Finset.univ) G7 Finset.univ))⟩])
      (rowIx L k 4) :=
  rowOK4_of_nest m d L k Iv hIv hn hin' fr fo ![G0, G1, G2, G3, (SparseCore.gatherPayload gathers_S1000000x128_S50x128 ((tAll).view.read (Elt F) (Parr m d)) (SparseCore.rows ((lst4 k).view.read (Elt F) Iv) hn hin')), G5, G6, G7] rfl

/-- Trip `k`'s write-back of slot 5 leaves row `512 w + 8 k + 5` right: the row scratch after eight unmasked writes
    into the slots' first 50 rows, slot 5's the gather's payload, whatever the other seven wrote. -/
theorem rowOK5_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst5 k).view.read (Elt F) Iv x).toNat < S1000000x128.size (gathers_S1000000x128_S50x128).axis)
    (fr : Buf (Elt F) ((rV).view.loc (V d (cV L) (jV L)))) (fo : Buf (Elt F) ((orow5 L k).view.loc (V d (cV L) (jV L))))
    (p : Fin 8 → S50x128.Idx → Elt F .f32)
    (hp : p 5 = SparseCore.gatherPayload gathers_S1000000x128_S50x128 ((tAll).view.read (Elt F) (Parr m d)) (SparseCore.rows ((lst5 k).view.read (Elt F) Iv) hn hin')) :
    Cert.Spec.RowOK (Iarr m d) (Parr m d)
      ((orow5 L k).view.writes (Elt F) fo [⟨Rect.whole S56x128, ReadAs.same.apply ((slot5).view.read (Elt F)
          (nest d (cV L) (jV L) fr p))⟩])
      (rowIx L k 5) :=
  rowOK_gen m d L k 5 _ (k0_off11_eq L k 5) _ _ _
    (fun h l hh hlt hI => ((nest_at5 d (cV L) (jV L) fr p h hh l).trans (congrFun hp _)).trans
      (gath_val m d L k 5 _ _ (k0_off3_eq k 5) Iv hIv hn hin' h hh l hlt hI)) fo

/-- The same with the eight writes written out. -/
theorem rowOK5 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst5 k).view.read (Elt F) Iv x).toNat < S1000000x128.size (gathers_S1000000x128_S50x128).axis)
    (fr : Buf (Elt F) ((rV).view.loc (V d (cV L) (jV L)))) (fo : Buf (Elt F) ((orow5 L k).view.loc (V d (cV L) (jV L))))
    (G0 G1 G2 G3 G4 G6 G7 : S50x128.Idx → Elt F .f32) :
    Cert.Spec.RowOK (Iarr m d) (Parr m d)
      ((orow5 L k).view.writes (Elt F) fo [⟨Rect.whole S56x128, ReadAs.same.apply ((slot5).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) G4 Finset.univ) (SparseCore.gatherPayload gathers_S1000000x128_S50x128 ((tAll).view.read (Elt F) (Parr m d)) (SparseCore.rows ((lst5 k).view.read (Elt F) Iv) hn hin')) Finset.univ) G6 Finset.univ) G7 Finset.univ))⟩])
      (rowIx L k 5) :=
  rowOK5_of_nest m d L k Iv hIv hn hin' fr fo ![G0, G1, G2, G3, G4, (SparseCore.gatherPayload gathers_S1000000x128_S50x128 ((tAll).view.read (Elt F) (Parr m d)) (SparseCore.rows ((lst5 k).view.read (Elt F) Iv) hn hin')), G6, G7] rfl

/-- Trip `k`'s write-back of slot 6 leaves row `512 w + 8 k + 6` right: the row scratch after eight unmasked writes
    into the slots' first 50 rows, slot 6's the gather's payload, whatever the other seven wrote. -/
theorem rowOK6_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst6 k).view.read (Elt F) Iv x).toNat < S1000000x128.size (gathers_S1000000x128_S50x128).axis)
    (fr : Buf (Elt F) ((rV).view.loc (V d (cV L) (jV L)))) (fo : Buf (Elt F) ((orow6 L k).view.loc (V d (cV L) (jV L))))
    (p : Fin 8 → S50x128.Idx → Elt F .f32)
    (hp : p 6 = SparseCore.gatherPayload gathers_S1000000x128_S50x128 ((tAll).view.read (Elt F) (Parr m d)) (SparseCore.rows ((lst6 k).view.read (Elt F) Iv) hn hin')) :
    Cert.Spec.RowOK (Iarr m d) (Parr m d)
      ((orow6 L k).view.writes (Elt F) fo [⟨Rect.whole S56x128, ReadAs.same.apply ((slot6).view.read (Elt F)
          (nest d (cV L) (jV L) fr p))⟩])
      (rowIx L k 6) :=
  rowOK_gen m d L k 6 _ (k0_off11_eq L k 6) _ _ _
    (fun h l hh hlt hI => ((nest_at6 d (cV L) (jV L) fr p h hh l).trans (congrFun hp _)).trans
      (gath_val m d L k 6 _ _ (k0_off3_eq k 6) Iv hIv hn hin' h hh l hlt hI)) fo

/-- The same with the eight writes written out. -/
theorem rowOK6 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst6 k).view.read (Elt F) Iv x).toNat < S1000000x128.size (gathers_S1000000x128_S50x128).axis)
    (fr : Buf (Elt F) ((rV).view.loc (V d (cV L) (jV L)))) (fo : Buf (Elt F) ((orow6 L k).view.loc (V d (cV L) (jV L))))
    (G0 G1 G2 G3 G4 G5 G7 : S50x128.Idx → Elt F .f32) :
    Cert.Spec.RowOK (Iarr m d) (Parr m d)
      ((orow6 L k).view.writes (Elt F) fo [⟨Rect.whole S56x128, ReadAs.same.apply ((slot6).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) G4 Finset.univ) G5 Finset.univ) (SparseCore.gatherPayload gathers_S1000000x128_S50x128 ((tAll).view.read (Elt F) (Parr m d)) (SparseCore.rows ((lst6 k).view.read (Elt F) Iv) hn hin')) Finset.univ) G7 Finset.univ))⟩])
      (rowIx L k 6) :=
  rowOK6_of_nest m d L k Iv hIv hn hin' fr fo ![G0, G1, G2, G3, G4, G5, (SparseCore.gatherPayload gathers_S1000000x128_S50x128 ((tAll).view.read (Elt F) (Parr m d)) (SparseCore.rows ((lst6 k).view.read (Elt F) Iv) hn hin')), G7] rfl

/-- Trip `k`'s write-back of slot 7 leaves row `512 w + 8 k + 7` right: the row scratch after eight unmasked writes
    into the slots' first 50 rows, slot 7's the gather's payload, whatever the other seven wrote. -/
theorem rowOK7_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst7 k).view.read (Elt F) Iv x).toNat < S1000000x128.size (gathers_S1000000x128_S50x128).axis)
    (fr : Buf (Elt F) ((rV).view.loc (V d (cV L) (jV L)))) (fo : Buf (Elt F) ((orow7 L k).view.loc (V d (cV L) (jV L))))
    (p : Fin 8 → S50x128.Idx → Elt F .f32)
    (hp : p 7 = SparseCore.gatherPayload gathers_S1000000x128_S50x128 ((tAll).view.read (Elt F) (Parr m d)) (SparseCore.rows ((lst7 k).view.read (Elt F) Iv) hn hin')) :
    Cert.Spec.RowOK (Iarr m d) (Parr m d)
      ((orow7 L k).view.writes (Elt F) fo [⟨Rect.whole S56x128, ReadAs.same.apply ((slot7).view.read (Elt F)
          (nest d (cV L) (jV L) fr p))⟩])
      (rowIx L k 7) :=
  rowOK_gen m d L k 7 _ (k0_off11_eq L k 7) _ _ _
    (fun h l hh hlt hI => ((nest_at7 d (cV L) (jV L) fr p h hh l).trans (congrFun hp _)).trans
      (gath_val m d L k 7 _ _ (k0_off3_eq k 7) Iv hIv hn hin' h hh l hlt hI)) fo

/-- The same with the eight writes written out. -/
theorem rowOK7 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst7 k).view.read (Elt F) Iv x).toNat < S1000000x128.size (gathers_S1000000x128_S50x128).axis)
    (fr : Buf (Elt F) ((rV).view.loc (V d (cV L) (jV L)))) (fo : Buf (Elt F) ((orow7 L k).view.loc (V d (cV L) (jV L))))
    (G0 G1 G2 G3 G4 G5 G6 : S50x128.Idx → Elt F .f32) :
    Cert.Spec.RowOK (Iarr m d) (Parr m d)
      ((orow7 L k).view.writes (Elt F) fo [⟨Rect.whole S56x128, ReadAs.same.apply ((slot7).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) G4 Finset.univ) G5 Finset.univ) G6 Finset.univ) (SparseCore.gatherPayload gathers_S1000000x128_S50x128 ((tAll).view.read (Elt F) (Parr m d)) (SparseCore.rows ((lst7 k).view.read (Elt F) Iv) hn hin')) Finset.univ))⟩])
      (rowIx L k 7) :=
  rowOK7_of_nest m d L k Iv hIv hn hin' fr fo ![G0, G1, G2, G3, G4, G5, G6, (SparseCore.gatherPayload gathers_S1000000x128_S50x128 ((tAll).view.read (Elt F) (Parr m d)) (SparseCore.rows ((lst7 k).view.read (Elt F) Iv) hn hin'))] rfl

end Values

end Cert.Proof.K

end
-- ==== Proof.KTrip0.lean ====
import proofs.«206314_g14001593385621_cont_week2b_782_31_alg».proof.Proof.KTileA
import proofs.«206314_g14001593385621_cont_week2b_782_31_alg».proof.Proof.KVals
import Idealize.ShloMosaic.Lib.Ring

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v2_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S917504 EltTy.i32)
local notation "oV" => (Memref.whole Cert.Kernel.main_v3_scv : Memref Cert.Kernel.sig Kind.scVector Space.hbm Cert.Kernel.S16384x56x128 EltTy.f32)
local notation "sV" => (Memref.whole Cert.Kernel.cc0_scratch0 : Memref Cert.Kernel.sig Kind.scVector Space.vmem Cert.Kernel.S28672 EltTy.i32)
local notation "rV" => (Memref.whole Cert.Kernel.cc0_scratch1 : Memref Cert.Kernel.sig Kind.scVector Space.vmem Cert.Kernel.S8x56x128 EltTy.f32)

variable (m : (ℓ : Loc nD τ sig) → Buf (Elt F) ℓ)
variable [FloatOps F]

set_option maxHeartbeats 16000000 in
/-- The first trip: every slot is free; each is gathered into and written back to this trip's row. -/
theorem trip0_step (d : Dev nD) (L : grid0.Coords) (O : CellTallies nD τ sig (HIx 1)) (W : Waits sig (HIx 1))
    (Iv : Buf (Elt F) ((sV).view.loc (thr d L))) (hIv : ∀ j : S28672.Idx, Iv j = Iarr m d ((iChunk L).view.emb j))
    (hI : Cert.Spec.ListInRange (Iarr m d)) (v3 : BitVec 32) (k : Fin k0_t1_loop.trips) (hk : k.val = 0) :
    iprop(invCore m d L O W Iv k.val ∗ invFirst d L)
      ⊢ wp frame (wpE (defs₀ (F := F)) 𝒱₀ (thr d L) none) Set.univ
          (k0_t1_body L tV (Memref.isWhole_whole _) iV (Memref.isWhole_whole _) oV (Memref.isWhole_whole _)
            sV (Memref.isWhole_whole _) rV (Memref.isWhole_whole _) cc0_scratch2 cc0_scratch3 cc0_scoped0 v3 k ())
          (fun _ => iprop(invCore m d L O W Iv (k.val + 1) ∗ invLater m d L k)) := by
  have hin : ∀ (off : Fin 1 → Nat) (hb : ∀ a, off a + S50.size a ≤ S28672.size a) (x : S50.Idx),
      (((sV).slice (Rect.unit (s := S28672) off S50.size hb) (fun _ => rfl)).view.read (Elt F) Iv x).toNat < 1000000 := by
    intro off hb x
    rw [show ((sV).slice (Rect.unit (s := S28672) off S50.size hb) (fun _ => rfl)).view.read (Elt F) Iv x
        = Iv (((sV).slice (Rect.unit (s := S28672) off S50.size hb) (fun _ => rfl)).view.emb x) from (View.read_apply _ _).trans (cast_eq _ _), hIv]
    exact hI _
  have hc1 := cond1_neg k hk
  have hc2 := cond2_neg k hk
  have hc3 := cond3_neg k hk
  have hc4 := cond4_neg k hk
  have hc5 := cond5_neg k hk
  have hc6 := cond6_neg k hk
  have hc7 := cond7_neg k hk
  have hc8 := cond8_neg k hk
  have hdone : (bigSep (Ring.rangeSet k0_t1_loop.trips 0 (k.val + 1 - 1)) (fun k' => RowsOut m d L k') : sProp 𝕄)
      = bigSep (Ring.rangeSet k0_t1_loop.trips 0 (k.val - 1)) (fun k' => RowsOut m d L k') := by
    rw [show k.val + 1 - 1 = k.val - 1 by omega]
  have hfree : (bigSep (Ring.rangeSet k0_t1_loop.trips k.val k0_t1_loop.trips) (fun k' => RowsIn m d L k') : sProp 𝕄)
      = iprop(RowsIn m d L k ∗ bigSep (Ring.rangeSet k0_t1_loop.trips (k.val + 1) k0_t1_loop.trips) (fun k' => RowsIn m d L k')) :=
    Ring.bigSep_rangeSet_head k.isLt k.isLt
  unfold invCore invFirst invLater rest8
  rw [hdone, hfree]
  iintro ⟨⟨#Hmw, Ht0, Ht1, Ht2, Ht3, Ht4, Ht5, Ht6, Ht7, Hs, Hg0, Hg1, Hg2, Hg3, Hg4, Hg5, Hg6, Hg7, ⟨⟨Ho0, Ho1, Ho2, Ho3, Ho4, Ho5, Ho6, Ho7⟩, Hfree⟩, Hdone, ⟨%W', %hW', HO⟩⟩, ⟨⟨%fr, Hr⟩, Hw0, Hw1, Hw2, Hw3, Hw4, Hw5, Hw6, Hw7⟩⟩
  sl_unfold [k0_t1_body]
  sl_exec
  sl_step
  isplitr [Hr Hw0 Hw1 Hw2 Hw3 Hw4 Hw5 Hw6 Hw7]
  · isplitl []; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Hs]; · iexact Hs
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hfree]; · iexact Hfree
    isplitl [Hdone]; · iexact Hdone
    iexists _; isplitr
    swap; · iexact HO
    ipureintro
    iterate 8 apply waits_ins
    exact hW'
  · iexists _
    isplitl [Hr]; · iexact Hr
    isplitl [Hw0]
    · iexists _; isplitl [Hw0]; · iexact Hw0
      ipureintro; exact rowOK0 m d L k Iv hIv _ _ _ _ _ _ _ _ _ _ _
    isplitl [Hw1]
    · iexists _; isplitl [Hw1]; · iexact Hw1
      ipureintro; exact rowOK1 m d L k Iv hIv _ _ _ _ _ _ _ _ _ _ _
    isplitl [Hw2]
    · iexists _; isplitl [Hw2]; · iexact Hw2
      ipureintro; exact rowOK2 m d L k Iv hIv _ _ _ _ _ _ _ _ _ _ _
    isplitl [Hw3]
    · iexists _; isplitl [Hw3]; · iexact Hw3
      ipureintro; exact rowOK3 m d L k Iv hIv _ _ _ _ _ _ _ _ _ _ _
    isplitl [Hw4]
    · iexists _; isplitl [Hw4]; · iexact Hw4
      ipureintro; exact rowOK4 m d L k Iv hIv _ _ _ _ _ _ _ _ _ _ _
    isplitl [Hw5]
    · iexists _; isplitl [Hw5]; · iexact Hw5
      ipureintro; exact rowOK5 m d L k Iv hIv _ _ _ _ _ _ _ _ _ _ _
    isplitl [Hw6]
    · iexists _; isplitl [Hw6]; · iexact Hw6
      ipureintro; exact rowOK6 m d L k Iv hIv _ _ _ _ _ _ _ _ _ _ _
    iexists _; isplitl [Hw7]; · iexact Hw7
    ipureintro; exact rowOK7 m d L k Iv hIv _ _ _ _ _ _ _ _ _ _ _

end Cert.Proof.K

end
-- ==== Proof.KTripK.lean ====
import proofs.«206314_g14001593385621_cont_week2b_782_31_alg».proof.Proof.KTileA
import proofs.«206314_g14001593385621_cont_week2b_782_31_alg».proof.Proof.KVals
import Idealize.ShloMosaic.Lib.Ring

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v2_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S917504 EltTy.i32)
local notation "oV" => (Memref.whole Cert.Kernel.main_v3_scv : Memref Cert.Kernel.sig Kind.scVector Space.hbm Cert.Kernel.S16384x56x128 EltTy.f32)
local notation "sV" => (Memref.whole Cert.Kernel.cc0_scratch0 : Memref Cert.Kernel.sig Kind.scVector Space.vmem Cert.Kernel.S28672 EltTy.i32)
local notation "rV" => (Memref.whole Cert.Kernel.cc0_scratch1 : Memref Cert.Kernel.sig Kind.scVector Space.vmem Cert.Kernel.S8x56x128 EltTy.f32)

variable (m : (ℓ : Loc nD τ sig) → Buf (Elt F) ℓ)
variable [FloatOps F]

set_option maxHeartbeats 16000000 in
/-- A trip after the first: each slot's write-back of the trip before is waited for (its row is then written), the
    slot gathered into and written back to this trip's row. -/
theorem tripK_step (d : Dev nD) (L : grid0.Coords) (O : CellTallies nD τ sig (HIx 1)) (W : Waits sig (HIx 1))
    (Iv : Buf (Elt F) ((sV).view.loc (thr d L))) (hIv : ∀ j : S28672.Idx, Iv j = Iarr m d ((iChunk L).view.emb j))
    (hI : Cert.Spec.ListInRange (Iarr m d)) (v3 : BitVec 32) (k kp : Fin k0_t1_loop.trips) (hkp : kp.val + 1 = k.val) :
    iprop(invCore m d L O W Iv k.val ∗ invLater m d L kp)
      ⊢ wp frame (wpE (defs₀ (F := F)) 𝒱₀ (thr d L) none) Set.univ
          (k0_t1_body L tV (Memref.isWhole_whole _) iV (Memref.isWhole_whole _) oV (Memref.isWhole_whole _)
            sV (Memref.isWhole_whole _) rV (Memref.isWhole_whole _) cc0_scratch2 cc0_scratch3 cc0_scoped0 v3 k ())
          (fun _ => iprop(invCore m d L O W Iv (k.val + 1) ∗ invLater m d L k)) := by
  have hin : ∀ (off : Fin 1 → Nat) (hb : ∀ a, off a + S50.size a ≤ S28672.size a) (x : S50.Idx),
      (((sV).slice (Rect.unit (s := S28672) off S50.size hb) (fun _ => rfl)).view.read (Elt F) Iv x).toNat < 1000000 := by
    intro off hb x
    rw [show ((sV).slice (Rect.unit (s := S28672) off S50.size hb) (fun _ => rfl)).view.read (Elt F) Iv x
        = Iv (((sV).slice (Rect.unit (s := S28672) off S50.size hb) (fun _ => rfl)).view.emb x) from (View.read_apply _ _).trans (cast_eq _ _), hIv]
    exact hI _
  have hk0 : k.val ≠ 0 := by omega
  have hc1 := cond1_pos k hk0
  have hc2 := cond2_pos k hk0
  have hc3 := cond3_pos k hk0
  have hc4 := cond4_pos k hk0
  have hc5 := cond5_pos k hk0
  have hc6 := cond6_pos k hk0
  have hc7 := cond7_pos k hk0
  have hc8 := cond8_pos k hk0
  have hdone : (bigSep (Ring.rangeSet k0_t1_loop.trips 0 (k.val + 1 - 1)) (fun k' => RowsOut m d L k') : sProp 𝕄)
      = iprop(RowsOut m d L kp ∗ bigSep (Ring.rangeSet k0_t1_loop.trips 0 (k.val - 1)) (fun k' => RowsOut m d L k')) := by
    have e1 : k.val + 1 - 1 = kp.val + 1 := by omega
    have e2 : k.val - 1 = kp.val + 1 - 1 := by omega
    rw [e1, e2, Ring.bigSep_rangeSet_last (Nat.succ_pos _) (show kp.val + 1 ≤ k0_t1_loop.trips from kp.isLt)]
    rfl
  have hfree : (bigSep (Ring.rangeSet k0_t1_loop.trips k.val k0_t1_loop.trips) (fun k' => RowsIn m d L k') : sProp 𝕄)
      = iprop(RowsIn m d L k ∗ bigSep (Ring.rangeSet k0_t1_loop.trips (k.val + 1) k0_t1_loop.trips) (fun k' => RowsIn m d L k')) :=
    Ring.bigSep_rangeSet_head k.isLt k.isLt
  unfold invCore invLater rest8
  rw [hdone, hfree]
  iintro ⟨⟨#Hmw, Ht0, Ht1, Ht2, Ht3, Ht4, Ht5, Ht6, Ht7, Hs, Hg0, Hg1, Hg2, Hg3, Hg4, Hg5, Hg6, Hg7, ⟨⟨Ho0, Ho1, Ho2, Ho3, Ho4, Ho5, Ho6, Ho7⟩, Hfree⟩, Hdone, ⟨%W', %hW', HO⟩⟩, ⟨%fr, Hr, ⟨%fp0, Hw0, %hok0⟩, ⟨%fp1, Hw1, %hok1⟩, ⟨%fp2, Hw2, %hok2⟩, ⟨%fp3, Hw3, %hok3⟩, ⟨%fp4, Hw4, %hok4⟩, ⟨%fp5, Hw5, %hok5⟩, ⟨%fp6, Hw6, %hok6⟩, ⟨%fp7, Hw7, %hok7⟩⟩⟩
  sl_unfold [k0_t1_body]
  sl_exec
  sl_step
  isplitr [Hr Hw0 Hw1 Hw2 Hw3 Hw4 Hw5 Hw6 Hw7]
  · isplitl []; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Hs]; · iexact Hs
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hfree]; · iexact Hfree
    isplitr [HO]
    · isplitr [Hdone]
      isplitl [Hw0_dst]
      · iexists fp0; isplitl [Hw0_dst]
        · iexact Hw0_dst
        · ipureintro; exact hok0
      isplitl [Hw1_dst]
      · iexists fp1; isplitl [Hw1_dst]
        · iexact Hw1_dst
        · ipureintro; exact hok1
      isplitl [Hw2_dst]
      · iexists fp2; isplitl [Hw2_dst]
        · iexact Hw2_dst
        · ipureintro; exact hok2
      isplitl [Hw3_dst]
      · iexists fp3; isplitl [Hw3_dst]
        · iexact Hw3_dst
        · ipureintro; exact hok3
      isplitl [Hw4_dst]
      · iexists fp4; isplitl [Hw4_dst]
        · iexact Hw4_dst
        · ipureintro; exact hok4
      isplitl [Hw5_dst]
      · iexists fp5; isplitl [Hw5_dst]
        · iexact Hw5_dst
        · ipureintro; exact hok5
      isplitl [Hw6_dst]
      · iexists fp6; isplitl [Hw6_dst]
        · iexact Hw6_dst
        · ipureintro; exact hok6
      iexists fp7; isplitl [Hw7_dst]
      · iexact Hw7_dst
      · ipureintro; exact hok7
      iexact Hdone
    · iexists _; isplitr
      swap; · iexact HO
      ipureintro
      iterate 16 apply waits_ins
      exact hW'
  · iexists _
    isplitl [Hr]; · iexact Hr
    isplitl [Hw0]
    · iexists _; isplitl [Hw0]; · iexact Hw0
      ipureintro; exact rowOK0 m d L k Iv hIv _ _ _ _ _ _ _ _ _ _ _
    isplitl [Hw1]
    · iexists _; isplitl [Hw1]; · iexact Hw1
      ipureintro; exact rowOK1 m d L k Iv hIv _ _ _ _ _ _ _ _ _ _ _
    isplitl [Hw2]
    · iexists _; isplitl [Hw2]; · iexact Hw2
      ipureintro; exact rowOK2 m d L k Iv hIv _ _ _ _ _ _ _ _ _ _ _
    isplitl [Hw3]
    · iexists _; isplitl [Hw3]; · iexact Hw3
      ipureintro; exact rowOK3 m d L k Iv hIv _ _ _ _ _ _ _ _ _ _ _
    isplitl [Hw4]
    · iexists _; isplitl [Hw4]; · iexact Hw4
      ipureintro; exact rowOK4 m d L k Iv hIv _ _ _ _ _ _ _ _ _ _ _
    isplitl [Hw5]
    · iexists _; isplitl [Hw5]; · iexact Hw5
      ipureintro; exact rowOK5 m d L k Iv hIv _ _ _ _ _ _ _ _ _ _ _
    isplitl [Hw6]
    · iexists _; isplitl [Hw6]; · iexact Hw6
      ipureintro; exact rowOK6 m d L k Iv hIv _ _ _ _ _ _ _ _ _ _ _
    iexists _; isplitl [Hw7]; · iexact Hw7
    ipureintro; exact rowOK7 m d L k Iv hIv _ _ _ _ _ _ _ _ _ _ _

end Cert.Proof.K

end
-- ==== Proof.KTile.lean ====
import proofs.«206314_g14001593385621_cont_week2b_782_31_alg».proof.Proof.KTrip0
import proofs.«206314_g14001593385621_cont_week2b_782_31_alg».proof.Proof.KTripK
import Idealize.ShloMosaic.Lib.Ring

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.Kernel.main_v2_scv : Memref Cert.Kernel.sig Kind.scVector Space.hbm Cert.Kernel.S1000000x128 EltTy.f32)
local notation "iV" => (Memref.whole Cert.Kernel.main_v1_scv : Memref Cert.Kernel.sig Kind.scVector Space.hbm Cert.Kernel.S917504 EltTy.i32)
local notation "oV" => (Memref.whole Cert.Kernel.main_v3_scv : Memref Cert.Kernel.sig Kind.scVector Space.hbm Cert.Kernel.S16384x56x128 EltTy.f32)
local notation "sV" => (Memref.whole Cert.Kernel.cc0_scratch0 : Memref Cert.Kernel.sig Kind.scVector Space.vmem Cert.Kernel.S28672 EltTy.i32)
local notation "rV" => (Memref.whole Cert.Kernel.cc0_scratch1 : Memref Cert.Kernel.sig Kind.scVector Space.vmem Cert.Kernel.S8x56x128 EltTy.f32)

variable (m : (ℓ : Loc nD τ sig) → Buf (Elt F) ℓ)
variable [FloatOps F]

/-! ## The TensorCore's spelling of the task's operands and the tile's -/

theorem pts_tok (d : Dev nD) (L : grid0.Coords) (q : PosShare TreeShare) (f : Buf (Elt F) (pLoc d)) :
    ((tV).view.loc (thr d L) ↦{q} f : sProp 𝕄) = (pLoc d ↦{q} f) := rfl
theorem pts_idx (d : Dev nD) (L : grid0.Coords) (f : Buf (Elt F) (iLoc d)) :
    ((iChunk L).view.loc (thr d L) ↦[(iChunk L).view.set]{fullShare} f : sProp 𝕄) = (iLoc d ↦[(iChunk L).view.set]{fullShare} f) := rfl
theorem pts_sV (d : Dev nD) (L : grid0.Coords) (f : Buf (Elt F) ((thr d L).loc cc0_scratch0)) :
    ((sV).view.loc (thr d L) ↦{fullShare} f : sProp 𝕄) = ((thr d L).loc cc0_scratch0 ↦{fullShare} f) := rfl
theorem pts_rV (d : Dev nD) (L : grid0.Coords) (f : Buf (Elt F) ((thr d L).loc cc0_scratch1)) :
    ((rV).view.loc (thr d L) ↦{fullShare} f : sProp 𝕄) = ((thr d L).loc cc0_scratch1 ↦{fullShare} f) := rfl

/-- A buffer's contents, named. -/
theorem pts_name {ℓ : Loc nD τ sig} {q : PosShare TreeShare} (f : Buf (Elt F) ℓ) :
    (ℓ ↦{q} f : sProp 𝕄) ⊢ iprop(∃ g, ⌜g = f⌝ ∗ ℓ ↦{q} g) := by
  iintro H
  iexists f
  isplitr
  · ipureintro; rfl
  · iexact H

/-- After the copy of the task's chunk into the list scratch, word `j` of the scratch is word `j` of the chunk. -/
theorem iv_of (d : Dev nD) (L : grid0.Coords) (I : Buf (Elt F) (iLoc d)) (fs : Buf (Elt F) ((sV).view.loc (thr d L)))
    (pay : S28672.Idx → Elt F .i32) (hpay : pay = ReadAs.same.apply ((iChunk L).view.read (Elt F) I)) :
    ∀ j : S28672.Idx, View.write (Elt F) (sV).view fs pay Finset.univ j = I ((iChunk L).view.emb j) := by
  subst hpay
  intro j
  rw [View.write_whole_univ]
  exact (View.read_apply _ _).trans (cast_eq _ _)

/-- After the last trip: nothing is left to come, and the last trip's write-backs are in flight. -/
theorem inv_last (d : Dev nD) (L : grid0.Coords) (O : CellTallies nD τ sig (HIx 1)) (W : Waits sig (HIx 1))
    (Iv : Buf (Elt F) ((sV).view.loc (thr d L))) (n : ℕ) (hn : n = 64) (acc : Unit) :
    inv m d L O W Iv n acc = iprop(invCore m d L O W Iv 64 ∗ invLater m d L ⟨63, by decide⟩) := by
  subst hn
  exact inv_succ m d L O W Iv ⟨63, by decide⟩

set_option maxHeartbeats 16000000 in
/-- The task on one vector subcore: the chunk of the list fetched, the 64 trips, the last eight write-backs waited for. -/
theorem tile_body (hF : (K (F := F)).Facts) (d : Dev nD) (L : grid0.Coords) (hI : Cert.Spec.ListInRange (Iarr m d))
    (O : CellTallies nD τ sig (HIx 1)) (W : Waits sig (HIx 1)) (hO : ∀ g, O g none = 0) :
    iprop(levAts (K (F := F)).L (K (F := F)).lev ∗ emp ∗ TileIn m d L
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            sV (Memref.isWhole_whole _) rV (Memref.isWhole_whole _) cc0_scratch2 cc0_scratch3 cc0_scoped0)
          fun _ => iprop(TileOut m d L ∗ scopedBufs (thr d L) ∗ scopedSems0 (thr d L)
            ∗ ∃ W', ⌜∀ p ∈ W', p ∈ W ∨ p.2 = none⌝ ∗ owes (thr d L) O W') := by
  have hrowsIn : (bigSep Finset.univ fun k : Fin k0_t1_loop.trips => bigSep Finset.univ fun u : Fin 8 => RowIn m d L k u : sProp 𝕄)
      = bigSep (Ring.rangeSet k0_t1_loop.trips 0 k0_t1_loop.trips) (fun k' => RowsIn m d L k') := by
    rw [Ring.rangeSet_univ]; exact bigSep_congr fun k _ => rowsIn_eq m d L k
  have hrowsOut : (bigSep Finset.univ fun k : Fin k0_t1_loop.trips => bigSep Finset.univ fun u : Fin 8 => RowOut m d L k u : sProp 𝕄)
      = bigSep (Ring.rangeSet k0_t1_loop.trips 0 k0_t1_loop.trips) (fun k' => RowsOut m d L k') := by
    rw [Ring.rangeSet_univ]; exact bigSep_congr fun k _ => rowsOut_eq m d L k
  simp only [cc0_gather_kernel_eq_skeleton]; unfold cc0_gather_kernel_skel
  rw [(K (F := F)).scopedBufs_V hF d (cV L) (jV L), SparseCore.Cfg.scopedSems0_V (Val := Elt F) d (cV L) (jV L), ownSems0_V17, ownBufs_V]
  unfold TileIn TileOut TileTok TileIdx
  rw [hrowsIn, hrowsOut]
  iintro ⟨#Hlv, -, ⟨Htok, Hi, Hrows⟩, ⟨⟨%fs, Hs⟩, ⟨%fr, Hr⟩, Hbufs⟩, ⟨Hg0, Hg1, Hg2, Hg3, Hg4, Hg5, Hg6, Hg7, Hw0, Hw1, Hw2, Hw3, Hw4, Hw5, Hw6, Hw7, Hsc⟩, HO⟩
  ihave Hmw := (show levAts (K (F := F)).L (K (F := F)).lev ⊢ Transfers.MayWaits (thr d L) (default : HIx 1) O from
    (K (F := F)).mayWaits_none (thr := thr d L) hO) $$ Hlv
  ihave Htok' := (Entails.of_eq (pts_tok (F := F) d L _ _).symm) $$ Htok
  ihave Htoks := (tok_split (F := F) d L (Parr m d)).1 $$ Htok'
  icases Htoks with ⟨Hdrop, Ht0, Ht1, Ht2, Ht3, Ht4, Ht5, Ht6, Ht7⟩
  ihave Hi' := (Entails.of_eq (pts_idx (F := F) d L _).symm) $$ Hi
  ihave Hs' := (Entails.of_eq (pts_sV (F := F) d L _).symm) $$ Hs
  ihave Hr' := (Entails.of_eq (pts_rV (F := F) d L _).symm) $$ Hr
  sl_exec
  -- the list scratch now holds the task's chunk: name its contents
  ihave Hs2 := (pts_name (F := F) _) $$ Hs'
  icases Hs2 with ⟨%Iv, %hIvEq, Hs'⟩
  have hIv : ∀ j : S28672.Idx, Iv j = Iarr m d ((iChunk L).view.emb j) := by
    rw [hIvEq]; exact iv_of (F := F) d L (Iarr m d) fs _ rfl
  sl_for (inv m d L O W Iv) $$ [Hmw Ht0 Ht1 Ht2 Ht3 Ht4 Ht5 Ht6 Ht7 Hs' Hg0 Hg1 Hg2 Hg3 Hg4 Hg5 Hg6 Hg7 Hrows HO Hr' Hw0 Hw1 Hw2 Hw3 Hw4 Hw5 Hw6 Hw7]
  case region =>
    intro k acc
    by_cases hk : k.val = 0
    · refine Entails.trans (Entails.of_eq ?_) ((trip0_step m d L O W Iv hIv hI _ k hk).trans (wp_mono frame _ _ fun _ => Entails.of_eq (inv_succ m d L O W Iv k).symm))
      rw [hk]; exact inv_zero m d L O W Iv
    · obtain ⟨kp, hkp⟩ : ∃ kp : Fin k0_t1_loop.trips, kp.val + 1 = k.val := ⟨⟨k.val - 1, lt_of_le_of_lt (Nat.sub_le _ _) k.isLt⟩, by simp only; omega⟩
      refine Entails.trans (Entails.of_eq ?_) ((tripK_step m d L O W Iv hIv hI _ k kp hkp).trans (wp_mono frame _ _ fun _ => Entails.of_eq (inv_succ m d L O W Iv k).symm))
      rw [← hkp]; exact inv_succ m d L O W Iv kp
  · rw [inv_zero]; unfold invCore invFirst
    rw [show (0 : ℕ) - 1 = 0 from rfl, Ring.bigSep_rangeSet_empty (Nat.le_refl 0)]
    isplitr [Hr' Hw0 Hw1 Hw2 Hw3 Hw4 Hw5 Hw6 Hw7]
    · isplitl [Hmw]; · iexact Hmw
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Hs']; · iexact Hs'
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hrows]; · iexact Hrows
      isplitr [HO]; · iempintro
      iexists _; isplitr
      swap; · iexact HO
      ipureintro; exact waits_ins _ (fun p hp => .inl hp)
    · isplitl [Hr']; · iexists _; iexact Hr'
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
  -- after the loop: the last trip's write-backs are waited for
  iintro %acc HI
  ihave HI' := (Entails.of_eq (inv_last m d L O W Iv _ (by decide) acc)) $$ HI
  unfold invCore invLater rest8
  icases HI' with ⟨⟨-, Ht0, Ht1, Ht2, Ht3, Ht4, Ht5, Ht6, Ht7, Hs', Hg0, Hg1, Hg2, Hg3, Hg4, Hg5, Hg6, Hg7, -, Hdone, ⟨%W', %hW', HO⟩⟩, ⟨%fr', Hr', ⟨%fp0, Hw0, %hok0⟩, ⟨%fp1, Hw1, %hok1⟩, ⟨%fp2, Hw2, %hok2⟩, ⟨%fp3, Hw3, %hok3⟩, ⟨%fp4, Hw4, %hok4⟩, ⟨%fp5, Hw5, %hok5⟩, ⟨%fp6, Hw6, %hok6⟩, ⟨%fp7, Hw7, %hok7⟩⟩⟩
  sl_exec
  sl_step
  have hlast : (bigSep (Ring.rangeSet k0_t1_loop.trips 0 k0_t1_loop.trips) (fun k' => RowsOut m d L k') : sProp 𝕄)
      = iprop(RowsOut m d L ⟨63, by decide⟩ ∗ bigSep (Ring.rangeSet k0_t1_loop.trips 0 (64 - 1)) (fun k' => RowsOut m d L k')) := by
    rw [congrArg (Ring.rangeSet k0_t1_loop.trips 0) trips_eq]
    exact Ring.bigSep_rangeSet_last (by decide) (le_of_eq trips_eq.symm)
  rw [hlast]
  isplitl [Hdrop Ht0 Ht1 Ht2 Ht3 Ht4 Ht5 Ht6 Ht7 Hi' Hdone Hw0_dst Hw1_dst Hw2_dst Hw3_dst Hw4_dst Hw5_dst Hw6_dst Hw7_dst]
  · isplitl [Hdrop Ht0 Ht1 Ht2 Ht3 Ht4 Ht5 Ht6 Ht7]
    · iapply (Entails.of_eq (pts_tok (F := F) d L _ _))
      iapply (tok_split (F := F) d L (Parr m d)).2
      isplitl [Hdrop]; · iexact Hdrop
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Hi']
    · iapply (Entails.of_eq (pts_idx (F := F) d L _)); iexact Hi'
    isplitr [Hdone]
    isplitl [Hw0_dst]
    · iexists fp0; isplitl [Hw0_dst]
      · iexact Hw0_dst
      · ipureintro; exact hok0
    isplitl [Hw1_dst]
    · iexists fp1; isplitl [Hw1_dst]
      · iexact Hw1_dst
      · ipureintro; exact hok1
    isplitl [Hw2_dst]
    · iexists fp2; isplitl [Hw2_dst]
      · iexact Hw2_dst
      · ipureintro; exact hok2
    isplitl [Hw3_dst]
    · iexists fp3; isplitl [Hw3_dst]
      · iexact Hw3_dst
      · ipureintro; exact hok3
    isplitl [Hw4_dst]
    · iexists fp4; isplitl [Hw4_dst]
      · iexact Hw4_dst
      · ipureintro; exact hok4
    isplitl [Hw5_dst]
    · iexists fp5; isplitl [Hw5_dst]
      · iexact Hw5_dst
      · ipureintro; exact hok5
    isplitl [Hw6_dst]
    · iexists fp6; isplitl [Hw6_dst]
      · iexact Hw6_dst
      · ipureintro; exact hok6
    iexists fp7; isplitl [Hw7_dst]
    · iexact Hw7_dst
    · ipureintro; exact hok7
    iexact Hdone
  isplitl [Hs' Hr' Hbufs]
  · isplitl [Hs']
    · iexists _; iapply (Entails.of_eq (pts_sV (F := F) d L _)); iexact Hs'
    isplitl [Hr']
    · iexists _; iapply (Entails.of_eq (pts_rV (F := F) d L _)); iexact Hr'
    iexact Hbufs
  isplitl [Hg0 Hg1 Hg2 Hg3 Hg4 Hg5 Hg6 Hg7 Hw0 Hw1 Hw2 Hw3 Hw4 Hw5 Hw6 Hw7 Hsc]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    iexact Hsc
  iexists _; isplitr
  swap; · iexact HO
  ipureintro
  iterate 8 apply waits_ins
  exact hW'

/-! ## The launch theorem's obligation -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) rV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the one call meets the launch theorem's obligation, given that every word of the flattened list
    names a row of the table. -/
theorem tileObl (hF : (K (F := F)).Facts) (hI : ∀ d : Dev nD, Cert.Spec.ListInRange (Iarr m d)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF d (coordsV ⟨_, hci.1⟩ ⟨_, hci.2⟩) (hI d) O W hO).trans (wp_mono frame _ _ fun _ => obl_post)

end Cert.Proof.K

end
-- ==== Proof.KSplit.lean ====
/-
  The resources of the one call, apart and together: the padded table as 32 read tokens and a remainder, the
  flattened index list as the 32 tasks' chunks, the intermediate array as its 16384 rows regrouped by task, trip
  and slot; and back, the rows' separate contents joined into one contents of the whole array.
-/
import proofs.«206314_g14001593385621_cont_week2b_782_31_alg».proof.Proof.KPay
import Idealize.ShloMosaic.Lib.Transfers
import Idealize.ShloMosaic.Rules.PointsTo

noncomputable section

namespace Cert.Proof.K

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tasks and the rows as index sets -/

theorem wid_LL (c : Fin ((K (F := F)).nCore 0)) (i : Fin ((K (F := F)).nSub 0)) : wid (LL (F := F) c i) = 2 * i.val + c.val := rfl

theorem rowIx_val (L : grid0.Coords) (k : Fin k0_t1_loop.trips) (u : Fin 8) : (rowIx L k u).val = 512 * wid L + 8 * k.val + u.val := rfl

/-- The 32 tasks: task (c, i) has number 2 i + c. -/
def taskEquiv : Fin ((K (F := F)).nCore 0) × Fin ((K (F := F)).nSub 0) ≃ Fin 32 where
  toFun p := ⟨wid (LL (F := F) p.1 p.2), wid_lt _⟩
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

/-- The 16384 rows: slot u of trip k of task (c, i) writes row 512 (2 i + c) + 8 k + u. -/
def rowEquiv : (Fin ((K (F := F)).nCore 0) × Fin ((K (F := F)).nSub 0)) × (Fin k0_t1_loop.trips × Fin 8) ≃ Fin 16384 where
  toFun p := rowIx (LL (F := F) p.1.1 p.1.2) p.2.1 p.2.2
  invFun b := ((⟨b.val / 512 % 2, Nat.mod_lt _ (by decide)⟩, ⟨b.val / 512 / 2, by have := b.isLt; show b.val / 512 / 2 < 16; omega⟩),
    (⟨b.val % 512 / 8, by rw [trips_eq]; omega⟩, ⟨b.val % 8, Nat.mod_lt _ (by decide)⟩))
  left_inv p := by
    have h1 : p.1.1.val < 2 := p.1.1.isLt
    have h2 : p.1.2.val < 16 := p.1.2.isLt
    have h3 : p.2.1.val < 64 := trips_eq ▸ p.2.1.isLt
    have h4 : p.2.2.val < 8 := p.2.2.isLt
    refine Prod.ext (Prod.ext (Fin.ext ?_) (Fin.ext ?_)) (Prod.ext (Fin.ext ?_) (Fin.ext ?_))
    · show (512 * (2 * p.1.2.val + p.1.1.val) + 8 * p.2.1.val + p.2.2.val) / 512 % 2 = p.1.1.val; omega
    · show (512 * (2 * p.1.2.val + p.1.1.val) + 8 * p.2.1.val + p.2.2.val) / 512 / 2 = p.1.2.val; omega
    · show (512 * (2 * p.1.2.val + p.1.1.val) + 8 * p.2.1.val + p.2.2.val) % 512 / 8 = p.2.1.val; omega
    · show (512 * (2 * p.1.2.val + p.1.1.val) + 8 * p.2.1.val + p.2.2.val) % 8 = p.2.2.val; omega
  right_inv b := by
    refine Fin.ext ?_
    show 512 * (2 * (b.val / 512 / 2) + b.val / 512 % 2) + 8 * (b.val % 512 / 8) + b.val % 8 = b.val; omega

/-- A family over the 32 task numbers, by SparseCore and vector subcore. -/
theorem bigSep_tasks (Ψ : Fin 32 → sProp 𝕄) :
    bigSep Finset.univ Ψ = bigSep Finset.univ fun c : Fin ((K (F := F)).nCore 0) => bigSep Finset.univ fun i : Fin ((K (F := F)).nSub 0) =>
      Ψ ⟨wid (LL (F := F) c i), wid_lt _⟩ := by
  rw [bigSep_univ_equiv (taskEquiv (F := F)) Ψ, bigSep_univ_prod]; rfl

/-- A family over the 16384 rows, by SparseCore, vector subcore, trip and slot. -/
theorem bigSep_rows (Ψ : Fin 16384 → sProp 𝕄) :
    bigSep Finset.univ Ψ = bigSep Finset.univ fun c : Fin ((K (F := F)).nCore 0) => bigSep Finset.univ fun i : Fin ((K (F := F)).nSub 0) =>
      bigSep Finset.univ fun k : Fin k0_t1_loop.trips => bigSep Finset.univ fun u : Fin 8 => Ψ (rowIx (LL (F := F) c i) k u) := by
  rw [bigSep_univ_equiv (rowEquiv (F := F)) Ψ, bigSep_univ_prod, bigSep_univ_prod]
  refine bigSep_congr fun c _ => bigSep_congr fun i _ => ?_
  rw [bigSep_univ_prod]; rfl

/-! ## The chunks of the list and the rows of the intermediate array are the parts of a cut along axis 0 -/

theorem hdivI : 32 ∣ S917504.size 0 := ⟨28672, rfl⟩
theorem hdivO : 16384 ∣ S16384x56x128.size 0 := ⟨1, rfl⟩

abbrev chunkR (w : Fin 32) : Rect S917504 := Rect.part (s := S917504) (a₀ := 0) hdivI w
abbrev rowR (b : Fin 16384) : Rect S16384x56x128 := Rect.part (s := S16384x56x128) (a₀ := 0) hdivO b

theorem chunk_rect (L : grid0.Coords) :
    Rect.unit (s := S917504) (k0_off1 L) S28672.size (k0_off1_inb L) = chunkR ⟨wid L, wid_lt L⟩ := by
  unfold chunkR Rect.part Rect.block
  congr 1 <;> funext a
  · rw [k0_off1_eq]
    match a with
    | ⟨0, _⟩ => simp [Shape.partIx, Shape.partSize, wid]; omega
  · match a with
    | ⟨0, _⟩ => simp [Shape.partSize]

theorem row_rect (L : grid0.Coords) (k : Fin k0_t1_loop.trips) (u : Fin 8) :
    Rect.unit (s := S16384x56x128) (k0_off11 L k (BitVec.ofNat 32 u.val)) S1x56x128.size (k0_off11_inb L k u) = rowR (rowIx L k u) := by
  unfold rowR Rect.part Rect.block
  congr 1 <;> funext a
  · rw [k0_off11_eq]
    match a with
    | ⟨0, _⟩ => simp [Shape.partIx, Shape.partSize, rowIx, wid]; omega
    | ⟨1, _⟩ => simp [Shape.partIx, Shape.partSize]
    | ⟨2, _⟩ => simp [Shape.partIx, Shape.partSize]
  · match a with
    | ⟨0, _⟩ => simp [Shape.partSize]
    | ⟨1, _⟩ => simp [Shape.partSize]
    | ⟨2, _⟩ => simp [Shape.partSize]

theorem set_iChunk (L : grid0.Coords) : (iChunk L).view.set = (chunkR ⟨wid L, wid_lt L⟩).set := by
  show ((View.whole (main_v1_scv : Ref sig .scVector)).slice (Rect.unit (s := S917504) (k0_off1 L) S28672.size (k0_off1_inb L))).set = _
  rw [View.set_slice, chunk_rect]; exact Finset.map_refl

theorem set_rowM (L : grid0.Coords) (k : Fin k0_t1_loop.trips) (u : Fin 8) : (rowM L k u).view.set = (rowR (rowIx L k u)).set := by
  refine Eq.trans ?_ (show ((View.whole (main_v3_scv : Ref sig .scVector)).slice (rowR (rowIx L k u))).set = (rowR (rowIx L k u)).set from by
    rw [View.set_slice]; exact Finset.map_refl)
  show (((View.whole (main_v3_scv : Ref sig .scVector)).slice
      (Rect.unit (s := S16384x56x128) (k0_off11 L k (BitVec.ofNat 32 u.val)) S1x56x128.size (k0_off11_inb L k u))).reshape S56x128 squeezes_S1x56x128_S56x128.numel_eq).set
    = ((View.whole (main_v3_scv : Ref sig .scVector)).slice (rowR (rowIx L k u))).set
  rw [View.set_reshape]
  exact row_rect L k u ▸ rfl

theorem chunks_disjoint : ∀ w ∈ (Finset.univ : Finset (Fin 32)), ∀ w' ∈ (Finset.univ : Finset (Fin 32)), w ≠ w' → Disjoint (chunkR w).set (chunkR w').set :=
  fun _ _ _ _ h => Rect.part_disjoint hdivI h
theorem chunks_cover : (Finset.univ : Finset (Fin 32)).biUnion (fun w => (chunkR w).set) = Finset.univ := Rect.biUnion_part hdivI
theorem rows_disjoint : ∀ b ∈ (Finset.univ : Finset (Fin 16384)), ∀ b' ∈ (Finset.univ : Finset (Fin 16384)), b ≠ b' → Disjoint (rowR b).set (rowR b').set :=
  fun _ _ _ _ h => Rect.part_disjoint hdivO h
theorem rows_cover : (Finset.univ : Finset (Fin 16384)).biUnion (fun b => (rowR b).set) = Finset.univ := Rect.biUnion_part hdivO

/-- Entry (h, l) of row b lies in the b-th part. -/
theorem mem_rowR (b : Fin 16384) (h : Fin 56) (l : Fin 128) : ValueIdx.ix3 b h l ∈ (rowR b).set := by
  refine Rect.mem_set_unit.mpr fun a => ?_
  match a with
  | ⟨0, _⟩ => simp [Shape.partIx, Shape.partSize]
  | ⟨1, _⟩ => simp [Shape.partIx, Shape.partSize]
  | ⟨2, _⟩ => simp [Shape.partIx, Shape.partSize]

/-! ## The three arrays, apart -/

section Split

variable (d : Dev nD)

/-- The flattened list whole is the 32 tasks' chunks. -/
theorem iPts_chunks (f : Buf (Elt F) (iLoc d)) :
    (iLoc d ↦{fullShare} f : sProp 𝕄) = bigSep Finset.univ fun c : Fin ((K (F := F)).nCore 0) => bigSep Finset.univ fun i : Fin ((K (F := F)).nSub 0) =>
      iLoc d ↦[(iChunk (LL (F := F) c i)).view.set]{fullShare} f := by
  rw [show (iLoc d ↦{fullShare} f : sProp 𝕄) = bigSep Finset.univ fun w : Fin 32 => iLoc d ↦[(chunkR w).set]{fullShare} f from by
      rw [← pointsTo_biUnion Finset.univ (ℓ := iLoc d) (fun w : Fin 32 => (chunkR w).set) chunks_disjoint, chunks_cover]; try rfl,
    bigSep_tasks (F := F)]
  refine bigSep_congr fun c _ => bigSep_congr fun i _ => ?_
  rw [set_iChunk]

/-- The intermediate array whole is its 16384 rows, by task, trip and slot. -/
theorem oPts_rows (f : Buf (Elt F) (oLoc d)) :
    (oLoc d ↦{fullShare} f : sProp 𝕄) = bigSep Finset.univ fun c : Fin ((K (F := F)).nCore 0) => bigSep Finset.univ fun i : Fin ((K (F := F)).nSub 0) =>
      bigSep Finset.univ fun k : Fin k0_t1_loop.trips => bigSep Finset.univ fun u : Fin 8 =>
        oLoc d ↦[(rowM (LL (F := F) c i) k u).view.set]{fullShare} f := by
  rw [show (oLoc d ↦{fullShare} f : sProp 𝕄) = bigSep Finset.univ fun b : Fin 16384 => oLoc d ↦[(rowR b).set]{fullShare} f from by
      rw [← pointsTo_biUnion Finset.univ (ℓ := oLoc d) (fun b : Fin 16384 => (rowR b).set) rows_disjoint, rows_cover]; try rfl,
    bigSep_rows (F := F)]
  refine bigSep_congr fun c _ => bigSep_congr fun i _ => bigSep_congr fun k _ => bigSep_congr fun u _ => ?_
  rw [set_rowM]

/-- The padded table whole is a remainder and the 32 tasks' read tokens; -/
theorem pPts_toks (f : Buf (Elt F) (pLoc d)) :
    (pLoc d ↦{fullShare} f : sProp 𝕄) ⊢ iprop((pLoc d ↦{Transfers.shareDrop fullShare 32} f)
      ∗ bigSep Finset.univ fun c : Fin ((K (F := F)).nCore 0) => bigSep Finset.univ fun i : Fin ((K (F := F)).nSub 0) => pLoc d ↦{tq (LL (F := F) c i)} f) := by
  refine (Transfers.pointsTo_toks_split (ℓ := pLoc d) (S := Finset.univ) (f := f) fullShare 32).trans (Entails.of_eq ?_)
  rw [bigSep_tasks (F := F)]; rfl

/-- and back. -/
theorem pPts_join (f : Buf (Elt F) (pLoc d)) :
    iprop((pLoc d ↦{Transfers.shareDrop fullShare 32} f)
      ∗ bigSep Finset.univ fun c : Fin ((K (F := F)).nCore 0) => bigSep Finset.univ fun i : Fin ((K (F := F)).nSub 0) => pLoc d ↦{tq (LL (F := F) c i)} f)
      ⊢ (pLoc d ↦{fullShare} f : sProp 𝕄) := by
  refine (Entails.of_eq ?_).trans (Transfers.pointsTo_toks_join (ℓ := pLoc d) (S := Finset.univ) (f := f) fullShare 32)
  rw [bigSep_tasks (F := F)]; rfl

end Split

/-! ## The rows' contents, joined -/

section Join

variable (m : (ℓ : Loc nD τ sig) → Buf (Elt F) ℓ) [FloatOps F] (d : Dev nD)

/-- What the tasks hand back of the intermediate array — each row at contents of its own — is one contents of the whole
    array, every row of which is right: the row's condition reads the contents on that row only. -/
theorem rowsOut_join :
    (bigSep Finset.univ fun c : Fin ((K (F := F)).nCore 0) => bigSep Finset.univ fun i : Fin ((K (F := F)).nSub 0) =>
      bigSep Finset.univ fun k : Fin k0_t1_loop.trips => bigSep Finset.univ fun u : Fin 8 => RowOut m d (LL (F := F) c i) k u)
    ⊢ (iprop(∃ g : Buf (Elt F) (oLoc d), (oLoc d ↦{fullShare} g) ∗ ⌜∀ b : Fin 16384, Cert.Spec.RowOK (Iarr m d) (Parr m d) g b⌝) : sProp 𝕄) := by
  have e : (bigSep Finset.univ fun c : Fin ((K (F := F)).nCore 0) => bigSep Finset.univ fun i : Fin ((K (F := F)).nSub 0) =>
      bigSep Finset.univ fun k : Fin k0_t1_loop.trips => bigSep Finset.univ fun u : Fin 8 => RowOut m d (LL (F := F) c i) k u)
      = bigSep Finset.univ fun b : Fin 16384 => (iprop(∃ f : Buf (Elt F) (oLoc d), (oLoc d ↦[(rowR b).set]{fullShare} f)
          ∗ ⌜Cert.Spec.RowOK (Iarr m d) (Parr m d) f b⌝) : sProp 𝕄) := by
    rw [bigSep_rows (F := F)]
    refine bigSep_congr fun c _ => bigSep_congr fun i _ => bigSep_congr fun k _ => bigSep_congr fun u _ => ?_
    unfold RowOut; rw [set_rowM]
  have hswap : ∀ b : Fin 16384, (iprop(∃ f : Buf (Elt F) (oLoc d), (oLoc d ↦[(rowR b).set]{fullShare} f)
        ∗ ⌜Cert.Spec.RowOK (Iarr m d) (Parr m d) f b⌝) : sProp 𝕄)
      ⊢ iprop(∃ f : Buf (Elt F) (oLoc d), ⌜Cert.Spec.RowOK (Iarr m d) (Parr m d) f b⌝ ∗ (oLoc d ↦[(rowR b).set]{fullShare} f)) := by
    intro b
    iintro ⟨%f, Hp, %hf⟩
    iexists f
    isplitr
    · ipureintro; exact hf
    · iexact Hp
  refine (Entails.of_eq e).trans ((bigSep_mono fun b _ => hswap b).trans
    ((bigSep_exists_pi Finset.univ (fun (b : Fin 16384) (f : Buf (Elt F) (oLoc d)) =>
      (iprop(⌜Cert.Spec.RowOK (Iarr m d) (Parr m d) f b⌝ ∗ (oLoc d ↦[(rowR b).set]{fullShare} f)) : sProp 𝕄))).trans ?_))
  iintro ⟨%fs, H⟩
  ihave H' := (bigSep_pure_sep Finset.univ (fun b : Fin 16384 => Cert.Spec.RowOK (Iarr m d) (Parr m d) (fs b) b)
    (fun b : Fin 16384 => (oLoc d ↦[(rowR b).set]{fullShare} fs b : sProp 𝕄))) $$ H
  icases H' with ⟨%hφ, Hp⟩
  ihave Hj := (pointsTo_biUnion_join Finset.univ (fun b : Fin 16384 => (rowR b).set) fs (fs 0) rows_disjoint) $$ Hp
  icases Hj with ⟨%g, %hg, Hg⟩
  rw [rows_cover]
  iexists g
  isplitl [Hg]; · iexact Hg
  ipureintro
  intro b h l hh hI
  rw [hg b (Finset.mem_univ b) (ValueIdx.ix3 b h l) (mem_rowR b h l)]
  exact hφ b (Finset.mem_univ b) h l hh hI

end Join

/-! ## What the call takes for the two SparseCores, and what it hands back -/

section Call

variable (m : (ℓ : Loc nD τ sig) → Buf (Elt F) ℓ) [FloatOps F] (d : Dev nD)

/-- The payloads of the one call, as equations. -/
theorem P_st (c : Fin ((K (F := F)).nCore 0)) :
    (P m).st 0 d c = bigSep Finset.univ fun i : Fin ((K (F := F)).nSub 0) => TileIn m d (LL (F := F) c i) := by unfold P; dsimp only
theorem P_dn (c : Fin ((K (F := F)).nCore 0)) :
    (P m).dn 0 d c = bigSep Finset.univ fun i : Fin ((K (F := F)).nSub 0) => TileOut m d (LL (F := F) c i) := by unfold P; dsimp only
theorem P_go (c : Fin ((K (F := F)).nCore 0)) (i : Fin ((K (F := F)).nSub 0)) : (P m).go 0 d c i = TileIn m d (LL (F := F) c i) := by unfold P; dsimp only
theorem P_td (c : Fin ((K (F := F)).nCore 0)) (i : Fin ((K (F := F)).nSub 0)) : (P m).td 0 d c i = TileOut m d (LL (F := F) c i) := by unfold P; dsimp only

theorem st0_eq : (bigSep Finset.univ fun c : Fin ((K (F := F)).nCore 0) => (P m).st 0 d c)
    = iprop((bigSep Finset.univ fun c : Fin ((K (F := F)).nCore 0) => bigSep Finset.univ fun i : Fin ((K (F := F)).nSub 0) => TileTok m d (LL (F := F) c i))
      ∗ (bigSep Finset.univ fun c : Fin ((K (F := F)).nCore 0) => bigSep Finset.univ fun i : Fin ((K (F := F)).nSub 0) => TileIdx m d (LL (F := F) c i))
      ∗ bigSep Finset.univ fun c : Fin ((K (F := F)).nCore 0) => bigSep Finset.univ fun i : Fin ((K (F := F)).nSub 0) =>
          bigSep Finset.univ fun k : Fin k0_t1_loop.trips => bigSep Finset.univ fun u : Fin 8 => RowIn m d (LL (F := F) c i) k u) := by
  rw [bigSep_congr fun c _ => P_st m d c]
  unfold TileIn
  simp only [bigSep_sep']

theorem dn0_eq : (bigSep Finset.univ fun c : Fin ((K (F := F)).nCore 0) => (P m).dn 0 d c)
    = iprop((bigSep Finset.univ fun c : Fin ((K (F := F)).nCore 0) => bigSep Finset.univ fun i : Fin ((K (F := F)).nSub 0) => TileTok m d (LL (F := F) c i))
      ∗ (bigSep Finset.univ fun c : Fin ((K (F := F)).nCore 0) => bigSep Finset.univ fun i : Fin ((K (F := F)).nSub 0) => TileIdx m d (LL (F := F) c i))
      ∗ bigSep Finset.univ fun c : Fin ((K (F := F)).nCore 0) => bigSep Finset.univ fun i : Fin ((K (F := F)).nSub 0) =>
          bigSep Finset.univ fun k : Fin k0_t1_loop.trips => bigSep Finset.univ fun u : Fin 8 => RowOut m d (LL (F := F) c i) k u) := by
  rw [bigSep_congr fun c _ => P_dn m d c]
  unfold TileOut
  simp only [bigSep_sep']

/-- From the three arrays whole — the padded table, the flattened list, the intermediate array at its launch contents —
    what the call takes, and the table's remainder kept aside; -/
theorem st0_intro :
    iprop((pLoc d ↦{fullShare} Parr m d) ∗ (iLoc d ↦{fullShare} Iarr m d) ∗ (oLoc d ↦{fullShare} m (oLoc d)))
      ⊢ iprop((pLoc d ↦{Transfers.shareDrop fullShare 32} Parr m d) ∗ bigSep Finset.univ fun c : Fin ((K (F := F)).nCore 0) => (P m).st 0 d c) := by
  rw [st0_eq, iPts_chunks, oPts_rows]
  unfold TileTok TileIdx RowIn
  iintro ⟨Hp, Hi, Ho⟩
  ihave Hp' := (pPts_toks (F := F) d (Parr m d)) $$ Hp
  icases Hp' with ⟨Hrem, Htok⟩
  isplitl [Hrem]; · iexact Hrem
  isplitl [Htok]; · iexact Htok
  isplitl [Hi]; · iexact Hi
  iexact Ho

/-- and from what it hands back, with the remainder, the three arrays whole again: the intermediate array at one
    contents every row of which is right. -/
theorem dn0_elim :
    iprop((pLoc d ↦{Transfers.shareDrop fullShare 32} Parr m d) ∗ bigSep Finset.univ fun c : Fin ((K (F := F)).nCore 0) => (P m).dn 0 d c)
      ⊢ iprop((pLoc d ↦{fullShare} Parr m d) ∗ (iLoc d ↦{fullShare} Iarr m d)
          ∗ ∃ g : Buf (Elt F) (oLoc d), (oLoc d ↦{fullShare} g) ∗ ⌜∀ b : Fin 16384, Cert.Spec.RowOK (Iarr m d) (Parr m d) g b⌝) := by
  rw [dn0_eq, iPts_chunks]
  unfold TileTok TileIdx
  iintro ⟨Hrem, Htok, Hi, Ho⟩
  isplitl [Hrem Htok]
  · iapply (pPts_join (F := F) d (Parr m d))
    isplitl [Hrem]; · iexact Hrem
    iexact Htok
  isplitl [Hi]; · iexact Hi
  iapply (rowsOut_join m d); iexact Ho

end Call

end Cert.Proof.K

end
-- ==== Proof.KLaunch.lean ====
/-
  The launch side of the program's run: the launch theorem (Lib/SparseCore/Launch.lean, Cfg.θ_run_sc) at the one
  vector-subcore call over two SparseCores of sixteen tasks, the task's body taken as a hypothesis. @main on the
  TensorCore: seven host operations build the flattened padded index list and the padded table; the call takes the
  table as 32 read tokens, the list as 32 chunks and the intermediate array as 16384 rows, and hands them back, every
  row right; the final slice is then the lookup.
-/
import proofs.«206314_g14001593385621_cont_week2b_782_31_alg».proof.Proof.KPay
import proofs.«206314_g14001593385621_cont_week2b_782_31_alg».proof.Proof.KSplit
import proofs.«206314_g14001593385621_cont_week2b_782_31_alg».proof.Proof.HostVals
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The payloads travel inside the handshakes' invariants -/

instance TileIn_storable (d : Dev nD) (L : grid0.Coords) : BI.Storable (upEmb : UEmb _ 𝕄) (TileIn m d L) := by
  unfold TileIn TileTok TileIdx RowIn; infer_instance
instance TileOut_storable (d : Dev nD) (L : grid0.Coords) : BI.Storable (upEmb : UEmb _ 𝕄) (TileOut m d L) := by
  unfold TileOut TileTok TileIdx RowOut; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## A SparseCore's operands are its sixteen tasks', already apart -/

theorem vecSplit : (K (F := F)).VecSplit' (P m) 0 := by
  intro d c
  rw [P_st, P_dn, bigSep_congr fun i _ => P_go m d c i, bigSep_congr fun i _ => P_td m d c i]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem P_x (q : Fin 1) (thr : Thread nD τ) : (P m).x q thr = (iprop(emp) : sProp 𝕄) := by unfold P; dsimp only

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  rw [show (bigSep Finset.univ fun thr : Thread nD τ => bigSep Finset.univ fun q : Fin 1 => (P m).x q thr) = (iprop(emp) : sProp 𝕄) from by
    rw [bigSep_congr fun thr _ => (bigSep_congr fun q _ => P_x m q thr).trans (bigSep_emp' _), bigSep_emp']]
  unfold u₀
  iintro Hu
  ihave H := (ownU_pair _ _) $$ Hu
  icases H with ⟨HH, -⟩
  imodintro
  isplitl [HH]; · iexact HH
  isplitr; · rw [bigSep_emp']; iempintro
  iempintro

/-! ## @main on the TensorCore -/

abbrev x' : DevRef τ sig := Proc.devRef .tc (main_arg0 : Ref sig .tc)
abbrev t' : DevRef τ sig := Proc.devRef .tc (main_arg1 : Ref sig .tc)
abbrev c' : DevRef τ sig := Proc.devRef .tc (main_c : Ref sig .tc)
abbrev a' : DevRef τ sig := Proc.devRef .tc (main_call0_v0 : Ref sig .tc)
abbrev w' : DevRef τ sig := Proc.devRef .tc (main_v0 : Ref sig .tc)
abbrev i' : DevRef τ sig := Proc.devRef .tc (main_v1 : Ref sig .tc)
abbrev z' : DevRef τ sig := Proc.devRef .tc (main_c_0 : Ref sig .tc)
abbrev b' : DevRef τ sig := Proc.devRef .tc (main_call1_v0 : Ref sig .tc)
abbrev p' : DevRef τ sig := Proc.devRef .tc (main_v2 : Ref sig .tc)
abbrev o' : DevRef τ sig := Proc.devRef .tc (main_v3 : Ref sig .tc)
abbrev r' : DevRef τ sig := Proc.devRef .tc (main_v4 : Ref sig .tc)

/-- The eight host operations, as @main and the two padding functions spell them. -/
abbrev op1 : HloOp τ sig (Elt F) := StableHlo.nullary main_c (constantI S_ 32 0#32)
abbrev op2 : HloOp τ sig (Elt F) :=
  StableHlo.TRef.unary (StableHlo.TRef.of main_c : StableHlo.TRef sig ⟨S_, .i32⟩) (StableHlo.TRef.of main_call0_v0 : StableHlo.TRef sig ⟨S_, .i32⟩) id
abbrev op3 : HloOp τ sig (Elt F) :=
  StableHlo.TRef.binary (StableHlo.TRef.of main_arg0 : StableHlo.TRef sig ⟨S16384x50, .i32⟩) (StableHlo.TRef.of main_call0_v0 : StableHlo.TRef sig ⟨S_, .i32⟩)
    (StableHlo.TRef.of main_v0 : StableHlo.TRef sig ⟨S16384x56, .i32⟩)
    (fun x v => pad S16384x56 ![0, 0] ![0, 6] ![0, 0] x v pads_S16384x50_S16384x56_000_060 h_S_)
abbrev op4 : HloOp τ sig (Elt F) := StableHlo.reshape main_v0 main_v1 rfl shapeCasts_S16384x56_S917504
abbrev op5 : HloOp τ sig (Elt F) := StableHlo.nullary main_c_0 (constantI S_ 32 0#32)
abbrev op6 : HloOp τ sig (Elt F) :=
  StableHlo.TRef.unary (StableHlo.TRef.of main_c_0 : StableHlo.TRef sig ⟨S_, .i32⟩) (StableHlo.TRef.of main_call1_v0 : StableHlo.TRef sig ⟨S_, .f32⟩) (sitofp .f32)
abbrev op7 : HloOp τ sig (Elt F) :=
  StableHlo.TRef.binary (StableHlo.TRef.of main_arg1 : StableHlo.TRef sig ⟨S1000000x64, .f32⟩) (StableHlo.TRef.of main_call1_v0 : StableHlo.TRef sig ⟨S_, .f32⟩)
    (StableHlo.TRef.of main_v2 : StableHlo.TRef sig ⟨S1000000x128, .f32⟩)
    (fun x v => pad S1000000x128 ![0, 0] ![0, 64] ![0, 0] x v pads_S1000000x64_S1000000x128_000_0640 h_S_)
abbrev op8 : HloOp τ sig (Elt F) :=
  StableHlo.unary main_v3 main_v4 ((extractStridedSlice S16384x50x64 ![0, 0, 0] · slices_S16384x56x128_S16384x50x64_0_0_0) :
    (⟨S16384x56x128, .f32⟩ : BufTy).Contents (Elt F) → (⟨S16384x50x64, .f32⟩ : BufTy).Contents (Elt F))

/-- The TensorCore's eleven arrays, all unscoped. -/
abbrev S11 : Finset (DevRef τ sig) := {x', t', c', a', w', i', z', b', p', o', r'}
/-- The two the final slice touches. -/
abbrev S2 : Finset (DevRef τ sig) := {o', r'}

omit [FloatOps F] in
theorem held_S11 (d : Dev nD) (W : Valuation τ sig (Elt F)) :
    (held (T d) S11 W : sProp 𝕄)
      = iprop((xLoc d ↦{fullShare} W x') ∗ (tLoc d ↦{fullShare} W t') ∗ ((SparseCore.T d).loc main_c ↦{fullShare} W c')
          ∗ ((SparseCore.T d).loc main_call0_v0 ↦{fullShare} W a') ∗ ((SparseCore.T d).loc main_v0 ↦{fullShare} W w') ∗ (iLoc d ↦{fullShare} W i')
          ∗ ((SparseCore.T d).loc main_c_0 ↦{fullShare} W z') ∗ ((SparseCore.T d).loc main_call1_v0 ↦{fullShare} W b') ∗ (pLoc d ↦{fullShare} W p')
          ∗ (oLoc d ↦{fullShare} W o') ∗ rLoc d ↦{fullShare} W r') := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ ((SparseCore.T d).loc main_c ↦{fullShare} W main_c)
          ∗ ((SparseCore.T d).loc main_call0_v0 ↦{fullShare} W main_call0_v0) ∗ ((SparseCore.T d).loc main_v0 ↦{fullShare} W main_v0)
          ∗ (iLoc d ↦{fullShare} W main_v1) ∗ ((SparseCore.T d).loc main_c_0 ↦{fullShare} W main_c_0)
          ∗ ((SparseCore.T d).loc main_call1_v0 ↦{fullShare} W main_call1_v0) ∗ (pLoc d ↦{fullShare} W main_v2)
          ∗ (oLoc d ↦{fullShare} W main_v3) ∗ rLoc d ↦{fullShare} W main_v4) := by
  unfold unscopedBufs
  rw [show (Finset.univ.filter fun b : Ref sig .tc => ¬ b.isScoped)
      = {main_arg0, main_arg1, main_c, main_call0_v0, main_v0, main_v1, main_c_0, main_call1_v0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, and the valuations after each of the seven operations before the call. -/
def V0 (d : Dev nD) : Valuation τ sig (Elt F) := fun b => m (d, b)
abbrev W1 (d : Dev nD) : Valuation τ sig (Elt F) := (op1 (F := F)).result (V0 m d)
abbrev W2 (d : Dev nD) : Valuation τ sig (Elt F) := (op2 (F := F)).result (W1 m d)
abbrev W3 (d : Dev nD) : Valuation τ sig (Elt F) := (op3 (F := F)).result (W2 m d)
abbrev W4 (d : Dev nD) : Valuation τ sig (Elt F) := (op4 (F := F)).result (W3 m d)
abbrev W5 (d : Dev nD) : Valuation τ sig (Elt F) := (op5 (F := F)).result (W4 m d)
abbrev W6 (d : Dev nD) : Valuation τ sig (Elt F) := (op6 (F := F)).result (W5 m d)
abbrev W7 (d : Dev nD) : Valuation τ sig (Elt F) := (op7 (F := F)).result (W6 m d)
def V7 (d : Dev nD) : Valuation τ sig (Elt F) := StableHlo.after [op1, op2, op3, op4, op5, op6, op7] (V0 m d)

theorem W7_eq (d : Dev nD) : W7 m d = V7 m d := rfl

theorem unscoped_held (d : Dev nD) : (unscopedBufs d (fun b => m ((SparseCore.T d).loc b)) : sProp 𝕄) = held (T d) S11 (V0 m d) := by
  rw [unscopedBufs_eq, held_S11]; rfl

/-- What the arrays hold before the call: the two arguments and the intermediate array what the launch memory held, -/
theorem V7_x (d : Dev nD) : V7 m d x' = m (xLoc d) := by
  unfold V7; after_results; rfl
theorem V7_t (d : Dev nD) : V7 m d t' = m (tLoc d) := by
  unfold V7; after_results; rfl
theorem V7_o (d : Dev nD) : V7 m d o' = m (oLoc d) := by
  unfold V7; after_results; rfl
/-- the flattened padded index list, -/
theorem V7_i (d : Dev nD) : V7 m d i' = Iarr m d := by
  unfold V7 Iarr; after_results
  exact HostVals.pad_reshape_idx (m (xLoc d)) (constantI S_ 32 0#32) pads_S16384x50_S16384x56_000_060 h_S_ shapeCasts_S16384x56_S917504
/-- the padded table. -/
theorem V7_p (d : Dev nD) : V7 m d p' = Parr m d := by
  unfold V7 Parr; after_results
  exact HostVals.pad_table (m (tLoc d)) (sitofp .f32 (constantI S_ 32 0#32)) pads_S1000000x64_S1000000x128_000_0640 h_S_

theorem held_V7 (d : Dev nD) :
    (held (T d) S11 (W7 m d) : sProp 𝕄)
      = iprop((xLoc d ↦{fullShare} m (xLoc d)) ∗ (tLoc d ↦{fullShare} m (tLoc d)) ∗ ((SparseCore.T d).loc main_c ↦{fullShare} V7 m d c')
          ∗ ((SparseCore.T d).loc main_call0_v0 ↦{fullShare} V7 m d a') ∗ ((SparseCore.T d).loc main_v0 ↦{fullShare} V7 m d w') ∗ (iLoc d ↦{fullShare} Iarr m d)
          ∗ ((SparseCore.T d).loc main_c_0 ↦{fullShare} V7 m d z') ∗ ((SparseCore.T d).loc main_call1_v0 ↦{fullShare} V7 m d b') ∗ (pLoc d ↦{fullShare} Parr m d)
          ∗ (oLoc d ↦{fullShare} m (oLoc d)) ∗ rLoc d ↦{fullShare} V7 m d r') := by
  rw [W7_eq, held_S11, V7_x, V7_t, V7_i, V7_p, V7_o]

/-- After the call: the intermediate array at what the tasks left. -/
def V8 (d : Dev nD) (g : Buf (Elt F) (oLoc d)) : Valuation τ sig (Elt F) := Function.update (V7 m d) o' g
theorem V8_o (d : Dev nD) (g : Buf (Elt F) (oLoc d)) : V8 m d g o' = g := Function.update_self _ _ _
theorem V8_r (d : Dev nD) (g : Buf (Elt F) (oLoc d)) : V8 m d g r' = V7 m d r' := Function.update_of_ne (show r' ≠ o' by decide) _ _

/-- The final slice of an intermediate array whose every row is right is the lookup. -/
theorem res8_r (d : Dev nD) (g : Buf (Elt F) (oLoc d)) (hg : ∀ b : Fin 16384, Cert.Spec.RowOK (Iarr m d) (Parr m d) g b)
    (hx : Cert.Spec.InRange (m (xLoc d))) :
    (op8 (F := F)).result (V8 m d g) r' = Cert.Spec.lookup (m (xLoc d)) (m (tLoc d)) := by
  rw [StableHlo.unary_result, V8_o]
  unfold Iarr Parr at hg
  exact HostVals.slice_lookup (m (xLoc d)) (m (tLoc d)) _ hx g hg _

theorem held_V9 (d : Dev nD) (g : Buf (Elt F) (oLoc d)) (hg : ∀ b : Fin 16384, Cert.Spec.RowOK (Iarr m d) (Parr m d) g b)
    (hx : Cert.Spec.InRange (m (xLoc d))) :
    (held (T d) S2 ((op8 (F := F)).result (V8 m d g)) : sProp 𝕄)
      = iprop((oLoc d ↦{fullShare} (op8 (F := F)).result (V8 m d g) o') ∗ rLoc d ↦{fullShare} Cert.Spec.lookup (m (xLoc d)) (m (tLoc d))) := by
  rw [held_S2, res8_r m d g hg hx]

theorem h1 : (op1 (F := F)).bufs ⊆ S11 := show ({c'} : Finset (DevRef τ sig)) ⊆ S11 by decide
theorem h2 : (op2 (F := F)).bufs ⊆ S11 := show ({c', a'} : Finset (DevRef τ sig)) ⊆ S11 by decide
theorem h3 : (op3 (F := F)).bufs ⊆ S11 := show ({x', a', w'} : Finset (DevRef τ sig)) ⊆ S11 by decide
theorem h4 : (op4 (F := F)).bufs ⊆ S11 := show ({w', i'} : Finset (DevRef τ sig)) ⊆ S11 by decide
theorem h5 : (op5 (F := F)).bufs ⊆ S11 := show ({z'} : Finset (DevRef τ sig)) ⊆ S11 by decide
theorem h6 : (op6 (F := F)).bufs ⊆ S11 := show ({z', b'} : Finset (DevRef τ sig)) ⊆ S11 by decide
theorem h7 : (op7 (F := F)).bufs ⊆ S11 := show ({t', b', p'} : Finset (DevRef τ sig)) ⊆ S11 by decide
theorem h8 : (op8 (F := F)).bufs ⊆ S2 := show ({o', r'} : Finset (DevRef τ sig)) ⊆ S2 by decide

/-- What @main leaves the claim: the two arguments at their launch contents, the result the lookup. -/
def FIN (d : Dev nD) : sProp 𝕄 :=
  iprop((xLoc d ↦{fullShare} m (xLoc d)) ∗ (tLoc d ↦{fullShare} m (tLoc d)) ∗ (rLoc d ↦{fullShare} Cert.Spec.lookup (m (xLoc d)) (m (tLoc d))))

/-- @main on device d's TensorCore: the seven host operations over the eleven arrays held whole, the call from the
    table's tokens, the list's chunks and the intermediate array's rows, the final slice over the two arrays it touches;
    the two arguments kept. -/
theorem hmain (hx : ∀ d, Cert.Spec.InRange (m (xLoc d))) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, fn_pad_0.body, wp_bind, wp_pure]
  iintro ⟨#Hctx, Hst, ⟨Hb, Hheld, -, -⟩, -⟩
  -- the index matrix: constant, convert, pad, reshape
  iapply (wp_hlo_within 𝒱 (SparseCore.T d) none Set.univ (op := op1) (S := S11) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S11) h2 (V := W1 m d)) $$ [Hb Hheld]
  · isplitl [Hb] <;> iassumption
  iintro ⟨Hb, Hheld⟩
  rw [wp_ret]; imodintro
  iapply (wp_hlo_within 𝒱 (SparseCore.T d) none Set.univ (op := op3) (S := S11) h3 (V := W2 m d)) $$ [Hb Hheld]
  · isplitl [Hb] <;> iassumption
  iintro ⟨Hb, Hheld⟩
  rw [wp_ret]; imodintro; imodintro
  iapply (wp_hlo_within 𝒱 (SparseCore.T d) none Set.univ (op := op4) (S := S11) h4 (V := W3 m d)) $$ [Hb Hheld]
  · isplitl [Hb] <;> iassumption
  iintro ⟨Hb, Hheld⟩
  rw [wp_ret]; imodintro
  -- the table: constant, convert, pad
  iapply (wp_hlo_within 𝒱 (SparseCore.T d) none Set.univ (op := op5) (S := S11) h5 (V := W4 m d)) $$ [Hb Hheld]
  · isplitl [Hb] <;> iassumption
  iintro ⟨Hb, Hheld⟩
  rw [wp_ret]; imodintro
  iapply (wp_hlo_within 𝒱 (SparseCore.T d) none Set.univ (op := op6) (S := S11) h6 (V := W5 m d)) $$ [Hb Hheld]
  · isplitl [Hb] <;> iassumption
  iintro ⟨Hb, Hheld⟩
  rw [wp_ret]; imodintro
  iapply (wp_hlo_within 𝒱 (SparseCore.T d) none Set.univ (op := op7) (S := S11) h7 (V := W6 m d)) $$ [Hb Hheld]
  · isplitl [Hb] <;> iassumption
  iintro ⟨Hb, Hheld⟩
  rw [wp_ret]; imodintro; imodintro
  -- the call
  ihave Hh := (Entails.of_eq (held_V7 (F := F) m d)) $$ Hheld
  icases Hh with ⟨Hx, Ht, -, -, -, Hi, -, -, Hp, Ho, Hr⟩
  ihave Hs := (st0_intro m d) $$ [Hp Hi Ho]
  · isplitl [Hp]; · iexact Hp
    isplitl [Hi]; · iexact Hi
    iexact Ho
  icases Hs with ⟨Hrem, Hst0⟩
  iapply ((K (F := F)).wp_run (D (F := F)) 𝒱 (EH := EH) (P := P m) κ d 0) $$ [Hst Hst0 Hb Hx Ht Hr Hrem]
  isplitr; · iexact Hctx
  isplitl [Hst]; · iexact Hst
  isplitl [Hst0]; · iexact Hst0
  iintro ⟨Hst, Hdn⟩
  ihave Hd := (dn0_elim m d) $$ [Hrem Hdn]
  · isplitl [Hrem]; · iexact Hrem
    iexact Hdn
  icases Hd with ⟨-, -, %g, Ho, %hg⟩
  -- the slice
  iapply (wp_hlo_within 𝒱 (SparseCore.T d) none Set.univ (op := op8) (S := S2) h8 (V := V8 m d g)) $$ [Hb Ho Hr]
  · isplitl [Hb]; · iexact Hb
    rw [held_S2, V8_o, V8_r]
    isplitl [Ho]; · iexact Ho
    iexact Hr
  iintro ⟨Hb, Hheld⟩
  ihave Hh := (Entails.of_eq (held_V9 (F := F) m d g hg (hx d))) $$ Hheld
  icases Hh with ⟨-, Hr⟩
  rw [wp_ret]; imodintro; imodintro
  isplitl [Hst]; · iexact Hst
  unfold FIN
  isplitl [Hx]; · iexact Hx
  isplitl [Ht]; · iexact Ht
  iexact Hr

def fq (d : Dev nD) (s' : Phys nD τ sig (Elt F)) : Prop :=
  s'.mem.mem (rLoc d) = Cert.Spec.lookup (m (xLoc d)) (m (tLoc d)) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  unfold FIN
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := Cert.Spec.lookup (m (xLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  ∀ c : Dev nD, r.2.mem (rLoc c) = Cert.Spec.lookup (m (xLoc c)) (m (tLoc c)) ∧ r.2.mem (xLoc c) = m (xLoc c) ∧ r.2.mem (tLoc c) = m (tLoc c)

/-- Every weakly fair execution of the device's threads from the launch memory terminates, with the result array the
    lookup and the two arguments unchanged, given the task's body. -/
theorem run_main [∀ e, Nonempty (Elt F e)] (hx : ∀ d, Cert.Spec.InRange (m (xLoc d)))
    (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ hx) (fq m) (hfin m) (QC m) (fun _ h => h)

end Cert.Proof.K

end
-- ==== Proof.KIPay.lean ====
import proofs.«206314_g14001593385621_cont_week2b_782_31_alg».proof.KernelIdeal
import proofs.«206314_g14001593385621_cont_week2b_782_31_alg».proof.Proof.Gen.KernelIdeal
import proofs.«206314_g14001593385621_cont_week2b_782_31_alg».proof.Proof.Gen.KernelIdeal.Skeleton
import proofs.«206314_g14001593385621_cont_week2b_782_31_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S16384x56x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S8x56x128 EltTy.f32)

abbrev cV (L : grid0.Coords) : Fin τ.nSC := (L 0).castLE hcore0
abbrev jV (L : grid0.Coords) : Fin τ.nSub := (L 1).castLE hsub0

/-! ## The task's memrefs, spelt as the program slices them -/

/-- The task's chunk of the flattened index list: 28672 words from `28672 · (2 s + c)`. -/
abbrev iChunk (L : grid0.Coords) : Memref sig .scVector .hbm S28672 .i32 := (iV).slice (Rect.unit (s := S917504) (k0_off1 L) S28672.size (k0_off1_inb L)) (fun _ => rfl)
/-- Slot 0 of the row scratch, all 56 rows. -/
abbrev slot0 : Memref sig .scVector .vmem S56x128 .f32 := ((rV).slice (Rect.unit (s := S8x56x128) ![0, 0, 0] S1x56x128.size inb_S8x56x128_S1x56x128_0_0_0) (fun _ => rfl)).squeeze S56x128 squeezes_S1x56x128_S56x128
/-- Its gather and write-back semaphores. -/
abbrev gS0 : DmaSems sig S_ := (cc0_scratch2.slice (Rect.unit (s := S8) ![0] S1.size inb_S8_S1_0)).squeeze S_ squeezes_S1_S_
abbrev wS0 : DmaSems sig S_ := (cc0_scratch3.slice (Rect.unit (s := S8) ![0] S1.size inb_S8_S1_0)).squeeze S_ squeezes_S1_S_
/-- Row `512 · (2 s + c) + 8 k + 0` of the intermediate array: what trip `k` writes slot 0 back to. -/
abbrev orow0 (L : grid0.Coords) (k : Fin k0_t1_loop.trips) : Memref sig .scVector .hbm S56x128 .f32 := ((oV).slice (Rect.unit (s := S16384x56x128) (k0_off11 L k 0#32) S1x56x128.size (k0_off11_inb L k 0)) (fun _ => rfl)).squeeze S56x128 squeezes_S1x56x128_S56x128
/-- Slot 1 of the row scratch, all 56 rows. -/
abbrev slot1 : Memref sig .scVector .vmem S56x128 .f32 := ((rV).slice (Rect.unit (s := S8x56x128) ![1, 0, 0] S1x56x128.size inb_S8x56x128_S1x56x128_1_0_0) (fun _ => rfl)).squeeze S56x128 squeezes_S1x56x128_S56x128
/-- Its gather and write-back semaphores. -/
abbrev gS1 : DmaSems sig S_ := (cc0_scratch2.slice (Rect.unit (s := S8) ![1] S1.size inb_S8_S1_1)).squeeze S_ squeezes_S1_S_
abbrev wS1 : DmaSems sig S_ := (cc0_scratch3.slice (Rect.unit (s := S8) ![1] S1.size inb_S8_S1_1)).squeeze S_ squeezes_S1_S_
/-- Row `512 · (2 s + c) + 8 k + 1` of the intermediate array: what trip `k` writes slot 1 back to. -/
abbrev orow1 (L : grid0.Coords) (k : Fin k0_t1_loop.trips) : Memref sig .scVector .hbm S56x128 .f32 := ((oV).slice (Rect.unit (s := S16384x56x128) (k0_off11 L k 1#32) S1x56x128.size (k0_off11_inb L k 1)) (fun _ => rfl)).squeeze S56x128 squeezes_S1x56x128_S56x128
/-- Slot 2 of the row scratch, all 56 rows. -/
abbrev slot2 : Memref sig .scVector .vmem S56x128 .f32 := ((rV).slice (Rect.unit (s := S8x56x128) ![2, 0, 0] S1x56x128.size inb_S8x56x128_S1x56x128_2_0_0) (fun _ => rfl)).squeeze S56x128 squeezes_S1x56x128_S56x128
/-- Its gather and write-back semaphores. -/
abbrev gS2 : DmaSems sig S_ := (cc0_scratch2.slice (Rect.unit (s := S8) ![2] S1.size inb_S8_S1_2)).squeeze S_ squeezes_S1_S_
abbrev wS2 : DmaSems sig S_ := (cc0_scratch3.slice (Rect.unit (s := S8) ![2] S1.size inb_S8_S1_2)).squeeze S_ squeezes_S1_S_
/-- Row `512 · (2 s + c) + 8 k + 2` of the intermediate array: what trip `k` writes slot 2 back to. -/
abbrev orow2 (L : grid0.Coords) (k : Fin k0_t1_loop.trips) : Memref sig .scVector .hbm S56x128 .f32 := ((oV).slice (Rect.unit (s := S16384x56x128) (k0_off11 L k 2#32) S1x56x128.size (k0_off11_inb L k 2)) (fun _ => rfl)).squeeze S56x128 squeezes_S1x56x128_S56x128
/-- Slot 3 of the row scratch, all 56 rows. -/
abbrev slot3 : Memref sig .scVector .vmem S56x128 .f32 := ((rV).slice (Rect.unit (s := S8x56x128) ![3, 0, 0] S1x56x128.size inb_S8x56x128_S1x56x128_3_0_0) (fun _ => rfl)).squeeze S56x128 squeezes_S1x56x128_S56x128
/-- Its gather and write-back semaphores. -/
abbrev gS3 : DmaSems sig S_ := (cc0_scratch2.slice (Rect.unit (s := S8) ![3] S1.size inb_S8_S1_3)).squeeze S_ squeezes_S1_S_
abbrev wS3 : DmaSems sig S_ := (cc0_scratch3.slice (Rect.unit (s := S8) ![3] S1.size inb_S8_S1_3)).squeeze S_ squeezes_S1_S_
/-- Row `512 · (2 s + c) + 8 k + 3` of the intermediate array: what trip `k` writes slot 3 back to. -/
abbrev orow3 (L : grid0.Coords) (k : Fin k0_t1_loop.trips) : Memref sig .scVector .hbm S56x128 .f32 := ((oV).slice (Rect.unit (s := S16384x56x128) (k0_off11 L k 3#32) S1x56x128.size (k0_off11_inb L k 3)) (fun _ => rfl)).squeeze S56x128 squeezes_S1x56x128_S56x128
/-- Slot 4 of the row scratch, all 56 rows. -/
abbrev slot4 : Memref sig .scVector .vmem S56x128 .f32 := ((rV).slice (Rect.unit (s := S8x56x128) ![4, 0, 0] S1x56x128.size inb_S8x56x128_S1x56x128_4_0_0) (fun _ => rfl)).squeeze S56x128 squeezes_S1x56x128_S56x128
/-- Its gather and write-back semaphores. -/
abbrev gS4 : DmaSems sig S_ := (cc0_scratch2.slice (Rect.unit (s := S8) ![4] S1.size inb_S8_S1_4)).squeeze S_ squeezes_S1_S_
abbrev wS4 : DmaSems sig S_ := (cc0_scratch3.slice (Rect.unit (s := S8) ![4] S1.size inb_S8_S1_4)).squeeze S_ squeezes_S1_S_
/-- Row `512 · (2 s + c) + 8 k + 4` of the intermediate array: what trip `k` writes slot 4 back to. -/
abbrev orow4 (L : grid0.Coords) (k : Fin k0_t1_loop.trips) : Memref sig .scVector .hbm S56x128 .f32 := ((oV).slice (Rect.unit (s := S16384x56x128) (k0_off11 L k 4#32) S1x56x128.size (k0_off11_inb L k 4)) (fun _ => rfl)).squeeze S56x128 squeezes_S1x56x128_S56x128
/-- Slot 5 of the row scratch, all 56 rows. -/
abbrev slot5 : Memref sig .scVector .vmem S56x128 .f32 := ((rV).slice (Rect.unit (s := S8x56x128) ![5, 0, 0] S1x56x128.size inb_S8x56x128_S1x56x128_5_0_0) (fun _ => rfl)).squeeze S56x128 squeezes_S1x56x128_S56x128
/-- Its gather and write-back semaphores. -/
abbrev gS5 : DmaSems sig S_ := (cc0_scratch2.slice (Rect.unit (s := S8) ![5] S1.size inb_S8_S1_5)).squeeze S_ squeezes_S1_S_
abbrev wS5 : DmaSems sig S_ := (cc0_scratch3.slice (Rect.unit (s := S8) ![5] S1.size inb_S8_S1_5)).squeeze S_ squeezes_S1_S_
/-- Row `512 · (2 s + c) + 8 k + 5` of the intermediate array: what trip `k` writes slot 5 back to. -/
abbrev orow5 (L : grid0.Coords) (k : Fin k0_t1_loop.trips) : Memref sig .scVector .hbm S56x128 .f32 := ((oV).slice (Rect.unit (s := S16384x56x128) (k0_off11 L k 5#32) S1x56x128.size (k0_off11_inb L k 5)) (fun _ => rfl)).squeeze S56x128 squeezes_S1x56x128_S56x128
/-- Slot 6 of the row scratch, all 56 rows. -/
abbrev slot6 : Memref sig .scVector .vmem S56x128 .f32 := ((rV).slice (Rect.unit (s := S8x56x128) ![6, 0, 0] S1x56x128.size inb_S8x56x128_S1x56x128_6_0_0) (fun _ => rfl)).squeeze S56x128 squeezes_S1x56x128_S56x128
/-- Its gather and write-back semaphores. -/
abbrev gS6 : DmaSems sig S_ := (cc0_scratch2.slice (Rect.unit (s := S8) ![6] S1.size inb_S8_S1_6)).squeeze S_ squeezes_S1_S_
abbrev wS6 : DmaSems sig S_ := (cc0_scratch3.slice (Rect.unit (s := S8) ![6] S1.size inb_S8_S1_6)).squeeze S_ squeezes_S1_S_
/-- Row `512 · (2 s + c) + 8 k + 6` of the intermediate array: what trip `k` writes slot 6 back to. -/
abbrev orow6 (L : grid0.Coords) (k : Fin k0_t1_loop.trips) : Memref sig .scVector .hbm S56x128 .f32 := ((oV).slice (Rect.unit (s := S16384x56x128) (k0_off11 L k 6#32) S1x56x128.size (k0_off11_inb L k 6)) (fun _ => rfl)).squeeze S56x128 squeezes_S1x56x128_S56x128
/-- Slot 7 of the row scratch, all 56 rows. -/
abbrev slot7 : Memref sig .scVector .vmem S56x128 .f32 := ((rV).slice (Rect.unit (s := S8x56x128) ![7, 0, 0] S1x56x128.size inb_S8x56x128_S1x56x128_7_0_0) (fun _ => rfl)).squeeze S56x128 squeezes_S1x56x128_S56x128
/-- Its gather and write-back semaphores. -/
abbrev gS7 : DmaSems sig S_ := (cc0_scratch2.slice (Rect.unit (s := S8) ![7] S1.size inb_S8_S1_7)).squeeze S_ squeezes_S1_S_
abbrev wS7 : DmaSems sig S_ := (cc0_scratch3.slice (Rect.unit (s := S8) ![7] S1.size inb_S8_S1_7)).squeeze S_ squeezes_S1_S_
/-- Row `512 · (2 s + c) + 8 k + 7` of the intermediate array: what trip `k` writes slot 7 back to. -/
abbrev orow7 (L : grid0.Coords) (k : Fin k0_t1_loop.trips) : Memref sig .scVector .hbm S56x128 .f32 := ((oV).slice (Rect.unit (s := S16384x56x128) (k0_off11 L k 7#32) S1x56x128.size (k0_off11_inb L k 7)) (fun _ => rfl)).squeeze S56x128 squeezes_S1x56x128_S56x128

/-! ## The gathers' memrefs, and the row scratch after a trip's eight gathers -/

/-- All of the padded table, as the gathers name their source. -/
abbrev tAll : Memref sig .scVector .hbm S1000000x128 .f32 := (tV).slice (Rect.unit (s := S1000000x128) ![0, 0] S1000000x128.size inb_S1000000x128_S1000000x128_0_0) (fun _ => rfl)
/-- The first 50 rows of slot 0: the destination of its gather; and the 50 words of the list that trip `k` gathers into it. -/
abbrev g50_0 : Memref sig .scVector .vmem S50x128 .f32 := ((rV).slice (Rect.unit (s := S8x56x128) ![0, 0, 0] S1x50x128.size inb_S8x56x128_S1x50x128_0_0_0) (fun _ => rfl)).squeeze S50x128 squeezes_S1x50x128_S50x128
abbrev lst0 (k : Fin k0_t1_loop.trips) : Memref sig .scVector .vmem S50 .i32 := (sV).slice (Rect.unit (s := S28672) (k0_off3 k 0#32) S50.size (k0_off3_inb k 0)) (fun _ => rfl)
/-- The first 50 rows of slot 1: the destination of its gather; and the 50 words of the list that trip `k` gathers into it. -/
abbrev g50_1 : Memref sig .scVector .vmem S50x128 .f32 := ((rV).slice (Rect.unit (s := S8x56x128) ![1, 0, 0] S1x50x128.size inb_S8x56x128_S1x50x128_1_0_0) (fun _ => rfl)).squeeze S50x128 squeezes_S1x50x128_S50x128
abbrev lst1 (k : Fin k0_t1_loop.trips) : Memref sig .scVector .vmem S50 .i32 := (sV).slice (Rect.unit (s := S28672) (k0_off3 k 1#32) S50.size (k0_off3_inb k 1)) (fun _ => rfl)
/-- The first 50 rows of slot 2: the destination of its gather; and the 50 words of the list that trip `k` gathers into it. -/
abbrev g50_2 : Memref sig .scVector .vmem S50x128 .f32 := ((rV).slice (Rect.unit (s := S8x56x128) ![2, 0, 0] S1x50x128.size inb_S8x56x128_S1x50x128_2_0_0) (fun _ => rfl)).squeeze S50x128 squeezes_S1x50x128_S50x128
abbrev lst2 (k : Fin k0_t1_loop.trips) : Memref sig .scVector .vmem S50 .i32 := (sV).slice (Rect.unit (s := S28672) (k0_off3 k 2#32) S50.size (k0_off3_inb k 2)) (fun _ => rfl)
/-- The first 50 rows of slot 3: the destination of its gather; and the 50 words of the list that trip `k` gathers into it. -/
abbrev g50_3 : Memref sig .scVector .vmem S50x128 .f32 := ((rV).slice (Rect.unit (s := S8x56x128) ![3, 0, 0] S1x50x128.size inb_S8x56x128_S1x50x128_3_0_0) (fun _ => rfl)).squeeze S50x128 squeezes_S1x50x128_S50x128
abbrev lst3 (k : Fin k0_t1_loop.trips) : Memref sig .scVector .vmem S50 .i32 := (sV).slice (Rect.unit (s := S28672) (k0_off3 k 3#32) S50.size (k0_off3_inb k 3)) (fun _ => rfl)
/-- The first 50 rows of slot 4: the destination of its gather; and the 50 words of the list that trip `k` gathers into it. -/
abbrev g50_4 : Memref sig .scVector .vmem S50x128 .f32 := ((rV).slice (Rect.unit (s := S8x56x128) ![4, 0, 0] S1x50x128.size inb_S8x56x128_S1x50x128_4_0_0) (fun _ => rfl)).squeeze S50x128 squeezes_S1x50x128_S50x128
abbrev lst4 (k : Fin k0_t1_loop.trips) : Memref sig .scVector .vmem S50 .i32 := (sV).slice (Rect.unit (s := S28672) (k0_off3 k 4#32) S50.size (k0_off3_inb k 4)) (fun _ => rfl)
/-- The first 50 rows of slot 5: the destination of its gather; and the 50 words of the list that trip `k` gathers into it. -/
abbrev g50_5 : Memref sig .scVector .vmem S50x128 .f32 := ((rV).slice (Rect.unit (s := S8x56x128) ![5, 0, 0] S1x50x128.size inb_S8x56x128_S1x50x128_5_0_0) (fun _ => rfl)).squeeze S50x128 squeezes_S1x50x128_S50x128
abbrev lst5 (k : Fin k0_t1_loop.trips) : Memref sig .scVector .vmem S50 .i32 := (sV).slice (Rect.unit (s := S28672) (k0_off3 k 5#32) S50.size (k0_off3_inb k 5)) (fun _ => rfl)
/-- The first 50 rows of slot 6: the destination of its gather; and the 50 words of the list that trip `k` gathers into it. -/
abbrev g50_6 : Memref sig .scVector .vmem S50x128 .f32 := ((rV).slice (Rect.unit (s := S8x56x128) ![6, 0, 0] S1x50x128.size inb_S8x56x128_S1x50x128_6_0_0) (fun _ => rfl)).squeeze S50x128 squeezes_S1x50x128_S50x128
abbrev lst6 (k : Fin k0_t1_loop.trips) : Memref sig .scVector .vmem S50 .i32 := (sV).slice (Rect.unit (s := S28672) (k0_off3 k 6#32) S50.size (k0_off3_inb k 6)) (fun _ => rfl)
/-- The first 50 rows of slot 7: the destination of its gather; and the 50 words of the list that trip `k` gathers into it. -/
abbrev g50_7 : Memref sig .scVector .vmem S50x128 .f32 := ((rV).slice (Rect.unit (s := S8x56x128) ![7, 0, 0] S1x50x128.size inb_S8x56x128_S1x50x128_7_0_0) (fun _ => rfl)).squeeze S50x128 squeezes_S1x50x128_S50x128
abbrev lst7 (k : Fin k0_t1_loop.trips) : Memref sig .scVector .vmem S50 .i32 := (sV).slice (Rect.unit (s := S28672) (k0_off3 k 7#32) S50.size (k0_off3_inb k 7)) (fun _ => rfl)

/-- The row scratch after eight gathers, slot `u`'s first 50 rows written with `p u`, on contents `fr`. -/
def nest (d : Dev nD) (c : Fin τ.nSC) (i : Fin τ.nSub) (fr : Buf (Elt F) ((rV).view.loc (V d c i))) (p : Fin 8 → S50x128.Idx → Elt F .f32) :
    Buf (Elt F) ((rV).view.loc (V d c i)) :=
  View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view (fr) (p 0) Finset.univ) (p 1) Finset.univ) (p 2) Finset.univ) (p 3) Finset.univ) (p 4) Finset.univ) (p 5) Finset.univ) (p 6) Finset.univ) (p 7) Finset.univ

/-! ## Grid coordinates and the rows of a task -/

/-- The coordinates of the task on SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The task's number among the 32: `2 s + c`. It owns rows `[512 w, 512 w + 512)` of the intermediate array and
    words `[28672 w, 28672 w + 28672)` of the flattened list. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

theorem trips_eq : k0_t1_loop.trips = 64 := by decide

/-- The row of the intermediate array that trip `k` of the task writes slot `u` back to: `512 w + 8 k + u`. -/
def rowIx (L : grid0.Coords) (k : Fin k0_t1_loop.trips) (u : Fin 8) : Fin 16384 :=
  ⟨512 * wid L + 8 * k.val + u.val, by have h1 := wid_lt L; have h2 : k.val < 64 := trips_eq ▸ k.isLt; have h3 := u.isLt; omega⟩

/-- That row, as the task's memref names it (slot `u` generic; `orow0 … orow7` are its eight instances). -/
abbrev rowM (L : grid0.Coords) (k : Fin k0_t1_loop.trips) (u : Fin 8) : Memref sig .scVector .hbm S56x128 .f32 :=
  ((oV).slice (Rect.unit (s := S16384x56x128) (k0_off11 L k (BitVec.ofNat 32 u.val)) S1x56x128.size (k0_off11_inb L k u)) (fun _ => rfl)).squeeze S56x128 squeezes_S1x56x128_S56x128

/-- The task's read share of the padded table: one of 32 tokens of the full share. -/
def tq (L : grid0.Coords) : PosShare TreeShare := Transfers.shareTok fullShare 32 ⟨wid L, wid_lt L⟩

/-! ## The launch memory, the arrays @main's host operations build, the payloads -/

variable (m : (ℓ : Loc nD τ sig) → Buf (Elt F) ℓ) (ρ : Dev nD → PrngReg)

abbrev xLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v1
abbrev pLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

variable [FloatOps F]

/-- The flattened padded index list and the padded table, as functions of the launch memory's two arguments: what
    @main's host operations leave in `main_v1` and `main_v2` before the call. -/
def Iarr (d : Dev nD) : Buf (Elt F) (iLoc d) := Cert.Spec.idxFlat (m (xLoc d)) 0#32
def Parr (d : Dev nD) : Buf (Elt F) (pLoc d) := Cert.Spec.tablePad (m (tLoc d)) (FloatOps.sitofp .f32 (0#32 : BitVec 32))

/-- What a task is handed: its token of the padded table, its chunk of the list, its 512 rows of the intermediate
    array at their launch contents; -/
def TileTok (d : Dev nD) (L : grid0.Coords) : sProp 𝕄 := pLoc d ↦{tq L} Parr m d
def TileIdx (d : Dev nD) (L : grid0.Coords) : sProp 𝕄 := iLoc d ↦[(iChunk L).view.set]{fullShare} Iarr m d
def RowIn (d : Dev nD) (L : grid0.Coords) (k : Fin k0_t1_loop.trips) (u : Fin 8) : sProp 𝕄 :=
  oLoc d ↦[(rowM L k u).view.set]{fullShare} m (oLoc d)
/-- and what it hands back: each of its rows at contents whose first 50 sub-rows are the looked-up table rows. -/
def RowOut (d : Dev nD) (L : grid0.Coords) (k : Fin k0_t1_loop.trips) (u : Fin 8) : sProp 𝕄 :=
  iprop(∃ f : Buf (Elt F) (oLoc d), (oLoc d ↦[(rowM L k u).view.set]{fullShare} f) ∗ ⌜Cert.Spec.RowOK (Iarr m d) (Parr m d) f (rowIx L k u)⌝)
def TileIn (d : Dev nD) (L : grid0.Coords) : sProp 𝕄 :=
  iprop(TileTok m d L ∗ TileIdx m d L ∗ bigSep Finset.univ fun k : Fin k0_t1_loop.trips => bigSep Finset.univ fun u : Fin 8 => RowIn m d L k u)
def TileOut (d : Dev nD) (L : grid0.Coords) : sProp 𝕄 :=
  iprop(TileTok m d L ∗ TileIdx m d L ∗ bigSep Finset.univ fun k : Fin k0_t1_loop.trips => bigSep Finset.univ fun u : Fin 8 => RowOut m d L k u)

/-- The coordinates of task `i` of SparseCore `c` of the one call's grid. -/
def LL (c : Fin ((K (F := F)).nCore 0)) (i : Fin ((K (F := F)).nSub 0)) : grid0.Coords := coordsV ⟨c.val, c.isLt⟩ ⟨i.val, i.isLt⟩

/-- The one call hands each SparseCore its sixteen tasks' operands, already apart, and takes their results back so. -/
def P : (K (F := F)).Pay (nD := nD) (Val := Elt F) (Name := ℕ) (U := UU) where
  st := fun q d c => match q with | 0 => bigSep Finset.univ fun i : Fin ((K (F := F)).nSub 0) => TileIn m d (LL c i)
  dn := fun q d c => match q with | 0 => bigSep Finset.univ fun i : Fin ((K (F := F)).nSub 0) => TileOut m d (LL c i)
  go := fun q d c i => match q with | 0 => TileIn m d (LL c i)
  td := fun q d c i => match q with | 0 => TileOut m d (LL c i)
  x := fun _ _ => iprop(emp)

end Cert.Proof.KI

end
-- ==== Proof.KITileA.lean ====
import proofs.«206314_g14001593385621_cont_week2b_782_31_alg».proof.Proof.KIPay
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S16384x56x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S8x56x128 EltTy.f32)

variable (m : (ℓ : Loc nD τ sig) → Buf (Elt F) ℓ)

/-- The task's thread. -/
abbrev thr (d : Dev nD) (L : grid0.Coords) : Thread nD τ := V d (cV L) (jV L)

/-! ## The tile's own semaphores and buffers, one by one -/

theorem ownCells_V (d : Dev nD) (c : Fin τ.nSC) (i : Fin τ.nSub) :
    ownCells (sig := sig) (V d c i)
      = (Finset.univ : Finset (Fin 17)).map ⟨fun j => ((V d c i, SemLoc.dma j) : GSem nD τ sig), fun a b h => by injection h with _ h2; injection h2⟩ := by
  have h4 : ∀ s : Sem sig, (SemLoc.reg s : SemLoc sig).isScoped Kind.scVector = false := by decide
  have h17 : ∀ j : DmaSem sig, (SemLoc.dma j : SemLoc sig).isScoped Kind.scVector = true := by decide
  ext g
  rw [mem_ownCells, Finset.mem_map]
  constructor
  · rintro ⟨h1, hs⟩
    obtain ⟨t, sm⟩ := g
    simp only at h1
    subst h1
    cases sm with
    | reg s => exact absurd (show (SemLoc.reg s : SemLoc sig).isScoped Kind.scVector = true from hs) (by rw [h4 s]; decide)
    | dma j => exact ⟨j, Finset.mem_univ _, rfl⟩
  · rintro ⟨j, -, rfl⟩
    exact ⟨rfl, h17 j⟩

/-- The seventeen cells: eight gather semaphores, eight write-back semaphores, the list copy's. -/
theorem ownSems0_V17 (d : Dev nD) (c : Fin τ.nSC) (i : Fin τ.nSub) :
    (ownSems0 (V d c i) : sProp 𝕄)
      = iprop(semVal (V d c i, SemLoc.dma (gS0).sem) 0 ∗ semVal (V d c i, SemLoc.dma (gS1).sem) 0 ∗ semVal (V d c i, SemLoc.dma (gS2).sem) 0 ∗ semVal (V d c i, SemLoc.dma (gS3).sem) 0 ∗ semVal (V d c i, SemLoc.dma (gS4).sem) 0 ∗ semVal (V d c i, SemLoc.dma (gS5).sem) 0 ∗ semVal (V d c i, SemLoc.dma (gS6).sem) 0 ∗ semVal (V d c i, SemLoc.dma (gS7).sem) 0
          ∗ semVal (V d c i, SemLoc.dma (wS0).sem) 0 ∗ semVal (V d c i, SemLoc.dma (wS1).sem) 0 ∗ semVal (V d c i, SemLoc.dma (wS2).sem) 0 ∗ semVal (V d c i, SemLoc.dma (wS3).sem) 0 ∗ semVal (V d c i, SemLoc.dma (wS4).sem) 0 ∗ semVal (V d c i, SemLoc.dma (wS5).sem) 0 ∗ semVal (V d c i, SemLoc.dma (wS6).sem) 0 ∗ semVal (V d c i, SemLoc.dma (wS7).sem) 0
          ∗ semVal (V d c i, SemLoc.dma cc0_scoped0.sem) 0) := by
  unfold SparseCore.Cfg.ownSems0
  rw [ownCells_V, bigSep_map, show (Finset.univ : Finset (Fin 17)) = {0, 1, 2, 3, 4, 5, 6, 7, 8, 9, 10, 11, 12, 13, 14, 15, 16} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The two scratch buffers are among the subcore's own. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The loop's guards, decided at every trip -/

theorem cond1_pos : ∀ k : Fin k0_t1_loop.trips, k.val ≠ 0 → k0_cond1 k = 1#1 := by decide +kernel
theorem cond1_neg : ∀ k : Fin k0_t1_loop.trips, k.val = 0 → ¬ k0_cond1 k = 1#1 := by decide +kernel
theorem cond2_pos : ∀ k : Fin k0_t1_loop.trips, k.val ≠ 0 → k0_cond2 k = 1#1 := by decide +kernel
theorem cond2_neg : ∀ k : Fin k0_t1_loop.trips, k.val = 0 → ¬ k0_cond2 k = 1#1 := by decide +kernel
theorem cond3_pos : ∀ k : Fin k0_t1_loop.trips, k.val ≠ 0 → k0_cond3 k = 1#1 := by decide +kernel
theorem cond3_neg : ∀ k : Fin k0_t1_loop.trips, k.val = 0 → ¬ k0_cond3 k = 1#1 := by decide +kernel
theorem cond4_pos : ∀ k : Fin k0_t1_loop.trips, k.val ≠ 0 → k0_cond4 k = 1#1 := by decide +kernel
theorem cond4_neg : ∀ k : Fin k0_t1_loop.trips, k.val = 0 → ¬ k0_cond4 k = 1#1 := by decide +kernel
theorem cond5_pos : ∀ k : Fin k0_t1_loop.trips, k.val ≠ 0 → k0_cond5 k = 1#1 := by decide +kernel
theorem cond5_neg : ∀ k : Fin k0_t1_loop.trips, k.val = 0 → ¬ k0_cond5 k = 1#1 := by decide +kernel
theorem cond6_pos : ∀ k : Fin k0_t1_loop.trips, k.val ≠ 0 → k0_cond6 k = 1#1 := by decide +kernel
theorem cond6_neg : ∀ k : Fin k0_t1_loop.trips, k.val = 0 → ¬ k0_cond6 k = 1#1 := by decide +kernel
theorem cond7_pos : ∀ k : Fin k0_t1_loop.trips, k.val ≠ 0 → k0_cond7 k = 1#1 := by decide +kernel
theorem cond7_neg : ∀ k : Fin k0_t1_loop.trips, k.val = 0 → ¬ k0_cond7 k = 1#1 := by decide +kernel
theorem cond8_pos : ∀ k : Fin k0_t1_loop.trips, k.val ≠ 0 → k0_cond8 k = 1#1 := by decide +kernel
theorem cond8_neg : ∀ k : Fin k0_t1_loop.trips, k.val = 0 → ¬ k0_cond8 k = 1#1 := by decide +kernel

/-! ## A trip's eight rows, free and done -/

variable [FloatOps F]

/-- The eight rows trip `k` writes, at their launch contents; -/
abbrev RowsIn (d : Dev nD) (L : grid0.Coords) (k : Fin k0_t1_loop.trips) : sProp 𝕄 :=
  iprop(((orow0 L k).view.loc (thr d L) ↦[(orow0 L k).view.set]{fullShare} m (oLoc d)) ∗ ((orow1 L k).view.loc (thr d L) ↦[(orow1 L k).view.set]{fullShare} m (oLoc d)) ∗ ((orow2 L k).view.loc (thr d L) ↦[(orow2 L k).view.set]{fullShare} m (oLoc d)) ∗ ((orow3 L k).view.loc (thr d L) ↦[(orow3 L k).view.set]{fullShare} m (oLoc d)) ∗ ((orow4 L k).view.loc (thr d L) ↦[(orow4 L k).view.set]{fullShare} m (oLoc d)) ∗ ((orow5 L k).view.loc (thr d L) ↦[(orow5 L k).view.set]{fullShare} m (oLoc d)) ∗ ((orow6 L k).view.loc (thr d L) ↦[(orow6 L k).view.set]{fullShare} m (oLoc d)) ∗ ((orow7 L k).view.loc (thr d L) ↦[(orow7 L k).view.set]{fullShare} m (oLoc d)))
/-- a row written: at contents whose first 50 sub-rows are the looked-up table rows. -/
abbrev RowDone0 (d : Dev nD) (L : grid0.Coords) (k : Fin k0_t1_loop.trips) : sProp 𝕄 :=
  iprop(∃ f : Buf (Elt F) (oLoc d), ((orow0 L k).view.loc (thr d L) ↦[(orow0 L k).view.set]{fullShare} f) ∗ ⌜Cert.Spec.RowOK (Iarr m d) (Parr m d) f (rowIx L k 0)⌝)
abbrev RowDone1 (d : Dev nD) (L : grid0.Coords) (k : Fin k0_t1_loop.trips) : sProp 𝕄 :=
  iprop(∃ f : Buf (Elt F) (oLoc d), ((orow1 L k).view.loc (thr d L) ↦[(orow1 L k).view.set]{fullShare} f) ∗ ⌜Cert.Spec.RowOK (Iarr m d) (Parr m d) f (rowIx L k 1)⌝)
abbrev RowDone2 (d : Dev nD) (L : grid0.Coords) (k : Fin k0_t1_loop.trips) : sProp 𝕄 :=
  iprop(∃ f : Buf (Elt F) (oLoc d), ((orow2 L k).view.loc (thr d L) ↦[(orow2 L k).view.set]{fullShare} f) ∗ ⌜Cert.Spec.RowOK (Iarr m d) (Parr m d) f (rowIx L k 2)⌝)
abbrev RowDone3 (d : Dev nD) (L : grid0.Coords) (k : Fin k0_t1_loop.trips) : sProp 𝕄 :=
  iprop(∃ f : Buf (Elt F) (oLoc d), ((orow3 L k).view.loc (thr d L) ↦[(orow3 L k).view.set]{fullShare} f) ∗ ⌜Cert.Spec.RowOK (Iarr m d) (Parr m d) f (rowIx L k 3)⌝)
abbrev RowDone4 (d : Dev nD) (L : grid0.Coords) (k : Fin k0_t1_loop.trips) : sProp 𝕄 :=
  iprop(∃ f : Buf (Elt F) (oLoc d), ((orow4 L k).view.loc (thr d L) ↦[(orow4 L k).view.set]{fullShare} f) ∗ ⌜Cert.Spec.RowOK (Iarr m d) (Parr m d) f (rowIx L k 4)⌝)
abbrev RowDone5 (d : Dev nD) (L : grid0.Coords) (k : Fin k0_t1_loop.trips) : sProp 𝕄 :=
  iprop(∃ f : Buf (Elt F) (oLoc d), ((orow5 L k).view.loc (thr d L) ↦[(orow5 L k).view.set]{fullShare} f) ∗ ⌜Cert.Spec.RowOK (Iarr m d) (Parr m d) f (rowIx L k 5)⌝)
abbrev RowDone6 (d : Dev nD) (L : grid0.Coords) (k : Fin k0_t1_loop.trips) : sProp 𝕄 :=
  iprop(∃ f : Buf (Elt F) (oLoc d), ((orow6 L k).view.loc (thr d L) ↦[(orow6 L k).view.set]{fullShare} f) ∗ ⌜Cert.Spec.RowOK (Iarr m d) (Parr m d) f (rowIx L k 6)⌝)
abbrev RowDone7 (d : Dev nD) (L : grid0.Coords) (k : Fin k0_t1_loop.trips) : sProp 𝕄 :=
  iprop(∃ f : Buf (Elt F) (oLoc d), ((orow7 L k).view.loc (thr d L) ↦[(orow7 L k).view.set]{fullShare} f) ∗ ⌜Cert.Spec.RowOK (Iarr m d) (Parr m d) f (rowIx L k 7)⌝)
abbrev RowsOut (d : Dev nD) (L : grid0.Coords) (k : Fin k0_t1_loop.trips) : sProp 𝕄 :=
  iprop(RowDone0 m d L k ∗ RowDone1 m d L k ∗ RowDone2 m d L k ∗ RowDone3 m d L k ∗ RowDone4 m d L k ∗ RowDone5 m d L k ∗ RowDone6 m d L k ∗ RowDone7 m d L k)

theorem rowsIn_eq (d : Dev nD) (L : grid0.Coords) (k : Fin k0_t1_loop.trips) :
    (bigSep Finset.univ fun u : Fin 8 => RowIn m d L k u) = RowsIn m d L k := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl
theorem rowsOut_eq (d : Dev nD) (L : grid0.Coords) (k : Fin k0_t1_loop.trips) :
    (bigSep Finset.univ fun u : Fin 8 => RowOut m d L k u) = RowsOut m d L k := by
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The task's token of the padded table as eight read tokens, one per gather semaphore, and the remainder. -/
theorem tok_split (d : Dev nD) (L : grid0.Coords) (f : Buf (Elt F) ((tV).view.loc (thr d L))) :
    ((tV).view.loc (thr d L) ↦{tq L} f : sProp 𝕄)
      ⊣⊢ iprop(((tV).view.loc (thr d L) ↦{Transfers.shareDrop (tq L) 8} f)
          ∗ ((tV).view.loc (thr d L) ↦{Transfers.shareTok (tq L) 8 (0 : Fin 8)} f) ∗ ((tV).view.loc (thr d L) ↦{Transfers.shareTok (tq L) 8 (1 : Fin 8)} f) ∗ ((tV).view.loc (thr d L) ↦{Transfers.shareTok (tq L) 8 (2 : Fin 8)} f) ∗ ((tV).view.loc (thr d L) ↦{Transfers.shareTok (tq L) 8 (3 : Fin 8)} f) ∗ ((tV).view.loc (thr d L) ↦{Transfers.shareTok (tq L) 8 (4 : Fin 8)} f) ∗ ((tV).view.loc (thr d L) ↦{Transfers.shareTok (tq L) 8 (5 : Fin 8)} f) ∗ ((tV).view.loc (thr d L) ↦{Transfers.shareTok (tq L) 8 (6 : Fin 8)} f) ∗ ((tV).view.loc (thr d L) ↦{Transfers.shareTok (tq L) 8 (7 : Fin 8)} f)) := by
  have h : ((tV).view.loc (thr d L) ↦[Finset.univ]{tq L} f : sProp 𝕄)
      ⊣⊢ iprop(((tV).view.loc (thr d L) ↦[Finset.univ]{Transfers.shareDrop (tq L) 8} f)
        ∗ bigSep Finset.univ (fun i : Fin 8 => ((tV).view.loc (thr d L) ↦[Finset.univ]{Transfers.shareTok (tq L) 8 i} f : sProp 𝕄))) :=
    Transfers.pointsTo_toks (tq L) 8
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

/-! ## Write-backs in flight, and the loop's invariant -/

/-- What is left of the row scratch's elements when all eight slots are lent to their write-backs. -/
abbrev rest8 (d : Dev nD) (L : grid0.Coords) : Finset (Idx ((rV).view.loc (thr d L))) :=
  (((((((((Finset.univ : Finset (Idx ((rV).view.loc (thr d L)))) \ (slot0).view.set) \ (slot1).view.set) \ (slot2).view.set) \ (slot3).view.set) \ (slot4).view.set) \ (slot5).view.set) \ (slot6).view.set) \ (slot7).view.set)

/-- Slot 0's write-back of trip `kp` in flight: it holds the slot (at the scratch's contents `fr`) and delivers the row at
    contents whose first 50 sub-rows are the looked-up table rows. -/
abbrev WB0 (d : Dev nD) (L : grid0.Coords) (kp : Fin k0_t1_loop.trips) (fr : Buf (Elt F) ((rV).view.loc (thr d L))) : sProp 𝕄 :=
  iprop(∃ fo : Buf (Elt F) ((orow0 L kp).view.loc (thr d L)),
    Transfers.Flight countersEmb (thr d L) (SemLoc.dma (wS0).sem) (default : HIx 1) 229376
      iprop(((orow0 L kp).view.loc (thr d L) ↦[(orow0 L kp).view.set]{fullShare} fo) ∗ ((rV).view.loc (thr d L) ↦[(slot0).view.set]{fullShare} fr))
    ∗ ⌜Cert.Spec.RowOK (Iarr m d) (Parr m d) fo (rowIx L kp 0)⌝)
/-- Slot 1's write-back of trip `kp` in flight: it holds the slot (at the scratch's contents `fr`) and delivers the row at
    contents whose first 50 sub-rows are the looked-up table rows. -/
abbrev WB1 (d : Dev nD) (L : grid0.Coords) (kp : Fin k0_t1_loop.trips) (fr : Buf (Elt F) ((rV).view.loc (thr d L))) : sProp 𝕄 :=
  iprop(∃ fo : Buf (Elt F) ((orow1 L kp).view.loc (thr d L)),
    Transfers.Flight countersEmb (thr d L) (SemLoc.dma (wS1).sem) (default : HIx 1) 229376
      iprop(((orow1 L kp).view.loc (thr d L) ↦[(orow1 L kp).view.set]{fullShare} fo) ∗ ((rV).view.loc (thr d L) ↦[(slot1).view.set]{fullShare} fr))
    ∗ ⌜Cert.Spec.RowOK (Iarr m d) (Parr m d) fo (rowIx L kp 1)⌝)
/-- Slot 2's write-back of trip `kp` in flight: it holds the slot (at the scratch's contents `fr`) and delivers the row at
    contents whose first 50 sub-rows are the looked-up table rows. -/
abbrev WB2 (d : Dev nD) (L : grid0.Coords) (kp : Fin k0_t1_loop.trips) (fr : Buf (Elt F) ((rV).view.loc (thr d L))) : sProp 𝕄 :=
  iprop(∃ fo : Buf (Elt F) ((orow2 L kp).view.loc (thr d L)),
    Transfers.Flight countersEmb (thr d L) (SemLoc.dma (wS2).sem) (default : HIx 1) 229376
      iprop(((orow2 L kp).view.loc (thr d L) ↦[(orow2 L kp).view.set]{fullShare} fo) ∗ ((rV).view.loc (thr d L) ↦[(slot2).view.set]{fullShare} fr))
    ∗ ⌜Cert.Spec.RowOK (Iarr m d) (Parr m d) fo (rowIx L kp 2)⌝)
/-- Slot 3's write-back of trip `kp` in flight: it holds the slot (at the scratch's contents `fr`) and delivers the row at
    contents whose first 50 sub-rows are the looked-up table rows. -/
abbrev WB3 (d : Dev nD) (L : grid0.Coords) (kp : Fin k0_t1_loop.trips) (fr : Buf (Elt F) ((rV).view.loc (thr d L))) : sProp 𝕄 :=
  iprop(∃ fo : Buf (Elt F) ((orow3 L kp).view.loc (thr d L)),
    Transfers.Flight countersEmb (thr d L) (SemLoc.dma (wS3).sem) (default : HIx 1) 229376
      iprop(((orow3 L kp).view.loc (thr d L) ↦[(orow3 L kp).view.set]{fullShare} fo) ∗ ((rV).view.loc (thr d L) ↦[(slot3).view.set]{fullShare} fr))
    ∗ ⌜Cert.Spec.RowOK (Iarr m d) (Parr m d) fo (rowIx L kp 3)⌝)
/-- Slot 4's write-back of trip `kp` in flight: it holds the slot (at the scratch's contents `fr`) and delivers the row at
    contents whose first 50 sub-rows are the looked-up table rows. -/
abbrev WB4 (d : Dev nD) (L : grid0.Coords) (kp : Fin k0_t1_loop.trips) (fr : Buf (Elt F) ((rV).view.loc (thr d L))) : sProp 𝕄 :=
  iprop(∃ fo : Buf (Elt F) ((orow4 L kp).view.loc (thr d L)),
    Transfers.Flight countersEmb (thr d L) (SemLoc.dma (wS4).sem) (default : HIx 1) 229376
      iprop(((orow4 L kp).view.loc (thr d L) ↦[(orow4 L kp).view.set]{fullShare} fo) ∗ ((rV).view.loc (thr d L) ↦[(slot4).view.set]{fullShare} fr))
    ∗ ⌜Cert.Spec.RowOK (Iarr m d) (Parr m d) fo (rowIx L kp 4)⌝)
/-- Slot 5's write-back of trip `kp` in flight: it holds the slot (at the scratch's contents `fr`) and delivers the row at
    contents whose first 50 sub-rows are the looked-up table rows. -/
abbrev WB5 (d : Dev nD) (L : grid0.Coords) (kp : Fin k0_t1_loop.trips) (fr : Buf (Elt F) ((rV).view.loc (thr d L))) : sProp 𝕄 :=
  iprop(∃ fo : Buf (Elt F) ((orow5 L kp).view.loc (thr d L)),
    Transfers.Flight countersEmb (thr d L) (SemLoc.dma (wS5).sem) (default : HIx 1) 229376
      iprop(((orow5 L kp).view.loc (thr d L) ↦[(orow5 L kp).view.set]{fullShare} fo) ∗ ((rV).view.loc (thr d L) ↦[(slot5).view.set]{fullShare} fr))
    ∗ ⌜Cert.Spec.RowOK (Iarr m d) (Parr m d) fo (rowIx L kp 5)⌝)
/-- Slot 6's write-back of trip `kp` in flight: it holds the slot (at the scratch's contents `fr`) and delivers the row at
    contents whose first 50 sub-rows are the looked-up table rows. -/
abbrev WB6 (d : Dev nD) (L : grid0.Coords) (kp : Fin k0_t1_loop.trips) (fr : Buf (Elt F) ((rV).view.loc (thr d L))) : sProp 𝕄 :=
  iprop(∃ fo : Buf (Elt F) ((orow6 L kp).view.loc (thr d L)),
    Transfers.Flight countersEmb (thr d L) (SemLoc.dma (wS6).sem) (default : HIx 1) 229376
      iprop(((orow6 L kp).view.loc (thr d L) ↦[(orow6 L kp).view.set]{fullShare} fo) ∗ ((rV).view.loc (thr d L) ↦[(slot6).view.set]{fullShare} fr))
    ∗ ⌜Cert.Spec.RowOK (Iarr m d) (Parr m d) fo (rowIx L kp 6)⌝)
/-- Slot 7's write-back of trip `kp` in flight: it holds the slot (at the scratch's contents `fr`) and delivers the row at
    contents whose first 50 sub-rows are the looked-up table rows. -/
abbrev WB7 (d : Dev nD) (L : grid0.Coords) (kp : Fin k0_t1_loop.trips) (fr : Buf (Elt F) ((rV).view.loc (thr d L))) : sProp 𝕄 :=
  iprop(∃ fo : Buf (Elt F) ((orow7 L kp).view.loc (thr d L)),
    Transfers.Flight countersEmb (thr d L) (SemLoc.dma (wS7).sem) (default : HIx 1) 229376
      iprop(((orow7 L kp).view.loc (thr d L) ↦[(orow7 L kp).view.set]{fullShare} fo) ∗ ((rV).view.loc (thr d L) ↦[(slot7).view.set]{fullShare} fr))
    ∗ ⌜Cert.Spec.RowOK (Iarr m d) (Parr m d) fo (rowIx L kp 7)⌝)

/-- What every trip keeps: the evidence for waits, the eight read tokens of the padded table, the list scratch at the
    task's chunk `Iv`, the gather semaphores at zero, the rows of the trips to come at their launch contents, the rows
    of the trips before the last one written, the recorded waits. -/
def invCore (d : Dev nD) (L : grid0.Coords) (O : CellTallies nD τ sig (HIx 1)) (W : Waits sig (HIx 1))
    (Iv : Buf (Elt F) ((sV).view.loc (thr d L))) (k : ℕ) : sProp 𝕄 :=
  iprop(Transfers.MayWaits (thr d L) (default : HIx 1) O
    ∗ ((tV).view.loc (thr d L) ↦{Transfers.shareTok (tq L) 8 (0 : Fin 8)} Parr m d) ∗ ((tV).view.loc (thr d L) ↦{Transfers.shareTok (tq L) 8 (1 : Fin 8)} Parr m d) ∗ ((tV).view.loc (thr d L) ↦{Transfers.shareTok (tq L) 8 (2 : Fin 8)} Parr m d) ∗ ((tV).view.loc (thr d L) ↦{Transfers.shareTok (tq L) 8 (3 : Fin 8)} Parr m d) ∗ ((tV).view.loc (thr d L) ↦{Transfers.shareTok (tq L) 8 (4 : Fin 8)} Parr m d) ∗ ((tV).view.loc (thr d L) ↦{Transfers.shareTok (tq L) 8 (5 : Fin 8)} Parr m d) ∗ ((tV).view.loc (thr d L) ↦{Transfers.shareTok (tq L) 8 (6 : Fin 8)} Parr m d) ∗ ((tV).view.loc (thr d L) ↦{Transfers.shareTok (tq L) 8 (7 : Fin 8)} Parr m d)
    ∗ ((sV).view.loc (thr d L) ↦{fullShare} Iv)
    ∗ semVal (thr d L, SemLoc.dma (gS0).sem) 0 ∗ semVal (thr d L, SemLoc.dma (gS1).sem) 0 ∗ semVal (thr d L, SemLoc.dma (gS2).sem) 0 ∗ semVal (thr d L, SemLoc.dma (gS3).sem) 0 ∗ semVal (thr d L, SemLoc.dma (gS4).sem) 0 ∗ semVal (thr d L, SemLoc.dma (gS5).sem) 0 ∗ semVal (thr d L, SemLoc.dma (gS6).sem) 0 ∗ semVal (thr d L, SemLoc.dma (gS7).sem) 0
    ∗ bigSep (Ring.rangeSet k0_t1_loop.trips k k0_t1_loop.trips) (fun k' => RowsIn m d L k')
    ∗ bigSep (Ring.rangeSet k0_t1_loop.trips 0 (k - 1)) (fun k' => RowsOut m d L k')
    ∗ (∃ W', ⌜∀ p ∈ W', p ∈ W ∨ p.2 = none⌝ ∗ owes (thr d L) O W'))

/-- Before the first trip the row scratch is whole and the write-back semaphores are at zero; -/
def invFirst (d : Dev nD) (L : grid0.Coords) : sProp 𝕄 :=
  iprop((∃ fr, (rV).view.loc (thr d L) ↦{fullShare} fr)
    ∗ semVal (thr d L, SemLoc.dma (wS0).sem) 0 ∗ semVal (thr d L, SemLoc.dma (wS1).sem) 0 ∗ semVal (thr d L, SemLoc.dma (wS2).sem) 0 ∗ semVal (thr d L, SemLoc.dma (wS3).sem) 0 ∗ semVal (thr d L, SemLoc.dma (wS4).sem) 0 ∗ semVal (thr d L, SemLoc.dma (wS5).sem) 0 ∗ semVal (thr d L, SemLoc.dma (wS6).sem) 0 ∗ semVal (thr d L, SemLoc.dma (wS7).sem) 0)
/-- after trip `kp` its eight write-backs are in flight. -/
def invLater (d : Dev nD) (L : grid0.Coords) (kp : Fin k0_t1_loop.trips) : sProp 𝕄 :=
  iprop(∃ fr, ((rV).view.loc (thr d L) ↦[rest8 d L]{fullShare} fr)
    ∗ WB0 m d L kp fr ∗ WB1 m d L kp fr ∗ WB2 m d L kp fr ∗ WB3 m d L kp fr ∗ WB4 m d L kp fr ∗ WB5 m d L kp fr ∗ WB6 m d L kp fr ∗ WB7 m d L kp fr)

/-- The loop's invariant before trip `k`. -/
def inv (d : Dev nD) (L : grid0.Coords) (O : CellTallies nD τ sig (HIx 1)) (W : Waits sig (HIx 1))
    (Iv : Buf (Elt F) ((sV).view.loc (thr d L))) (k : ℕ) (_ : Unit) : sProp 𝕄 :=
  iprop(invCore m d L O W Iv k
    ∗ (if k = 0 then invFirst d L else if hk : k - 1 < k0_t1_loop.trips then invLater m d L ⟨k - 1, hk⟩ else iprop(False)))

theorem inv_zero (d : Dev nD) (L : grid0.Coords) (O : CellTallies nD τ sig (HIx 1)) (W : Waits sig (HIx 1))
    (Iv : Buf (Elt F) ((sV).view.loc (thr d L))) :
    inv m d L O W Iv 0 () = iprop(invCore m d L O W Iv 0 ∗ invFirst d L) := by
  unfold inv; rw [if_pos rfl]
theorem inv_succ (d : Dev nD) (L : grid0.Coords) (O : CellTallies nD τ sig (HIx 1)) (W : Waits sig (HIx 1))
    (Iv : Buf (Elt F) ((sV).view.loc (thr d L))) (k : Fin k0_t1_loop.trips) :
    inv m d L O W Iv (k.val + 1) () = iprop(invCore m d L O W Iv (k.val + 1) ∗ invLater m d L k) := by
  unfold inv
  rw [if_neg (Nat.succ_ne_zero _), dif_pos (show k.val + 1 - 1 < k0_t1_loop.trips from by rw [Nat.add_sub_cancel]; exact k.isLt)]
  congr 2

/-- Recording one more wait at index `none` keeps the recorded waits within what the obligation allows. -/
theorem waits_ins {W0 W' : Waits sig (HIx 1)} (sm : SemLoc sig) (h : ∀ p ∈ W', p ∈ W0 ∨ p.2 = none) :
    ∀ p ∈ insert (sm, (default : HIx 1)) W', p ∈ W0 ∨ p.2 = none := by
  intro p hp
  rcases Finset.mem_insert.mp hp with hp | hp
  · exact .inr (hp ▸ rfl)
  · exact h p hp

end Cert.Proof.KI

end
-- ==== Proof.KIVals.lean ====
/-
  The values a trip of the task leaves: after its eight gathers, slot `u` of the row scratch holds in its first 50
  rows the rows of the padded table that the task's list names, and the write-back copies the slot whole into row
  `512 w + 8 k + u` of the intermediate array; so that row satisfies `Cert.Spec.RowOK`.
-/
import proofs.«206314_g14001593385621_cont_week2b_782_31_alg».proof.Proof.KIPay
import proofs.«206314_g14001593385621_cont_week2b_782_31_alg».proof.Proof.LibGatherRows
import Idealize.ShloMosaic.Lib.Writes
import Idealize.ShloMosaic.Lib.ValueIdx
import Idealize.ShloMosaic.Lib.ValueLayout

noncomputable section

namespace Cert.Proof.KI

open Cert.KernelIdeal Cert.KernelIdeal.Gen

open Idealize.ShloMosaic Idealize.ShloMosaic.ValueIdx
open Idealize.ShloMosaic.SparseCore (S V T)

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S16384x56x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S8x56x128 EltTy.f32)

/-! ## Views of a row block and of a segment, read at an index -/

section Generic

variable {sg : RefSig} {κ : Kind} {sp : Space} {e : EltTy} {Val : EltTy → Type}

/-- A block `[1, B', C]` of a rank-3 view at offsets `off`, with the unit axis dropped, places its index `(h, l)`
    where the view places `(off 0, off 1 + h, off 2 + l)`. -/
theorem emb_rowBlock {A B C B' : Nat} (v : View sg κ sp ⟨3, ![A, B, C]⟩ e) (off : Fin 3 → Nat)
    (inb : ∀ a, off a + (![1, B', C] : Fin 3 → Nat) a ≤ (⟨3, ![A, B, C]⟩ : Shape).size a)
    (hq : (⟨2, ![B', C]⟩ : Shape).numel = (Rect.unit (s := ⟨3, ![A, B, C]⟩) off ![1, B', C] inb).shape.numel)
    (x : (⟨2, ![B', C]⟩ : Shape).Idx) (y : (⟨3, ![A, B, C]⟩ : Shape).Idx)
    (hy0 : (y 0).val = off 0) (hy1 : (y 1).val = off 1 + (x 0).val) (hy2 : (y 2).val = off 2 + (x 1).val) :
    ((v.slice (Rect.unit (s := ⟨3, ![A, B, C]⟩) off ![1, B', C] inb)).reshape ⟨2, ![B', C]⟩ hq).emb x = v.emb y := by
  have hz : Shape.reshapeEquiv hq x = (ix3 (⟨0, Nat.one_pos⟩ : Fin 1) (x 0) (x 1) : (⟨3, ![1, B', C]⟩ : Shape).Idx) :=
    Shape.reshapeEquiv_eq_of_rowMajor hq (by
      refine (Shape.rowMajor_val_three (d := ![1, B', C]) _).trans ?_
      rw [Shape.rowMajor_val_two]
      show ((0 * B' + (x 0).val) * C + (x 1).val) = (x 0).val * C + (x 1).val
      simp only [Nat.zero_mul, Nat.zero_add])
  show v.emb ((Rect.unit (s := ⟨3, ![A, B, C]⟩) off ![1, B', C] inb).emb (Shape.reshapeEquiv hq x)) = v.emb y
  rw [hz]
  refine congrArg v.emb (funext fun a => Fin.ext ?_)
  match a with
  | ⟨0, _⟩ => show off 0 + 1 * 0 = (y 0).val; omega
  | ⟨1, _⟩ => show off 1 + 1 * (x 0).val = (y 1).val; omega
  | ⟨2, _⟩ => show off 2 + 1 * (x 1).val = (y 2).val; omega

/-- Such a block places nothing at an index of the view whose first coordinate is not the block's. -/
theorem emb_rowBlock_ne {A B C B' : Nat} (v : View sg κ sp ⟨3, ![A, B, C]⟩ e) (off : Fin 3 → Nat)
    (inb : ∀ a, off a + (![1, B', C] : Fin 3 → Nat) a ≤ (⟨3, ![A, B, C]⟩ : Shape).size a)
    (hq : (⟨2, ![B', C]⟩ : Shape).numel = (Rect.unit (s := ⟨3, ![A, B, C]⟩) off ![1, B', C] inb).shape.numel)
    (y : (⟨3, ![A, B, C]⟩ : Shape).Idx) (hy0 : (y 0).val ≠ off 0) (x : (⟨2, ![B', C]⟩ : Shape).Idx) :
    ((v.slice (Rect.unit (s := ⟨3, ![A, B, C]⟩) off ![1, B', C] inb)).reshape ⟨2, ![B', C]⟩ hq).emb x ≠ v.emb y := by
  intro hx
  have h0 : off 0 + 1 ≤ A := inb 0
  have h1 : off 1 + B' ≤ B := inb 1
  have h2 : off 2 + C ≤ C := inb 2
  have hx0 : (x 0).val < B' := (x 0).isLt
  have hx1 : (x 1).val < C := (x 1).isLt
  rw [emb_rowBlock v off inb hq x
    (ix3 (⟨off 0, by omega⟩ : Fin A) (⟨off 1 + (x 0).val, by omega⟩ : Fin B) (⟨off 2 + (x 1).val, by omega⟩ : Fin C)) rfl rfl rfl] at hx
  exact hy0 (congrArg (fun j : (⟨3, ![A, B, C]⟩ : Shape).Idx => (j 0).val) (v.emb.injective hx)).symm

/-- A segment of a rank-1 view at offset `off` places its index `h` where the view places `off + h`. -/
theorem emb_seg {n n' : Nat} (v : View sg κ sp ⟨1, ![n]⟩ e) (off : Fin 1 → Nat)
    (inb : ∀ a, off a + (![n'] : Fin 1 → Nat) a ≤ (⟨1, ![n]⟩ : Shape).size a)
    (x : (⟨1, ![n']⟩ : Shape).Idx) (y : (⟨1, ![n]⟩ : Shape).Idx) (hy : (y 0).val = off 0 + (x 0).val) :
    (v.slice (Rect.unit (s := ⟨1, ![n]⟩) off ![n'] inb)).emb x = v.emb y := by
  show v.emb ((Rect.unit (s := ⟨1, ![n]⟩) off ![n'] inb).emb x) = v.emb y
  refine congrArg v.emb (funext fun a => Fin.ext ?_)
  match a with
  | ⟨0, _⟩ => show off 0 + 1 * (x 0).val = (y 0).val; omega

/-- An unmasked write through a view changes nothing where the view places no index. -/
theorem write_univ_of_forall_ne {s : Shape} (w : View sg κ sp s e) (f : w.ty.Contents Val) (p : s.Idx → Val e)
    (i : w.ty.Idx) (hi : ∀ x, w.emb x ≠ i) : w.write Val f p Finset.univ i = f i := by
  refine View.write_of_not_mem f p Finset.univ ?_
  intro hm
  obtain ⟨x, -, hx⟩ := Finset.mem_map.mp hm
  exact hi x hx

end Generic

/-! ## The task's views -/

section Concrete

variable {F : FTy → Type} [FloatOps F]

/-- Slot `u` of the row scratch, all 56 rows; its first 50 rows; a row of the intermediate array; 50 words of the
    list scratch: the task's memrefs with the slot (and the offsets) as parameters. -/
abbrev slotG (u : Fin 8) (inbS : ∀ a, (![u.val, 0, 0] : Fin 3 → Nat) a + S1x56x128.size a ≤ S8x56x128.size a) :
    Memref sig .scVector .vmem S56x128 .f32 :=
  ((rV).slice (Rect.unit (s := S8x56x128) ![u.val, 0, 0] S1x56x128.size inbS) (fun _ => rfl)).squeeze S56x128 squeezes_S1x56x128_S56x128
abbrev g50G (u : Fin 8) (inbG : ∀ a, (![u.val, 0, 0] : Fin 3 → Nat) a + S1x50x128.size a ≤ S8x56x128.size a) :
    Memref sig .scVector .vmem S50x128 .f32 :=
  ((rV).slice (Rect.unit (s := S8x56x128) ![u.val, 0, 0] S1x50x128.size inbG) (fun _ => rfl)).squeeze S50x128 squeezes_S1x50x128_S50x128
abbrev orowG (offO : Fin 3 → Nat) (inbO : ∀ a, offO a + S1x56x128.size a ≤ S16384x56x128.size a) :
    Memref sig .scVector .hbm S56x128 .f32 :=
  ((oV).slice (Rect.unit (s := S16384x56x128) offO S1x56x128.size inbO) (fun _ => rfl)).squeeze S56x128 squeezes_S1x56x128_S56x128
abbrev lstG (off3 : Fin 1 → Nat) (inb3 : ∀ a, off3 a + S50.size a ≤ S28672.size a) : Memref sig .scVector .vmem S50 .i32 :=
  (sV).slice (Rect.unit (s := S28672) off3 S50.size inb3) (fun _ => rfl)

/-- Slot `u` read at `(h, l)` is the row scratch at `(u, h, l)`. -/
theorem slotG_read (u : Fin 8) (inbS : ∀ a, (![u.val, 0, 0] : Fin 3 → Nat) a + S1x56x128.size a ≤ S8x56x128.size a)
    (d : Dev nD) (c : Fin τ.nSC) (i : Fin τ.nSub) (N : Buf (Elt F) ((rV).view.loc (V d c i))) (h : Fin 56) (l : Fin 128) :
    (slotG u inbS).view.read (Elt F) N (ix2 h l) = N (ix3 u h l) :=
  ((View.read_apply _ _).trans (cast_eq _ _)).trans
    (congrArg N (emb_rowBlock (rV).view ![u.val, 0, 0] inbS _ (ix2 h l) (ix3 u h l) rfl
      (by show h.val = 0 + h.val; omega) (by show l.val = 0 + l.val; omega)))

/-- A gather into another slot leaves slot `u`'s elements as they were. -/
theorem g50G_miss (u' : Fin 8) (inbG : ∀ a, (![u'.val, 0, 0] : Fin 3 → Nat) a + S1x50x128.size a ≤ S8x56x128.size a)
    (d : Dev nD) (c : Fin τ.nSC) (i : Fin τ.nSub) (f : Buf (Elt F) ((rV).view.loc (V d c i))) (p : S50x128.Idx → Elt F .f32)
    (u : Fin 8) (hne : u.val ≠ u'.val) (h : Fin 56) (l : Fin 128) :
    View.write (Elt F) (g50G u' inbG).view f p Finset.univ (ix3 u h l) = f (ix3 u h l) :=
  write_univ_of_forall_ne (g50G u' inbG).view f p (ix3 u h l)
    (emb_rowBlock_ne (rV).view ![u'.val, 0, 0] inbG _ (ix3 u h l) hne)

/-- The gather into slot `u` leaves its payload in the slot's first 50 rows. -/
theorem g50G_hit (u : Fin 8) (inbG : ∀ a, (![u.val, 0, 0] : Fin 3 → Nat) a + S1x50x128.size a ≤ S8x56x128.size a)
    (d : Dev nD) (c : Fin τ.nSC) (i : Fin τ.nSub) (f : Buf (Elt F) ((rV).view.loc (V d c i))) (p : S50x128.Idx → Elt F .f32)
    (h : Fin 56) (hh : h.val < 50) (l : Fin 128) :
    View.write (Elt F) (g50G u inbG).view f p Finset.univ (ix3 u h l) = p (ix2 (⟨h.val, hh⟩ : Fin 50) l) := by
  have e := emb_rowBlock (rV).view ![u.val, 0, 0] inbG squeezes_S1x50x128_S50x128.numel_eq (ix2 (⟨h.val, hh⟩ : Fin 50) l) (ix3 u h l) rfl
    (by show h.val = 0 + h.val; omega) (by show l.val = 0 + l.val; omega)
  have w := View.write_emb_of_mem (v := (g50G u inbG).view) (Val := Elt F) f p (M := Finset.univ)
    (x := ix2 (⟨h.val, hh⟩ : Fin 50) l) (Finset.mem_univ _)
  exact (congrArg (View.write (Elt F) (g50G u inbG).view f p Finset.univ) e.symm).trans (w.trans (cast_eq _ _))

/-- After the eight gathers, an element of slot 0's first 50 rows is the payload of gather 0 there: the later
    gathers write other slots. -/
theorem nest_at0 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (0 : Fin 8) h l) = p 0 (ix2 (⟨h.val, hh⟩ : Fin 50) l) := by
  unfold nest
  refine (g50G_miss 7 _ d c i _ _ 0 (by decide) h l).trans ?_
  refine (g50G_miss 6 _ d c i _ _ 0 (by decide) h l).trans ?_
  refine (g50G_miss 5 _ d c i _ _ 0 (by decide) h l).trans ?_
  refine (g50G_miss 4 _ d c i _ _ 0 (by decide) h l).trans ?_
  refine (g50G_miss 3 _ d c i _ _ 0 (by decide) h l).trans ?_
  refine (g50G_miss 2 _ d c i _ _ 0 (by decide) h l).trans ?_
  refine (g50G_miss 1 _ d c i _ _ 0 (by decide) h l).trans ?_
  exact g50G_hit 0 _ d c i _ _ h hh l

/-- After the eight gathers, an element of slot 1's first 50 rows is the payload of gather 1 there: the later
    gathers write other slots. -/
theorem nest_at1 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (1 : Fin 8) h l) = p 1 (ix2 (⟨h.val, hh⟩ : Fin 50) l) := by
  unfold nest
  refine (g50G_miss 7 _ d c i _ _ 1 (by decide) h l).trans ?_
  refine (g50G_miss 6 _ d c i _ _ 1 (by decide) h l).trans ?_
  refine (g50G_miss 5 _ d c i _ _ 1 (by decide) h l).trans ?_
  refine (g50G_miss 4 _ d c i _ _ 1 (by decide) h l).trans ?_
  refine (g50G_miss 3 _ d c i _ _ 1 (by decide) h l).trans ?_
  refine (g50G_miss 2 _ d c i _ _ 1 (by decide) h l).trans ?_
  exact g50G_hit 1 _ d c i _ _ h hh l

/-- After the eight gathers, an element of slot 2's first 50 rows is the payload of gather 2 there: the later
    gathers write other slots. -/
theorem nest_at2 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (2 : Fin 8) h l) = p 2 (ix2 (⟨h.val, hh⟩ : Fin 50) l) := by
  unfold nest
  refine (g50G_miss 7 _ d c i _ _ 2 (by decide) h l).trans ?_
  refine (g50G_miss 6 _ d c i _ _ 2 (by decide) h l).trans ?_
  refine (g50G_miss 5 _ d c i _ _ 2 (by decide) h l).trans ?_
  refine (g50G_miss 4 _ d c i _ _ 2 (by decide) h l).trans ?_
  refine (g50G_miss 3 _ d c i _ _ 2 (by decide) h l).trans ?_
  exact g50G_hit 2 _ d c i _ _ h hh l

/-- After the eight gathers, an element of slot 3's first 50 rows is the payload of gather 3 there: the later
    gathers write other slots. -/
theorem nest_at3 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (3 : Fin 8) h l) = p 3 (ix2 (⟨h.val, hh⟩ : Fin 50) l) := by
  unfold nest
  refine (g50G_miss 7 _ d c i _ _ 3 (by decide) h l).trans ?_
  refine (g50G_miss 6 _ d c i _ _ 3 (by decide) h l).trans ?_
  refine (g50G_miss 5 _ d c i _ _ 3 (by decide) h l).trans ?_
  refine (g50G_miss 4 _ d c i _ _ 3 (by decide) h l).trans ?_
  exact g50G_hit 3 _ d c i _ _ h hh l

/-- After the eight gathers, an element of slot 4's first 50 rows is the payload of gather 4 there: the later
    gathers write other slots. -/
theorem nest_at4 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (4 : Fin 8) h l) = p 4 (ix2 (⟨h.val, hh⟩ : Fin 50) l) := by
  unfold nest
  refine (g50G_miss 7 _ d c i _ _ 4 (by decide) h l).trans ?_
  refine (g50G_miss 6 _ d c i _ _ 4 (by decide) h l).trans ?_
  refine (g50G_miss 5 _ d c i _ _ 4 (by decide) h l).trans ?_
  exact g50G_hit 4 _ d c i _ _ h hh l

/-- After the eight gathers, an element of slot 5's first 50 rows is the payload of gather 5 there: the later
    gathers write other slots. -/
theorem nest_at5 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (5 : Fin 8) h l) = p 5 (ix2 (⟨h.val, hh⟩ : Fin 50) l) := by
  unfold nest
  refine (g50G_miss 7 _ d c i _ _ 5 (by decide) h l).trans ?_
  refine (g50G_miss 6 _ d c i _ _ 5 (by decide) h l).trans ?_
  exact g50G_hit 5 _ d c i _ _ h hh l

/-- After the eight gathers, an element of slot 6's first 50 rows is the payload of gather 6 there: the later
    gathers write other slots. -/
theorem nest_at6 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (6 : Fin 8) h l) = p 6 (ix2 (⟨h.val, hh⟩ : Fin 50) l) := by
  unfold nest
  refine (g50G_miss 7 _ d c i _ _ 6 (by decide) h l).trans ?_
  exact g50G_hit 6 _ d c i _ _ h hh l

/-- After the eight gathers, an element of slot 7's first 50 rows is the payload of gather 7 there: the later
    gathers write other slots. -/
theorem nest_at7 (d : Dev nD) (c : Fin τ.nSC) (i : Fin τ.nSub) (fr : Buf (Elt F) ((rV).view.loc (V d c i)))
    (p : Fin 8 → S50x128.Idx → Elt F .f32) (h : Fin 56) (hh : h.val < 50) (l : Fin 128) :
    nest d c i fr p (ix3 (7 : Fin 8) h l) = p 7 (ix2 (⟨h.val, hh⟩ : Fin 50) l) := by
  unfold nest
  exact g50G_hit 7 _ d c i _ _ h hh l

end Concrete

/-! ## The gathered values and the written-back row -/

section Values

variable {F : FTy → Type} [FloatOps F]
variable (m : (ℓ : Loc nD τ sig) → Buf (Elt F) ℓ)

/-- Fifty words of the list scratch from `off`, read at `x`: the scratch at `off + x`. -/
theorem lstG_read (off3 : Fin 1 → Nat) (inb3 : ∀ a, off3 a + S50.size a ≤ S28672.size a)
    (d : Dev nD) (c : Fin τ.nSC) (i : Fin τ.nSub) (Iv : Buf (Elt F) ((sV).view.loc (V d c i)))
    (x : Fin 50) (y : Fin 28672) (hy : y.val = off3 0 + x.val) :
    (lstG off3 inb3).view.read (Elt F) Iv (ix1 x) = Iv (ix1 y) :=
  ((View.read_apply _ _).trans (cast_eq _ _)).trans (congrArg Iv (emb_seg (sV).view off3 inb3 (ix1 x) (ix1 y) hy))

/-- Word `j` of the task's chunk is word `28672 w + j` of the flattened list. -/
theorem iChunk_emb (L : grid0.Coords) (j : Fin 28672) (y : Fin 917504) (hy : y.val = 28672 * wid L + j.val) :
    (iChunk L).view.emb (ix1 j) = ix1 y :=
  emb_seg (iV).view (k0_off1 L) (k0_off1_inb L) (ix1 j) (ix1 y) (by
    rw [k0_off1_eq]
    show y.val = 57344 * (L 1).val + 28672 * (L 0).val + j.val
    unfold wid at hy
    omega)

/-- The gathers' source is the padded table whole. -/
theorem tAll_read (d : Dev nD) (P : Buf (Elt F) (pLoc d)) : (tAll).view.read (Elt F) P = P :=
  Memref.read_access_unit_zero (Elt F) main_v2_scv (funext fun a => match a with | ⟨0, _⟩ => rfl | ⟨1, _⟩ => rfl) _ P

/-- THE GATHERED VALUE: the gather of slot `u` in trip `k` puts at `(h, l)`, `h < 50`, the padded table's entry
    `(I (56 (512 w + 8 k + u) + h), l)`: the list scratch holds the task's chunk, words `[28672 w, 28672 w + 28672)`
    of the flattened list, and the gather's list is its words `[448 k + 56 u, 448 k + 56 u + 50)`. -/
theorem gath_val (d : Dev nD) (L : grid0.Coords) (k : Fin k0_t1_loop.trips) (u : Fin 8)
    (off3 : Fin 1 → Nat) (inb3 : ∀ a, off3 a + S50.size a ≤ S28672.size a) (hoff3 : off3 = ![448 * k.val + 56 * u.val])
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lstG off3 inb3).view.read (Elt F) Iv x).toNat < S1000000x128.size (gathers_S1000000x128_S50x128).axis)
    (h : Fin 56) (hh : h.val < 50) (l : Fin 128) (hlt : 56 * (rowIx L k u).val + h.val < 917504)
    (hI : (Iarr m d (ix1 (⟨56 * (rowIx L k u).val + h.val, hlt⟩ : Fin 917504))).toNat < 1000000) :
    SparseCore.gatherPayload gathers_S1000000x128_S50x128 ((tAll).view.read (Elt F) (Parr m d))
        (SparseCore.rows ((lstG off3 inb3).view.read (Elt F) Iv) hn hin') (ix2 (⟨h.val, hh⟩ : Fin 50) l)
      = Parr m d (ix2 (⟨(Iarr m d (ix1 (⟨56 * (rowIx L k u).val + h.val, hlt⟩ : Fin 917504))).toNat, hI⟩ : Fin 1000000) l) := by
  have hk : k.val < 64 := trips_eq ▸ k.isLt
  have hw := wid_lt L
  have hu := u.isLt
  have hrow : (rowIx L k u).val = 512 * wid L + 8 * k.val + u.val := rfl
  have e1 : (lstG off3 inb3).view.read (Elt F) Iv (ix1 (⟨h.val, hh⟩ : Fin 50))
      = Iarr m d (ix1 (⟨56 * (rowIx L k u).val + h.val, hlt⟩ : Fin 917504)) := by
    rw [lstG_read off3 inb3 d (cV L) (jV L) Iv ⟨h.val, hh⟩ (⟨448 * k.val + 56 * u.val + h.val, by omega⟩ : Fin 28672)
      (by rw [hoff3]; rfl), hIv,
      iChunk_emb L _ (⟨56 * (rowIx L k u).val + h.val, hlt⟩ : Fin 917504)
        (by show 56 * (rowIx L k u).val + h.val = 28672 * wid L + (448 * k.val + 56 * u.val + h.val); omega)]
  rw [Cert.Lib.GatherRows.gatherPayload_rows_apply, tAll_read]
  exact congrArg (Parr m d) (funext fun a => match a with
    | ⟨0, _⟩ => Fin.ext (congrArg BitVec.toNat e1)
    | ⟨1, _⟩ => rfl)

/-- THE WRITTEN-BACK ROW: if the row scratch holds, in slot `u`'s first 50 rows, the padded table's entries the
    flattened list names for row `512 w + 8 k + u`, then that row of the intermediate array, after the slot is
    copied whole into it, satisfies `RowOK`. -/
theorem rowOK_gen (d : Dev nD) (L : grid0.Coords) (k : Fin k0_t1_loop.trips) (u : Fin 8)
    (offO : Fin 3 → Nat) (hoffO : offO = ![1024 * (L 1).val + 512 * (L 0).val + 8 * k.val + u.val, 0, 0])
    (inbO : ∀ a, offO a + S1x56x128.size a ≤ S16384x56x128.size a)
    (inbS : ∀ a, (![u.val, 0, 0] : Fin 3 → Nat) a + S1x56x128.size a ≤ S8x56x128.size a)
    (N : Buf (Elt F) ((rV).view.loc (V d (cV L) (jV L))))
    (hN : ∀ (h : Fin 56) (l : Fin 128) (hh : h.val < 50) (hlt : 56 * (rowIx L k u).val + h.val < 917504)
      (hI : (Iarr m d (ix1 (⟨56 * (rowIx L k u).val + h.val, hlt⟩ : Fin 917504))).toNat < 1000000),
      N (ix3 u h l) = Parr m d (ix2 (⟨(Iarr m d (ix1 (⟨56 * (rowIx L k u).val + h.val, hlt⟩ : Fin 917504))).toNat, hI⟩ : Fin 1000000) l))
    (fo : Buf (Elt F) ((orowG offO inbO).view.loc (V d (cV L) (jV L)))) :
    Cert.Spec.RowOK (Iarr m d) (Parr m d)
      ((orowG offO inbO).view.writes (Elt F) fo
        [⟨Rect.whole S56x128, ReadAs.same.apply ((slotG u inbS).view.read (Elt F) N)⟩])
      (rowIx L k u) := by
  intro h l hh hI
  have hk : k.val < 64 := trips_eq ▸ k.isLt
  have hw := wid_lt L
  have hu := u.isLt
  have hrow : (rowIx L k u).val = 512 * wid L + 8 * k.val + u.val := rfl
  have hlt : 56 * (rowIx L k u).val + h.val < 917504 := by omega
  have e : ((orowG offO inbO).view.slice (Rect.whole S56x128)).emb (ix2 h l) = (oV).view.emb (ix3 (rowIx L k u) h l) := by
    show (orowG offO inbO).view.emb ((Rect.whole S56x128).emb (ix2 h l)) = _
    rw [Rect.emb_whole_apply]
    exact emb_rowBlock (oV).view offO inbO squeezes_S1x56x128_S56x128.numel_eq (ix2 h l) (ix3 (rowIx L k u) h l)
      (by rw [hoffO]; show (rowIx L k u).val = 1024 * (L 1).val + 512 * (L 0).val + 8 * k.val + u.val; rw [hrow]; unfold wid; omega)
      (by rw [hoffO]; show h.val = 0 + h.val; omega) (by rw [hoffO]; show l.val = 0 + l.val; omega)
  have w := View.write_emb_of_mem (v := (orowG offO inbO).view.slice (Rect.whole S56x128)) (Val := Elt F) fo
    (ReadAs.same.apply ((slotG u inbS).view.read (Elt F) N)) (M := Finset.univ) (x := ix2 h l) (Finset.mem_univ _)
  refine ((congrArg (View.write (Elt F) ((orowG offO inbO).view.slice (Rect.whole S56x128)) fo
    (ReadAs.same.apply ((slotG u inbS).view.read (Elt F) N)) Finset.univ) e.symm).trans (w.trans (cast_eq _ _))).trans ?_
  exact (slotG_read u inbS d (cV L) (jV L) N h l).trans (hN h l hh hlt hI)

/-- Trip `k`'s write-back of slot 0 leaves row `512 w + 8 k + 0` right: the row scratch after eight unmasked writes
    into the slots' first 50 rows, slot 0's the gather's payload, whatever the other seven wrote. -/
theorem rowOK0_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst0 k).view.read (Elt F) Iv x).toNat < S1000000x128.size (gathers_S1000000x128_S50x128).axis)
    (fr : Buf (Elt F) ((rV).view.loc (V d (cV L) (jV L)))) (fo : Buf (Elt F) ((orow0 L k).view.loc (V d (cV L) (jV L))))
    (p : Fin 8 → S50x128.Idx → Elt F .f32)
    (hp : p 0 = SparseCore.gatherPayload gathers_S1000000x128_S50x128 ((tAll).view.read (Elt F) (Parr m d)) (SparseCore.rows ((lst0 k).view.read (Elt F) Iv) hn hin')) :
    Cert.Spec.RowOK (Iarr m d) (Parr m d)
      ((orow0 L k).view.writes (Elt F) fo [⟨Rect.whole S56x128, ReadAs.same.apply ((slot0).view.read (Elt F)
          (nest d (cV L) (jV L) fr p))⟩])
      (rowIx L k 0) :=
  rowOK_gen m d L k 0 _ (k0_off11_eq L k 0) _ _ _
    (fun h l hh hlt hI => ((nest_at0 d (cV L) (jV L) fr p h hh l).trans (congrFun hp _)).trans
      (gath_val m d L k 0 _ _ (k0_off3_eq k 0) Iv hIv hn hin' h hh l hlt hI)) fo

/-- The same with the eight writes written out. -/
theorem rowOK0 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst0 k).view.read (Elt F) Iv x).toNat < S1000000x128.size (gathers_S1000000x128_S50x128).axis)
    (fr : Buf (Elt F) ((rV).view.loc (V d (cV L) (jV L)))) (fo : Buf (Elt F) ((orow0 L k).view.loc (V d (cV L) (jV L))))
    (G1 G2 G3 G4 G5 G6 G7 : S50x128.Idx → Elt F .f32) :
    Cert.Spec.RowOK (Iarr m d) (Parr m d)
      ((orow0 L k).view.writes (Elt F) fo [⟨Rect.whole S56x128, ReadAs.same.apply ((slot0).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr (SparseCore.gatherPayload gathers_S1000000x128_S50x128 ((tAll).view.read (Elt F) (Parr m d)) (SparseCore.rows ((lst0 k).view.read (Elt F) Iv) hn hin')) Finset.univ) G1 Finset.univ) G2 Finset.univ) G3 Finset.univ) G4 Finset.univ) G5 Finset.univ) G6 Finset.univ) G7 Finset.univ))⟩])
      (rowIx L k 0) :=
  rowOK0_of_nest m d L k Iv hIv hn hin' fr fo ![(SparseCore.gatherPayload gathers_S1000000x128_S50x128 ((tAll).view.read (Elt F) (Parr m d)) (SparseCore.rows ((lst0 k).view.read (Elt F) Iv) hn hin')), G1, G2, G3, G4, G5, G6, G7] rfl

/-- Trip `k`'s write-back of slot 1 leaves row `512 w + 8 k + 1` right: the row scratch after eight unmasked writes
    into the slots' first 50 rows, slot 1's the gather's payload, whatever the other seven wrote. -/
theorem rowOK1_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst1 k).view.read (Elt F) Iv x).toNat < S1000000x128.size (gathers_S1000000x128_S50x128).axis)
    (fr : Buf (Elt F) ((rV).view.loc (V d (cV L) (jV L)))) (fo : Buf (Elt F) ((orow1 L k).view.loc (V d (cV L) (jV L))))
    (p : Fin 8 → S50x128.Idx → Elt F .f32)
    (hp : p 1 = SparseCore.gatherPayload gathers_S1000000x128_S50x128 ((tAll).view.read (Elt F) (Parr m d)) (SparseCore.rows ((lst1 k).view.read (Elt F) Iv) hn hin')) :
    Cert.Spec.RowOK (Iarr m d) (Parr m d)
      ((orow1 L k).view.writes (Elt F) fo [⟨Rect.whole S56x128, ReadAs.same.apply ((slot1).view.read (Elt F)
          (nest d (cV L) (jV L) fr p))⟩])
      (rowIx L k 1) :=
  rowOK_gen m d L k 1 _ (k0_off11_eq L k 1) _ _ _
    (fun h l hh hlt hI => ((nest_at1 d (cV L) (jV L) fr p h hh l).trans (congrFun hp _)).trans
      (gath_val m d L k 1 _ _ (k0_off3_eq k 1) Iv hIv hn hin' h hh l hlt hI)) fo

/-- The same with the eight writes written out. -/
theorem rowOK1 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst1 k).view.read (Elt F) Iv x).toNat < S1000000x128.size (gathers_S1000000x128_S50x128).axis)
    (fr : Buf (Elt F) ((rV).view.loc (V d (cV L) (jV L)))) (fo : Buf (Elt F) ((orow1 L k).view.loc (V d (cV L) (jV L))))
    (G0 G2 G3 G4 G5 G6 G7 : S50x128.Idx → Elt F .f32) :
    Cert.Spec.RowOK (Iarr m d) (Parr m d)
      ((orow1 L k).view.writes (Elt F) fo [⟨Rect.whole S56x128, ReadAs.same.apply ((slot1).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) (SparseCore.gatherPayload gathers_S1000000x128_S50x128 ((tAll).view.read (Elt F) (Parr m d)) (SparseCore.rows ((lst1 k).view.read (Elt F) Iv) hn hin')) Finset.univ) G2 Finset.univ) G3 Finset.univ) G4 Finset.univ) G5 Finset.univ) G6 Finset.univ) G7 Finset.univ))⟩])
      (rowIx L k 1) :=
  rowOK1_of_nest m d L k Iv hIv hn hin' fr fo ![G0, (SparseCore.gatherPayload gathers_S1000000x128_S50x128 ((tAll).view.read (Elt F) (Parr m d)) (SparseCore.rows ((lst1 k).view.read (Elt F) Iv) hn hin')), G2, G3, G4, G5, G6, G7] rfl

/-- Trip `k`'s write-back of slot 2 leaves row `512 w + 8 k + 2` right: the row scratch after eight unmasked writes
    into the slots' first 50 rows, slot 2's the gather's payload, whatever the other seven wrote. -/
theorem rowOK2_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst2 k).view.read (Elt F) Iv x).toNat < S1000000x128.size (gathers_S1000000x128_S50x128).axis)
    (fr : Buf (Elt F) ((rV).view.loc (V d (cV L) (jV L)))) (fo : Buf (Elt F) ((orow2 L k).view.loc (V d (cV L) (jV L))))
    (p : Fin 8 → S50x128.Idx → Elt F .f32)
    (hp : p 2 = SparseCore.gatherPayload gathers_S1000000x128_S50x128 ((tAll).view.read (Elt F) (Parr m d)) (SparseCore.rows ((lst2 k).view.read (Elt F) Iv) hn hin')) :
    Cert.Spec.RowOK (Iarr m d) (Parr m d)
      ((orow2 L k).view.writes (Elt F) fo [⟨Rect.whole S56x128, ReadAs.same.apply ((slot2).view.read (Elt F)
          (nest d (cV L) (jV L) fr p))⟩])
      (rowIx L k 2) :=
  rowOK_gen m d L k 2 _ (k0_off11_eq L k 2) _ _ _
    (fun h l hh hlt hI => ((nest_at2 d (cV L) (jV L) fr p h hh l).trans (congrFun hp _)).trans
      (gath_val m d L k 2 _ _ (k0_off3_eq k 2) Iv hIv hn hin' h hh l hlt hI)) fo

/-- The same with the eight writes written out. -/
theorem rowOK2 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst2 k).view.read (Elt F) Iv x).toNat < S1000000x128.size (gathers_S1000000x128_S50x128).axis)
    (fr : Buf (Elt F) ((rV).view.loc (V d (cV L) (jV L)))) (fo : Buf (Elt F) ((orow2 L k).view.loc (V d (cV L) (jV L))))
    (G0 G1 G3 G4 G5 G6 G7 : S50x128.Idx → Elt F .f32) :
    Cert.Spec.RowOK (Iarr m d) (Parr m d)
      ((orow2 L k).view.writes (Elt F) fo [⟨Rect.whole S56x128, ReadAs.same.apply ((slot2).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) (SparseCore.gatherPayload gathers_S1000000x128_S50x128 ((tAll).view.read (Elt F) (Parr m d)) (SparseCore.rows ((lst2 k).view.read (Elt F) Iv) hn hin')) Finset.univ) G3 Finset.univ) G4 Finset.univ) G5 Finset.univ) G6 Finset.univ) G7 Finset.univ))⟩])
      (rowIx L k 2) :=
  rowOK2_of_nest m d L k Iv hIv hn hin' fr fo ![G0, G1, (SparseCore.gatherPayload gathers_S1000000x128_S50x128 ((tAll).view.read (Elt F) (Parr m d)) (SparseCore.rows ((lst2 k).view.read (Elt F) Iv) hn hin')), G3, G4, G5, G6, G7] rfl

/-- Trip `k`'s write-back of slot 3 leaves row `512 w + 8 k + 3` right: the row scratch after eight unmasked writes
    into the slots' first 50 rows, slot 3's the gather's payload, whatever the other seven wrote. -/
theorem rowOK3_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst3 k).view.read (Elt F) Iv x).toNat < S1000000x128.size (gathers_S1000000x128_S50x128).axis)
    (fr : Buf (Elt F) ((rV).view.loc (V d (cV L) (jV L)))) (fo : Buf (Elt F) ((orow3 L k).view.loc (V d (cV L) (jV L))))
    (p : Fin 8 → S50x128.Idx → Elt F .f32)
    (hp : p 3 = SparseCore.gatherPayload gathers_S1000000x128_S50x128 ((tAll).view.read (Elt F) (Parr m d)) (SparseCore.rows ((lst3 k).view.read (Elt F) Iv) hn hin')) :
    Cert.Spec.RowOK (Iarr m d) (Parr m d)
      ((orow3 L k).view.writes (Elt F) fo [⟨Rect.whole S56x128, ReadAs.same.apply ((slot3).view.read (Elt F)
          (nest d (cV L) (jV L) fr p))⟩])
      (rowIx L k 3) :=
  rowOK_gen m d L k 3 _ (k0_off11_eq L k 3) _ _ _
    (fun h l hh hlt hI => ((nest_at3 d (cV L) (jV L) fr p h hh l).trans (congrFun hp _)).trans
      (gath_val m d L k 3 _ _ (k0_off3_eq k 3) Iv hIv hn hin' h hh l hlt hI)) fo

/-- The same with the eight writes written out. -/
theorem rowOK3 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst3 k).view.read (Elt F) Iv x).toNat < S1000000x128.size (gathers_S1000000x128_S50x128).axis)
    (fr : Buf (Elt F) ((rV).view.loc (V d (cV L) (jV L)))) (fo : Buf (Elt F) ((orow3 L k).view.loc (V d (cV L) (jV L))))
    (G0 G1 G2 G4 G5 G6 G7 : S50x128.Idx → Elt F .f32) :
    Cert.Spec.RowOK (Iarr m d) (Parr m d)
      ((orow3 L k).view.writes (Elt F) fo [⟨Rect.whole S56x128, ReadAs.same.apply ((slot3).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) (SparseCore.gatherPayload gathers_S1000000x128_S50x128 ((tAll).view.read (Elt F) (Parr m d)) (SparseCore.rows ((lst3 k).view.read (Elt F) Iv) hn hin')) Finset.univ) G4 Finset.univ) G5 Finset.univ) G6 Finset.univ) G7 Finset.univ))⟩])
      (rowIx L k 3) :=
  rowOK3_of_nest m d L k Iv hIv hn hin' fr fo ![G0, G1, G2, (SparseCore.gatherPayload gathers_S1000000x128_S50x128 ((tAll).view.read (Elt F) (Parr m d)) (SparseCore.rows ((lst3 k).view.read (Elt F) Iv) hn hin')), G4, G5, G6, G7] rfl

/-- Trip `k`'s write-back of slot 4 leaves row `512 w + 8 k + 4` right: the row scratch after eight unmasked writes
    into the slots' first 50 rows, slot 4's the gather's payload, whatever the other seven wrote. -/
theorem rowOK4_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst4 k).view.read (Elt F) Iv x).toNat < S1000000x128.size (gathers_S1000000x128_S50x128).axis)
    (fr : Buf (Elt F) ((rV).view.loc (V d (cV L) (jV L)))) (fo : Buf (Elt F) ((orow4 L k).view.loc (V d (cV L) (jV L))))
    (p : Fin 8 → S50x128.Idx → Elt F .f32)
    (hp : p 4 = SparseCore.gatherPayload gathers_S1000000x128_S50x128 ((tAll).view.read (Elt F) (Parr m d)) (SparseCore.rows ((lst4 k).view.read (Elt F) Iv) hn hin')) :
    Cert.Spec.RowOK (Iarr m d) (Parr m d)
      ((orow4 L k).view.writes (Elt F) fo [⟨Rect.whole S56x128, ReadAs.same.apply ((slot4).view.read (Elt F)
          (nest d (cV L) (jV L) fr p))⟩])
      (rowIx L k 4) :=
  rowOK_gen m d L k 4 _ (k0_off11_eq L k 4) _ _ _
    (fun h l hh hlt hI => ((nest_at4 d (cV L) (jV L) fr p h hh l).trans (congrFun hp _)).trans
      (gath_val m d L k 4 _ _ (k0_off3_eq k 4) Iv hIv hn hin' h hh l hlt hI)) fo

/-- The same with the eight writes written out. -/
theorem rowOK4 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst4 k).view.read (Elt F) Iv x).toNat < S1000000x128.size (gathers_S1000000x128_S50x128).axis)
    (fr : Buf (Elt F) ((rV).view.loc (V d (cV L) (jV L)))) (fo : Buf (Elt F) ((orow4 L k).view.loc (V d (cV L) (jV L))))
    (G0 G1 G2 G3 G5 G6 G7 : S50x128.Idx → Elt F .f32) :
    Cert.Spec.RowOK (Iarr m d) (Parr m d)
      ((orow4 L k).view.writes (Elt F) fo [⟨Rect.whole S56x128, ReadAs.same.apply ((slot4).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) (SparseCore.gatherPayload gathers_S1000000x128_S50x128 ((tAll).view.read (Elt F) (Parr m d)) (SparseCore.rows ((lst4 k).view.read (Elt F) Iv) hn hin')) Finset.univ) G5 Finset.univ) G6 Finset.univ) G7 Finset.univ))⟩])
      (rowIx L k 4) :=
  rowOK4_of_nest m d L k Iv hIv hn hin' fr fo ![G0, G1, G2, G3, (SparseCore.gatherPayload gathers_S1000000x128_S50x128 ((tAll).view.read (Elt F) (Parr m d)) (SparseCore.rows ((lst4 k).view.read (Elt F) Iv) hn hin')), G5, G6, G7] rfl

/-- Trip `k`'s write-back of slot 5 leaves row `512 w + 8 k + 5` right: the row scratch after eight unmasked writes
    into the slots' first 50 rows, slot 5's the gather's payload, whatever the other seven wrote. -/
theorem rowOK5_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst5 k).view.read (Elt F) Iv x).toNat < S1000000x128.size (gathers_S1000000x128_S50x128).axis)
    (fr : Buf (Elt F) ((rV).view.loc (V d (cV L) (jV L)))) (fo : Buf (Elt F) ((orow5 L k).view.loc (V d (cV L) (jV L))))
    (p : Fin 8 → S50x128.Idx → Elt F .f32)
    (hp : p 5 = SparseCore.gatherPayload gathers_S1000000x128_S50x128 ((tAll).view.read (Elt F) (Parr m d)) (SparseCore.rows ((lst5 k).view.read (Elt F) Iv) hn hin')) :
    Cert.Spec.RowOK (Iarr m d) (Parr m d)
      ((orow5 L k).view.writes (Elt F) fo [⟨Rect.whole S56x128, ReadAs.same.apply ((slot5).view.read (Elt F)
          (nest d (cV L) (jV L) fr p))⟩])
      (rowIx L k 5) :=
  rowOK_gen m d L k 5 _ (k0_off11_eq L k 5) _ _ _
    (fun h l hh hlt hI => ((nest_at5 d (cV L) (jV L) fr p h hh l).trans (congrFun hp _)).trans
      (gath_val m d L k 5 _ _ (k0_off3_eq k 5) Iv hIv hn hin' h hh l hlt hI)) fo

/-- The same with the eight writes written out. -/
theorem rowOK5 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst5 k).view.read (Elt F) Iv x).toNat < S1000000x128.size (gathers_S1000000x128_S50x128).axis)
    (fr : Buf (Elt F) ((rV).view.loc (V d (cV L) (jV L)))) (fo : Buf (Elt F) ((orow5 L k).view.loc (V d (cV L) (jV L))))
    (G0 G1 G2 G3 G4 G6 G7 : S50x128.Idx → Elt F .f32) :
    Cert.Spec.RowOK (Iarr m d) (Parr m d)
      ((orow5 L k).view.writes (Elt F) fo [⟨Rect.whole S56x128, ReadAs.same.apply ((slot5).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) G4 Finset.univ) (SparseCore.gatherPayload gathers_S1000000x128_S50x128 ((tAll).view.read (Elt F) (Parr m d)) (SparseCore.rows ((lst5 k).view.read (Elt F) Iv) hn hin')) Finset.univ) G6 Finset.univ) G7 Finset.univ))⟩])
      (rowIx L k 5) :=
  rowOK5_of_nest m d L k Iv hIv hn hin' fr fo ![G0, G1, G2, G3, G4, (SparseCore.gatherPayload gathers_S1000000x128_S50x128 ((tAll).view.read (Elt F) (Parr m d)) (SparseCore.rows ((lst5 k).view.read (Elt F) Iv) hn hin')), G6, G7] rfl

/-- Trip `k`'s write-back of slot 6 leaves row `512 w + 8 k + 6` right: the row scratch after eight unmasked writes
    into the slots' first 50 rows, slot 6's the gather's payload, whatever the other seven wrote. -/
theorem rowOK6_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst6 k).view.read (Elt F) Iv x).toNat < S1000000x128.size (gathers_S1000000x128_S50x128).axis)
    (fr : Buf (Elt F) ((rV).view.loc (V d (cV L) (jV L)))) (fo : Buf (Elt F) ((orow6 L k).view.loc (V d (cV L) (jV L))))
    (p : Fin 8 → S50x128.Idx → Elt F .f32)
    (hp : p 6 = SparseCore.gatherPayload gathers_S1000000x128_S50x128 ((tAll).view.read (Elt F) (Parr m d)) (SparseCore.rows ((lst6 k).view.read (Elt F) Iv) hn hin')) :
    Cert.Spec.RowOK (Iarr m d) (Parr m d)
      ((orow6 L k).view.writes (Elt F) fo [⟨Rect.whole S56x128, ReadAs.same.apply ((slot6).view.read (Elt F)
          (nest d (cV L) (jV L) fr p))⟩])
      (rowIx L k 6) :=
  rowOK_gen m d L k 6 _ (k0_off11_eq L k 6) _ _ _
    (fun h l hh hlt hI => ((nest_at6 d (cV L) (jV L) fr p h hh l).trans (congrFun hp _)).trans
      (gath_val m d L k 6 _ _ (k0_off3_eq k 6) Iv hIv hn hin' h hh l hlt hI)) fo

/-- The same with the eight writes written out. -/
theorem rowOK6 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst6 k).view.read (Elt F) Iv x).toNat < S1000000x128.size (gathers_S1000000x128_S50x128).axis)
    (fr : Buf (Elt F) ((rV).view.loc (V d (cV L) (jV L)))) (fo : Buf (Elt F) ((orow6 L k).view.loc (V d (cV L) (jV L))))
    (G0 G1 G2 G3 G4 G5 G7 : S50x128.Idx → Elt F .f32) :
    Cert.Spec.RowOK (Iarr m d) (Parr m d)
      ((orow6 L k).view.writes (Elt F) fo [⟨Rect.whole S56x128, ReadAs.same.apply ((slot6).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) G4 Finset.univ) G5 Finset.univ) (SparseCore.gatherPayload gathers_S1000000x128_S50x128 ((tAll).view.read (Elt F) (Parr m d)) (SparseCore.rows ((lst6 k).view.read (Elt F) Iv) hn hin')) Finset.univ) G7 Finset.univ))⟩])
      (rowIx L k 6) :=
  rowOK6_of_nest m d L k Iv hIv hn hin' fr fo ![G0, G1, G2, G3, G4, G5, (SparseCore.gatherPayload gathers_S1000000x128_S50x128 ((tAll).view.read (Elt F) (Parr m d)) (SparseCore.rows ((lst6 k).view.read (Elt F) Iv) hn hin')), G7] rfl

/-- Trip `k`'s write-back of slot 7 leaves row `512 w + 8 k + 7` right: the row scratch after eight unmasked writes
    into the slots' first 50 rows, slot 7's the gather's payload, whatever the other seven wrote. -/
theorem rowOK7_of_nest (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst7 k).view.read (Elt F) Iv x).toNat < S1000000x128.size (gathers_S1000000x128_S50x128).axis)
    (fr : Buf (Elt F) ((rV).view.loc (V d (cV L) (jV L)))) (fo : Buf (Elt F) ((orow7 L k).view.loc (V d (cV L) (jV L))))
    (p : Fin 8 → S50x128.Idx → Elt F .f32)
    (hp : p 7 = SparseCore.gatherPayload gathers_S1000000x128_S50x128 ((tAll).view.read (Elt F) (Parr m d)) (SparseCore.rows ((lst7 k).view.read (Elt F) Iv) hn hin')) :
    Cert.Spec.RowOK (Iarr m d) (Parr m d)
      ((orow7 L k).view.writes (Elt F) fo [⟨Rect.whole S56x128, ReadAs.same.apply ((slot7).view.read (Elt F)
          (nest d (cV L) (jV L) fr p))⟩])
      (rowIx L k 7) :=
  rowOK_gen m d L k 7 _ (k0_off11_eq L k 7) _ _ _
    (fun h l hh hlt hI => ((nest_at7 d (cV L) (jV L) fr p h hh l).trans (congrFun hp _)).trans
      (gath_val m d L k 7 _ _ (k0_off3_eq k 7) Iv hIv hn hin' h hh l hlt hI)) fo

/-- The same with the eight writes written out. -/
theorem rowOK7 (d : Dev nD) (L : grid0.Coords) (k : Fin k0_t1_loop.trips)
    (Iv : Buf (Elt F) ((sV).view.loc (V d (cV L) (jV L))))
    (hIv : ∀ j : S28672.Idx, Iv j = Iarr m d ((iChunk L).view.emb j))
    (hn : S50.numel = S50x128.size (gathers_S1000000x128_S50x128).axis')
    (hin' : ∀ x, ((lst7 k).view.read (Elt F) Iv x).toNat < S1000000x128.size (gathers_S1000000x128_S50x128).axis)
    (fr : Buf (Elt F) ((rV).view.loc (V d (cV L) (jV L)))) (fo : Buf (Elt F) ((orow7 L k).view.loc (V d (cV L) (jV L))))
    (G0 G1 G2 G3 G4 G5 G6 : S50x128.Idx → Elt F .f32) :
    Cert.Spec.RowOK (Iarr m d) (Parr m d)
      ((orow7 L k).view.writes (Elt F) fo [⟨Rect.whole S56x128, ReadAs.same.apply ((slot7).view.read (Elt F)
          (View.write (Elt F) (g50_7).view (View.write (Elt F) (g50_6).view (View.write (Elt F) (g50_5).view (View.write (Elt F) (g50_4).view (View.write (Elt F) (g50_3).view (View.write (Elt F) (g50_2).view (View.write (Elt F) (g50_1).view (View.write (Elt F) (g50_0).view fr G0 Finset.univ) G1 Finset.univ) G2 Finset.univ) G3 Finset.univ) G4 Finset.univ) G5 Finset.univ) G6 Finset.univ) (SparseCore.gatherPayload gathers_S1000000x128_S50x128 ((tAll).view.read (Elt F) (Parr m d)) (SparseCore.rows ((lst7 k).view.read (Elt F) Iv) hn hin')) Finset.univ))⟩])
      (rowIx L k 7) :=
  rowOK7_of_nest m d L k Iv hIv hn hin' fr fo ![G0, G1, G2, G3, G4, G5, G6, (SparseCore.gatherPayload gathers_S1000000x128_S50x128 ((tAll).view.read (Elt F) (Parr m d)) (SparseCore.rows ((lst7 k).view.read (Elt F) Iv) hn hin'))] rfl

end Values

end Cert.Proof.KI

end
-- ==== Proof.KITrip0.lean ====
import proofs.«206314_g14001593385621_cont_week2b_782_31_alg».proof.Proof.KITileA
import proofs.«206314_g14001593385621_cont_week2b_782_31_alg».proof.Proof.KIVals
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S16384x56x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S8x56x128 EltTy.f32)

variable (m : (ℓ : Loc nD τ sig) → Buf (Elt F) ℓ)
variable [FloatOps F]

set_option maxHeartbeats 16000000 in
/-- The first trip: every slot is free; each is gathered into and written back to this trip's row. -/
theorem trip0_step (d : Dev nD) (L : grid0.Coords) (O : CellTallies nD τ sig (HIx 1)) (W : Waits sig (HIx 1))
    (Iv : Buf (Elt F) ((sV).view.loc (thr d L))) (hIv : ∀ j : S28672.Idx, Iv j = Iarr m d ((iChunk L).view.emb j))
    (hI : Cert.Spec.ListInRange (Iarr m d)) (v3 : BitVec 32) (k : Fin k0_t1_loop.trips) (hk : k.val = 0) :
    iprop(invCore m d L O W Iv k.val ∗ invFirst d L)
      ⊢ wp frame (wpE (defs₀ (F := F)) 𝒱₀ (thr d L) none) Set.univ
          (k0_t1_body L tV (Memref.isWhole_whole _) iV (Memref.isWhole_whole _) oV (Memref.isWhole_whole _)
            sV (Memref.isWhole_whole _) rV (Memref.isWhole_whole _) cc0_scratch2 cc0_scratch3 cc0_scoped0 v3 k ())
          (fun _ => iprop(invCore m d L O W Iv (k.val + 1) ∗ invLater m d L k)) := by
  have hin : ∀ (off : Fin 1 → Nat) (hb : ∀ a, off a + S50.size a ≤ S28672.size a) (x : S50.Idx),
      (((sV).slice (Rect.unit (s := S28672) off S50.size hb) (fun _ => rfl)).view.read (Elt F) Iv x).toNat < 1000000 := by
    intro off hb x
    rw [show ((sV).slice (Rect.unit (s := S28672) off S50.size hb) (fun _ => rfl)).view.read (Elt F) Iv x
        = Iv (((sV).slice (Rect.unit (s := S28672) off S50.size hb) (fun _ => rfl)).view.emb x) from (View.read_apply _ _).trans (cast_eq _ _), hIv]
    exact hI _
  have hc1 := cond1_neg k hk
  have hc2 := cond2_neg k hk
  have hc3 := cond3_neg k hk
  have hc4 := cond4_neg k hk
  have hc5 := cond5_neg k hk
  have hc6 := cond6_neg k hk
  have hc7 := cond7_neg k hk
  have hc8 := cond8_neg k hk
  have hdone : (bigSep (Ring.rangeSet k0_t1_loop.trips 0 (k.val + 1 - 1)) (fun k' => RowsOut m d L k') : sProp 𝕄)
      = bigSep (Ring.rangeSet k0_t1_loop.trips 0 (k.val - 1)) (fun k' => RowsOut m d L k') := by
    rw [show k.val + 1 - 1 = k.val - 1 by omega]
  have hfree : (bigSep (Ring.rangeSet k0_t1_loop.trips k.val k0_t1_loop.trips) (fun k' => RowsIn m d L k') : sProp 𝕄)
      = iprop(RowsIn m d L k ∗ bigSep (Ring.rangeSet k0_t1_loop.trips (k.val + 1) k0_t1_loop.trips) (fun k' => RowsIn m d L k')) :=
    Ring.bigSep_rangeSet_head k.isLt k.isLt
  unfold invCore invFirst invLater rest8
  rw [hdone, hfree]
  iintro ⟨⟨#Hmw, Ht0, Ht1, Ht2, Ht3, Ht4, Ht5, Ht6, Ht7, Hs, Hg0, Hg1, Hg2, Hg3, Hg4, Hg5, Hg6, Hg7, ⟨⟨Ho0, Ho1, Ho2, Ho3, Ho4, Ho5, Ho6, Ho7⟩, Hfree⟩, Hdone, ⟨%W', %hW', HO⟩⟩, ⟨⟨%fr, Hr⟩, Hw0, Hw1, Hw2, Hw3, Hw4, Hw5, Hw6, Hw7⟩⟩
  sl_unfold [k0_t1_body]
  sl_exec
  sl_step
  isplitr [Hr Hw0 Hw1 Hw2 Hw3 Hw4 Hw5 Hw6 Hw7]
  · isplitl []; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Hs]; · iexact Hs
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hfree]; · iexact Hfree
    isplitl [Hdone]; · iexact Hdone
    iexists _; isplitr
    swap; · iexact HO
    ipureintro
    iterate 8 apply waits_ins
    exact hW'
  · iexists _
    isplitl [Hr]; · iexact Hr
    isplitl [Hw0]
    · iexists _; isplitl [Hw0]; · iexact Hw0
      ipureintro; exact rowOK0 m d L k Iv hIv _ _ _ _ _ _ _ _ _ _ _
    isplitl [Hw1]
    · iexists _; isplitl [Hw1]; · iexact Hw1
      ipureintro; exact rowOK1 m d L k Iv hIv _ _ _ _ _ _ _ _ _ _ _
    isplitl [Hw2]
    · iexists _; isplitl [Hw2]; · iexact Hw2
      ipureintro; exact rowOK2 m d L k Iv hIv _ _ _ _ _ _ _ _ _ _ _
    isplitl [Hw3]
    · iexists _; isplitl [Hw3]; · iexact Hw3
      ipureintro; exact rowOK3 m d L k Iv hIv _ _ _ _ _ _ _ _ _ _ _
    isplitl [Hw4]
    · iexists _; isplitl [Hw4]; · iexact Hw4
      ipureintro; exact rowOK4 m d L k Iv hIv _ _ _ _ _ _ _ _ _ _ _
    isplitl [Hw5]
    · iexists _; isplitl [Hw5]; · iexact Hw5
      ipureintro; exact rowOK5 m d L k Iv hIv _ _ _ _ _ _ _ _ _ _ _
    isplitl [Hw6]
    · iexists _; isplitl [Hw6]; · iexact Hw6
      ipureintro; exact rowOK6 m d L k Iv hIv _ _ _ _ _ _ _ _ _ _ _
    iexists _; isplitl [Hw7]; · iexact Hw7
    ipureintro; exact rowOK7 m d L k Iv hIv _ _ _ _ _ _ _ _ _ _ _

end Cert.Proof.KI

end
-- ==== Proof.KITripK.lean ====
import proofs.«206314_g14001593385621_cont_week2b_782_31_alg».proof.Proof.KITileA
import proofs.«206314_g14001593385621_cont_week2b_782_31_alg».proof.Proof.KIVals
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S16384x56x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S8x56x128 EltTy.f32)

variable (m : (ℓ : Loc nD τ sig) → Buf (Elt F) ℓ)
variable [FloatOps F]

set_option maxHeartbeats 16000000 in
/-- A trip after the first: each slot's write-back of the trip before is waited for (its row is then written), the
    slot gathered into and written back to this trip's row. -/
theorem tripK_step (d : Dev nD) (L : grid0.Coords) (O : CellTallies nD τ sig (HIx 1)) (W : Waits sig (HIx 1))
    (Iv : Buf (Elt F) ((sV).view.loc (thr d L))) (hIv : ∀ j : S28672.Idx, Iv j = Iarr m d ((iChunk L).view.emb j))
    (hI : Cert.Spec.ListInRange (Iarr m d)) (v3 : BitVec 32) (k kp : Fin k0_t1_loop.trips) (hkp : kp.val + 1 = k.val) :
    iprop(invCore m d L O W Iv k.val ∗ invLater m d L kp)
      ⊢ wp frame (wpE (defs₀ (F := F)) 𝒱₀ (thr d L) none) Set.univ
          (k0_t1_body L tV (Memref.isWhole_whole _) iV (Memref.isWhole_whole _) oV (Memref.isWhole_whole _)
            sV (Memref.isWhole_whole _) rV (Memref.isWhole_whole _) cc0_scratch2 cc0_scratch3 cc0_scoped0 v3 k ())
          (fun _ => iprop(invCore m d L O W Iv (k.val + 1) ∗ invLater m d L k)) := by
  have hin : ∀ (off : Fin 1 → Nat) (hb : ∀ a, off a + S50.size a ≤ S28672.size a) (x : S50.Idx),
      (((sV).slice (Rect.unit (s := S28672) off S50.size hb) (fun _ => rfl)).view.read (Elt F) Iv x).toNat < 1000000 := by
    intro off hb x
    rw [show ((sV).slice (Rect.unit (s := S28672) off S50.size hb) (fun _ => rfl)).view.read (Elt F) Iv x
        = Iv (((sV).slice (Rect.unit (s := S28672) off S50.size hb) (fun _ => rfl)).view.emb x) from (View.read_apply _ _).trans (cast_eq _ _), hIv]
    exact hI _
  have hk0 : k.val ≠ 0 := by omega
  have hc1 := cond1_pos k hk0
  have hc2 := cond2_pos k hk0
  have hc3 := cond3_pos k hk0
  have hc4 := cond4_pos k hk0
  have hc5 := cond5_pos k hk0
  have hc6 := cond6_pos k hk0
  have hc7 := cond7_pos k hk0
  have hc8 := cond8_pos k hk0
  have hdone : (bigSep (Ring.rangeSet k0_t1_loop.trips 0 (k.val + 1 - 1)) (fun k' => RowsOut m d L k') : sProp 𝕄)
      = iprop(RowsOut m d L kp ∗ bigSep (Ring.rangeSet k0_t1_loop.trips 0 (k.val - 1)) (fun k' => RowsOut m d L k')) := by
    have e1 : k.val + 1 - 1 = kp.val + 1 := by omega
    have e2 : k.val - 1 = kp.val + 1 - 1 := by omega
    rw [e1, e2, Ring.bigSep_rangeSet_last (Nat.succ_pos _) (show kp.val + 1 ≤ k0_t1_loop.trips from kp.isLt)]
    rfl
  have hfree : (bigSep (Ring.rangeSet k0_t1_loop.trips k.val k0_t1_loop.trips) (fun k' => RowsIn m d L k') : sProp 𝕄)
      = iprop(RowsIn m d L k ∗ bigSep (Ring.rangeSet k0_t1_loop.trips (k.val + 1) k0_t1_loop.trips) (fun k' => RowsIn m d L k')) :=
    Ring.bigSep_rangeSet_head k.isLt k.isLt
  unfold invCore invLater rest8
  rw [hdone, hfree]
  iintro ⟨⟨#Hmw, Ht0, Ht1, Ht2, Ht3, Ht4, Ht5, Ht6, Ht7, Hs, Hg0, Hg1, Hg2, Hg3, Hg4, Hg5, Hg6, Hg7, ⟨⟨Ho0, Ho1, Ho2, Ho3, Ho4, Ho5, Ho6, Ho7⟩, Hfree⟩, Hdone, ⟨%W', %hW', HO⟩⟩, ⟨%fr, Hr, ⟨%fp0, Hw0, %hok0⟩, ⟨%fp1, Hw1, %hok1⟩, ⟨%fp2, Hw2, %hok2⟩, ⟨%fp3, Hw3, %hok3⟩, ⟨%fp4, Hw4, %hok4⟩, ⟨%fp5, Hw5, %hok5⟩, ⟨%fp6, Hw6, %hok6⟩, ⟨%fp7, Hw7, %hok7⟩⟩⟩
  sl_unfold [k0_t1_body]
  sl_exec
  sl_step
  isplitr [Hr Hw0 Hw1 Hw2 Hw3 Hw4 Hw5 Hw6 Hw7]
  · isplitl []; · iexact Hmw
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    isplitl [Ht7]; · iexact Ht7
    isplitl [Hs]; · iexact Hs
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hfree]; · iexact Hfree
    isplitr [HO]
    · isplitr [Hdone]
      isplitl [Hw0_dst]
      · iexists fp0; isplitl [Hw0_dst]
        · iexact Hw0_dst
        · ipureintro; exact hok0
      isplitl [Hw1_dst]
      · iexists fp1; isplitl [Hw1_dst]
        · iexact Hw1_dst
        · ipureintro; exact hok1
      isplitl [Hw2_dst]
      · iexists fp2; isplitl [Hw2_dst]
        · iexact Hw2_dst
        · ipureintro; exact hok2
      isplitl [Hw3_dst]
      · iexists fp3; isplitl [Hw3_dst]
        · iexact Hw3_dst
        · ipureintro; exact hok3
      isplitl [Hw4_dst]
      · iexists fp4; isplitl [Hw4_dst]
        · iexact Hw4_dst
        · ipureintro; exact hok4
      isplitl [Hw5_dst]
      · iexists fp5; isplitl [Hw5_dst]
        · iexact Hw5_dst
        · ipureintro; exact hok5
      isplitl [Hw6_dst]
      · iexists fp6; isplitl [Hw6_dst]
        · iexact Hw6_dst
        · ipureintro; exact hok6
      iexists fp7; isplitl [Hw7_dst]
      · iexact Hw7_dst
      · ipureintro; exact hok7
      iexact Hdone
    · iexists _; isplitr
      swap; · iexact HO
      ipureintro
      iterate 16 apply waits_ins
      exact hW'
  · iexists _
    isplitl [Hr]; · iexact Hr
    isplitl [Hw0]
    · iexists _; isplitl [Hw0]; · iexact Hw0
      ipureintro; exact rowOK0 m d L k Iv hIv _ _ _ _ _ _ _ _ _ _ _
    isplitl [Hw1]
    · iexists _; isplitl [Hw1]; · iexact Hw1
      ipureintro; exact rowOK1 m d L k Iv hIv _ _ _ _ _ _ _ _ _ _ _
    isplitl [Hw2]
    · iexists _; isplitl [Hw2]; · iexact Hw2
      ipureintro; exact rowOK2 m d L k Iv hIv _ _ _ _ _ _ _ _ _ _ _
    isplitl [Hw3]
    · iexists _; isplitl [Hw3]; · iexact Hw3
      ipureintro; exact rowOK3 m d L k Iv hIv _ _ _ _ _ _ _ _ _ _ _
    isplitl [Hw4]
    · iexists _; isplitl [Hw4]; · iexact Hw4
      ipureintro; exact rowOK4 m d L k Iv hIv _ _ _ _ _ _ _ _ _ _ _
    isplitl [Hw5]
    · iexists _; isplitl [Hw5]; · iexact Hw5
      ipureintro; exact rowOK5 m d L k Iv hIv _ _ _ _ _ _ _ _ _ _ _
    isplitl [Hw6]
    · iexists _; isplitl [Hw6]; · iexact Hw6
      ipureintro; exact rowOK6 m d L k Iv hIv _ _ _ _ _ _ _ _ _ _ _
    iexists _; isplitl [Hw7]; · iexact Hw7
    ipureintro; exact rowOK7 m d L k Iv hIv _ _ _ _ _ _ _ _ _ _ _

end Cert.Proof.KI

end
-- ==== Proof.KITile.lean ====
import proofs.«206314_g14001593385621_cont_week2b_782_31_alg».proof.Proof.KITrip0
import proofs.«206314_g14001593385621_cont_week2b_782_31_alg».proof.Proof.KITripK
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v2_scv : Memref Cert.KernelIdeal.sig Kind.scVector Space.hbm Cert.KernelIdeal.S1000000x128 EltTy.f32)
local notation "iV" => (Memref.whole Cert.KernelIdeal.main_v1_scv : Memref Cert.KernelIdeal.sig Kind.scVector Space.hbm Cert.KernelIdeal.S917504 EltTy.i32)
local notation "oV" => (Memref.whole Cert.KernelIdeal.main_v3_scv : Memref Cert.KernelIdeal.sig Kind.scVector Space.hbm Cert.KernelIdeal.S16384x56x128 EltTy.f32)
local notation "sV" => (Memref.whole Cert.KernelIdeal.cc0_scratch0 : Memref Cert.KernelIdeal.sig Kind.scVector Space.vmem Cert.KernelIdeal.S28672 EltTy.i32)
local notation "rV" => (Memref.whole Cert.KernelIdeal.cc0_scratch1 : Memref Cert.KernelIdeal.sig Kind.scVector Space.vmem Cert.KernelIdeal.S8x56x128 EltTy.f32)

variable (m : (ℓ : Loc nD τ sig) → Buf (Elt F) ℓ)
variable [FloatOps F]

/-! ## The TensorCore's spelling of the task's operands and the tile's -/

theorem pts_tok (d : Dev nD) (L : grid0.Coords) (q : PosShare TreeShare) (f : Buf (Elt F) (pLoc d)) :
    ((tV).view.loc (thr d L) ↦{q} f : sProp 𝕄) = (pLoc d ↦{q} f) := rfl
theorem pts_idx (d : Dev nD) (L : grid0.Coords) (f : Buf (Elt F) (iLoc d)) :
    ((iChunk L).view.loc (thr d L) ↦[(iChunk L).view.set]{fullShare} f : sProp 𝕄) = (iLoc d ↦[(iChunk L).view.set]{fullShare} f) := rfl
theorem pts_sV (d : Dev nD) (L : grid0.Coords) (f : Buf (Elt F) ((thr d L).loc cc0_scratch0)) :
    ((sV).view.loc (thr d L) ↦{fullShare} f : sProp 𝕄) = ((thr d L).loc cc0_scratch0 ↦{fullShare} f) := rfl
theorem pts_rV (d : Dev nD) (L : grid0.Coords) (f : Buf (Elt F) ((thr d L).loc cc0_scratch1)) :
    ((rV).view.loc (thr d L) ↦{fullShare} f : sProp 𝕄) = ((thr d L).loc cc0_scratch1 ↦{fullShare} f) := rfl

/-- A buffer's contents, named. -/
theorem pts_name {ℓ : Loc nD τ sig} {q : PosShare TreeShare} (f : Buf (Elt F) ℓ) :
    (ℓ ↦{q} f : sProp 𝕄) ⊢ iprop(∃ g, ⌜g = f⌝ ∗ ℓ ↦{q} g) := by
  iintro H
  iexists f
  isplitr
  · ipureintro; rfl
  · iexact H

/-- After the copy of the task's chunk into the list scratch, word `j` of the scratch is word `j` of the chunk. -/
theorem iv_of (d : Dev nD) (L : grid0.Coords) (I : Buf (Elt F) (iLoc d)) (fs : Buf (Elt F) ((sV).view.loc (thr d L)))
    (pay : S28672.Idx → Elt F .i32) (hpay : pay = ReadAs.same.apply ((iChunk L).view.read (Elt F) I)) :
    ∀ j : S28672.Idx, View.write (Elt F) (sV).view fs pay Finset.univ j = I ((iChunk L).view.emb j) := by
  subst hpay
  intro j
  rw [View.write_whole_univ]
  exact (View.read_apply _ _).trans (cast_eq _ _)

/-- After the last trip: nothing is left to come, and the last trip's write-backs are in flight. -/
theorem inv_last (d : Dev nD) (L : grid0.Coords) (O : CellTallies nD τ sig (HIx 1)) (W : Waits sig (HIx 1))
    (Iv : Buf (Elt F) ((sV).view.loc (thr d L))) (n : ℕ) (hn : n = 64) (acc : Unit) :
    inv m d L O W Iv n acc = iprop(invCore m d L O W Iv 64 ∗ invLater m d L ⟨63, by decide⟩) := by
  subst hn
  exact inv_succ m d L O W Iv ⟨63, by decide⟩

set_option maxHeartbeats 16000000 in
/-- The task on one vector subcore: the chunk of the list fetched, the 64 trips, the last eight write-backs waited for. -/
theorem tile_body (hF : (K (F := F)).Facts) (d : Dev nD) (L : grid0.Coords) (hI : Cert.Spec.ListInRange (Iarr m d))
    (O : CellTallies nD τ sig (HIx 1)) (W : Waits sig (HIx 1)) (hO : ∀ g, O g none = 0) :
    iprop(levAts (K (F := F)).L (K (F := F)).lev ∗ emp ∗ TileIn m d L
        ∗ scopedBufs (thr d L) ∗ scopedSems0 (thr d L) ∗ owes (thr d L) O W)
      ⊢ wp frame (wpE (defs₀ (F := F)) 𝒱₀ (thr d L) none) Set.univ
          (cc0_gather_kernel L tV (Memref.isWhole_whole _) iV (Memref.isWhole_whole _) oV (Memref.isWhole_whole _)
            sV (Memref.isWhole_whole _) rV (Memref.isWhole_whole _) cc0_scratch2 cc0_scratch3 cc0_scoped0)
          fun _ => iprop(TileOut m d L ∗ scopedBufs (thr d L) ∗ scopedSems0 (thr d L)
            ∗ ∃ W', ⌜∀ p ∈ W', p ∈ W ∨ p.2 = none⌝ ∗ owes (thr d L) O W') := by
  have hrowsIn : (bigSep Finset.univ fun k : Fin k0_t1_loop.trips => bigSep Finset.univ fun u : Fin 8 => RowIn m d L k u : sProp 𝕄)
      = bigSep (Ring.rangeSet k0_t1_loop.trips 0 k0_t1_loop.trips) (fun k' => RowsIn m d L k') := by
    rw [Ring.rangeSet_univ]; exact bigSep_congr fun k _ => rowsIn_eq m d L k
  have hrowsOut : (bigSep Finset.univ fun k : Fin k0_t1_loop.trips => bigSep Finset.univ fun u : Fin 8 => RowOut m d L k u : sProp 𝕄)
      = bigSep (Ring.rangeSet k0_t1_loop.trips 0 k0_t1_loop.trips) (fun k' => RowsOut m d L k') := by
    rw [Ring.rangeSet_univ]; exact bigSep_congr fun k _ => rowsOut_eq m d L k
  simp only [cc0_gather_kernel_eq_skeleton]; unfold cc0_gather_kernel_skel
  rw [(K (F := F)).scopedBufs_V hF d (cV L) (jV L), SparseCore.Cfg.scopedSems0_V (Val := Elt F) d (cV L) (jV L), ownSems0_V17, ownBufs_V]
  unfold TileIn TileOut TileTok TileIdx
  rw [hrowsIn, hrowsOut]
  iintro ⟨#Hlv, -, ⟨Htok, Hi, Hrows⟩, ⟨⟨%fs, Hs⟩, ⟨%fr, Hr⟩, Hbufs⟩, ⟨Hg0, Hg1, Hg2, Hg3, Hg4, Hg5, Hg6, Hg7, Hw0, Hw1, Hw2, Hw3, Hw4, Hw5, Hw6, Hw7, Hsc⟩, HO⟩
  ihave Hmw := (show levAts (K (F := F)).L (K (F := F)).lev ⊢ Transfers.MayWaits (thr d L) (default : HIx 1) O from
    (K (F := F)).mayWaits_none (thr := thr d L) hO) $$ Hlv
  ihave Htok' := (Entails.of_eq (pts_tok (F := F) d L _ _).symm) $$ Htok
  ihave Htoks := (tok_split (F := F) d L (Parr m d)).1 $$ Htok'
  icases Htoks with ⟨Hdrop, Ht0, Ht1, Ht2, Ht3, Ht4, Ht5, Ht6, Ht7⟩
  ihave Hi' := (Entails.of_eq (pts_idx (F := F) d L _).symm) $$ Hi
  ihave Hs' := (Entails.of_eq (pts_sV (F := F) d L _).symm) $$ Hs
  ihave Hr' := (Entails.of_eq (pts_rV (F := F) d L _).symm) $$ Hr
  sl_exec
  -- the list scratch now holds the task's chunk: name its contents
  ihave Hs2 := (pts_name (F := F) _) $$ Hs'
  icases Hs2 with ⟨%Iv, %hIvEq, Hs'⟩
  have hIv : ∀ j : S28672.Idx, Iv j = Iarr m d ((iChunk L).view.emb j) := by
    rw [hIvEq]; exact iv_of (F := F) d L (Iarr m d) fs _ rfl
  sl_for (inv m d L O W Iv) $$ [Hmw Ht0 Ht1 Ht2 Ht3 Ht4 Ht5 Ht6 Ht7 Hs' Hg0 Hg1 Hg2 Hg3 Hg4 Hg5 Hg6 Hg7 Hrows HO Hr' Hw0 Hw1 Hw2 Hw3 Hw4 Hw5 Hw6 Hw7]
  case region =>
    intro k acc
    by_cases hk : k.val = 0
    · refine Entails.trans (Entails.of_eq ?_) ((trip0_step m d L O W Iv hIv hI _ k hk).trans (wp_mono frame _ _ fun _ => Entails.of_eq (inv_succ m d L O W Iv k).symm))
      rw [hk]; exact inv_zero m d L O W Iv
    · obtain ⟨kp, hkp⟩ : ∃ kp : Fin k0_t1_loop.trips, kp.val + 1 = k.val := ⟨⟨k.val - 1, lt_of_le_of_lt (Nat.sub_le _ _) k.isLt⟩, by simp only; omega⟩
      refine Entails.trans (Entails.of_eq ?_) ((tripK_step m d L O W Iv hIv hI _ k kp hkp).trans (wp_mono frame _ _ fun _ => Entails.of_eq (inv_succ m d L O W Iv k).symm))
      rw [← hkp]; exact inv_succ m d L O W Iv kp
  · rw [inv_zero]; unfold invCore invFirst
    rw [show (0 : ℕ) - 1 = 0 from rfl, Ring.bigSep_rangeSet_empty (Nat.le_refl 0)]
    isplitr [Hr' Hw0 Hw1 Hw2 Hw3 Hw4 Hw5 Hw6 Hw7]
    · isplitl [Hmw]; · iexact Hmw
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Hs']; · iexact Hs'
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      isplitl [Hg7]; · iexact Hg7
      isplitl [Hrows]; · iexact Hrows
      isplitr [HO]; · iempintro
      iexists _; isplitr
      swap; · iexact HO
      ipureintro; exact waits_ins _ (fun p hp => .inl hp)
    · isplitl [Hr']; · iexists _; iexact Hr'
      isplitl [Hw0]; · iexact Hw0
      isplitl [Hw1]; · iexact Hw1
      isplitl [Hw2]; · iexact Hw2
      isplitl [Hw3]; · iexact Hw3
      isplitl [Hw4]; · iexact Hw4
      isplitl [Hw5]; · iexact Hw5
      isplitl [Hw6]; · iexact Hw6
      iexact Hw7
  -- after the loop: the last trip's write-backs are waited for
  iintro %acc HI
  ihave HI' := (Entails.of_eq (inv_last m d L O W Iv _ (by decide) acc)) $$ HI
  unfold invCore invLater rest8
  icases HI' with ⟨⟨-, Ht0, Ht1, Ht2, Ht3, Ht4, Ht5, Ht6, Ht7, Hs', Hg0, Hg1, Hg2, Hg3, Hg4, Hg5, Hg6, Hg7, -, Hdone, ⟨%W', %hW', HO⟩⟩, ⟨%fr', Hr', ⟨%fp0, Hw0, %hok0⟩, ⟨%fp1, Hw1, %hok1⟩, ⟨%fp2, Hw2, %hok2⟩, ⟨%fp3, Hw3, %hok3⟩, ⟨%fp4, Hw4, %hok4⟩, ⟨%fp5, Hw5, %hok5⟩, ⟨%fp6, Hw6, %hok6⟩, ⟨%fp7, Hw7, %hok7⟩⟩⟩
  sl_exec
  sl_step
  have hlast : (bigSep (Ring.rangeSet k0_t1_loop.trips 0 k0_t1_loop.trips) (fun k' => RowsOut m d L k') : sProp 𝕄)
      = iprop(RowsOut m d L ⟨63, by decide⟩ ∗ bigSep (Ring.rangeSet k0_t1_loop.trips 0 (64 - 1)) (fun k' => RowsOut m d L k')) := by
    rw [congrArg (Ring.rangeSet k0_t1_loop.trips 0) trips_eq]
    exact Ring.bigSep_rangeSet_last (by decide) (le_of_eq trips_eq.symm)
  rw [hlast]
  isplitl [Hdrop Ht0 Ht1 Ht2 Ht3 Ht4 Ht5 Ht6 Ht7 Hi' Hdone Hw0_dst Hw1_dst Hw2_dst Hw3_dst Hw4_dst Hw5_dst Hw6_dst Hw7_dst]
  · isplitl [Hdrop Ht0 Ht1 Ht2 Ht3 Ht4 Ht5 Ht6 Ht7]
    · iapply (Entails.of_eq (pts_tok (F := F) d L _ _))
      iapply (tok_split (F := F) d L (Parr m d)).2
      isplitl [Hdrop]; · iexact Hdrop
      isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      iexact Ht7
    isplitl [Hi']
    · iapply (Entails.of_eq (pts_idx (F := F) d L _)); iexact Hi'
    isplitr [Hdone]
    isplitl [Hw0_dst]
    · iexists fp0; isplitl [Hw0_dst]
      · iexact Hw0_dst
      · ipureintro; exact hok0
    isplitl [Hw1_dst]
    · iexists fp1; isplitl [Hw1_dst]
      · iexact Hw1_dst
      · ipureintro; exact hok1
    isplitl [Hw2_dst]
    · iexists fp2; isplitl [Hw2_dst]
      · iexact Hw2_dst
      · ipureintro; exact hok2
    isplitl [Hw3_dst]
    · iexists fp3; isplitl [Hw3_dst]
      · iexact Hw3_dst
      · ipureintro; exact hok3
    isplitl [Hw4_dst]
    · iexists fp4; isplitl [Hw4_dst]
      · iexact Hw4_dst
      · ipureintro; exact hok4
    isplitl [Hw5_dst]
    · iexists fp5; isplitl [Hw5_dst]
      · iexact Hw5_dst
      · ipureintro; exact hok5
    isplitl [Hw6_dst]
    · iexists fp6; isplitl [Hw6_dst]
      · iexact Hw6_dst
      · ipureintro; exact hok6
    iexists fp7; isplitl [Hw7_dst]
    · iexact Hw7_dst
    · ipureintro; exact hok7
    iexact Hdone
  isplitl [Hs' Hr' Hbufs]
  · isplitl [Hs']
    · iexists _; iapply (Entails.of_eq (pts_sV (F := F) d L _)); iexact Hs'
    isplitl [Hr']
    · iexists _; iapply (Entails.of_eq (pts_rV (F := F) d L _)); iexact Hr'
    iexact Hbufs
  isplitl [Hg0 Hg1 Hg2 Hg3 Hg4 Hg5 Hg6 Hg7 Hw0 Hw1 Hw2 Hw3 Hw4 Hw5 Hw6 Hw7 Hsc]
  · isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    isplitl [Hg7]; · iexact Hg7
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    isplitl [Hw7]; · iexact Hw7
    iexact Hsc
  iexists _; isplitr
  swap; · iexact HO
  ipureintro
  iterate 8 apply waits_ins
  exact hW'

/-! ## The launch theorem's obligation -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _)
          sV (Memref.isWhole_whole _) rV (Memref.isWhole_whole _) cc0_scratch2 cc0_scratch3 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the one call meets the launch theorem's obligation, given that every word of the flattened list
    names a row of the table. -/
theorem tileObl (hF : (K (F := F)).Facts) (hI : ∀ d : Dev nD, Cert.Spec.ListInRange (Iarr m d)) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF d (coordsV ⟨_, hci.1⟩ ⟨_, hci.2⟩) (hI d) O W hO).trans (wp_mono frame _ _ fun _ => obl_post)

end Cert.Proof.KI

end
-- ==== Proof.KISplit.lean ====
/-
  The resources of the one call, apart and together: the padded table as 32 read tokens and a remainder, the
  flattened index list as the 32 tasks' chunks, the intermediate array as its 16384 rows regrouped by task, trip
  and slot; and back, the rows' separate contents joined into one contents of the whole array.
-/
import proofs.«206314_g14001593385621_cont_week2b_782_31_alg».proof.Proof.KIPay
import Idealize.ShloMosaic.Lib.Transfers
import Idealize.ShloMosaic.Rules.PointsTo

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tasks and the rows as index sets -/

theorem wid_LL (c : Fin ((K (F := F)).nCore 0)) (i : Fin ((K (F := F)).nSub 0)) : wid (LL (F := F) c i) = 2 * i.val + c.val := rfl

theorem rowIx_val (L : grid0.Coords) (k : Fin k0_t1_loop.trips) (u : Fin 8) : (rowIx L k u).val = 512 * wid L + 8 * k.val + u.val := rfl

/-- The 32 tasks: task (c, i) has number 2 i + c. -/
def taskEquiv : Fin ((K (F := F)).nCore 0) × Fin ((K (F := F)).nSub 0) ≃ Fin 32 where
  toFun p := ⟨wid (LL (F := F) p.1 p.2), wid_lt _⟩
  invFun w := (⟨w.val % 2, Nat.mod_lt _ (by decide)⟩, ⟨w.val / 2, by have := w.isLt; show w.val / 2 < 16; omega⟩)
  left_inv p := by
    have h1 : p.1.val < 2 := p.1.isLt
    have h2 : p.2.val < 16 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

/-- The 16384 rows: slot u of trip k of task (c, i) writes row 512 (2 i + c) + 8 k + u. -/
def rowEquiv : (Fin ((K (F := F)).nCore 0) × Fin ((K (F := F)).nSub 0)) × (Fin k0_t1_loop.trips × Fin 8) ≃ Fin 16384 where
  toFun p := rowIx (LL (F := F) p.1.1 p.1.2) p.2.1 p.2.2
  invFun b := ((⟨b.val / 512 % 2, Nat.mod_lt _ (by decide)⟩, ⟨b.val / 512 / 2, by have := b.isLt; show b.val / 512 / 2 < 16; omega⟩),
    (⟨b.val % 512 / 8, by rw [trips_eq]; omega⟩, ⟨b.val % 8, Nat.mod_lt _ (by decide)⟩))
  left_inv p := by
    have h1 : p.1.1.val < 2 := p.1.1.isLt
    have h2 : p.1.2.val < 16 := p.1.2.isLt
    have h3 : p.2.1.val < 64 := trips_eq ▸ p.2.1.isLt
    have h4 : p.2.2.val < 8 := p.2.2.isLt
    refine Prod.ext (Prod.ext (Fin.ext ?_) (Fin.ext ?_)) (Prod.ext (Fin.ext ?_) (Fin.ext ?_))
    · show (512 * (2 * p.1.2.val + p.1.1.val) + 8 * p.2.1.val + p.2.2.val) / 512 % 2 = p.1.1.val; omega
    · show (512 * (2 * p.1.2.val + p.1.1.val) + 8 * p.2.1.val + p.2.2.val) / 512 / 2 = p.1.2.val; omega
    · show (512 * (2 * p.1.2.val + p.1.1.val) + 8 * p.2.1.val + p.2.2.val) % 512 / 8 = p.2.1.val; omega
    · show (512 * (2 * p.1.2.val + p.1.1.val) + 8 * p.2.1.val + p.2.2.val) % 8 = p.2.2.val; omega
  right_inv b := by
    refine Fin.ext ?_
    show 512 * (2 * (b.val / 512 / 2) + b.val / 512 % 2) + 8 * (b.val % 512 / 8) + b.val % 8 = b.val; omega

/-- A family over the 32 task numbers, by SparseCore and vector subcore. -/
theorem bigSep_tasks (Ψ : Fin 32 → sProp 𝕄) :
    bigSep Finset.univ Ψ = bigSep Finset.univ fun c : Fin ((K (F := F)).nCore 0) => bigSep Finset.univ fun i : Fin ((K (F := F)).nSub 0) =>
      Ψ ⟨wid (LL (F := F) c i), wid_lt _⟩ := by
  rw [bigSep_univ_equiv (taskEquiv (F := F)) Ψ, bigSep_univ_prod]; rfl

/-- A family over the 16384 rows, by SparseCore, vector subcore, trip and slot. -/
theorem bigSep_rows (Ψ : Fin 16384 → sProp 𝕄) :
    bigSep Finset.univ Ψ = bigSep Finset.univ fun c : Fin ((K (F := F)).nCore 0) => bigSep Finset.univ fun i : Fin ((K (F := F)).nSub 0) =>
      bigSep Finset.univ fun k : Fin k0_t1_loop.trips => bigSep Finset.univ fun u : Fin 8 => Ψ (rowIx (LL (F := F) c i) k u) := by
  rw [bigSep_univ_equiv (rowEquiv (F := F)) Ψ, bigSep_univ_prod, bigSep_univ_prod]
  refine bigSep_congr fun c _ => bigSep_congr fun i _ => ?_
  rw [bigSep_univ_prod]; rfl

/-! ## The chunks of the list and the rows of the intermediate array are the parts of a cut along axis 0 -/

theorem hdivI : 32 ∣ S917504.size 0 := ⟨28672, rfl⟩
theorem hdivO : 16384 ∣ S16384x56x128.size 0 := ⟨1, rfl⟩

abbrev chunkR (w : Fin 32) : Rect S917504 := Rect.part (s := S917504) (a₀ := 0) hdivI w
abbrev rowR (b : Fin 16384) : Rect S16384x56x128 := Rect.part (s := S16384x56x128) (a₀ := 0) hdivO b

theorem chunk_rect (L : grid0.Coords) :
    Rect.unit (s := S917504) (k0_off1 L) S28672.size (k0_off1_inb L) = chunkR ⟨wid L, wid_lt L⟩ := by
  unfold chunkR Rect.part Rect.block
  congr 1 <;> funext a
  · rw [k0_off1_eq]
    match a with
    | ⟨0, _⟩ => simp [Shape.partIx, Shape.partSize, wid]; omega
  · match a with
    | ⟨0, _⟩ => simp [Shape.partSize]

theorem row_rect (L : grid0.Coords) (k : Fin k0_t1_loop.trips) (u : Fin 8) :
    Rect.unit (s := S16384x56x128) (k0_off11 L k (BitVec.ofNat 32 u.val)) S1x56x128.size (k0_off11_inb L k u) = rowR (rowIx L k u) := by
  unfold rowR Rect.part Rect.block
  congr 1 <;> funext a
  · rw [k0_off11_eq]
    match a with
    | ⟨0, _⟩ => simp [Shape.partIx, Shape.partSize, rowIx, wid]; omega
    | ⟨1, _⟩ => simp [Shape.partIx, Shape.partSize]
    | ⟨2, _⟩ => simp [Shape.partIx, Shape.partSize]
  · match a with
    | ⟨0, _⟩ => simp [Shape.partSize]
    | ⟨1, _⟩ => simp [Shape.partSize]
    | ⟨2, _⟩ => simp [Shape.partSize]

theorem set_iChunk (L : grid0.Coords) : (iChunk L).view.set = (chunkR ⟨wid L, wid_lt L⟩).set := by
  show ((View.whole (main_v1_scv : Ref sig .scVector)).slice (Rect.unit (s := S917504) (k0_off1 L) S28672.size (k0_off1_inb L))).set = _
  rw [View.set_slice, chunk_rect]; exact Finset.map_refl

theorem set_rowM (L : grid0.Coords) (k : Fin k0_t1_loop.trips) (u : Fin 8) : (rowM L k u).view.set = (rowR (rowIx L k u)).set := by
  refine Eq.trans ?_ (show ((View.whole (main_v3_scv : Ref sig .scVector)).slice (rowR (rowIx L k u))).set = (rowR (rowIx L k u)).set from by
    rw [View.set_slice]; exact Finset.map_refl)
  show (((View.whole (main_v3_scv : Ref sig .scVector)).slice
      (Rect.unit (s := S16384x56x128) (k0_off11 L k (BitVec.ofNat 32 u.val)) S1x56x128.size (k0_off11_inb L k u))).reshape S56x128 squeezes_S1x56x128_S56x128.numel_eq).set
    = ((View.whole (main_v3_scv : Ref sig .scVector)).slice (rowR (rowIx L k u))).set
  rw [View.set_reshape]
  exact row_rect L k u ▸ rfl

theorem chunks_disjoint : ∀ w ∈ (Finset.univ : Finset (Fin 32)), ∀ w' ∈ (Finset.univ : Finset (Fin 32)), w ≠ w' → Disjoint (chunkR w).set (chunkR w').set :=
  fun _ _ _ _ h => Rect.part_disjoint hdivI h
theorem chunks_cover : (Finset.univ : Finset (Fin 32)).biUnion (fun w => (chunkR w).set) = Finset.univ := Rect.biUnion_part hdivI
theorem rows_disjoint : ∀ b ∈ (Finset.univ : Finset (Fin 16384)), ∀ b' ∈ (Finset.univ : Finset (Fin 16384)), b ≠ b' → Disjoint (rowR b).set (rowR b').set :=
  fun _ _ _ _ h => Rect.part_disjoint hdivO h
theorem rows_cover : (Finset.univ : Finset (Fin 16384)).biUnion (fun b => (rowR b).set) = Finset.univ := Rect.biUnion_part hdivO

/-- Entry (h, l) of row b lies in the b-th part. -/
theorem mem_rowR (b : Fin 16384) (h : Fin 56) (l : Fin 128) : ValueIdx.ix3 b h l ∈ (rowR b).set := by
  refine Rect.mem_set_unit.mpr fun a => ?_
  match a with
  | ⟨0, _⟩ => simp [Shape.partIx, Shape.partSize]
  | ⟨1, _⟩ => simp [Shape.partIx, Shape.partSize]
  | ⟨2, _⟩ => simp [Shape.partIx, Shape.partSize]

/-! ## The three arrays, apart -/

section Split

variable (d : Dev nD)

/-- The flattened list whole is the 32 tasks' chunks. -/
theorem iPts_chunks (f : Buf (Elt F) (iLoc d)) :
    (iLoc d ↦{fullShare} f : sProp 𝕄) = bigSep Finset.univ fun c : Fin ((K (F := F)).nCore 0) => bigSep Finset.univ fun i : Fin ((K (F := F)).nSub 0) =>
      iLoc d ↦[(iChunk (LL (F := F) c i)).view.set]{fullShare} f := by
  rw [show (iLoc d ↦{fullShare} f : sProp 𝕄) = bigSep Finset.univ fun w : Fin 32 => iLoc d ↦[(chunkR w).set]{fullShare} f from by
      rw [← pointsTo_biUnion Finset.univ (ℓ := iLoc d) (fun w : Fin 32 => (chunkR w).set) chunks_disjoint, chunks_cover]; try rfl,
    bigSep_tasks (F := F)]
  refine bigSep_congr fun c _ => bigSep_congr fun i _ => ?_
  rw [set_iChunk]

/-- The intermediate array whole is its 16384 rows, by task, trip and slot. -/
theorem oPts_rows (f : Buf (Elt F) (oLoc d)) :
    (oLoc d ↦{fullShare} f : sProp 𝕄) = bigSep Finset.univ fun c : Fin ((K (F := F)).nCore 0) => bigSep Finset.univ fun i : Fin ((K (F := F)).nSub 0) =>
      bigSep Finset.univ fun k : Fin k0_t1_loop.trips => bigSep Finset.univ fun u : Fin 8 =>
        oLoc d ↦[(rowM (LL (F := F) c i) k u).view.set]{fullShare} f := by
  rw [show (oLoc d ↦{fullShare} f : sProp 𝕄) = bigSep Finset.univ fun b : Fin 16384 => oLoc d ↦[(rowR b).set]{fullShare} f from by
      rw [← pointsTo_biUnion Finset.univ (ℓ := oLoc d) (fun b : Fin 16384 => (rowR b).set) rows_disjoint, rows_cover]; try rfl,
    bigSep_rows (F := F)]
  refine bigSep_congr fun c _ => bigSep_congr fun i _ => bigSep_congr fun k _ => bigSep_congr fun u _ => ?_
  rw [set_rowM]

/-- The padded table whole is a remainder and the 32 tasks' read tokens; -/
theorem pPts_toks (f : Buf (Elt F) (pLoc d)) :
    (pLoc d ↦{fullShare} f : sProp 𝕄) ⊢ iprop((pLoc d ↦{Transfers.shareDrop fullShare 32} f)
      ∗ bigSep Finset.univ fun c : Fin ((K (F := F)).nCore 0) => bigSep Finset.univ fun i : Fin ((K (F := F)).nSub 0) => pLoc d ↦{tq (LL (F := F) c i)} f) := by
  refine (Transfers.pointsTo_toks_split (ℓ := pLoc d) (S := Finset.univ) (f := f) fullShare 32).trans (Entails.of_eq ?_)
  rw [bigSep_tasks (F := F)]; rfl

/-- and back. -/
theorem pPts_join (f : Buf (Elt F) (pLoc d)) :
    iprop((pLoc d ↦{Transfers.shareDrop fullShare 32} f)
      ∗ bigSep Finset.univ fun c : Fin ((K (F := F)).nCore 0) => bigSep Finset.univ fun i : Fin ((K (F := F)).nSub 0) => pLoc d ↦{tq (LL (F := F) c i)} f)
      ⊢ (pLoc d ↦{fullShare} f : sProp 𝕄) := by
  refine (Entails.of_eq ?_).trans (Transfers.pointsTo_toks_join (ℓ := pLoc d) (S := Finset.univ) (f := f) fullShare 32)
  rw [bigSep_tasks (F := F)]; rfl

end Split

/-! ## The rows' contents, joined -/

section Join

variable (m : (ℓ : Loc nD τ sig) → Buf (Elt F) ℓ) [FloatOps F] (d : Dev nD)

/-- What the tasks hand back of the intermediate array — each row at contents of its own — is one contents of the whole
    array, every row of which is right: the row's condition reads the contents on that row only. -/
theorem rowsOut_join :
    (bigSep Finset.univ fun c : Fin ((K (F := F)).nCore 0) => bigSep Finset.univ fun i : Fin ((K (F := F)).nSub 0) =>
      bigSep Finset.univ fun k : Fin k0_t1_loop.trips => bigSep Finset.univ fun u : Fin 8 => RowOut m d (LL (F := F) c i) k u)
    ⊢ (iprop(∃ g : Buf (Elt F) (oLoc d), (oLoc d ↦{fullShare} g) ∗ ⌜∀ b : Fin 16384, Cert.Spec.RowOK (Iarr m d) (Parr m d) g b⌝) : sProp 𝕄) := by
  have e : (bigSep Finset.univ fun c : Fin ((K (F := F)).nCore 0) => bigSep Finset.univ fun i : Fin ((K (F := F)).nSub 0) =>
      bigSep Finset.univ fun k : Fin k0_t1_loop.trips => bigSep Finset.univ fun u : Fin 8 => RowOut m d (LL (F := F) c i) k u)
      = bigSep Finset.univ fun b : Fin 16384 => (iprop(∃ f : Buf (Elt F) (oLoc d), (oLoc d ↦[(rowR b).set]{fullShare} f)
          ∗ ⌜Cert.Spec.RowOK (Iarr m d) (Parr m d) f b⌝) : sProp 𝕄) := by
    rw [bigSep_rows (F := F)]
    refine bigSep_congr fun c _ => bigSep_congr fun i _ => bigSep_congr fun k _ => bigSep_congr fun u _ => ?_
    unfold RowOut; rw [set_rowM]
  have hswap : ∀ b : Fin 16384, (iprop(∃ f : Buf (Elt F) (oLoc d), (oLoc d ↦[(rowR b).set]{fullShare} f)
        ∗ ⌜Cert.Spec.RowOK (Iarr m d) (Parr m d) f b⌝) : sProp 𝕄)
      ⊢ iprop(∃ f : Buf (Elt F) (oLoc d), ⌜Cert.Spec.RowOK (Iarr m d) (Parr m d) f b⌝ ∗ (oLoc d ↦[(rowR b).set]{fullShare} f)) := by
    intro b
    iintro ⟨%f, Hp, %hf⟩
    iexists f
    isplitr
    · ipureintro; exact hf
    · iexact Hp
  refine (Entails.of_eq e).trans ((bigSep_mono fun b _ => hswap b).trans
    ((bigSep_exists_pi Finset.univ (fun (b : Fin 16384) (f : Buf (Elt F) (oLoc d)) =>
      (iprop(⌜Cert.Spec.RowOK (Iarr m d) (Parr m d) f b⌝ ∗ (oLoc d ↦[(rowR b).set]{fullShare} f)) : sProp 𝕄))).trans ?_))
  iintro ⟨%fs, H⟩
  ihave H' := (bigSep_pure_sep Finset.univ (fun b : Fin 16384 => Cert.Spec.RowOK (Iarr m d) (Parr m d) (fs b) b)
    (fun b : Fin 16384 => (oLoc d ↦[(rowR b).set]{fullShare} fs b : sProp 𝕄))) $$ H
  icases H' with ⟨%hφ, Hp⟩
  ihave Hj := (pointsTo_biUnion_join Finset.univ (fun b : Fin 16384 => (rowR b).set) fs (fs 0) rows_disjoint) $$ Hp
  icases Hj with ⟨%g, %hg, Hg⟩
  rw [rows_cover]
  iexists g
  isplitl [Hg]; · iexact Hg
  ipureintro
  intro b h l hh hI
  rw [hg b (Finset.mem_univ b) (ValueIdx.ix3 b h l) (mem_rowR b h l)]
  exact hφ b (Finset.mem_univ b) h l hh hI

end Join

/-! ## What the call takes for the two SparseCores, and what it hands back -/

section Call

variable (m : (ℓ : Loc nD τ sig) → Buf (Elt F) ℓ) [FloatOps F] (d : Dev nD)

/-- The payloads of the one call, as equations. -/
theorem P_st (c : Fin ((K (F := F)).nCore 0)) :
    (P m).st 0 d c = bigSep Finset.univ fun i : Fin ((K (F := F)).nSub 0) => TileIn m d (LL (F := F) c i) := by unfold P; dsimp only
theorem P_dn (c : Fin ((K (F := F)).nCore 0)) :
    (P m).dn 0 d c = bigSep Finset.univ fun i : Fin ((K (F := F)).nSub 0) => TileOut m d (LL (F := F) c i) := by unfold P; dsimp only
theorem P_go (c : Fin ((K (F := F)).nCore 0)) (i : Fin ((K (F := F)).nSub 0)) : (P m).go 0 d c i = TileIn m d (LL (F := F) c i) := by unfold P; dsimp only
theorem P_td (c : Fin ((K (F := F)).nCore 0)) (i : Fin ((K (F := F)).nSub 0)) : (P m).td 0 d c i = TileOut m d (LL (F := F) c i) := by unfold P; dsimp only

theorem st0_eq : (bigSep Finset.univ fun c : Fin ((K (F := F)).nCore 0) => (P m).st 0 d c)
    = iprop((bigSep Finset.univ fun c : Fin ((K (F := F)).nCore 0) => bigSep Finset.univ fun i : Fin ((K (F := F)).nSub 0) => TileTok m d (LL (F := F) c i))
      ∗ (bigSep Finset.univ fun c : Fin ((K (F := F)).nCore 0) => bigSep Finset.univ fun i : Fin ((K (F := F)).nSub 0) => TileIdx m d (LL (F := F) c i))
      ∗ bigSep Finset.univ fun c : Fin ((K (F := F)).nCore 0) => bigSep Finset.univ fun i : Fin ((K (F := F)).nSub 0) =>
          bigSep Finset.univ fun k : Fin k0_t1_loop.trips => bigSep Finset.univ fun u : Fin 8 => RowIn m d (LL (F := F) c i) k u) := by
  rw [bigSep_congr fun c _ => P_st m d c]
  unfold TileIn
  simp only [bigSep_sep']

theorem dn0_eq : (bigSep Finset.univ fun c : Fin ((K (F := F)).nCore 0) => (P m).dn 0 d c)
    = iprop((bigSep Finset.univ fun c : Fin ((K (F := F)).nCore 0) => bigSep Finset.univ fun i : Fin ((K (F := F)).nSub 0) => TileTok m d (LL (F := F) c i))
      ∗ (bigSep Finset.univ fun c : Fin ((K (F := F)).nCore 0) => bigSep Finset.univ fun i : Fin ((K (F := F)).nSub 0) => TileIdx m d (LL (F := F) c i))
      ∗ bigSep Finset.univ fun c : Fin ((K (F := F)).nCore 0) => bigSep Finset.univ fun i : Fin ((K (F := F)).nSub 0) =>
          bigSep Finset.univ fun k : Fin k0_t1_loop.trips => bigSep Finset.univ fun u : Fin 8 => RowOut m d (LL (F := F) c i) k u) := by
  rw [bigSep_congr fun c _ => P_dn m d c]
  unfold TileOut
  simp only [bigSep_sep']

/-- From the three arrays whole — the padded table, the flattened list, the intermediate array at its launch contents —
    what the call takes, and the table's remainder kept aside; -/
theorem st0_intro :
    iprop((pLoc d ↦{fullShare} Parr m d) ∗ (iLoc d ↦{fullShare} Iarr m d) ∗ (oLoc d ↦{fullShare} m (oLoc d)))
      ⊢ iprop((pLoc d ↦{Transfers.shareDrop fullShare 32} Parr m d) ∗ bigSep Finset.univ fun c : Fin ((K (F := F)).nCore 0) => (P m).st 0 d c) := by
  rw [st0_eq, iPts_chunks, oPts_rows]
  unfold TileTok TileIdx RowIn
  iintro ⟨Hp, Hi, Ho⟩
  ihave Hp' := (pPts_toks (F := F) d (Parr m d)) $$ Hp
  icases Hp' with ⟨Hrem, Htok⟩
  isplitl [Hrem]; · iexact Hrem
  isplitl [Htok]; · iexact Htok
  isplitl [Hi]; · iexact Hi
  iexact Ho

/-- and from what it hands back, with the remainder, the three arrays whole again: the intermediate array at one
    contents every row of which is right. -/
theorem dn0_elim :
    iprop((pLoc d ↦{Transfers.shareDrop fullShare 32} Parr m d) ∗ bigSep Finset.univ fun c : Fin ((K (F := F)).nCore 0) => (P m).dn 0 d c)
      ⊢ iprop((pLoc d ↦{fullShare} Parr m d) ∗ (iLoc d ↦{fullShare} Iarr m d)
          ∗ ∃ g : Buf (Elt F) (oLoc d), (oLoc d ↦{fullShare} g) ∗ ⌜∀ b : Fin 16384, Cert.Spec.RowOK (Iarr m d) (Parr m d) g b⌝) := by
  rw [dn0_eq, iPts_chunks]
  unfold TileTok TileIdx
  iintro ⟨Hrem, Htok, Hi, Ho⟩
  isplitl [Hrem Htok]
  · iapply (pPts_join (F := F) d (Parr m d))
    isplitl [Hrem]; · iexact Hrem
    iexact Htok
  isplitl [Hi]; · iexact Hi
  iapply (rowsOut_join m d); iexact Ho

end Call

end Cert.Proof.KI

end
-- ==== Proof.KILaunch.lean ====
/-
  The launch side of the program's run: the launch theorem (Lib/SparseCore/Launch.lean, Cfg.θ_run_sc) at the one
  vector-subcore call over two SparseCores of sixteen tasks, the task's body taken as a hypothesis. @main on the
  TensorCore: seven host operations build the flattened padded index list and the padded table; the call takes the
  table as 32 read tokens, the list as 32 chunks and the intermediate array as 16384 rows, and hands them back, every
  row right; the final slice is then the lookup.
-/
import proofs.«206314_g14001593385621_cont_week2b_782_31_alg».proof.Proof.KIPay
import proofs.«206314_g14001593385621_cont_week2b_782_31_alg».proof.Proof.KISplit
import proofs.«206314_g14001593385621_cont_week2b_782_31_alg».proof.Proof.HostVals
import Idealize.ShloMosaic.Lib.SparseCore.Launch
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The payloads travel inside the handshakes' invariants -/

instance TileIn_storable (d : Dev nD) (L : grid0.Coords) : BI.Storable (upEmb : UEmb _ 𝕄) (TileIn m d L) := by
  unfold TileIn TileTok TileIdx RowIn; infer_instance
instance TileOut_storable (d : Dev nD) (L : grid0.Coords) : BI.Storable (upEmb : UEmb _ 𝕄) (TileOut m d L) := by
  unfold TileOut TileTok TileIdx RowOut; infer_instance

instance P_storable : (P (F := F) m).IsStorable where
  st q d c := match q with | 0 => by rw [P_st]; infer_instance
  dn q d c := match q with | 0 => by rw [P_dn]; infer_instance
  go q d c i := match q with | 0 => by rw [P_go]; infer_instance
  td q d c i := match q with | 0 => by rw [P_td]; infer_instance

/-! ## A SparseCore's operands are its sixteen tasks', already apart -/

theorem vecSplit : (K (F := F)).VecSplit' (P m) 0 := by
  intro d c
  rw [P_st, P_dn, bigSep_congr fun i _ => P_go m d c i, bigSep_congr fun i _ => P_td m d c i]
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem P_x (q : Fin 1) (thr : Thread nD τ) : (P m).x q thr = (iprop(emp) : sProp 𝕄) := by unfold P; dsimp only

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  rw [show (bigSep Finset.univ fun thr : Thread nD τ => bigSep Finset.univ fun q : Fin 1 => (P m).x q thr) = (iprop(emp) : sProp 𝕄) from by
    rw [bigSep_congr fun thr _ => (bigSep_congr fun q _ => P_x m q thr).trans (bigSep_emp' _), bigSep_emp']]
  unfold u₀
  iintro Hu
  ihave H := (ownU_pair _ _) $$ Hu
  icases H with ⟨HH, -⟩
  imodintro
  isplitl [HH]; · iexact HH
  isplitr; · rw [bigSep_emp']; iempintro
  iempintro

/-! ## @main on the TensorCore -/

abbrev x' : DevRef τ sig := Proc.devRef .tc (main_arg0 : Ref sig .tc)
abbrev t' : DevRef τ sig := Proc.devRef .tc (main_arg1 : Ref sig .tc)
abbrev c' : DevRef τ sig := Proc.devRef .tc (main_c : Ref sig .tc)
abbrev a' : DevRef τ sig := Proc.devRef .tc (main_call0_v0 : Ref sig .tc)
abbrev w' : DevRef τ sig := Proc.devRef .tc (main_v0 : Ref sig .tc)
abbrev i' : DevRef τ sig := Proc.devRef .tc (main_v1 : Ref sig .tc)
abbrev z' : DevRef τ sig := Proc.devRef .tc (main_c_0 : Ref sig .tc)
abbrev b' : DevRef τ sig := Proc.devRef .tc (main_call1_v0 : Ref sig .tc)
abbrev p' : DevRef τ sig := Proc.devRef .tc (main_v2 : Ref sig .tc)
abbrev o' : DevRef τ sig := Proc.devRef .tc (main_v3 : Ref sig .tc)
abbrev r' : DevRef τ sig := Proc.devRef .tc (main_v4 : Ref sig .tc)

/-- The eight host operations, as @main and the two padding functions spell them. -/
abbrev op1 : HloOp τ sig (Elt F) := StableHlo.nullary main_c (constantI S_ 32 0#32)
abbrev op2 : HloOp τ sig (Elt F) :=
  StableHlo.TRef.unary (StableHlo.TRef.of main_c : StableHlo.TRef sig ⟨S_, .i32⟩) (StableHlo.TRef.of main_call0_v0 : StableHlo.TRef sig ⟨S_, .i32⟩) id
abbrev op3 : HloOp τ sig (Elt F) :=
  StableHlo.TRef.binary (StableHlo.TRef.of main_arg0 : StableHlo.TRef sig ⟨S16384x50, .i32⟩) (StableHlo.TRef.of main_call0_v0 : StableHlo.TRef sig ⟨S_, .i32⟩)
    (StableHlo.TRef.of main_v0 : StableHlo.TRef sig ⟨S16384x56, .i32⟩)
    (fun x v => pad S16384x56 ![0, 0] ![0, 6] ![0, 0] x v pads_S16384x50_S16384x56_000_060 h_S_)
abbrev op4 : HloOp τ sig (Elt F) := StableHlo.reshape main_v0 main_v1 rfl shapeCasts_S16384x56_S917504
abbrev op5 : HloOp τ sig (Elt F) := StableHlo.nullary main_c_0 (constantI S_ 32 0#32)
abbrev op6 : HloOp τ sig (Elt F) :=
  StableHlo.TRef.unary (StableHlo.TRef.of main_c_0 : StableHlo.TRef sig ⟨S_, .i32⟩) (StableHlo.TRef.of main_call1_v0 : StableHlo.TRef sig ⟨S_, .f32⟩) (sitofp .f32)
abbrev op7 : HloOp τ sig (Elt F) :=
  StableHlo.TRef.binary (StableHlo.TRef.of main_arg1 : StableHlo.TRef sig ⟨S1000000x64, .f32⟩) (StableHlo.TRef.of main_call1_v0 : StableHlo.TRef sig ⟨S_, .f32⟩)
    (StableHlo.TRef.of main_v2 : StableHlo.TRef sig ⟨S1000000x128, .f32⟩)
    (fun x v => pad S1000000x128 ![0, 0] ![0, 64] ![0, 0] x v pads_S1000000x64_S1000000x128_000_0640 h_S_)
abbrev op8 : HloOp τ sig (Elt F) :=
  StableHlo.unary main_v3 main_v4 ((extractStridedSlice S16384x50x64 ![0, 0, 0] · slices_S16384x56x128_S16384x50x64_0_0_0) :
    (⟨S16384x56x128, .f32⟩ : BufTy).Contents (Elt F) → (⟨S16384x50x64, .f32⟩ : BufTy).Contents (Elt F))

/-- The TensorCore's eleven arrays, all unscoped. -/
abbrev S11 : Finset (DevRef τ sig) := {x', t', c', a', w', i', z', b', p', o', r'}
/-- The two the final slice touches. -/
abbrev S2 : Finset (DevRef τ sig) := {o', r'}

omit [FloatOps F] in
theorem held_S11 (d : Dev nD) (W : Valuation τ sig (Elt F)) :
    (held (T d) S11 W : sProp 𝕄)
      = iprop((xLoc d ↦{fullShare} W x') ∗ (tLoc d ↦{fullShare} W t') ∗ ((SparseCore.T d).loc main_c ↦{fullShare} W c')
          ∗ ((SparseCore.T d).loc main_call0_v0 ↦{fullShare} W a') ∗ ((SparseCore.T d).loc main_v0 ↦{fullShare} W w') ∗ (iLoc d ↦{fullShare} W i')
          ∗ ((SparseCore.T d).loc main_c_0 ↦{fullShare} W z') ∗ ((SparseCore.T d).loc main_call1_v0 ↦{fullShare} W b') ∗ (pLoc d ↦{fullShare} W p')
          ∗ (oLoc d ↦{fullShare} W o') ∗ rLoc d ↦{fullShare} W r') := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ ((SparseCore.T d).loc main_c ↦{fullShare} W main_c)
          ∗ ((SparseCore.T d).loc main_call0_v0 ↦{fullShare} W main_call0_v0) ∗ ((SparseCore.T d).loc main_v0 ↦{fullShare} W main_v0)
          ∗ (iLoc d ↦{fullShare} W main_v1) ∗ ((SparseCore.T d).loc main_c_0 ↦{fullShare} W main_c_0)
          ∗ ((SparseCore.T d).loc main_call1_v0 ↦{fullShare} W main_call1_v0) ∗ (pLoc d ↦{fullShare} W main_v2)
          ∗ (oLoc d ↦{fullShare} W main_v3) ∗ rLoc d ↦{fullShare} W main_v4) := by
  unfold unscopedBufs
  rw [show (Finset.univ.filter fun b : Ref sig .tc => ¬ b.isScoped)
      = {main_arg0, main_arg1, main_c, main_call0_v0, main_v0, main_v1, main_c_0, main_call1_v0, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation, and the valuations after each of the seven operations before the call. -/
def V0 (d : Dev nD) : Valuation τ sig (Elt F) := fun b => m (d, b)
abbrev W1 (d : Dev nD) : Valuation τ sig (Elt F) := (op1 (F := F)).result (V0 m d)
abbrev W2 (d : Dev nD) : Valuation τ sig (Elt F) := (op2 (F := F)).result (W1 m d)
abbrev W3 (d : Dev nD) : Valuation τ sig (Elt F) := (op3 (F := F)).result (W2 m d)
abbrev W4 (d : Dev nD) : Valuation τ sig (Elt F) := (op4 (F := F)).result (W3 m d)
abbrev W5 (d : Dev nD) : Valuation τ sig (Elt F) := (op5 (F := F)).result (W4 m d)
abbrev W6 (d : Dev nD) : Valuation τ sig (Elt F) := (op6 (F := F)).result (W5 m d)
abbrev W7 (d : Dev nD) : Valuation τ sig (Elt F) := (op7 (F := F)).result (W6 m d)
def V7 (d : Dev nD) : Valuation τ sig (Elt F) := StableHlo.after [op1, op2, op3, op4, op5, op6, op7] (V0 m d)

theorem W7_eq (d : Dev nD) : W7 m d = V7 m d := rfl

theorem unscoped_held (d : Dev nD) : (unscopedBufs d (fun b => m ((SparseCore.T d).loc b)) : sProp 𝕄) = held (T d) S11 (V0 m d) := by
  rw [unscopedBufs_eq, held_S11]; rfl

/-- What the arrays hold before the call: the two arguments and the intermediate array what the launch memory held, -/
theorem V7_x (d : Dev nD) : V7 m d x' = m (xLoc d) := by
  unfold V7; after_results; rfl
theorem V7_t (d : Dev nD) : V7 m d t' = m (tLoc d) := by
  unfold V7; after_results; rfl
theorem V7_o (d : Dev nD) : V7 m d o' = m (oLoc d) := by
  unfold V7; after_results; rfl
/-- the flattened padded index list, -/
theorem V7_i (d : Dev nD) : V7 m d i' = Iarr m d := by
  unfold V7 Iarr; after_results
  exact HostVals.pad_reshape_idx (m (xLoc d)) (constantI S_ 32 0#32) pads_S16384x50_S16384x56_000_060 h_S_ shapeCasts_S16384x56_S917504
/-- the padded table. -/
theorem V7_p (d : Dev nD) : V7 m d p' = Parr m d := by
  unfold V7 Parr; after_results
  exact HostVals.pad_table (m (tLoc d)) (sitofp .f32 (constantI S_ 32 0#32)) pads_S1000000x64_S1000000x128_000_0640 h_S_

theorem held_V7 (d : Dev nD) :
    (held (T d) S11 (W7 m d) : sProp 𝕄)
      = iprop((xLoc d ↦{fullShare} m (xLoc d)) ∗ (tLoc d ↦{fullShare} m (tLoc d)) ∗ ((SparseCore.T d).loc main_c ↦{fullShare} V7 m d c')
          ∗ ((SparseCore.T d).loc main_call0_v0 ↦{fullShare} V7 m d a') ∗ ((SparseCore.T d).loc main_v0 ↦{fullShare} V7 m d w') ∗ (iLoc d ↦{fullShare} Iarr m d)
          ∗ ((SparseCore.T d).loc main_c_0 ↦{fullShare} V7 m d z') ∗ ((SparseCore.T d).loc main_call1_v0 ↦{fullShare} V7 m d b') ∗ (pLoc d ↦{fullShare} Parr m d)
          ∗ (oLoc d ↦{fullShare} m (oLoc d)) ∗ rLoc d ↦{fullShare} V7 m d r') := by
  rw [W7_eq, held_S11, V7_x, V7_t, V7_i, V7_p, V7_o]

/-- After the call: the intermediate array at what the tasks left. -/
def V8 (d : Dev nD) (g : Buf (Elt F) (oLoc d)) : Valuation τ sig (Elt F) := Function.update (V7 m d) o' g
theorem V8_o (d : Dev nD) (g : Buf (Elt F) (oLoc d)) : V8 m d g o' = g := Function.update_self _ _ _
theorem V8_r (d : Dev nD) (g : Buf (Elt F) (oLoc d)) : V8 m d g r' = V7 m d r' := Function.update_of_ne (show r' ≠ o' by decide) _ _

/-- The final slice of an intermediate array whose every row is right is the lookup. -/
theorem res8_r (d : Dev nD) (g : Buf (Elt F) (oLoc d)) (hg : ∀ b : Fin 16384, Cert.Spec.RowOK (Iarr m d) (Parr m d) g b)
    (hx : Cert.Spec.InRange (m (xLoc d))) :
    (op8 (F := F)).result (V8 m d g) r' = Cert.Spec.lookup (m (xLoc d)) (m (tLoc d)) := by
  rw [StableHlo.unary_result, V8_o]
  unfold Iarr Parr at hg
  exact HostVals.slice_lookup (m (xLoc d)) (m (tLoc d)) _ hx g hg _

theorem held_V9 (d : Dev nD) (g : Buf (Elt F) (oLoc d)) (hg : ∀ b : Fin 16384, Cert.Spec.RowOK (Iarr m d) (Parr m d) g b)
    (hx : Cert.Spec.InRange (m (xLoc d))) :
    (held (T d) S2 ((op8 (F := F)).result (V8 m d g)) : sProp 𝕄)
      = iprop((oLoc d ↦{fullShare} (op8 (F := F)).result (V8 m d g) o') ∗ rLoc d ↦{fullShare} Cert.Spec.lookup (m (xLoc d)) (m (tLoc d))) := by
  rw [held_S2, res8_r m d g hg hx]

theorem h1 : (op1 (F := F)).bufs ⊆ S11 := show ({c'} : Finset (DevRef τ sig)) ⊆ S11 by decide
theorem h2 : (op2 (F := F)).bufs ⊆ S11 := show ({c', a'} : Finset (DevRef τ sig)) ⊆ S11 by decide
theorem h3 : (op3 (F := F)).bufs ⊆ S11 := show ({x', a', w'} : Finset (DevRef τ sig)) ⊆ S11 by decide
theorem h4 : (op4 (F := F)).bufs ⊆ S11 := show ({w', i'} : Finset (DevRef τ sig)) ⊆ S11 by decide
theorem h5 : (op5 (F := F)).bufs ⊆ S11 := show ({z'} : Finset (DevRef τ sig)) ⊆ S11 by decide
theorem h6 : (op6 (F := F)).bufs ⊆ S11 := show ({z', b'} : Finset (DevRef τ sig)) ⊆ S11 by decide
theorem h7 : (op7 (F := F)).bufs ⊆ S11 := show ({t', b', p'} : Finset (DevRef τ sig)) ⊆ S11 by decide
theorem h8 : (op8 (F := F)).bufs ⊆ S2 := show ({o', r'} : Finset (DevRef τ sig)) ⊆ S2 by decide

/-- What @main leaves the claim: the two arguments at their launch contents, the result the lookup. -/
def FIN (d : Dev nD) : sProp 𝕄 :=
  iprop((xLoc d ↦{fullShare} m (xLoc d)) ∗ (tLoc d ↦{fullShare} m (tLoc d)) ∗ (rLoc d ↦{fullShare} Cert.Spec.lookup (m (xLoc d)) (m (tLoc d))))

/-- @main on device d's TensorCore: the seven host operations over the eleven arrays held whole, the call from the
    table's tokens, the list's chunks and the intermediate array's rows, the final slice over the two arrays it touches;
    the two arguments kept. -/
theorem hmain (hx : ∀ d, Cert.Spec.InRange (m (xLoc d))) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, fn_pad.body, fn_pad_0.body, wp_bind, wp_pure]
  iintro ⟨#Hctx, Hst, ⟨Hb, Hheld, -, -⟩, -⟩
  -- the index matrix: constant, convert, pad, reshape
  iapply (wp_hlo_within 𝒱 (SparseCore.T d) none Set.univ (op := op1) (S := S11) h1 (V := V0 m d)) $$ [Hb Hheld]
  · isplitl [Hb] <;> iassumption
  iintro ⟨Hb, Hheld⟩
  rw [wp_ret]; imodintro
  iapply (wp_hlo_within 𝒱 (SparseCore.T d) none Set.univ (op := op2) (S := S11) h2 (V := W1 m d)) $$ [Hb Hheld]
  · isplitl [Hb] <;> iassumption
  iintro ⟨Hb, Hheld⟩
  rw [wp_ret]; imodintro
  iapply (wp_hlo_within 𝒱 (SparseCore.T d) none Set.univ (op := op3) (S := S11) h3 (V := W2 m d)) $$ [Hb Hheld]
  · isplitl [Hb] <;> iassumption
  iintro ⟨Hb, Hheld⟩
  rw [wp_ret]; imodintro; imodintro
  iapply (wp_hlo_within 𝒱 (SparseCore.T d) none Set.univ (op := op4) (S := S11) h4 (V := W3 m d)) $$ [Hb Hheld]
  · isplitl [Hb] <;> iassumption
  iintro ⟨Hb, Hheld⟩
  rw [wp_ret]; imodintro
  -- the table: constant, convert, pad
  iapply (wp_hlo_within 𝒱 (SparseCore.T d) none Set.univ (op := op5) (S := S11) h5 (V := W4 m d)) $$ [Hb Hheld]
  · isplitl [Hb] <;> iassumption
  iintro ⟨Hb, Hheld⟩
  rw [wp_ret]; imodintro
  iapply (wp_hlo_within 𝒱 (SparseCore.T d) none Set.univ (op := op6) (S := S11) h6 (V := W5 m d)) $$ [Hb Hheld]
  · isplitl [Hb] <;> iassumption
  iintro ⟨Hb, Hheld⟩
  rw [wp_ret]; imodintro
  iapply (wp_hlo_within 𝒱 (SparseCore.T d) none Set.univ (op := op7) (S := S11) h7 (V := W6 m d)) $$ [Hb Hheld]
  · isplitl [Hb] <;> iassumption
  iintro ⟨Hb, Hheld⟩
  rw [wp_ret]; imodintro; imodintro
  -- the call
  ihave Hh := (Entails.of_eq (held_V7 (F := F) m d)) $$ Hheld
  icases Hh with ⟨Hx, Ht, -, -, -, Hi, -, -, Hp, Ho, Hr⟩
  ihave Hs := (st0_intro m d) $$ [Hp Hi Ho]
  · isplitl [Hp]; · iexact Hp
    isplitl [Hi]; · iexact Hi
    iexact Ho
  icases Hs with ⟨Hrem, Hst0⟩
  iapply ((K (F := F)).wp_run (D (F := F)) 𝒱 (EH := EH) (P := P m) κ d 0) $$ [Hst Hst0 Hb Hx Ht Hr Hrem]
  isplitr; · iexact Hctx
  isplitl [Hst]; · iexact Hst
  isplitl [Hst0]; · iexact Hst0
  iintro ⟨Hst, Hdn⟩
  ihave Hd := (dn0_elim m d) $$ [Hrem Hdn]
  · isplitl [Hrem]; · iexact Hrem
    iexact Hdn
  icases Hd with ⟨-, -, %g, Ho, %hg⟩
  -- the slice
  iapply (wp_hlo_within 𝒱 (SparseCore.T d) none Set.univ (op := op8) (S := S2) h8 (V := V8 m d g)) $$ [Hb Ho Hr]
  · isplitl [Hb]; · iexact Hb
    rw [held_S2, V8_o, V8_r]
    isplitl [Ho]; · iexact Ho
    iexact Hr
  iintro ⟨Hb, Hheld⟩
  ihave Hh := (Entails.of_eq (held_V9 (F := F) m d g hg (hx d))) $$ Hheld
  icases Hh with ⟨-, Hr⟩
  rw [wp_ret]; imodintro; imodintro
  isplitl [Hst]; · iexact Hst
  unfold FIN
  isplitl [Hx]; · iexact Hx
  isplitl [Ht]; · iexact Ht
  iexact Hr

def fq (d : Dev nD) (s' : Phys nD τ sig (Elt F)) : Prop :=
  s'.mem.mem (rLoc d) = Cert.Spec.lookup (m (xLoc d)) (m (tLoc d)) ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  unfold FIN
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := Cert.Spec.lookup (m (xLoc d)) (m (tLoc d)))) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r =>
  ∀ c : Dev nD, r.2.mem (rLoc c) = Cert.Spec.lookup (m (xLoc c)) (m (tLoc c)) ∧ r.2.mem (xLoc c) = m (xLoc c) ∧ r.2.mem (tLoc c) = m (tLoc c)

/-- Every weakly fair execution of the device's threads from the launch memory terminates, with the result array the
    lookup and the two arguments unchanged, given the task's body. -/
theorem run_main [∀ e, Nonempty (Elt F e)] (hx : ∀ d, Cert.Spec.InRange (m (xLoc d)))
    (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ hx) (fq m) (hfin m) (QC m) (fun _ h => h)

end Cert.Proof.KI

end
-- ==== Proof.lean ====
/-
  The certificate's five claims for the embedding lookup on the SparseCore.

  Both programs compute `out (b, h, l) = table (x (b, h), l)` (`Cert.Spec.lookup`). The reference does it on the
  host: negative indices wrapped, out-of-range ones masked to a filler, a gather; under the precondition every index
  is in `[0, 999999]`, so nothing wraps and nothing is masked. The kernel pads the index matrix to 56 columns and
  flattens it, pads the table to 128 columns, and runs 32 tasks, each owning 512 rows of an intermediate array
  `[16384, 56, 128]`: a task fetches its 28672 list words, then 64 times gathers eight rows' 50 table rows into eight
  slots of its scratch and writes the slots back whole, one semaphore per slot and per direction, a slot's write-back
  waited for before the slot is gathered into again; the last eight write-backs are waited for at the end. Row `b`
  of the intermediate array then holds at `(h, l)`, `h < 50`, the padded table's entry `(x (b, h), l)`, and the final
  slice keeps `h < 50`, `l < 64`. Pure data movement: the same function at every float instance, so one run
  (arguments unchanged, the result the lookup) serves the word-level frame, the idealized frame and the algebraic
  claim; the ideal pass rewrote nothing, so `preserves` asks nothing.
-/
import proofs.«206314_g14001593385621_cont_week2b_782_31_alg».proof.Defs
import proofs.«206314_g14001593385621_cont_week2b_782_31_alg».proof.Proof.Gen.Kernel
import proofs.«206314_g14001593385621_cont_week2b_782_31_alg».proof.Proof.Gen.KernelIdeal
import proofs.«206314_g14001593385621_cont_week2b_782_31_alg».proof.Proof.Gen.ReferenceIdeal
import proofs.«206314_g14001593385621_cont_week2b_782_31_alg».proof.Proof.Gen.Pre_input_domain
import proofs.«206314_g14001593385621_cont_week2b_782_31_alg».proof.Proof.PreDecode
import proofs.«206314_g14001593385621_cont_week2b_782_31_alg».proof.Proof.HostVals
import proofs.«206314_g14001593385621_cont_week2b_782_31_alg».proof.Proof.RefRun
import proofs.«206314_g14001593385621_cont_week2b_782_31_alg».proof.Proof.KTile
import proofs.«206314_g14001593385621_cont_week2b_782_31_alg».proof.Proof.KLaunch
import proofs.«206314_g14001593385621_cont_week2b_782_31_alg».proof.Proof.KITile
import proofs.«206314_g14001593385621_cont_week2b_782_31_alg».proof.Proof.KILaunch
import Idealize.ShloMosaic.Adequacy
import Idealize.ShloMosaic.Init

noncomputable section

namespace Cert.Proof

open Idealize.ShloMosaic Idealize.SL.Sem

/-- The kernel as printed: it runs, and its arguments end unchanged (its run with the result dropped). -/
theorem frame_k : Cert.frame_Kernel := fun m ρ hpre =>
  have hx : ∀ d, Cert.Spec.InRange (m (K.xLoc d)) := fun d => PreDecode.inRange_of_pre _ _ (hpre d)
  (θ_run Cert.Kernel.defs _ _).mono (fun _ h c => ⟨(h c).2.1, (h c).2.2⟩)
    (K.run_main (F := Bits) m ρ hx (K.tileObl m K.facts fun d => HostVals.idxFlat_inRange _ (hx d)))

/-- The idealized kernel: the same. -/
theorem frame_ki : Cert.frame_KernelIdeal := fun m ρ hpre =>
  have hx : ∀ d, Cert.Spec.InRange (m (KI.xLoc d)) := fun d => PreDecode.inRange_of_pre _ _ (hpre d)
  (θ_run Cert.KernelIdeal.defs _ _).mono (fun _ h c => ⟨(h c).2.1, (h c).2.2⟩)
    (KI.run_main (F := Ideal) m ρ hx (KI.tileObl m KI.facts fun d => HostVals.idxFlat_inRange _ (hx d)))

/-- The reference: its run with the result dropped. -/
theorem frame_ri : Cert.frame_ReferenceIdeal := fun m ρ hpre =>
  (θ_run Cert.ReferenceIdeal.defs _ _).mono (fun _ h c => ⟨(h c).2.1, (h c).2.2⟩)
    (RefRun.run m ρ fun c => PreDecode.inRange_of_pre _ _ (hpre c))

/-- Both idealized programs end at the lookup of the (agreeing) arguments. -/
theorem algebraic : Cert.algebraic_KernelIdeal_ReferenceIdeal := by
  intro m ρ m' ρ' hpre hagree
  have hx : ∀ d, Cert.Spec.InRange (m (KI.xLoc d)) := fun d => PreDecode.inRange_of_pre _ _ (hpre d)
  refine ⟨fun c => Cert.Spec.lookup (F := Ideal) (m (KI.xLoc c)) (m (KI.tLoc c)),
    (θ_run Cert.KernelIdeal.defs _ _).mono (fun _ h c => h c)
      (KI.run_main (F := Ideal) m ρ hx (KI.tileObl m KI.facts fun d => HostVals.idxFlat_inRange _ (hx d))), ?_⟩
  refine (θ_run Cert.ReferenceIdeal.defs _ _).mono (fun _ h c => ⟨?_, (h c).2.1, (h c).2.2⟩)
    (RefRun.run m' ρ' fun c => by rw [(hagree c).1]; exact hx c)
  rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
